-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S128x128 : Shape := ⟨2, ![128, 128]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S4096x128 .f32) (main_arg1 : FVec F S128x128 .f32) (main_arg2 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S4096x128 : Shape := ⟨2, ![4096, 128]⟩
abbrev S128x128 : Shape := ⟨2, ![128, 128]⟩
abbrev S128 : Shape := ⟨1, ![128]⟩
abbrev S128x4096 : Shape := ⟨2, ![128, 4096]⟩
abbrev S4096x1 : Shape := ⟨2, ![4096, 1]⟩
abbrev S4096x4096 : Shape := ⟨2, ![4096, 4096]⟩
abbrev S1024x128 : Shape := ⟨2, ![1024, 128]⟩
abbrev S128x1024 : Shape := ⟨2, ![128, 1024]⟩
abbrev S1024x1 : Shape := ⟨2, ![1024, 1]⟩
abbrev S1024x1024 : Shape := ⟨2, ![1024, 1024]⟩
abbrev S1024 : Shape := ⟨1, ![1024]⟩
abbrev S1x1024 : Shape := ⟨2, ![1, 1024]⟩
abbrev S1x4096 : Shape := ⟨2, ![1, 4096]⟩
abbrev S1x128 : Shape := ⟨2, ![1, 128]⟩

abbrev nBuf : Space → Nat
  | .hbm => 15
  | .vmem => 31
  | .smem => 0
  | _ => 0

abbrev bufTy : (tb : Table) → Fin (tcTables nBuf tb) → BufTy
  | .hbm, ⟨0, _⟩ => ⟨S4096x128, .f32⟩
  | .hbm, ⟨1, _⟩ => ⟨S128x128, .f32⟩
  | .hbm, ⟨2, _⟩ => ⟨S128, .f32⟩
  | .hbm, ⟨3, _⟩ => ⟨S128x4096, .f32⟩
  | .hbm, ⟨4, _⟩ => ⟨S128x128, .f32⟩
  | .hbm, ⟨5, _⟩ => ⟨S4096x128, .f32⟩
  | .hbm, ⟨6, _⟩ => ⟨S4096x1, .f32⟩
  | .hbm, ⟨7, _⟩ => ⟨S4096x4096, .bf16⟩
  | .hbm, ⟨8, _⟩ => ⟨S1x4096, .f32⟩
  | .hbm, ⟨9, _⟩ => ⟨S4096x128, .f32⟩
  | .hbm, ⟨10, _⟩ => ⟨S4096x1, .f32⟩
  | .hbm, ⟨11, _⟩ => ⟨S4096x128, .f32⟩
  | .hbm, ⟨12, _⟩ => ⟨S4096x128, .f32⟩
  | .hbm, ⟨13, _⟩ => ⟨S1x128, .f32⟩
  | .hbm, ⟨14, _⟩ => ⟨S4096x128, .f32⟩
  | .local _ .vmem, ⟨0, _⟩ => ⟨S1024x128, .f32⟩
  | .local _ .vmem, ⟨1, _⟩ => ⟨S1024x128, .f32⟩
  | .local _ .vmem, ⟨2, _⟩ => ⟨S128x1024, .f32⟩
  | .local _ .vmem, ⟨3, _⟩ => ⟨S128x1024, .f32⟩
  | .local _ .vmem, ⟨4, _⟩ => ⟨S1024x1, .f32⟩
  | .local _ .vmem, ⟨5, _⟩ => ⟨S1024x1, .f32⟩
  | .local _ .vmem, ⟨6, _⟩ => ⟨S1024x1024, .bf16⟩
  | .local _ .vmem, ⟨7, _⟩ => ⟨S1024x1024, .bf16⟩
  | .local _ .vmem, ⟨8, _⟩ => ⟨S1024x1, .f32⟩
  | .local _ .vmem, ⟨9, _⟩ => ⟨S1024x1024, .bf16⟩
  | .local _ .vmem, ⟨10, _⟩ => ⟨S1024x1024, .bf16⟩
  | .local _ .vmem, ⟨11, _⟩ => ⟨S1024x128, .f32⟩
  | .local _ .vmem, ⟨12, _⟩ => ⟨S1024x128, .f32⟩
  | .local _ .vmem, ⟨13, _⟩ => ⟨S1024x1, .f32⟩
  | .local _ .vmem, ⟨14, _⟩ => ⟨S1024x1, .f32⟩
  | .local _ .vmem, ⟨15, _⟩ => ⟨S1x1024, .f32⟩
  | .local _ .vmem, ⟨16, _⟩ => ⟨S1x1024, .f32⟩
  | .local _ .vmem, ⟨17, _⟩ => ⟨S1024x128, .f32⟩
  | .local _ .vmem, ⟨18, _⟩ => ⟨S1024x128, .f32⟩
  | .local _ .vmem, ⟨19, _⟩ => ⟨S1x1024, .f32⟩
  | .local _ .vmem, ⟨20, _⟩ => ⟨S1024x128, .f32⟩
  | .local _ .vmem, ⟨21, _⟩ => ⟨S1024x1024, .bf16⟩
  | .local _ .vmem, ⟨22, _⟩ => ⟨S1024x1024, .bf16⟩
  | .local _ .vmem, ⟨23, _⟩ => ⟨S1024x1, .f32⟩
  | .local _ .vmem, ⟨24, _⟩ => ⟨S1024x1, .f32⟩
  | .local _ .vmem, ⟨25, _⟩ => ⟨S1024x128, .f32⟩
  | .local _ .vmem, ⟨26, _⟩ => ⟨S1024x128, .f32⟩
  | .local _ .vmem, ⟨27, _⟩ => ⟨S1x128, .f32⟩
  | .local _ .vmem, ⟨28, _⟩ => ⟨S1024x128, .f32⟩
  | .local _ .vmem, ⟨29, _⟩ => ⟨S1024x128, .f32⟩
  | .local _ .vmem, ⟨30, _⟩ => ⟨S1024x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc1_scratch1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc2_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem4_1 : DmaSem sig := 26

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_16 : BitVec 32 := 0#32
  let v37 : BitVec 1 := Scalar.cmpi .ne v36 c0_i32_16
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_16 : BitVec 32 := 0#32
  let v31 : BitVec 1 := Scalar.cmpi .ne v30 c0_i32_16
  v31

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_11 : BitVec 32 := 0#32
  let v24 : BitVec 1 := Scalar.cmpi .ne v23 c0_i32_11
  v24

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1024x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  transposes_S4096x128_S128x4096_1_0 : S4096x128.Transposes [1, 0] S128x4096
  transposes_S128x128_S128x128_1_0 : S128x128.Transposes [1, 0] S128x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  reduces_S1024x128_S1024 : S1024x128.Reduces [1] S1024
  shapeCasts_S1024_S1024x1 : S1024.ShapeCasts S1024x1
  reduces_S128x1024_S1024 : S128x1024.Reduces [0] S1024
  shapeCasts_S1024_S1x1024 : S1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1024x128_S1024x128 : S1024x128.ShapeCasts S1024x128
  shapeCasts_S1024x1024_S1024x1024 : S1024x1024.ShapeCasts S1024x1024
  reduces_S1024x1024_S1024_2 : S1024x1024.Reduces [0] S1024
  shapeCasts_S1x4096_S4096x1 : S1x4096.ShapeCasts S4096x1
  bcast_S4096x1_S4096x128_0_1 : S4096x1.BroadcastsInDim S4096x128 (![0, 1] : Fin 2 → Fin S4096x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  dot_S4096x128_S128x128_S4096x128_1_0_0_1_n_n_wf : DotDims.WF S4096x128 S128x128 S4096x128 [1] [0] [0] [1] [] []
  dot_S1024x128_S128x1024_S1024x1024_1_0_0_1_n_n_wf : DotDims.WF S1024x128 S128x1024 S1024x1024 [1] [0] [0] [1] [] []
  dot_S1024x1024_S1024x128_S1024x128_0_0_1_1_n_n_wf : DotDims.WF S1024x1024 S1024x128 S1024x128 [0] [0] [1] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .f32 = 32 ∨ (Rect.block (s := S4096x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x4096.size a
  hwx0_1 : ∀ i : grid0.Coords, EltTy.bits .f32 = 32 ∨ (Rect.block (s := S128x4096) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .bf16 = 32 ∨ (Rect.block (s := S4096x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .bf16 = 32 ∨ (Rect.block (s := S4096x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S4096x128.size a
  hwx1_1 : ∀ i : grid1.Coords, EltTy.bits .f32 = 32 ∨ (Rect.block (s := S4096x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S4096x1.size a
  hwx1_2 : ∀ i : grid1.Coords, EltTy.bits .f32 = 32 ∨ (Rect.block (s := S4096x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x4096.size a
  hwx1_3 : ∀ i : grid1.Coords, EltTy.bits .f32 = 32 ∨ (Rect.block (s := S1x4096) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S4096x128.size a
  hwx1_4 : ∀ i : grid1.Coords, EltTy.bits .f32 = 32 ∨ (Rect.block (s := S4096x128) S1024x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x4096.size a
  hwx2_0 : ∀ i : grid2.Coords, EltTy.bits .bf16 = 32 ∨ (Rect.block (s := S4096x4096) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1.size a ≤ S4096x1.size a
  hwx2_1 : ∀ i : grid2.Coords, EltTy.bits .f32 = 32 ∨ (Rect.block (s := S4096x1) S1024x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S4096x128.size a
  hwx2_2 : ∀ i : grid2.Coords, EltTy.bits .f32 = 32 ∨ (Rect.block (s := S4096x128) S1024x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x128.size a ≤ S4096x128.size a
  hwx2_4 : ∀ i : grid2.Coords, EltTy.bits .f32 = 32 ∨ (Rect.block (s := S4096x128) S1024x128.size (cc2_transform_4 i) (hinb2_4 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x128_S1024x128_0_0_1_1_n_n : DotDims S1024x1024 S1024x128 S1024x128 where
  lhsContracting := [0]
  rhsContracting := [0]
  lhsNonContracting := [1]
  rhsNonContracting := [1]
  lhsBatch := []
  rhsBatch := []
  wf := dot_S1024x1024_S1024x128_S1024x128_0_0_1_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

abbrev win1_0 : Pipeline.Window sig grid1 :=
  Pipeline.Window.ofSpec (Memref.whole main_v3_1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_0) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4_0) S1x1024.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4_1) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun i => !(k1_cond2 i == 1#1) | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v3_1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3_0) S1024x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1024x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1024x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S4096x128 : Shape := ⟨2, ![4096, 128]⟩
abbrev S128x128 : Shape := ⟨2, ![128, 128]⟩
abbrev S128 : Shape := ⟨1, ![128]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S128x4096 : Shape := ⟨2, ![128, 4096]⟩
abbrev S1x128 : Shape := ⟨2, ![1, 128]⟩

abbrev nBuf : Space → Nat
  | .hbm => 58
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S128x128, .f32⟩
  | .hbm, ⟨2, _⟩ => ⟨S128, .f32⟩
  | .hbm, ⟨3, _⟩ => ⟨S4096x128, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S128x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096x1, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x4096, .f32⟩
  | .hbm, ⟨36, _⟩ => ⟨S4096x4096, .f32⟩
  | .hbm, ⟨37, _⟩ => ⟨S_, .f32⟩
  | .hbm, ⟨38, _⟩ => ⟨S4096, .f32⟩
  | .hbm, ⟨39, _⟩ => ⟨S1x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S128x128, .f32⟩
  | .hbm, ⟨45, _⟩ => ⟨S4096x128, .f32⟩
  | .hbm, ⟨46, _⟩ => ⟨S4096x128, .f32⟩
  | .hbm, ⟨47, _⟩ => ⟨S1x128, .f32⟩
  | .hbm, ⟨48, _⟩ => ⟨S4096x128, .f32⟩
  | .hbm, ⟨49, _⟩ => ⟨S4096x128, .f32⟩
  | .hbm, ⟨50, _⟩ => ⟨S_, .f32⟩
  | .hbm, ⟨51, _⟩ => ⟨S_, .f32⟩
  | .hbm, ⟨52, _⟩ => ⟨S4096x128, .f32⟩
  | .hbm, ⟨53, _⟩ => ⟨S4096x128, .i1⟩
  | .hbm, ⟨54, _⟩ => ⟨S_, .f32⟩
  | .hbm, ⟨55, _⟩ => ⟨S4096x128, .f32⟩
  | .hbm, ⟨56, _⟩ => ⟨S4096x128, .f32⟩
  | .hbm, ⟨57, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_6 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x128_S128x4096_1_0 : S4096x128.Transposes [1, 0] S128x4096
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  reducesTo_S4096x4096_S4096_d0 : S4096x4096.ReducesTo [0] S4096
  transposes_S4096x4096_S4096x4096_1_0 : S4096x4096.Transposes [1, 0] S4096x4096
  transposes_S128x128_S128x128_1_0 : S128x128.Transposes [1, 0] S128x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  dot_S4096x128_S128x4096_S4096x4096_1_0_0_1_n_n_wf : DotDims.WF S4096x128 S128x4096 S4096x4096 [1] [0] [0] [1] [] []
  dot_S4096x4096_S4096x4096_S4096x4096_1_0_0_1_n_n_wf : DotDims.WF S4096x4096 S4096x4096 S4096x4096 [1] [0] [0] [1] [] []
  dot_S4096x128_S128x128_S4096x128_1_0_0_1_n_n_wf : DotDims.WF S4096x128 S128x128 S4096x128 [1] [0] [0] [1] [] []
  dot_S4096x4096_S4096x128_S4096x128_1_0_0_1_n_n_wf : DotDims.WF S4096x4096 S4096x128 S4096x128 [1] [0] [0] [1] [] []

variable [Facts₀]

def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.KR0Runs.lean ====
import proofs.«135971_j70179765616691_2_alg».proof.Proof.Gen.Kernel.Launch
import proofs.«135971_j70179765616691_2_alg».proof.Proof.Gen.Kernel.Skeleton
import proofs.«135971_j70179765616691_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-
  The row-sum pass (the first of the three kernel launches), its body run on any staging buffers.

  A grid point is (i, j) with j the fast coordinate, point t = 4 i + j. The body's first conditional fires at j = 0
  (the accumulator of row sums is reset), its second at j = 3 (the accumulator is copied to the row-sum output).
  Three cases are met: j = 0, 0 < j < 3 and j = 3; each is run once, symbolically, on arbitrary whole buffers, and
  the run records what the stores leave in each buffer as a list of written rectangles.
-/
namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, decided over the grid -/

/-- The accumulator is reset at this point (j = 0). -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 4 = 0 :=
  (by decide +kernel : ∀ t : Fin grid0.N, cond0 (grid0.coords t) ↔ t.val % 4 = 0)
/-- The accumulator is copied out at this point (j = 3). -/
abbrev cond1 (i : grid0.Coords) : Prop := k0_cond2 i = 1#1
theorem hcond1 : ∀ t : Fin cfg0.N, cond1 (grid0.coords t) ↔ t.val % 4 = 3 :=
  (by decide +kernel : ∀ t : Fin grid0.N, cond1 (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live3 : ∀ t : Fin cfg0.N, cfg0.idle 3 (grid0.coords t) = false := by decide +kernel
/-- The row-sum output is idle, and not written back, except at j = 3. -/
theorem idle2 : ∀ t : Fin cfg0.N, ¬cond1 (grid0.coords t) → cfg0.idle 2 (grid0.coords t) = true := by decide +kernel
theorem noFlush2 : ∀ t : Fin cfg0.N, ¬cond1 (grid0.coords t) → (cfg0.win 2).flush t = false := by decide +kernel
theorem live2 : ∀ t : Fin cfg0.N, cond1 (grid0.coords t) → cfg0.idle 2 (grid0.coords t) = false := by decide +kernel

/-! ## The buffers the body is called with -/

abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .bf16 := win0_3.stage (cfg0.slots t 3)
abbrev hs3 (t : Fin cfg0.N) : (ms3 t).IsWhole := hstage0_3 ((cfg0.slots t 3).cast nbuf0_3)
/-- The accumulator of row sums: a scoped buffer of the kernel's own, carried from point to point. -/
abbrev scM : Memref sig .tc .vmem S1024x1 .f32 := Memref.whole cc0_scratch0
abbrev VS : View sig .tc .vmem S1024x1 .f32 := scM.view
/-- One staging buffer of each output, through which its contents are stated. -/
abbrev VO2 : View sig .tc .vmem S1024x1 .f32 := (Memref.whole cc0_stg2_0 : Memref sig .tc .vmem S1024x1 .f32).view
abbrev VO3 : View sig .tc .vmem S1024x1024 .bf16 := (Memref.whole cc0_stg3_0 : Memref sig .tc .vmem S1024x1024 .bf16).view

/-! ## The three runs -/

set_option maxHeartbeats 1000000 in
/-- j = 0: the accumulator, found at anything, is reset and then holds this block's row sums; the pairwise block is
    stored; the row-sum output is handed back untouched. -/
noncomputable def runA (c : Dev nD) (i : grid0.Coords) (arg2 : Memref sig .tc .vmem S1024x128 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1024x1024 .bf16) (harg5 : arg5.IsWhole) (arg6 : Memref sig .tc .vmem S1024x1 .f32) (harg6 : arg6.IsWhole)
    (hc0 : cond0 i) (hc1 : ¬cond1 i) (x0 : Vec F S1024x128 .f32) (x1 : Vec F S128x1024 .f32) :
    Σ' (L5 : List (View.Piece (Elt F) S1024x1024 .bf16)), { LS : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi4
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS)) -∗ K ⟨⟩))
          ⊢ wp frame (wpE (defs₀ (F := F)) Variants.none c none) E (cc0__rowsum_kernel i arg2 harg2 arg3 harg3 arg4 harg4 arg5 harg5 arg6 harg6) K } := by
  refine ⟨?_, ?_, fun xi4 E K => ?run⟩
  case run =>
    simp only [cc0__rowsum_kernel_eq_skeleton]; unfold cc0__rowsum_kernel_skel
    simp only [k0_part1_eq_skeleton]; unfold k0_part1_skel
    unfold owns
    iintro ⟨⟨%f0, %hf0, H0⟩, ⟨%f1, %hf1, H1⟩, ⟨%f4, %hf4, H4⟩, ⟨%d5, %f5, -, H5⟩, ⟨%ds, %fs, -, HS⟩, Hk⟩
    obtain rfl := harg2.eq_unread hf0; obtain rfl := harg3.eq_unread hf1; obtain rfl := harg4.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    isplitl [H5]; · iexists _; iexact H5
    iexists _; iexact HS

set_option maxHeartbeats 1000000 in
/-- 0 < j < 3: the accumulator, found at what the point before left, gains this block's row sums; the pairwise block
    is stored; the row-sum output is handed back untouched. -/
noncomputable def runB (c : Dev nD) (i : grid0.Coords) (arg2 : Memref sig .tc .vmem S1024x128 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1024x1024 .bf16) (harg5 : arg5.IsWhole) (arg6 : Memref sig .tc .vmem S1024x1 .f32) (harg6 : arg6.IsWhole)
    (hc0 : ¬cond0 i) (hc1 : ¬cond1 i) (x0 : Vec F S1024x128 .f32) (x1 : Vec F S128x1024 .f32) (xs : Vec F S1024x1 .f32) :
    Σ' (L5 : List (View.Piece (Elt F) S1024x1024 .bf16)), { LS : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi4
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare xi4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS)) -∗ K ⟨⟩))
          ⊢ wp frame (wpE (defs₀ (F := F)) Variants.none c none) E (cc0__rowsum_kernel i arg2 harg2 arg3 harg3 arg4 harg4 arg5 harg5 arg6 harg6) K } := by
  refine ⟨?_, ?_, fun xi4 E K => ?run⟩
  case run =>
    simp only [cc0__rowsum_kernel_eq_skeleton]; unfold cc0__rowsum_kernel_skel
    simp only [k0_part1_eq_skeleton]; unfold k0_part1_skel
    unfold owns
    iintro ⟨⟨%f0, %hf0, H0⟩, ⟨%f1, %hf1, H1⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf4; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    isplitl [H5]; · iexists _; iexact H5
    iexists _; iexact HS

set_option maxHeartbeats 1000000 in
/-- j = 3: as before, and the finished accumulator is copied into the row-sum output. -/
noncomputable def runC (c : Dev nD) (i : grid0.Coords) (arg2 : Memref sig .tc .vmem S1024x128 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1024x1024 .bf16) (harg5 : arg5.IsWhole) (arg6 : Memref sig .tc .vmem S1024x1 .f32) (harg6 : arg6.IsWhole)
    (hc0 : ¬cond0 i) (hc1 : cond1 i) (x0 : Vec F S1024x128 .f32) (x1 : Vec F S128x1024 .f32) (xs : Vec F S1024x1 .f32) :
    Σ' (L4 : List (View.Piece (Elt F) S1024x1 .f32)) (L5 : List (View.Piece (Elt F) S1024x1024 .bf16)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (∃ d, owns (c : Thread nD τ) arg5 fullShare d) ∗ owns (c : Thread nD τ) arg6 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS)) -∗ K ⟨⟩))
          ⊢ wp frame (wpE (defs₀ (F := F)) Variants.none c none) E (cc0__rowsum_kernel i arg2 harg2 arg3 harg3 arg4 harg4 arg5 harg5 arg6 harg6) K } := by
  refine ⟨?_, ?_, ?_, fun E K => ?run⟩
  case run =>
    simp only [cc0__rowsum_kernel_eq_skeleton]; unfold cc0__rowsum_kernel_skel
    simp only [k0_part1_eq_skeleton]; unfold k0_part1_skel
    unfold owns
    iintro ⟨⟨%f0, %hf0, H0⟩, ⟨%f1, %hf1, H1⟩, ⟨%d4, %f4, -, H4⟩, ⟨%d5, %f5, -, H5⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    isplitl [H5]; · iexists _; iexact H5
    iexists _; iexact HS

end Cert.Kernel.R0

end
-- ==== Proof.KR0Dat.lean ====
import proofs.«135971_j70179765616691_2_alg».proof.Proof.Gen.Kernel.Launch
import proofs.«135971_j70179765616691_2_alg».proof.Proof.Gen.Kernel.Skeleton
import proofs.«135971_j70179765616691_2_alg».proof.Proof.Gen.Kernel.Points
import proofs.«135971_j70179765616691_2_alg».proof.Proof.KR0Runs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-
  The row-sum pass: what its buffers hold after every grid point, and the obligation its body meets there.

  After point t = 4 i + j the accumulator holds the sums, over the column blocks 0 … j of row block i, of
  exp (exp (-dist)); the pairwise output's staging buffer holds block (i, j) of that matrix; the row-sum output's
  staging buffer is written only at j = 3, with the finished accumulator. These contents are named point by point
  (`outsAt`), the invariant between two points says the accumulator holds the previous point's component, and the
  body's three runs are matched to the three residues of t modulo 4.
-/
namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input blocks -/

/-- Window `w`'s block at point `t`, read off its array as the pass finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of x is in its staging buffer at every point, refetched or not. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- So is the column block of the transposed x. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What each case leaves, read back -/

/-- A placeholder for the row-sum output where no case stores into it. -/
def junk2 : Vec F S1024x1 .f32 := VO2.read (Elt F) VO2.junk

section Cases
variable (c : Dev nD) (i : grid0.Coords) (arg2 : Memref sig .tc .vmem S1024x128 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1024x1024 .bf16) (harg5 : arg5.IsWhole) (arg6 : Memref sig .tc .vmem S1024x1 .f32) (harg6 : arg6.IsWhole)
variable (x0 : Vec F S1024x128 .f32) (x1 : Vec F S128x1024 .f32) (xs : Vec F S1024x1 .f32)

theorem cover3A (hc0 : cond0 i) (hc1 : ¬cond1 i) (y : S1024x1024.Idx) : ∃ pc ∈ (runA c i arg2 harg2 arg3 harg3 arg4 harg4 arg5 harg5 arg6 harg6 hc0 hc1 x0 x1).1, y ∈ pc.1.set :=
  View.cover_of_tiledL (runA c i arg2 harg2 arg3 harg3 arg4 harg4 arg5 harg5 arg6 harg6 hc0 hc1 x0 x1).1 S1024x1024.size (by sl_kernel_rfl) y
def out3A (hc0 : cond0 i) (hc1 : ¬cond1 i) : Vec F S1024x1024 .bf16 :=
  VO3.read (Elt F) (VO3.writes (Elt F) VO3.junk (runA c i arg2 harg2 arg3 harg3 arg4 harg4 arg5 harg5 arg6 harg6 hc0 hc1 x0 x1).1)
theorem scoverA (hc0 : cond0 i) (hc1 : ¬cond1 i) (y : S1024x1.Idx) : ∃ pc ∈ (runA c i arg2 harg2 arg3 harg3 arg4 harg4 arg5 harg5 arg6 harg6 hc0 hc1 x0 x1).2.1, y ∈ pc.1.set :=
  View.cover_of_tiledL (runA c i arg2 harg2 arg3 harg3 arg4 harg4 arg5 harg5 arg6 harg6 hc0 hc1 x0 x1).2.1 S1024x1.size (by sl_kernel_rfl) y
def sA (hc0 : cond0 i) (hc1 : ¬cond1 i) : Vec F S1024x1 .f32 :=
  VS.read (Elt F) (VS.writes (Elt F) VS.junk (runA c i arg2 harg2 arg3 harg3 arg4 harg4 arg5 harg5 arg6 harg6 hc0 hc1 x0 x1).2.1)

theorem cover3B (hc0 : ¬cond0 i) (hc1 : ¬cond1 i) (y : S1024x1024.Idx) : ∃ pc ∈ (runB c i arg2 harg2 arg3 harg3 arg4 harg4 arg5 harg5 arg6 harg6 hc0 hc1 x0 x1 xs).1, y ∈ pc.1.set :=
  View.cover_of_tiledL (runB c i arg2 harg2 arg3 harg3 arg4 harg4 arg5 harg5 arg6 harg6 hc0 hc1 x0 x1 xs).1 S1024x1024.size (by sl_kernel_rfl) y
def out3B (hc0 : ¬cond0 i) (hc1 : ¬cond1 i) : Vec F S1024x1024 .bf16 :=
  VO3.read (Elt F) (VO3.writes (Elt F) VO3.junk (runB c i arg2 harg2 arg3 harg3 arg4 harg4 arg5 harg5 arg6 harg6 hc0 hc1 x0 x1 xs).1)
theorem scoverB (hc0 : ¬cond0 i) (hc1 : ¬cond1 i) (y : S1024x1.Idx) : ∃ pc ∈ (runB c i arg2 harg2 arg3 harg3 arg4 harg4 arg5 harg5 arg6 harg6 hc0 hc1 x0 x1 xs).2.1, y ∈ pc.1.set :=
  View.cover_of_tiledL (runB c i arg2 harg2 arg3 harg3 arg4 harg4 arg5 harg5 arg6 harg6 hc0 hc1 x0 x1 xs).2.1 S1024x1.size (by sl_kernel_rfl) y
def sB (hc0 : ¬cond0 i) (hc1 : ¬cond1 i) : Vec F S1024x1 .f32 :=
  VS.read (Elt F) (VS.writes (Elt F) VS.junk (runB c i arg2 harg2 arg3 harg3 arg4 harg4 arg5 harg5 arg6 harg6 hc0 hc1 x0 x1 xs).2.1)

theorem cover2C (hc0 : ¬cond0 i) (hc1 : cond1 i) (y : S1024x1.Idx) : ∃ pc ∈ (runC c i arg2 harg2 arg3 harg3 arg4 harg4 arg5 harg5 arg6 harg6 hc0 hc1 x0 x1 xs).1, y ∈ pc.1.set :=
  View.cover_of_tiledL (runC c i arg2 harg2 arg3 harg3 arg4 harg4 arg5 harg5 arg6 harg6 hc0 hc1 x0 x1 xs).1 S1024x1.size (by sl_kernel_rfl) y
def out2C (hc0 : ¬cond0 i) (hc1 : cond1 i) : Vec F S1024x1 .f32 :=
  VO2.read (Elt F) (VO2.writes (Elt F) VO2.junk (runC c i arg2 harg2 arg3 harg3 arg4 harg4 arg5 harg5 arg6 harg6 hc0 hc1 x0 x1 xs).1)
theorem cover3C (hc0 : ¬cond0 i) (hc1 : cond1 i) (y : S1024x1024.Idx) : ∃ pc ∈ (runC c i arg2 harg2 arg3 harg3 arg4 harg4 arg5 harg5 arg6 harg6 hc0 hc1 x0 x1 xs).2.1, y ∈ pc.1.set :=
  View.cover_of_tiledL (runC c i arg2 harg2 arg3 harg3 arg4 harg4 arg5 harg5 arg6 harg6 hc0 hc1 x0 x1 xs).2.1 S1024x1024.size (by sl_kernel_rfl) y
def out3C (hc0 : ¬cond0 i) (hc1 : cond1 i) : Vec F S1024x1024 .bf16 :=
  VO3.read (Elt F) (VO3.writes (Elt F) VO3.junk (runC c i arg2 harg2 arg3 harg3 arg4 harg4 arg5 harg5 arg6 harg6 hc0 hc1 x0 x1 xs).2.1)
theorem scoverC (hc0 : ¬cond0 i) (hc1 : cond1 i) (y : S1024x1.Idx) : ∃ pc ∈ (runC c i arg2 harg2 arg3 harg3 arg4 harg4 arg5 harg5 arg6 harg6 hc0 hc1 x0 x1 xs).2.2.1, y ∈ pc.1.set :=
  View.cover_of_tiledL (runC c i arg2 harg2 arg3 harg3 arg4 harg4 arg5 harg5 arg6 harg6 hc0 hc1 x0 x1 xs).2.2.1 S1024x1.size (by sl_kernel_rfl) y
def sC (hc0 : ¬cond0 i) (hc1 : cond1 i) : Vec F S1024x1 .f32 :=
  VS.read (Elt F) (VS.writes (Elt F) VS.junk (runC c i arg2 harg2 arg3 harg3 arg4 harg4 arg5 harg5 arg6 harg6 hc0 hc1 x0 x1 xs).2.2.1)

end Cases

/-! ## What the buffers hold after each point -/

/-- After the body at position `n`: the row-sum output's staging buffer, the pairwise output's, the accumulator. -/
def outsAt (c : Dev nD) : (n : ℕ) → n < cfg0.N → Vec F S1024x1 .f32 × Vec F S1024x1024 .bf16 × Vec F S1024x1 .f32
  | 0, hn => (junk2,
      out3A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) (iblk V c 0 ⟨0, hn⟩) (iblk V c 1 ⟨0, hn⟩) ((hcond0 ⟨0, hn⟩).mpr (Nat.zero_mod _)) (fun h => (fun h => by (try dsimp only at h); omega) ((hcond1 ⟨0, hn⟩).mp h)),
      sA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) (iblk V c 0 ⟨0, hn⟩) (iblk V c 1 ⟨0, hn⟩) ((hcond0 ⟨0, hn⟩).mpr (Nat.zero_mod _)) (fun h => (fun h => by (try dsimp only at h); omega) ((hcond1 ⟨0, hn⟩).mp h)))
  | n + 1, hn =>
    if h0 : (n + 1) % 4 = 0 then
      if h1 : (n + 1) % 4 = 3 then False.elim (by omega)
      else (junk2,
        out3A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (iblk V c 0 ⟨n + 1, hn⟩) (iblk V c 1 ⟨n + 1, hn⟩) ((hcond0 ⟨n + 1, hn⟩).mpr h0) (fun h => h1 ((hcond1 ⟨n + 1, hn⟩).mp h)),
        sA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (iblk V c 0 ⟨n + 1, hn⟩) (iblk V c 1 ⟨n + 1, hn⟩) ((hcond0 ⟨n + 1, hn⟩).mpr h0) (fun h => h1 ((hcond1 ⟨n + 1, hn⟩).mp h)))
    else
      if h1 : (n + 1) % 4 = 3 then
        (out2C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (iblk V c 0 ⟨n + 1, hn⟩) (iblk V c 1 ⟨n + 1, hn⟩) (outsAt c n (Nat.lt_of_succ_lt hn)).2.2 (fun h => h0 ((hcond0 ⟨n + 1, hn⟩).mp h)) ((hcond1 ⟨n + 1, hn⟩).mpr h1),
         out3C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (iblk V c 0 ⟨n + 1, hn⟩) (iblk V c 1 ⟨n + 1, hn⟩) (outsAt c n (Nat.lt_of_succ_lt hn)).2.2 (fun h => h0 ((hcond0 ⟨n + 1, hn⟩).mp h)) ((hcond1 ⟨n + 1, hn⟩).mpr h1),
         sC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (iblk V c 0 ⟨n + 1, hn⟩) (iblk V c 1 ⟨n + 1, hn⟩) (outsAt c n (Nat.lt_of_succ_lt hn)).2.2 (fun h => h0 ((hcond0 ⟨n + 1, hn⟩).mp h)) ((hcond1 ⟨n + 1, hn⟩).mpr h1))
      else
        (junk2,
         out3B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (iblk V c 0 ⟨n + 1, hn⟩) (iblk V c 1 ⟨n + 1, hn⟩) (outsAt c n (Nat.lt_of_succ_lt hn)).2.2 (fun h => h0 ((hcond0 ⟨n + 1, hn⟩).mp h)) (fun h => h1 ((hcond1 ⟨n + 1, hn⟩).mp h)),
         sB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (iblk V c 0 ⟨n + 1, hn⟩) (iblk V c 1 ⟨n + 1, hn⟩) (outsAt c n (Nat.lt_of_succ_lt hn)).2.2 (fun h => h0 ((hcond0 ⟨n + 1, hn⟩).mp h)) (fun h => h1 ((hcond1 ⟨n + 1, hn⟩).mp h)))

/-- At a point with j = 0. -/
theorem outsAt_A (c : Dev nD) (t : Fin cfg0.N) (h0 : t.val % 4 = 0) (h1 : ¬t.val % 4 = 3) :
    outsAt V c t.val t.isLt = (junk2,
      out3A c (grid0.coords t) (ms0 t) (hs0 t) (ms1 t) (hs1 t) (ms2 t) (hs2 t) (ms3 t) (hs3 t) scM (Memref.isWhole_whole _) (iblk V c 0 t) (iblk V c 1 t) ((hcond0 t).mpr h0) (fun h => h1 ((hcond1 t).mp h)),
      sA c (grid0.coords t) (ms0 t) (hs0 t) (ms1 t) (hs1 t) (ms2 t) (hs2 t) (ms3 t) (hs3 t) scM (Memref.isWhole_whole _) (iblk V c 0 t) (iblk V c 1 t) ((hcond0 t).mpr h0) (fun h => h1 ((hcond1 t).mp h))) := by
  obtain ⟨n, hn⟩ := t
  cases n with
  | zero => exact rfl
  | succ n => exact (dif_pos h0).trans ((dif_neg h1).trans rfl)

/-- At a point with 0 < j < 3. -/
theorem outsAt_B (c : Dev nD) (t : Fin cfg0.N) (h0 : ¬t.val % 4 = 0) (h1 : ¬t.val % 4 = 3) :
    outsAt V c t.val t.isLt = (junk2,
      out3B c (grid0.coords t) (ms0 t) (hs0 t) (ms1 t) (hs1 t) (ms2 t) (hs2 t) (ms3 t) (hs3 t) scM (Memref.isWhole_whole _) (iblk V c 0 t) (iblk V c 1 t) (outsAt V c (t.val - 1) (Nat.lt_of_le_of_lt (Nat.sub_le _ _) t.isLt)).2.2 (fun h => h0 ((hcond0 t).mp h)) (fun h => h1 ((hcond1 t).mp h)),
      sB c (grid0.coords t) (ms0 t) (hs0 t) (ms1 t) (hs1 t) (ms2 t) (hs2 t) (ms3 t) (hs3 t) scM (Memref.isWhole_whole _) (iblk V c 0 t) (iblk V c 1 t) (outsAt V c (t.val - 1) (Nat.lt_of_le_of_lt (Nat.sub_le _ _) t.isLt)).2.2 (fun h => h0 ((hcond0 t).mp h)) (fun h => h1 ((hcond1 t).mp h))) := by
  obtain ⟨n, hn⟩ := t
  cases n with
  | zero => exact (by exfalso; (try dsimp only at h0); exact absurd (Nat.zero_mod _) h0)
  | succ n => exact (dif_neg h0).trans ((dif_neg h1).trans rfl)

/-- At a point with j = 3. -/
theorem outsAt_C (c : Dev nD) (t : Fin cfg0.N) (h0 : ¬t.val % 4 = 0) (h1 : t.val % 4 = 3) :
    outsAt V c t.val t.isLt = (
      out2C c (grid0.coords t) (ms0 t) (hs0 t) (ms1 t) (hs1 t) (ms2 t) (hs2 t) (ms3 t) (hs3 t) scM (Memref.isWhole_whole _) (iblk V c 0 t) (iblk V c 1 t) (outsAt V c (t.val - 1) (Nat.lt_of_le_of_lt (Nat.sub_le _ _) t.isLt)).2.2 (fun h => h0 ((hcond0 t).mp h)) ((hcond1 t).mpr h1),
      out3C c (grid0.coords t) (ms0 t) (hs0 t) (ms1 t) (hs1 t) (ms2 t) (hs2 t) (ms3 t) (hs3 t) scM (Memref.isWhole_whole _) (iblk V c 0 t) (iblk V c 1 t) (outsAt V c (t.val - 1) (Nat.lt_of_le_of_lt (Nat.sub_le _ _) t.isLt)).2.2 (fun h => h0 ((hcond0 t).mp h)) ((hcond1 t).mpr h1),
      sC c (grid0.coords t) (ms0 t) (hs0 t) (ms1 t) (hs1 t) (ms2 t) (hs2 t) (ms3 t) (hs3 t) scM (Memref.isWhole_whole _) (iblk V c 0 t) (iblk V c 1 t) (outsAt V c (t.val - 1) (Nat.lt_of_le_of_lt (Nat.sub_le _ _) t.isLt)).2.2 (fun h => h0 ((hcond0 t).mp h)) ((hcond1 t).mpr h1)) := by
  obtain ⟨n, hn⟩ := t
  cases n with
  | zero => exact (by exfalso; (try dsimp only at h0); exact absurd (Nat.zero_mod _) h0)
  | succ n => exact (dif_neg h0).trans ((dif_pos h1).trans rfl)

end Cert.Kernel.R0

end
-- ==== Proof.KR0Body.lean ====
import proofs.«135971_j70179765616691_2_alg».proof.Proof.Gen.Kernel.Launch
import proofs.«135971_j70179765616691_2_alg».proof.Proof.Gen.Kernel.Skeleton
import proofs.«135971_j70179765616691_2_alg».proof.Proof.Gen.Kernel.Points
import proofs.«135971_j70179765616691_2_alg».proof.Proof.KR0Dat
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-
  The row-sum pass: the invariant between grid points, the proof data, and the body obligation.

  Before the first point the kernel's scoped buffers are at anything. After point n the accumulator holds
  `outsAt`'s third component at n, and every other scoped buffer (the other launches' staging buffers and scratch)
  rides along unopened. At a point the body is in the case its residue modulo 4 selects; its run is applied to the
  input blocks, the accumulator as the invariant hands it over, and the outputs' buffers.
-/
namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant -/

/-- Every scoped buffer that is neither a staging buffer of this launch nor its accumulator, at anything. -/
abbrev restBut (c : Dev nD) : sProp 𝕄 :=
  Pipeline.scopedRestBut (Ix := Unit) (Name := ℕ) (U := UR sig nD τ) (Lvl := ℕ) (Val := Elt F) spec0 c [cc0_scratch0]

/-- The launch's scoped rest is the accumulator at anything beside the others. -/
theorem scopedRest_split (c : Dev nD) :
    (Pipeline.scopedRest (Ix := Unit) (Name := ℕ) (U := UR sig nD τ) (Lvl := ℕ) (Val := Elt F) spec0 c : sProp 𝕄)
      = iprop((∃ d, owns (c : Thread nD τ) scM fullShare d) ∗ restBut c) := by
  rw [Pipeline.scopedRest_split_of_list spec0 c [cc0_scratch0] (by decide) (by decide)]
  simp only [Idealize.SL.BI.bigSepL_singleton, scM, owns_whole]
  rfl

/-- Before position `n`. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM fullShare ((outsAt V c n hn).2.2) ∗ restBut c)

theorem PhiS_zero (c : Dev nD) (n : ℕ) (h : n ≤ cfg0.N) (hz : n = 0) :
    PhiS V c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS V c (n + 1) hn = iprop(owns (c : Thread nD τ) scM fullShare ((outsAt V c n hn).2.2) ∗ restBut c) := rfl
theorem PhiS_pos (c : Dev nD) (n : ℕ) (h : n ≤ cfg0.N) (hz : n ≠ 0) :
    PhiS V c n h = iprop(owns (c : Thread nD τ) scM fullShare ((outsAt V c (n - 1) (by omega)).2.2) ∗ restBut c) := by
  cases n with
  | zero => exact absurd rfl hz
  | succ n => rfl

/-! ## The proof data -/

/-- The arrays as the pass finds them; after the body each input's buffer at its block, the outputs' at `outsAt`;
    the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
    | ⟨3, _⟩ => (outsAt V c t.val t.isLt).2.1
  Φ t := PhiS V c t.val (Nat.le_of_lt_succ t.isLt)
  q _ := fullShare
  owed _ := 0

theorem A_eq (c : Dev nD) (w : Fin cfg0.W) : (dat V c).A w = V c (Pipeline.arrRef spec0 w) := by dsimp only [dat]
theorem PhiS_castSucc (c : Dev nD) (t : Fin cfg0.N) : (dat V c).Φ t.castSucc = PhiS V c t.val (Nat.le_of_lt t.isLt) := by
  dsimp only [dat]; simp only [Fin.coe_castSucc]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = (outsAt V c t.val t.isLt).1 := by dsimp only [dat]
theorem after3 (c : Dev nD) (t : Fin cfg0.N) : (dat V c).after 3 t = (outsAt V c t.val t.isLt).2.1 := by dsimp only [dat]
theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d

/-- At any point's start the accumulator is owned at something, the other scoped buffers beside it. -/
theorem Phi_start (c : Dev nD) (t : Fin cfg0.N) :
    (dat V c).Φ t.castSucc ⊢ iprop((∃ d, owns (c : Thread nD τ) scM fullShare d) ∗ restBut c) := by
  rw [PhiS_castSucc V c t]
  by_cases hz : t.val = 0
  · rw [PhiS_zero V c _ _ hz, scopedRest_split]
  · rw [PhiS_pos V c _ _ hz]
    iintro ⟨HS, Hr⟩
    isplitl [HS]; · iexists _; iexact HS
    iexact Hr

/-- At a later point's start it holds what the point before left. -/
theorem Phi_pos (c : Dev nD) (t : Fin cfg0.N) (hz : t.val ≠ 0) :
    (dat V c).Φ t.castSucc = iprop(owns (c : Thread nD τ) scM fullShare ((outsAt V c (t.val - 1) (Nat.lt_of_le_of_lt (Nat.sub_le _ _) t.isLt)).2.2) ∗ restBut c) := by
  rw [PhiS_castSucc V c t, PhiS_pos V c _ _ hz]

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 3 t = owns (c : Thread nD τ) (ms3 t) fullShare ((dat V c).after 3 t) from by
    unfold Dat.leavesExact; rw [live3 t], after3]
  by_cases h0 : t.val % 4 = 0
  · have h1 : ¬t.val % 4 = 3 := by omega
    have hc0 : cond0 (grid0.coords t) := (hcond0 t).mpr h0
    have hc1 : ¬cond1 (grid0.coords t) := fun h => h1 ((hcond1 t).mp h)
    rw [Dat.leavesExact_idle (dat V c) 2 t (idle2 t hc1) (noFlush2 t hc1)]
    rw [outsAt_A V c t h0 h1]
    unfold out3A sA; (try dsimp only)
    iintro ⟨HΦ, Ho, ⟨%d0, H0⟩, ⟨%d1, H1⟩, ⟨%d2, H2⟩, ⟨%d3, H3⟩⟩
    ihave HΦ' := (Phi_start V c t) $$ HΦ
    icases HΦ' with ⟨HS, Hrest⟩
    iapply ((runA c (grid0.coords t) _ _ _ _ _ _ _ _ _ _ hc0 hc1 (iblk V c 0 t) (iblk V c 1 t)).2.2 _ Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hrest]
    · isplitl [HS]
      · unfold owns; iexists _; isplitr
        swap; · iexact HS
        ipureintro; exact View.read_writes_of_cover _ _ _ _ _ (scoverA c _ _ _ _ _ _ _ _ _ _ _ _ _ _ _)
      iexact Hrest
    isplitl [Ho]; · iexact Ho
    isplitl [H0]; · iexact H0
    isplitl [H1]; · iexact H1
    isplitl [H2]; · iexists _; iexact H2
    unfold owns; iexists _; isplitr
    swap; · iexact H3
    ipureintro; exact View.read_writes_of_cover _ _ _ _ _ (cover3A c _ _ _ _ _ _ _ _ _ _ _ _ _ _ _)
  · have hz : t.val ≠ 0 := fun h => h0 (by rw [h])
    have hc0 : ¬cond0 (grid0.coords t) := fun h => h0 ((hcond0 t).mp h)
    by_cases h1 : t.val % 4 = 3
    · have hc1 : cond1 (grid0.coords t) := (hcond1 t).mpr h1
      rw [show (dat V c).leavesExact 2 t = owns (c : Thread nD τ) (ms2 t) fullShare ((dat V c).after 2 t) from by
        unfold Dat.leavesExact; rw [live2 t hc1], after2]
      rw [outsAt_C V c t h0 h1]
      unfold out2C out3C sC; (try dsimp only)
      rw [Phi_pos V c t hz]
      iintro ⟨⟨HS, Hrest⟩, Ho, ⟨%d0, H0⟩, ⟨%d1, H1⟩, ⟨%d2, H2⟩, ⟨%d3, H3⟩⟩
      iapply ((runC c (grid0.coords t) _ _ _ _ _ _ _ _ _ _ hc0 hc1 (iblk V c 0 t) (iblk V c 1 t) _).2.2.2 Set.univ _)
      isplitl [H0]; · iexact H0
      isplitl [H1]; · iexact H1
      isplitl [H2]; · iexists _; iexact H2
      isplitl [H3]; · iexists _; iexact H3
      isplitl [HS]; · iexact HS
      iintro ⟨H0, H1, ⟨%e2, H2⟩, ⟨%e3, H3⟩, ⟨%es, HS⟩⟩
      isplitl [HS Hrest]
      · isplitl [HS]
        · unfold owns; iexists _; isplitr
          swap; · iexact HS
          ipureintro; exact View.read_writes_of_cover _ _ _ _ _ (scoverC c _ _ _ _ _ _ _ _ _ _ _ _ _ _ _ _)
        iexact Hrest
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2C c _ _ _ _ _ _ _ _ _ _ _ _ _ _ _ _)
      unfold owns; iexists _; isplitr
      swap; · iexact H3
      ipureintro; exact View.read_writes_of_cover _ _ _ _ _ (cover3C c _ _ _ _ _ _ _ _ _ _ _ _ _ _ _ _)
    · have hc1 : ¬cond1 (grid0.coords t) := fun h => h1 ((hcond1 t).mp h)
      rw [Dat.leavesExact_idle (dat V c) 2 t (idle2 t hc1) (noFlush2 t hc1)]
      rw [outsAt_B V c t h0 h1]
      unfold out3B sB; (try dsimp only)
      rw [Phi_pos V c t hz]
      iintro ⟨⟨HS, Hrest⟩, Ho, ⟨%d0, H0⟩, ⟨%d1, H1⟩, ⟨%d2, H2⟩, ⟨%d3, H3⟩⟩
      iapply ((runB c (grid0.coords t) _ _ _ _ _ _ _ _ _ _ hc0 hc1 (iblk V c 0 t) (iblk V c 1 t) _).2.2 _ Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest]
      · isplitl [HS]
        · unfold owns; iexists _; isplitr
          swap; · iexact HS
          ipureintro; exact View.read_writes_of_cover _ _ _ _ _ (scoverB c _ _ _ _ _ _ _ _ _ _ _ _ _ _ _ _)
        iexact Hrest
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover3B c _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.R0

end
-- ==== Proof.KR0Out.lean ====
import proofs.«135971_j70179765616691_2_alg».proof.Proof.Gen.Kernel.Launch
import proofs.«135971_j70179765616691_2_alg».proof.Proof.Gen.Kernel.Skeleton
import proofs.«135971_j70179765616691_2_alg».proof.Proof.Gen.Kernel.Points
import proofs.«135971_j70179765616691_2_alg».proof.Proof.KR0Body
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-
  Launch 0: after the last grid point the invariant gives the launch's scoped rest back, the accumulator's named
  contents forgotten; before the first point the scoped rest is the invariant.
-/
namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hout (c : Dev nD) : (dat V c).Φ (Fin.last cfg0.N) ⊢
    iprop(BI.emp ∗ BI.emp ∗ Pipeline.scopedRest (Ix := Unit) (Name := ℕ) (U := UR sig nD τ) (Lvl := ℕ) (Val := Elt F) spec0 c) := by
  rw [show (dat V c).Φ (Fin.last cfg0.N) = PhiS V c cfg0.N (Nat.le_refl _) from rfl,
    PhiS_pos V c _ _ (by rw [show cfg0.N = 16 from N_0]; decide), scopedRest_split]
  iintro ⟨HS, Hr⟩
  isplitr; · iempintro
  isplitr; · iempintro
  isplitl [HS]; · iexists _; iexact HS
  iexact Hr

theorem hin (c : Dev nD) (P : sProp 𝕄) :
    iprop(BI.emp ∗ P ∗ Pipeline.scopedRest (Ix := Unit) (Name := ℕ) (U := UR sig nD τ) (Lvl := ℕ) (Val := Elt F) spec0 c) ⊢ (dat V c).Φ 0 := by
  rw [show (dat V c).Φ 0 = Pipeline.scopedRest (Ix := Unit) (Name := ℕ) (U := UR sig nD τ) (Lvl := ℕ) (Val := Elt F) spec0 c from rfl]
  iintro ⟨-, -, Hr⟩; iexact Hr

end Cert.Kernel.R0

end
-- ==== Proof.KR1Runs.lean ====
import proofs.«135971_j70179765616691_2_alg».proof.Proof.Gen.Kernel.Launch
import proofs.«135971_j70179765616691_2_alg».proof.Proof.Gen.Kernel.Skeleton
import proofs.«135971_j70179765616691_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-
  The column-sum pass (the second kernel launch), its body run on any staging buffers.

  A grid point is (k, i) with i the fast coordinate, point t = 4 k + i: column block k of the attention matrix is
  swept down its four row blocks. Two accumulators are carried: the column sums of A (a row of 1024) and the product
  of the transposed block with the linear layer's rows (1024 by 128). Both are reset at i = 0 and copied to the two
  outputs at i = 3.
-/
namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, decided over the grid -/

abbrev cond0 (i : grid1.Coords) : Prop := (Scalar.cmpi .ne (Scalar.extui (Scalar.cmpi .eq (BitVec.ofNat 32 (i 1).val) 0#32)) 0#32) = 1#1
theorem hcond0 : ∀ t : Fin cfg1.N, cond0 (grid1.coords t) ↔ t.val % 4 = 0 :=
  (by decide +kernel : ∀ t : Fin grid1.N, cond0 (grid1.coords t) ↔ t.val % 4 = 0)
abbrev cond1 (i : grid1.Coords) : Prop := k1_cond2 i = 1#1
theorem hcond1 : ∀ t : Fin cfg1.N, cond1 (grid1.coords t) ↔ t.val % 4 = 3 :=
  (by decide +kernel : ∀ t : Fin grid1.N, cond1 (grid1.coords t) ↔ t.val % 4 = 3)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem idle3 : ∀ t : Fin cfg1.N, ¬cond1 (grid1.coords t) → cfg1.idle 3 (grid1.coords t) = true := by decide +kernel
theorem noFlush3 : ∀ t : Fin cfg1.N, ¬cond1 (grid1.coords t) → (cfg1.win 3).flush t = false := by decide +kernel
theorem live3 : ∀ t : Fin cfg1.N, cond1 (grid1.coords t) → cfg1.idle 3 (grid1.coords t) = false := by decide +kernel
theorem idle4 : ∀ t : Fin cfg1.N, ¬cond1 (grid1.coords t) → cfg1.idle 4 (grid1.coords t) = true := by decide +kernel
theorem noFlush4 : ∀ t : Fin cfg1.N, ¬cond1 (grid1.coords t) → (cfg1.win 4).flush t = false := by decide +kernel
theorem live4 : ∀ t : Fin cfg1.N, cond1 (grid1.coords t) → cfg1.idle 4 (grid1.coords t) = false := by decide +kernel

/-! ## The buffers the body is called with -/

abbrev ms0 (t : Fin cfg1.N) : Memref sig .tc .vmem S1024x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x1 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1024 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x128 .f32 := win1_4.stage (cfg1.slots t 4)
abbrev hs4 (t : Fin cfg1.N) : (ms4 t).IsWhole := hstage1_4 ((cfg1.slots t 4).cast nbuf1_4)
/-- The two accumulators: the column sums and the transposed product. -/
abbrev scM0 : Memref sig .tc .vmem S1x1024 .f32 := Memref.whole cc1_scratch0
abbrev scM1 : Memref sig .tc .vmem S1024x128 .f32 := Memref.whole cc1_scratch1
abbrev VS0 : View sig .tc .vmem S1x1024 .f32 := scM0.view
abbrev VS1 : View sig .tc .vmem S1024x128 .f32 := scM1.view
abbrev VO3 : View sig .tc .vmem S1x1024 .f32 := (Memref.whole cc1_stg3_0 : Memref sig .tc .vmem S1x1024 .f32).view
abbrev VO4 : View sig .tc .vmem S1024x128 .f32 := (Memref.whole cc1_stg4_0 : Memref sig .tc .vmem S1024x128 .f32).view

/-! ## The three runs -/

set_option maxHeartbeats 1000000 in
/-- i = 0: both accumulators, found at anything, are reset and then hold this block's contributions; the outputs
    are handed back untouched. -/
noncomputable def runA (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1x1024 .f32) (harg7 : arg7.IsWhole) (arg8 : Memref sig .tc .vmem S1024x128 .f32) (harg8 : arg8.IsWhole)
    (hc0 : cond0 i) (hc1 : ¬cond1 i) (x0 : Vec F S1024x1024 .bf16) (x1 : Vec F S1024x128 .f32) (x2 : Vec F S1024x1 .f32) :
    Σ' (LS0 : List (View.Piece (Elt F) S1x1024 .f32)), { LS1 : List (View.Piece (Elt F) S1024x128 .f32) //
      ∀ (xi5 : Vec F S1x1024 .f32) (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi5 ∗ owns (c : Thread nD τ) arg6 fullShare xi6 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi5 ∗ owns (c : Thread nD τ) arg6 fullShare xi6
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__alsum_u_kernel i arg2 harg2 arg3 harg3 arg4 harg4 arg5 harg5 arg6 harg6 arg7 harg7 arg8 harg8) K } := by
  refine ⟨?_, ?_, fun xi5 xi6 E K => ?run⟩
  case run =>
    simp only [cc1__alsum_u_kernel_eq_skeleton]; unfold cc1__alsum_u_kernel_skel
    unfold owns
    iintro ⟨⟨%f0, %hf0, H0⟩, ⟨%f1, %hf1, H1⟩, ⟨%f2, %hf2, H2⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf5; obtain rfl := harg6.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; isplitr; · ipureintro; exact harg5.read_unread _
      iexact H5
    isplitl [H6]
    · iexists _; isplitr; · ipureintro; exact harg6.read_unread _
      iexact H6
    isplitl [HS0]; · iexists _; iexact HS0
    iexists _; iexact HS1

set_option maxHeartbeats 1000000 in
/-- 0 < i < 3: both accumulators, found at what the point before left, gain this block's contributions. -/
noncomputable def runB (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1x1024 .f32) (harg7 : arg7.IsWhole) (arg8 : Memref sig .tc .vmem S1024x128 .f32) (harg8 : arg8.IsWhole)
    (hc0 : ¬cond0 i) (hc1 : ¬cond1 i) (x0 : Vec F S1024x1024 .bf16) (x1 : Vec F S1024x128 .f32) (x2 : Vec F S1024x1 .f32)
    (xs0 : Vec F S1x1024 .f32) (xs1 : Vec F S1024x128 .f32) :
    Σ' (LS0 : List (View.Piece (Elt F) S1x1024 .f32)), { LS1 : List (View.Piece (Elt F) S1024x128 .f32) //
      ∀ (xi5 : Vec F S1x1024 .f32) (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi5 ∗ owns (c : Thread nD τ) arg6 fullShare xi6 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi5 ∗ owns (c : Thread nD τ) arg6 fullShare xi6
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__alsum_u_kernel i arg2 harg2 arg3 harg3 arg4 harg4 arg5 harg5 arg6 harg6 arg7 harg7 arg8 harg8) K } := by
  refine ⟨?_, ?_, fun xi5 xi6 E K => ?run⟩
  case run =>
    simp only [cc1__alsum_u_kernel_eq_skeleton]; unfold cc1__alsum_u_kernel_skel
    unfold owns
    iintro ⟨⟨%f0, %hf0, H0⟩, ⟨%f1, %hf1, H1⟩, ⟨%f2, %hf2, H2⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf5; obtain rfl := harg6.eq_unread hf6
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; isplitr; · ipureintro; exact harg5.read_unread _
      iexact H5
    isplitl [H6]
    · iexists _; isplitr; · ipureintro; exact harg6.read_unread _
      iexact H6
    isplitl [HS0]; · iexists _; iexact HS0
    iexists _; iexact HS1

set_option maxHeartbeats 1000000 in
/-- i = 3: as before, and both finished accumulators are copied into the outputs. -/
noncomputable def runC (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1x1024 .f32) (harg7 : arg7.IsWhole) (arg8 : Memref sig .tc .vmem S1024x128 .f32) (harg8 : arg8.IsWhole)
    (hc0 : ¬cond0 i) (hc1 : cond1 i) (x0 : Vec F S1024x1024 .bf16) (x1 : Vec F S1024x128 .f32) (x2 : Vec F S1024x1 .f32)
    (xs0 : Vec F S1x1024 .f32) (xs1 : Vec F S1024x128 .f32) :
    Σ' (L5 : List (View.Piece (Elt F) S1x1024 .f32)) (L6 : List (View.Piece (Elt F) S1024x128 .f32)) (LS0 : List (View.Piece (Elt F) S1x1024 .f32)), { LS1 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__alsum_u_kernel i arg2 harg2 arg3 harg3 arg4 harg4 arg5 harg5 arg6 harg6 arg7 harg7 arg8 harg8) K } := by
  refine ⟨?_, ?_, ?_, ?_, fun E K => ?run⟩
  case run =>
    simp only [cc1__alsum_u_kernel_eq_skeleton]; unfold cc1__alsum_u_kernel_skel
    unfold owns
    iintro ⟨⟨%f0, %hf0, H0⟩, ⟨%f1, %hf1, H1⟩, ⟨%f2, %hf2, H2⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    isplitl [H6]; · iexists _; iexact H6
    isplitl [HS0]; · iexists _; iexact HS0
    iexists _; iexact HS1

end Cert.Kernel.R1

end
-- ==== Proof.KR1Dat.lean ====
import proofs.«135971_j70179765616691_2_alg».proof.Proof.Gen.Kernel.Launch
import proofs.«135971_j70179765616691_2_alg».proof.Proof.Gen.Kernel.Skeleton
import proofs.«135971_j70179765616691_2_alg».proof.Proof.Gen.Kernel.Points
import proofs.«135971_j70179765616691_2_alg».proof.Proof.KR1Runs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-
  The column-sum pass: what its buffers hold after every grid point.

  After point t = 4 k + i the first accumulator holds the sums, over row blocks 0 … i, of column block k of the
  attention matrix; the second holds the same partial sum of the transposed block times the rows of the linear
  layer. The two outputs' staging buffers are written only at i = 3, with the finished accumulators.
-/
namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pass finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

def junk3 : Vec F S1x1024 .f32 := VO3.read (Elt F) VO3.junk
def junk4 : Vec F S1024x128 .f32 := VO4.read (Elt F) VO4.junk

section Cases
variable (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1x1024 .f32) (harg7 : arg7.IsWhole) (arg8 : Memref sig .tc .vmem S1024x128 .f32) (harg8 : arg8.IsWhole)
variable (x0 : Vec F S1024x1024 .bf16) (x1 : Vec F S1024x128 .f32) (x2 : Vec F S1024x1 .f32) (xs0 : Vec F S1x1024 .f32) (xs1 : Vec F S1024x128 .f32)

theorem scover0A (hc0 : cond0 i) (hc1 : ¬cond1 i) (y : S1x1024.Idx) : ∃ pc ∈ (runA c i arg2 harg2 arg3 harg3 arg4 harg4 arg5 harg5 arg6 harg6 arg7 harg7 arg8 harg8 hc0 hc1 x0 x1 x2).1, y ∈ pc.1.set :=
  View.cover_of_tiledL (runA c i arg2 harg2 arg3 harg3 arg4 harg4 arg5 harg5 arg6 harg6 arg7 harg7 arg8 harg8 hc0 hc1 x0 x1 x2).1 S1x1024.size (by sl_kernel_rfl) y
def s0A (hc0 : cond0 i) (hc1 : ¬cond1 i) : Vec F S1x1024 .f32 :=
  VS0.read (Elt F) (VS0.writes (Elt F) VS0.junk (runA c i arg2 harg2 arg3 harg3 arg4 harg4 arg5 harg5 arg6 harg6 arg7 harg7 arg8 harg8 hc0 hc1 x0 x1 x2).1)
theorem scover1A (hc0 : cond0 i) (hc1 : ¬cond1 i) (y : S1024x128.Idx) : ∃ pc ∈ (runA c i arg2 harg2 arg3 harg3 arg4 harg4 arg5 harg5 arg6 harg6 arg7 harg7 arg8 harg8 hc0 hc1 x0 x1 x2).2.1, y ∈ pc.1.set :=
  View.cover_of_tiledL (runA c i arg2 harg2 arg3 harg3 arg4 harg4 arg5 harg5 arg6 harg6 arg7 harg7 arg8 harg8 hc0 hc1 x0 x1 x2).2.1 S1024x128.size (by sl_kernel_rfl) y
def s1A (hc0 : cond0 i) (hc1 : ¬cond1 i) : Vec F S1024x128 .f32 :=
  VS1.read (Elt F) (VS1.writes (Elt F) VS1.junk (runA c i arg2 harg2 arg3 harg3 arg4 harg4 arg5 harg5 arg6 harg6 arg7 harg7 arg8 harg8 hc0 hc1 x0 x1 x2).2.1)
theorem scover0B (hc0 : ¬cond0 i) (hc1 : ¬cond1 i) (y : S1x1024.Idx) : ∃ pc ∈ (runB c i arg2 harg2 arg3 harg3 arg4 harg4 arg5 harg5 arg6 harg6 arg7 harg7 arg8 harg8 hc0 hc1 x0 x1 x2 xs0 xs1).1, y ∈ pc.1.set :=
  View.cover_of_tiledL (runB c i arg2 harg2 arg3 harg3 arg4 harg4 arg5 harg5 arg6 harg6 arg7 harg7 arg8 harg8 hc0 hc1 x0 x1 x2 xs0 xs1).1 S1x1024.size (by sl_kernel_rfl) y
def s0B (hc0 : ¬cond0 i) (hc1 : ¬cond1 i) : Vec F S1x1024 .f32 :=
  VS0.read (Elt F) (VS0.writes (Elt F) VS0.junk (runB c i arg2 harg2 arg3 harg3 arg4 harg4 arg5 harg5 arg6 harg6 arg7 harg7 arg8 harg8 hc0 hc1 x0 x1 x2 xs0 xs1).1)
theorem scover1B (hc0 : ¬cond0 i) (hc1 : ¬cond1 i) (y : S1024x128.Idx) : ∃ pc ∈ (runB c i arg2 harg2 arg3 harg3 arg4 harg4 arg5 harg5 arg6 harg6 arg7 harg7 arg8 harg8 hc0 hc1 x0 x1 x2 xs0 xs1).2.1, y ∈ pc.1.set :=
  View.cover_of_tiledL (runB c i arg2 harg2 arg3 harg3 arg4 harg4 arg5 harg5 arg6 harg6 arg7 harg7 arg8 harg8 hc0 hc1 x0 x1 x2 xs0 xs1).2.1 S1024x128.size (by sl_kernel_rfl) y
def s1B (hc0 : ¬cond0 i) (hc1 : ¬cond1 i) : Vec F S1024x128 .f32 :=
  VS1.read (Elt F) (VS1.writes (Elt F) VS1.junk (runB c i arg2 harg2 arg3 harg3 arg4 harg4 arg5 harg5 arg6 harg6 arg7 harg7 arg8 harg8 hc0 hc1 x0 x1 x2 xs0 xs1).2.1)
theorem cover3C (hc0 : ¬cond0 i) (hc1 : cond1 i) (y : S1x1024.Idx) : ∃ pc ∈ (runC c i arg2 harg2 arg3 harg3 arg4 harg4 arg5 harg5 arg6 harg6 arg7 harg7 arg8 harg8 hc0 hc1 x0 x1 x2 xs0 xs1).1, y ∈ pc.1.set :=
  View.cover_of_tiledL (runC c i arg2 harg2 arg3 harg3 arg4 harg4 arg5 harg5 arg6 harg6 arg7 harg7 arg8 harg8 hc0 hc1 x0 x1 x2 xs0 xs1).1 S1x1024.size (by sl_kernel_rfl) y
def out3C (hc0 : ¬cond0 i) (hc1 : cond1 i) : Vec F S1x1024 .f32 :=
  VO3.read (Elt F) (VO3.writes (Elt F) VO3.junk (runC c i arg2 harg2 arg3 harg3 arg4 harg4 arg5 harg5 arg6 harg6 arg7 harg7 arg8 harg8 hc0 hc1 x0 x1 x2 xs0 xs1).1)
theorem cover4C (hc0 : ¬cond0 i) (hc1 : cond1 i) (y : S1024x128.Idx) : ∃ pc ∈ (runC c i arg2 harg2 arg3 harg3 arg4 harg4 arg5 harg5 arg6 harg6 arg7 harg7 arg8 harg8 hc0 hc1 x0 x1 x2 xs0 xs1).2.1, y ∈ pc.1.set :=
  View.cover_of_tiledL (runC c i arg2 harg2 arg3 harg3 arg4 harg4 arg5 harg5 arg6 harg6 arg7 harg7 arg8 harg8 hc0 hc1 x0 x1 x2 xs0 xs1).2.1 S1024x128.size (by sl_kernel_rfl) y
def out4C (hc0 : ¬cond0 i) (hc1 : cond1 i) : Vec F S1024x128 .f32 :=
  VO4.read (Elt F) (VO4.writes (Elt F) VO4.junk (runC c i arg2 harg2 arg3 harg3 arg4 harg4 arg5 harg5 arg6 harg6 arg7 harg7 arg8 harg8 hc0 hc1 x0 x1 x2 xs0 xs1).2.1)
theorem scover0C (hc0 : ¬cond0 i) (hc1 : cond1 i) (y : S1x1024.Idx) : ∃ pc ∈ (runC c i arg2 harg2 arg3 harg3 arg4 harg4 arg5 harg5 arg6 harg6 arg7 harg7 arg8 harg8 hc0 hc1 x0 x1 x2 xs0 xs1).2.2.1, y ∈ pc.1.set :=
  View.cover_of_tiledL (runC c i arg2 harg2 arg3 harg3 arg4 harg4 arg5 harg5 arg6 harg6 arg7 harg7 arg8 harg8 hc0 hc1 x0 x1 x2 xs0 xs1).2.2.1 S1x1024.size (by sl_kernel_rfl) y
def s0C (hc0 : ¬cond0 i) (hc1 : cond1 i) : Vec F S1x1024 .f32 :=
  VS0.read (Elt F) (VS0.writes (Elt F) VS0.junk (runC c i arg2 harg2 arg3 harg3 arg4 harg4 arg5 harg5 arg6 harg6 arg7 harg7 arg8 harg8 hc0 hc1 x0 x1 x2 xs0 xs1).2.2.1)
theorem scover1C (hc0 : ¬cond0 i) (hc1 : cond1 i) (y : S1024x128.Idx) : ∃ pc ∈ (runC c i arg2 harg2 arg3 harg3 arg4 harg4 arg5 harg5 arg6 harg6 arg7 harg7 arg8 harg8 hc0 hc1 x0 x1 x2 xs0 xs1).2.2.2.1, y ∈ pc.1.set :=
  View.cover_of_tiledL (runC c i arg2 harg2 arg3 harg3 arg4 harg4 arg5 harg5 arg6 harg6 arg7 harg7 arg8 harg8 hc0 hc1 x0 x1 x2 xs0 xs1).2.2.2.1 S1024x128.size (by sl_kernel_rfl) y
def s1C (hc0 : ¬cond0 i) (hc1 : cond1 i) : Vec F S1024x128 .f32 :=
  VS1.read (Elt F) (VS1.writes (Elt F) VS1.junk (runC c i arg2 harg2 arg3 harg3 arg4 harg4 arg5 harg5 arg6 harg6 arg7 harg7 arg8 harg8 hc0 hc1 x0 x1 x2 xs0 xs1).2.2.2.1)

end Cases

/-- After the body at position `n`: the two outputs' staging buffers, then the two accumulators. -/
def outsAt (c : Dev nD) : (n : ℕ) → n < cfg1.N → Vec F S1x1024 .f32 × Vec F S1024x128 .f32 × Vec F S1x1024 .f32 × Vec F S1024x128 .f32
  | 0, hn => (junk3, junk4,
      s0A c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM0 (Memref.isWhole_whole _) scM1 (Memref.isWhole_whole _) (iblk V c 0 ⟨0, hn⟩) (iblk V c 1 ⟨0, hn⟩) (iblk V c 2 ⟨0, hn⟩) ((hcond0 ⟨0, hn⟩).mpr (Nat.zero_mod _)) (fun h => (fun h => by (try dsimp only at h); omega) ((hcond1 ⟨0, hn⟩).mp h)),
      s1A c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM0 (Memref.isWhole_whole _) scM1 (Memref.isWhole_whole _) (iblk V c 0 ⟨0, hn⟩) (iblk V c 1 ⟨0, hn⟩) (iblk V c 2 ⟨0, hn⟩) ((hcond0 ⟨0, hn⟩).mpr (Nat.zero_mod _)) (fun h => (fun h => by (try dsimp only at h); omega) ((hcond1 ⟨0, hn⟩).mp h)))
  | n + 1, hn =>
    if h0 : (n + 1) % 4 = 0 then
      if h1 : (n + 1) % 4 = 3 then False.elim (by omega)
      else (junk3, junk4,
        s0A c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) (iblk V c 0 ⟨n + 1, hn⟩) (iblk V c 1 ⟨n + 1, hn⟩) (iblk V c 2 ⟨n + 1, hn⟩) ((hcond0 ⟨n + 1, hn⟩).mpr h0) (fun h => h1 ((hcond1 ⟨n + 1, hn⟩).mp h)),
        s1A c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) (iblk V c 0 ⟨n + 1, hn⟩) (iblk V c 1 ⟨n + 1, hn⟩) (iblk V c 2 ⟨n + 1, hn⟩) ((hcond0 ⟨n + 1, hn⟩).mpr h0) (fun h => h1 ((hcond1 ⟨n + 1, hn⟩).mp h)))
    else
      if h1 : (n + 1) % 4 = 3 then
        (out3C c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) (iblk V c 0 ⟨n + 1, hn⟩) (iblk V c 1 ⟨n + 1, hn⟩) (iblk V c 2 ⟨n + 1, hn⟩) (outsAt c n (Nat.lt_of_succ_lt hn)).2.2.1 (outsAt c n (Nat.lt_of_succ_lt hn)).2.2.2 (fun h => h0 ((hcond0 ⟨n + 1, hn⟩).mp h)) ((hcond1 ⟨n + 1, hn⟩).mpr h1),
         out4C c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) (iblk V c 0 ⟨n + 1, hn⟩) (iblk V c 1 ⟨n + 1, hn⟩) (iblk V c 2 ⟨n + 1, hn⟩) (outsAt c n (Nat.lt_of_succ_lt hn)).2.2.1 (outsAt c n (Nat.lt_of_succ_lt hn)).2.2.2 (fun h => h0 ((hcond0 ⟨n + 1, hn⟩).mp h)) ((hcond1 ⟨n + 1, hn⟩).mpr h1),
         s0C c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) (iblk V c 0 ⟨n + 1, hn⟩) (iblk V c 1 ⟨n + 1, hn⟩) (iblk V c 2 ⟨n + 1, hn⟩) (outsAt c n (Nat.lt_of_succ_lt hn)).2.2.1 (outsAt c n (Nat.lt_of_succ_lt hn)).2.2.2 (fun h => h0 ((hcond0 ⟨n + 1, hn⟩).mp h)) ((hcond1 ⟨n + 1, hn⟩).mpr h1),
         s1C c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) (iblk V c 0 ⟨n + 1, hn⟩) (iblk V c 1 ⟨n + 1, hn⟩) (iblk V c 2 ⟨n + 1, hn⟩) (outsAt c n (Nat.lt_of_succ_lt hn)).2.2.1 (outsAt c n (Nat.lt_of_succ_lt hn)).2.2.2 (fun h => h0 ((hcond0 ⟨n + 1, hn⟩).mp h)) ((hcond1 ⟨n + 1, hn⟩).mpr h1))
      else
        (junk3, junk4,
         s0B c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) (iblk V c 0 ⟨n + 1, hn⟩) (iblk V c 1 ⟨n + 1, hn⟩) (iblk V c 2 ⟨n + 1, hn⟩) (outsAt c n (Nat.lt_of_succ_lt hn)).2.2.1 (outsAt c n (Nat.lt_of_succ_lt hn)).2.2.2 (fun h => h0 ((hcond0 ⟨n + 1, hn⟩).mp h)) (fun h => h1 ((hcond1 ⟨n + 1, hn⟩).mp h)),
         s1B c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) (iblk V c 0 ⟨n + 1, hn⟩) (iblk V c 1 ⟨n + 1, hn⟩) (iblk V c 2 ⟨n + 1, hn⟩) (outsAt c n (Nat.lt_of_succ_lt hn)).2.2.1 (outsAt c n (Nat.lt_of_succ_lt hn)).2.2.2 (fun h => h0 ((hcond0 ⟨n + 1, hn⟩).mp h)) (fun h => h1 ((hcond1 ⟨n + 1, hn⟩).mp h)))

theorem outsAt_A (c : Dev nD) (t : Fin cfg1.N) (h0 : t.val % 4 = 0) (h1 : ¬t.val % 4 = 3) :
    outsAt V c t.val t.isLt = (junk3, junk4,
      s0A c (grid1.coords t) (ms0 t) (hs0 t) (ms1 t) (hs1 t) (ms2 t) (hs2 t) (ms3 t) (hs3 t) (ms4 t) (hs4 t) scM0 (Memref.isWhole_whole _) scM1 (Memref.isWhole_whole _) (iblk V c 0 t) (iblk V c 1 t) (iblk V c 2 t) ((hcond0 t).mpr h0) (fun h => h1 ((hcond1 t).mp h)),
      s1A c (grid1.coords t) (ms0 t) (hs0 t) (ms1 t) (hs1 t) (ms2 t) (hs2 t) (ms3 t) (hs3 t) (ms4 t) (hs4 t) scM0 (Memref.isWhole_whole _) scM1 (Memref.isWhole_whole _) (iblk V c 0 t) (iblk V c 1 t) (iblk V c 2 t) ((hcond0 t).mpr h0) (fun h => h1 ((hcond1 t).mp h))) := by
  obtain ⟨n, hn⟩ := t
  cases n with
  | zero => exact rfl
  | succ n => exact (dif_pos h0).trans ((dif_neg h1).trans rfl)

theorem outsAt_B (c : Dev nD) (t : Fin cfg1.N) (h0 : ¬t.val % 4 = 0) (h1 : ¬t.val % 4 = 3) :
    outsAt V c t.val t.isLt = (junk3, junk4,
      s0B c (grid1.coords t) (ms0 t) (hs0 t) (ms1 t) (hs1 t) (ms2 t) (hs2 t) (ms3 t) (hs3 t) (ms4 t) (hs4 t) scM0 (Memref.isWhole_whole _) scM1 (Memref.isWhole_whole _) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2 (fun h => h0 ((hcond0 t).mp h)) (fun h => h1 ((hcond1 t).mp h)),
      s1B c (grid1.coords t) (ms0 t) (hs0 t) (ms1 t) (hs1 t) (ms2 t) (hs2 t) (ms3 t) (hs3 t) (ms4 t) (hs4 t) scM0 (Memref.isWhole_whole _) scM1 (Memref.isWhole_whole _) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2 (fun h => h0 ((hcond0 t).mp h)) (fun h => h1 ((hcond1 t).mp h))) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg1.N) (h0 : ¬t.val % 4 = 0) (h1 : t.val % 4 = 3) :
    outsAt V c t.val t.isLt = (
      out3C c (grid1.coords t) (ms0 t) (hs0 t) (ms1 t) (hs1 t) (ms2 t) (hs2 t) (ms3 t) (hs3 t) (ms4 t) (hs4 t) scM0 (Memref.isWhole_whole _) scM1 (Memref.isWhole_whole _) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2 (fun h => h0 ((hcond0 t).mp h)) ((hcond1 t).mpr h1),
      out4C c (grid1.coords t) (ms0 t) (hs0 t) (ms1 t) (hs1 t) (ms2 t) (hs2 t) (ms3 t) (hs3 t) (ms4 t) (hs4 t) scM0 (Memref.isWhole_whole _) scM1 (Memref.isWhole_whole _) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2 (fun h => h0 ((hcond0 t).mp h)) ((hcond1 t).mpr h1),
      s0C c (grid1.coords t) (ms0 t) (hs0 t) (ms1 t) (hs1 t) (ms2 t) (hs2 t) (ms3 t) (hs3 t) (ms4 t) (hs4 t) scM0 (Memref.isWhole_whole _) scM1 (Memref.isWhole_whole _) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2 (fun h => h0 ((hcond0 t).mp h)) ((hcond1 t).mpr h1),
      s1C c (grid1.coords t) (ms0 t) (hs0 t) (ms1 t) (hs1 t) (ms2 t) (hs2 t) (ms3 t) (hs3 t) (ms4 t) (hs4 t) scM0 (Memref.isWhole_whole _) scM1 (Memref.isWhole_whole _) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2 (fun h => h0 ((hcond0 t).mp h)) ((hcond1 t).mpr h1)) := by
  obtain ⟨n, hn⟩ := t
  cases n with
  | zero => exact (by exfalso; (try dsimp only at h0); exact absurd (Nat.zero_mod _) h0)
  | succ n => exact (dif_neg h0).trans ((dif_pos h1).trans rfl)

end Cert.Kernel.R1

end
-- ==== Proof.KR1Body.lean ====
import proofs.«135971_j70179765616691_2_alg».proof.Proof.Gen.Kernel.Launch
import proofs.«135971_j70179765616691_2_alg».proof.Proof.Gen.Kernel.Skeleton
import proofs.«135971_j70179765616691_2_alg».proof.Proof.Gen.Kernel.Points
import proofs.«135971_j70179765616691_2_alg».proof.Proof.KR1Dat
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-
  The column-sum pass: the invariant between grid points, the proof data, and the body obligation.

  After point n both accumulators hold `outsAt`'s last two components at n; every other scoped buffer rides along
  unopened. The body's three runs are matched to the three residues of the point modulo 4.
-/
namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev restBut (c : Dev nD) : sProp 𝕄 :=
  Pipeline.scopedRestBut (Ix := Unit) (Name := ℕ) (U := UR sig nD τ) (Lvl := ℕ) (Val := Elt F) spec1 c [cc1_scratch0, cc1_scratch1]

theorem scopedRest_split (c : Dev nD) :
    (Pipeline.scopedRest (Ix := Unit) (Name := ℕ) (U := UR sig nD τ) (Lvl := ℕ) (Val := Elt F) spec1 c : sProp 𝕄)
      = iprop(((∃ d, owns (c : Thread nD τ) scM0 fullShare d) ∗ (∃ d, owns (c : Thread nD τ) scM1 fullShare d)) ∗ restBut c) := by
  rw [Pipeline.scopedRest_split_of_list spec1 c [cc1_scratch0, cc1_scratch1] (by decide) (by decide)]
  simp only [Idealize.SL.BI.bigSepL_cons_cons, Idealize.SL.BI.bigSepL_singleton, scM0, scM1, owns_whole]
  rfl

def PhiS (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop((owns (c : Thread nD τ) scM0 fullShare ((outsAt V c n hn).2.2.1) ∗ owns (c : Thread nD τ) scM1 fullShare ((outsAt V c n hn).2.2.2)) ∗ restBut c)

theorem PhiS_zero (c : Dev nD) (n : ℕ) (h : n ≤ cfg1.N) (hz : n = 0) :
    PhiS V c n h = Pipeline.scopedRest (Ix := Unit) (Name := ℕ) (U := UR sig nD τ) (Lvl := ℕ) (Val := Elt F) spec1 c := by
  subst hz; rfl
theorem PhiS_succ (c : Dev nD) (n : ℕ) (hn : n < cfg1.N) :
    PhiS V c (n + 1) hn = iprop((owns (c : Thread nD τ) scM0 fullShare ((outsAt V c n hn).2.2.1) ∗ owns (c : Thread nD τ) scM1 fullShare ((outsAt V c n hn).2.2.2)) ∗ restBut c) := rfl
theorem PhiS_pos (c : Dev nD) (n : ℕ) (h : n ≤ cfg1.N) (hz : n ≠ 0) :
    PhiS V c n h = iprop((owns (c : Thread nD τ) scM0 fullShare ((outsAt V c (n - 1) (by omega)).2.2.1) ∗ owns (c : Thread nD τ) scM1 fullShare ((outsAt V c (n - 1) (by omega)).2.2.2)) ∗ restBut c) := by
  cases n with
  | zero => exact absurd rfl hz
  | succ n => rfl

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
    | ⟨4, _⟩ => (outsAt V c t.val t.isLt).2.1
  Φ t := PhiS V c t.val (Nat.le_of_lt_succ t.isLt)
  q _ := fullShare
  owed _ := 0

theorem A_eq (c : Dev nD) (w : Fin cfg1.W) : (dat V c).A w = V c (Pipeline.arrRef spec1 w) := by dsimp only [dat]
theorem PhiS_castSucc (c : Dev nD) (t : Fin cfg1.N) : (dat V c).Φ t.castSucc = PhiS V c t.val (Nat.le_of_lt t.isLt) := by
  dsimp only [dat]; simp only [Fin.coe_castSucc]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = (outsAt V c t.val t.isLt).1 := by dsimp only [dat]
theorem after4 (c : Dev nD) (t : Fin cfg1.N) : (dat V c).after 4 t = (outsAt V c t.val t.isLt).2.1 := by dsimp only [dat]
theorem before0 (c : Dev nD) (t : Fin cfg1.N) (d) : (dat V c).before 0 t d = iblk V c 0 t := before0_of V (dat V c) (A_eq V c 0) (after0 V c) t d
theorem before1 (c : Dev nD) (t : Fin cfg1.N) (d) : (dat V c).before 1 t d = iblk V c 1 t := before1_of V (dat V c) (A_eq V c 1) (after1 V c) t d
theorem before2 (c : Dev nD) (t : Fin cfg1.N) (d) : (dat V c).before 2 t d = iblk V c 2 t := before2_of V (dat V c) (A_eq V c 2) (after2 V c) t d

theorem Phi_start (c : Dev nD) (t : Fin cfg1.N) :
    (dat V c).Φ t.castSucc ⊢ iprop(((∃ d, owns (c : Thread nD τ) scM0 fullShare d) ∗ (∃ d, owns (c : Thread nD τ) scM1 fullShare d)) ∗ restBut c) := by
  rw [PhiS_castSucc V c t]
  by_cases hz : t.val = 0
  · rw [PhiS_zero V c _ _ hz, scopedRest_split]
  · rw [PhiS_pos V c _ _ hz]
    iintro ⟨⟨HS0, HS1⟩, Hr⟩
    isplitl [HS0 HS1]
    · isplitl [HS0]; · iexists _; iexact HS0
      iexists _; iexact HS1
    iexact Hr

theorem Phi_pos (c : Dev nD) (t : Fin cfg1.N) (hz : t.val ≠ 0) :
    (dat V c).Φ t.castSucc = iprop((owns (c : Thread nD τ) scM0 fullShare ((outsAt V c (t.val - 1) (Nat.lt_of_le_of_lt (Nat.sub_le _ _) t.isLt)).2.2.1) ∗ owns (c : Thread nD τ) scM1 fullShare ((outsAt V c (t.val - 1) (Nat.lt_of_le_of_lt (Nat.sub_le _ _) t.isLt)).2.2.2)) ∗ restBut c) := by
  rw [PhiS_castSucc V c t, PhiS_pos V c _ _ hz]

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  by_cases h0 : t.val % 4 = 0
  · have h1 : ¬t.val % 4 = 3 := by omega
    have hc0 : cond0 (grid1.coords t) := (hcond0 t).mpr h0
    have hc1 : ¬cond1 (grid1.coords t) := fun h => h1 ((hcond1 t).mp h)
    rw [Dat.leavesExact_idle (dat V c) 3 t (idle3 t hc1) (noFlush3 t hc1), Dat.leavesExact_idle (dat V c) 4 t (idle4 t hc1) (noFlush4 t hc1)]
    rw [outsAt_A V c t h0 h1]
    unfold s0A s1A; (try dsimp only)
    iintro ⟨HΦ, Ho, ⟨%d0, H0⟩, ⟨%d1, H1⟩, ⟨%d2, H2⟩, ⟨%d3, H3⟩, ⟨%d4, H4⟩⟩
    ihave HΦ' := (Phi_start V c t) $$ HΦ
    icases HΦ' with ⟨⟨HS0, HS1⟩, Hrest⟩
    iapply ((runA c (grid1.coords t) _ _ _ _ _ _ _ _ _ _ _ _ _ _ hc0 hc1 (iblk V c 0 t) (iblk V c 1 t) (iblk V c 2 t)).2.2 _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HS0 HS1 Hrest]
    · isplitl [HS0 HS1]
      · isplitl [HS0]
        · unfold owns; iexists _; isplitr
          swap; · iexact HS0
          ipureintro; exact View.read_writes_of_cover _ _ _ _ _ (scover0A c _ _ _ _ _ _ _ _ _ _ _ _ _ _ _ _ _ _ _ _)
        unfold owns; iexists _; isplitr
        swap; · iexact HS1
        ipureintro; exact View.read_writes_of_cover _ _ _ _ _ (scover1A c _ _ _ _ _ _ _ _ _ _ _ _ _ _ _ _ _ _ _ _)
      iexact Hrest
    isplitl [Ho]; · iexact Ho
    isplitl [H0]; · iexact H0
    isplitl [H1]; · iexact H1
    isplitl [H2]; · iexact H2
    isplitl [H3]; · iexists _; iexact H3
    iexists _; iexact H4
  · have hz : t.val ≠ 0 := fun h => h0 (by rw [h])
    have hc0 : ¬cond0 (grid1.coords t) := fun h => h0 ((hcond0 t).mp h)
    by_cases h1 : t.val % 4 = 3
    · have hc1 : cond1 (grid1.coords t) := (hcond1 t).mpr h1
      rw [show (dat V c).leavesExact 3 t = owns (c : Thread nD τ) (ms3 t) fullShare ((dat V c).after 3 t) from by
        unfold Dat.leavesExact; rw [live3 t hc1], after3]
      rw [show (dat V c).leavesExact 4 t = owns (c : Thread nD τ) (ms4 t) fullShare ((dat V c).after 4 t) from by
        unfold Dat.leavesExact; rw [live4 t hc1], after4]
      rw [outsAt_C V c t h0 h1]
      unfold out3C out4C s0C s1C; (try dsimp only)
      rw [Phi_pos V c t hz]
      iintro ⟨⟨⟨HS0, HS1⟩, Hrest⟩, Ho, ⟨%d0, H0⟩, ⟨%d1, H1⟩, ⟨%d2, H2⟩, ⟨%d3, H3⟩, ⟨%d4, H4⟩⟩
      iapply ((runC c (grid1.coords t) _ _ _ _ _ _ _ _ _ _ _ _ _ _ hc0 hc1 (iblk V c 0 t) (iblk V c 1 t) (iblk V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest]
      · isplitl [HS0 HS1]
        · isplitl [HS0]
          · unfold owns; iexists _; isplitr
            swap; · iexact HS0
            ipureintro; exact View.read_writes_of_cover _ _ _ _ _ (scover0C c _ _ _ _ _ _ _ _ _ _ _ _ _ _ _ _ _ _ _ _ _ _)
          unfold owns; iexists _; isplitr
          swap; · iexact HS1
          ipureintro; exact View.read_writes_of_cover _ _ _ _ _ (scover1C c _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover3C c _ _ _ _ _ _ _ _ _ _ _ _ _ _ _ _ _ _ _ _ _ _)
      unfold owns; iexists _; isplitr
      swap; · iexact H4
      ipureintro; exact View.read_writes_of_cover _ _ _ _ _ (cover4C c _ _ _ _ _ _ _ _ _ _ _ _ _ _ _ _ _ _ _ _ _ _)
    · have hc1 : ¬cond1 (grid1.coords t) := fun h => h1 ((hcond1 t).mp h)
      rw [Dat.leavesExact_idle (dat V c) 3 t (idle3 t hc1) (noFlush3 t hc1), Dat.leavesExact_idle (dat V c) 4 t (idle4 t hc1) (noFlush4 t hc1)]
      rw [outsAt_B V c t h0 h1]
      unfold s0B s1B; (try dsimp only)
      rw [Phi_pos V c t hz]
      iintro ⟨⟨⟨HS0, HS1⟩, Hrest⟩, Ho, ⟨%d0, H0⟩, ⟨%d1, H1⟩, ⟨%d2, H2⟩, ⟨%d3, H3⟩, ⟨%d4, H4⟩⟩
      iapply ((runB c (grid1.coords t) _ _ _ _ _ _ _ _ _ _ _ _ _ _ hc0 hc1 (iblk V c 0 t) (iblk V c 1 t) (iblk V c 2 t) _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hrest]
      · isplitl [HS0 HS1]
        · isplitl [HS0]
          · unfold owns; iexists _; isplitr
            swap; · iexact HS0
            ipureintro; exact View.read_writes_of_cover _ _ _ _ _ (scover0B c _ _ _ _ _ _ _ _ _ _ _ _ _ _ _ _ _ _ _ _ _ _)
          unfold owns; iexists _; isplitr
          swap; · iexact HS1
          ipureintro; exact View.read_writes_of_cover _ _ _ _ _ (scover1B c _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexists _; iexact H3
      iexists _; iexact H4

theorem body_obligation (c : Dev nD) : BodyObligation (dat (F := F) V c) (defs₀ (F := F)) Variants.none () Set.univ := fun t => by
  rw [bigSep_W1, bigSep_W1]
  exact sound_body V c t

end Cert.Kernel.R1

end
-- ==== Proof.KR1Out.lean ====
import proofs.«135971_j70179765616691_2_alg».proof.Proof.Gen.Kernel.Launch
import proofs.«135971_j70179765616691_2_alg».proof.Proof.Gen.Kernel.Skeleton
import proofs.«135971_j70179765616691_2_alg».proof.Proof.Gen.Kernel.Points
import proofs.«135971_j70179765616691_2_alg».proof.Proof.KR1Body
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-
  Launch 1: after the last grid point the invariant gives the launch's scoped rest back, the accumulator's named
  contents forgotten; before the first point the scoped rest is the invariant.
-/
namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hout (c : Dev nD) : (dat V c).Φ (Fin.last cfg1.N) ⊢
    iprop(BI.emp ∗ BI.emp ∗ Pipeline.scopedRest (Ix := Unit) (Name := ℕ) (U := UR sig nD τ) (Lvl := ℕ) (Val := Elt F) spec1 c) := by
  rw [show (dat V c).Φ (Fin.last cfg1.N) = PhiS V c cfg1.N (Nat.le_refl _) from rfl,
    PhiS_pos V c _ _ (by rw [show cfg1.N = 16 from N_1]; decide), scopedRest_split]
  iintro ⟨⟨HS0, HS1⟩, Hr⟩
  isplitr; · iempintro
  isplitr; · iempintro
  isplitl [HS0 HS1]
  · isplitl [HS0]; · iexists _; iexact HS0
    iexists _; iexact HS1
  iexact Hr

theorem hin (c : Dev nD) (P : sProp 𝕄) :
    iprop(BI.emp ∗ P ∗ Pipeline.scopedRest (Ix := Unit) (Name := ℕ) (U := UR sig nD τ) (Lvl := ℕ) (Val := Elt F) spec1 c) ⊢ (dat V c).Φ 0 := by
  rw [show (dat V c).Φ 0 = Pipeline.scopedRest (Ix := Unit) (Name := ℕ) (U := UR sig nD τ) (Lvl := ℕ) (Val := Elt F) spec1 c from rfl]
  iintro ⟨-, -, Hr⟩; iexact Hr

end Cert.Kernel.R1

end
-- ==== Proof.KR2Runs.lean ====
import proofs.«135971_j70179765616691_2_alg».proof.Proof.Gen.Kernel.Launch
import proofs.«135971_j70179765616691_2_alg».proof.Proof.Gen.Kernel.Skeleton
import proofs.«135971_j70179765616691_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-
  The output pass (the third kernel launch), its body run on any staging buffers.

  A grid point is (i, k) with k the fast coordinate, point t = 4 i + k: row block i of the attention matrix is
  swept along its four column blocks, accumulating its product with the normalised aggregate; at k = 3 the bias is
  added and the leaky rectifier applied, into the output block.
-/
namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0 (i : grid2.Coords) : Prop := (Scalar.cmpi .ne (Scalar.extui (Scalar.cmpi .eq (BitVec.ofNat 32 (i 1).val) 0#32)) 0#32) = 1#1
theorem hcond0 : ∀ t : Fin cfg2.N, cond0 (grid2.coords t) ↔ t.val % 4 = 0 :=
  (by decide +kernel : ∀ t : Fin grid2.N, cond0 (grid2.coords t) ↔ t.val % 4 = 0)
abbrev cond1 (i : grid2.Coords) : Prop := k2_cond2 i = 1#1
theorem hcond1 : ∀ t : Fin cfg2.N, cond1 (grid2.coords t) ↔ t.val % 4 = 3 :=
  (by decide +kernel : ∀ t : Fin grid2.N, cond1 (grid2.coords t) ↔ t.val % 4 = 3)

theorem live0 : ∀ t : Fin cfg2.N, cfg2.idle 0 (grid2.coords t) = false := by decide +kernel
theorem live1 : ∀ t : Fin cfg2.N, cfg2.idle 1 (grid2.coords t) = false := by decide +kernel
theorem live2 : ∀ t : Fin cfg2.N, cfg2.idle 2 (grid2.coords t) = false := by decide +kernel
theorem live3 : ∀ t : Fin cfg2.N, cfg2.idle 3 (grid2.coords t) = false := by decide +kernel
theorem idle4 : ∀ t : Fin cfg2.N, ¬cond1 (grid2.coords t) → cfg2.idle 4 (grid2.coords t) = true := by decide +kernel
theorem noFlush4 : ∀ t : Fin cfg2.N, ¬cond1 (grid2.coords t) → (cfg2.win 4).flush t = false := by decide +kernel
theorem live4 : ∀ t : Fin cfg2.N, cond1 (grid2.coords t) → cfg2.idle 4 (grid2.coords t) = false := by decide +kernel

abbrev ms0 (t : Fin cfg2.N) : Memref sig .tc .vmem S1024x1024 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S1024x1 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S1024x128 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1x128 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1024x128 .f32 := win2_4.stage (cfg2.slots t 4)
abbrev hs4 (t : Fin cfg2.N) : (ms4 t).IsWhole := hstage2_4 ((cfg2.slots t 4).cast nbuf2_4)
/-- The accumulator of the row block's product. -/
abbrev scM : Memref sig .tc .vmem S1024x128 .f32 := Memref.whole cc2_scratch0
abbrev VS : View sig .tc .vmem S1024x128 .f32 := scM.view
abbrev VO4 : View sig .tc .vmem S1024x128 .f32 := (Memref.whole cc2_stg4_0 : Memref sig .tc .vmem S1024x128 .f32).view

set_option maxHeartbeats 1000000 in
/-- k = 0: the accumulator, found at anything, is reset and then holds this block's product; the output is handed
    back untouched. -/
noncomputable def runA (c : Dev nD) (i : grid2.Coords) (arg2 : Memref sig .tc .vmem S1024x1024 .bf16) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole)
    (hc0 : cond0 i) (hc1 : ¬cond1 i) (x0 : Vec F S1024x1024 .bf16) (x1 : Vec F S1024x1 .f32) (x2 : Vec F S1024x128 .f32) (x3 : Vec F S1x128 .f32) :
    { LS : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6
                ∗ (∃ f, arg7.view.loc (c : Thread nD τ) ↦[arg7.view.set]{fullShare} arg7.view.writes (Elt F) f LS)) -∗ K ⟨⟩))
          ⊢ wp frame (wpE (defs₀ (F := F)) Variants.none c none) E (cc2__final_kernel i arg2 harg2 arg3 harg3 arg4 harg4 arg5 harg5 arg6 harg6 arg7 harg7) K } := by
  refine ⟨?_, fun xi6 E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%f3, %hf3, H3⟩, ⟨%f6, %hf6, H6⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; · ipureintro; exact harg6.read_unread _
      iexact H6
    iexists _; iexact HS

set_option maxHeartbeats 1000000 in
/-- 0 < k < 3: the accumulator, found at what the point before left, gains this block's product. -/
noncomputable def runB (c : Dev nD) (i : grid2.Coords) (arg2 : Memref sig .tc .vmem S1024x1024 .bf16) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole)
    (hc0 : ¬cond0 i) (hc1 : ¬cond1 i) (x0 : Vec F S1024x1024 .bf16) (x1 : Vec F S1024x1 .f32) (x2 : Vec F S1024x128 .f32) (x3 : Vec F S1x128 .f32)
    (xs : Vec F S1024x128 .f32) :
    { LS : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6
                ∗ (∃ f, arg7.view.loc (c : Thread nD τ) ↦[arg7.view.set]{fullShare} arg7.view.writes (Elt F) f LS)) -∗ K ⟨⟩))
          ⊢ wp frame (wpE (defs₀ (F := F)) Variants.none c none) E (cc2__final_kernel i arg2 harg2 arg3 harg3 arg4 harg4 arg5 harg5 arg6 harg6 arg7 harg7) K } := by
  refine ⟨?_, fun xi6 E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%f3, %hf3, H3⟩, ⟨%f6, %hf6, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf6
    obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; · ipureintro; exact harg6.read_unread _
      iexact H6
    iexists _; iexact HS

set_option maxHeartbeats 1000000 in
/-- k = 3: as before, then bias and rectifier into the output block. -/
noncomputable def runC (c : Dev nD) (i : grid2.Coords) (arg2 : Memref sig .tc .vmem S1024x1024 .bf16) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole)
    (hc0 : ¬cond0 i) (hc1 : cond1 i) (x0 : Vec F S1024x1024 .bf16) (x1 : Vec F S1024x1 .f32) (x2 : Vec F S1024x128 .f32) (x3 : Vec F S1x128 .f32)
    (xs : Vec F S1024x128 .f32) :
    Σ' (L6 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS)) -∗ K ⟨⟩))
          ⊢ wp frame (wpE (defs₀ (F := F)) Variants.none c none) E (cc2__final_kernel i arg2 harg2 arg3 harg3 arg4 harg4 arg5 harg5 arg6 harg6 arg7 harg7) K } := by
  refine ⟨?_, ?_, fun E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%f3, %hf3, H3⟩, ⟨%d6, %f6, -, H6⟩, ⟨%fs, %hfs, HS⟩, Hk⟩
    obtain rfl := harg2.eq_unread hf0; obtain rfl := harg3.eq_unread hf1; obtain rfl := harg4.eq_unread hf2; obtain rfl := harg5.eq_unread hf3
    obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    iexists _; iexact HS

end Cert.Kernel.R2

end
-- ==== Proof.KR2Dat.lean ====
import proofs.«135971_j70179765616691_2_alg».proof.Proof.Gen.Kernel.Launch
import proofs.«135971_j70179765616691_2_alg».proof.Proof.Gen.Kernel.Skeleton
import proofs.«135971_j70179765616691_2_alg».proof.Proof.Gen.Kernel.Points
import proofs.«135971_j70179765616691_2_alg».proof.Proof.KR2Runs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-
  The output pass: what its buffers hold after every grid point.

  After point t = 4 i + k the accumulator holds the sum, over column blocks 0 … k, of row block i of the attention
  matrix times the rows of the normalised aggregate; the output's staging buffer is written only at k = 3, with the
  rectified sum of the finished accumulator and the bias.
-/
namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

def junk4 : Vec F S1024x128 .f32 := VO4.read (Elt F) VO4.junk

section Cases
variable (c : Dev nD) (i : grid2.Coords) (arg2 : Memref sig .tc .vmem S1024x1024 .bf16) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole)
variable (x0 : Vec F S1024x1024 .bf16) (x1 : Vec F S1024x1 .f32) (x2 : Vec F S1024x128 .f32) (x3 : Vec F S1x128 .f32) (xs : Vec F S1024x128 .f32)

theorem scoverA (hc0 : cond0 i) (hc1 : ¬cond1 i) (y : S1024x128.Idx) : ∃ pc ∈ (runA c i arg2 harg2 arg3 harg3 arg4 harg4 arg5 harg5 arg6 harg6 arg7 harg7 hc0 hc1 x0 x1 x2 x3).1, y ∈ pc.1.set :=
  View.cover_of_tiledL (runA c i arg2 harg2 arg3 harg3 arg4 harg4 arg5 harg5 arg6 harg6 arg7 harg7 hc0 hc1 x0 x1 x2 x3).1 S1024x128.size (by sl_kernel_rfl) y
def sA (hc0 : cond0 i) (hc1 : ¬cond1 i) : Vec F S1024x128 .f32 :=
  VS.read (Elt F) (VS.writes (Elt F) VS.junk (runA c i arg2 harg2 arg3 harg3 arg4 harg4 arg5 harg5 arg6 harg6 arg7 harg7 hc0 hc1 x0 x1 x2 x3).1)
theorem scoverB (hc0 : ¬cond0 i) (hc1 : ¬cond1 i) (y : S1024x128.Idx) : ∃ pc ∈ (runB c i arg2 harg2 arg3 harg3 arg4 harg4 arg5 harg5 arg6 harg6 arg7 harg7 hc0 hc1 x0 x1 x2 x3 xs).1, y ∈ pc.1.set :=
  View.cover_of_tiledL (runB c i arg2 harg2 arg3 harg3 arg4 harg4 arg5 harg5 arg6 harg6 arg7 harg7 hc0 hc1 x0 x1 x2 x3 xs).1 S1024x128.size (by sl_kernel_rfl) y
def sB (hc0 : ¬cond0 i) (hc1 : ¬cond1 i) : Vec F S1024x128 .f32 :=
  VS.read (Elt F) (VS.writes (Elt F) VS.junk (runB c i arg2 harg2 arg3 harg3 arg4 harg4 arg5 harg5 arg6 harg6 arg7 harg7 hc0 hc1 x0 x1 x2 x3 xs).1)
theorem cover4C (hc0 : ¬cond0 i) (hc1 : cond1 i) (y : S1024x128.Idx) : ∃ pc ∈ (runC c i arg2 harg2 arg3 harg3 arg4 harg4 arg5 harg5 arg6 harg6 arg7 harg7 hc0 hc1 x0 x1 x2 x3 xs).1, y ∈ pc.1.set :=
  View.cover_of_tiledL (runC c i arg2 harg2 arg3 harg3 arg4 harg4 arg5 harg5 arg6 harg6 arg7 harg7 hc0 hc1 x0 x1 x2 x3 xs).1 S1024x128.size (by sl_kernel_rfl) y
def out4C (hc0 : ¬cond0 i) (hc1 : cond1 i) : Vec F S1024x128 .f32 :=
  VO4.read (Elt F) (VO4.writes (Elt F) VO4.junk (runC c i arg2 harg2 arg3 harg3 arg4 harg4 arg5 harg5 arg6 harg6 arg7 harg7 hc0 hc1 x0 x1 x2 x3 xs).1)
theorem scoverC (hc0 : ¬cond0 i) (hc1 : cond1 i) (y : S1024x128.Idx) : ∃ pc ∈ (runC c i arg2 harg2 arg3 harg3 arg4 harg4 arg5 harg5 arg6 harg6 arg7 harg7 hc0 hc1 x0 x1 x2 x3 xs).2.1, y ∈ pc.1.set :=
  View.cover_of_tiledL (runC c i arg2 harg2 arg3 harg3 arg4 harg4 arg5 harg5 arg6 harg6 arg7 harg7 hc0 hc1 x0 x1 x2 x3 xs).2.1 S1024x128.size (by sl_kernel_rfl) y
def sC (hc0 : ¬cond0 i) (hc1 : cond1 i) : Vec F S1024x128 .f32 :=
  VS.read (Elt F) (VS.writes (Elt F) VS.junk (runC c i arg2 harg2 arg3 harg3 arg4 harg4 arg5 harg5 arg6 harg6 arg7 harg7 hc0 hc1 x0 x1 x2 x3 xs).2.1)

end Cases

/-- After the body at position `n`: the output's staging buffer, then the accumulator. -/
def outsAt (c : Dev nD) : (n : ℕ) → n < cfg2.N → Vec F S1024x128 .f32 × Vec F S1024x128 .f32
  | 0, hn => (junk4,
      sA c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) (iblk V c 0 ⟨0, hn⟩) (iblk V c 1 ⟨0, hn⟩) (iblk V c 2 ⟨0, hn⟩) (iblk V c 3 ⟨0, hn⟩) ((hcond0 ⟨0, hn⟩).mpr (Nat.zero_mod _)) (fun h => (fun h => by (try dsimp only at h); omega) ((hcond1 ⟨0, hn⟩).mp h)))
  | n + 1, hn =>
    if h0 : (n + 1) % 4 = 0 then
      if h1 : (n + 1) % 4 = 3 then False.elim (by omega)
      else (junk4,
        sA c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (iblk V c 0 ⟨n + 1, hn⟩) (iblk V c 1 ⟨n + 1, hn⟩) (iblk V c 2 ⟨n + 1, hn⟩) (iblk V c 3 ⟨n + 1, hn⟩) ((hcond0 ⟨n + 1, hn⟩).mpr h0) (fun h => h1 ((hcond1 ⟨n + 1, hn⟩).mp h)))
    else
      if h1 : (n + 1) % 4 = 3 then
        (out4C c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (iblk V c 0 ⟨n + 1, hn⟩) (iblk V c 1 ⟨n + 1, hn⟩) (iblk V c 2 ⟨n + 1, hn⟩) (iblk V c 3 ⟨n + 1, hn⟩) (outsAt c n (Nat.lt_of_succ_lt hn)).2 (fun h => h0 ((hcond0 ⟨n + 1, hn⟩).mp h)) ((hcond1 ⟨n + 1, hn⟩).mpr h1),
         sC c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (iblk V c 0 ⟨n + 1, hn⟩) (iblk V c 1 ⟨n + 1, hn⟩) (iblk V c 2 ⟨n + 1, hn⟩) (iblk V c 3 ⟨n + 1, hn⟩) (outsAt c n (Nat.lt_of_succ_lt hn)).2 (fun h => h0 ((hcond0 ⟨n + 1, hn⟩).mp h)) ((hcond1 ⟨n + 1, hn⟩).mpr h1))
      else
        (junk4,
         sB c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (iblk V c 0 ⟨n + 1, hn⟩) (iblk V c 1 ⟨n + 1, hn⟩) (iblk V c 2 ⟨n + 1, hn⟩) (iblk V c 3 ⟨n + 1, hn⟩) (outsAt c n (Nat.lt_of_succ_lt hn)).2 (fun h => h0 ((hcond0 ⟨n + 1, hn⟩).mp h)) (fun h => h1 ((hcond1 ⟨n + 1, hn⟩).mp h)))

theorem outsAt_A (c : Dev nD) (t : Fin cfg2.N) (h0 : t.val % 4 = 0) (h1 : ¬t.val % 4 = 3) :
    outsAt V c t.val t.isLt = (junk4,
      sA c (grid2.coords t) (ms0 t) (hs0 t) (ms1 t) (hs1 t) (ms2 t) (hs2 t) (ms3 t) (hs3 t) (ms4 t) (hs4 t) scM (Memref.isWhole_whole _) (iblk V c 0 t) (iblk V c 1 t) (iblk V c 2 t) (iblk V c 3 t) ((hcond0 t).mpr h0) (fun h => h1 ((hcond1 t).mp h))) := by
  obtain ⟨n, hn⟩ := t
  cases n with
  | zero => exact rfl
  | succ n => exact (dif_pos h0).trans ((dif_neg h1).trans rfl)

theorem outsAt_B (c : Dev nD) (t : Fin cfg2.N) (h0 : ¬t.val % 4 = 0) (h1 : ¬t.val % 4 = 3) :
    outsAt V c t.val t.isLt = (junk4,
      sB c (grid2.coords t) (ms0 t) (hs0 t) (ms1 t) (hs1 t) (ms2 t) (hs2 t) (ms3 t) (hs3 t) (ms4 t) (hs4 t) scM (Memref.isWhole_whole _) (iblk V c 0 t) (iblk V c 1 t) (iblk V c 2 t) (iblk V c 3 t) (outsAt V c (t.val - 1) (Nat.lt_of_le_of_lt (Nat.sub_le _ _) t.isLt)).2 (fun h => h0 ((hcond0 t).mp h)) (fun h => h1 ((hcond1 t).mp h))) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg2.N) (h0 : ¬t.val % 4 = 0) (h1 : t.val % 4 = 3) :
    outsAt V c t.val t.isLt = (
      out4C c (grid2.coords t) (ms0 t) (hs0 t) (ms1 t) (hs1 t) (ms2 t) (hs2 t) (ms3 t) (hs3 t) (ms4 t) (hs4 t) scM (Memref.isWhole_whole _) (iblk V c 0 t) (iblk V c 1 t) (iblk V c 2 t) (iblk V c 3 t) (outsAt V c (t.val - 1) (Nat.lt_of_le_of_lt (Nat.sub_le _ _) t.isLt)).2 (fun h => h0 ((hcond0 t).mp h)) ((hcond1 t).mpr h1),
      sC c (grid2.coords t) (ms0 t) (hs0 t) (ms1 t) (hs1 t) (ms2 t) (hs2 t) (ms3 t) (hs3 t) (ms4 t) (hs4 t) scM (Memref.isWhole_whole _) (iblk V c 0 t) (iblk V c 1 t) (iblk V c 2 t) (iblk V c 3 t) (outsAt V c (t.val - 1) (Nat.lt_of_le_of_lt (Nat.sub_le _ _) t.isLt)).2 (fun h => h0 ((hcond0 t).mp h)) ((hcond1 t).mpr h1)) := by
  obtain ⟨n, hn⟩ := t
  cases n with
  | zero => exact (by exfalso; (try dsimp only at h0); exact absurd (Nat.zero_mod _) h0)
  | succ n => exact (dif_neg h0).trans ((dif_pos h1).trans rfl)

end Cert.Kernel.R2

end
-- ==== Proof.KR2Body.lean ====
import proofs.«135971_j70179765616691_2_alg».proof.Proof.Gen.Kernel.Launch
import proofs.«135971_j70179765616691_2_alg».proof.Proof.Gen.Kernel.Skeleton
import proofs.«135971_j70179765616691_2_alg».proof.Proof.Gen.Kernel.Points
import proofs.«135971_j70179765616691_2_alg».proof.Proof.KR2Dat
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-
  The output pass: the invariant between grid points, the proof data, and the body obligation.
-/
namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev restBut (c : Dev nD) : sProp 𝕄 :=
  Pipeline.scopedRestBut (Ix := Unit) (Name := ℕ) (U := UR sig nD τ) (Lvl := ℕ) (Val := Elt F) spec2 c [cc2_scratch0]

theorem scopedRest_split (c : Dev nD) :
    (Pipeline.scopedRest (Ix := Unit) (Name := ℕ) (U := UR sig nD τ) (Lvl := ℕ) (Val := Elt F) spec2 c : sProp 𝕄)
      = iprop((∃ d, owns (c : Thread nD τ) scM fullShare d) ∗ restBut c) := by
  rw [Pipeline.scopedRest_split_of_list spec2 c [cc2_scratch0] (by decide) (by decide)]
  simp only [Idealize.SL.BI.bigSepL_singleton, scM, owns_whole]
  rfl

def PhiS (c : Dev nD) : (n : ℕ) → n ≤ cfg2.N → sProp 𝕄
  | 0, _ => Pipeline.scopedRest (Ix := Unit) (Name := ℕ) (U := UR sig nD τ) (Lvl := ℕ) (Val := Elt F) spec2 c
  | n + 1, hn => iprop(owns (c : Thread nD τ) scM fullShare ((outsAt V c n hn).2) ∗ restBut c)

theorem PhiS_zero (c : Dev nD) (n : ℕ) (h : n ≤ cfg2.N) (hz : n = 0) :
    PhiS V c n h = Pipeline.scopedRest (Ix := Unit) (Name := ℕ) (U := UR sig nD τ) (Lvl := ℕ) (Val := Elt F) spec2 c := by
  subst hz; rfl
theorem PhiS_succ (c : Dev nD) (n : ℕ) (hn : n < cfg2.N) :
    PhiS V c (n + 1) hn = iprop(owns (c : Thread nD τ) scM fullShare ((outsAt V c n hn).2) ∗ restBut c) := rfl
theorem PhiS_pos (c : Dev nD) (n : ℕ) (h : n ≤ cfg2.N) (hz : n ≠ 0) :
    PhiS V c n h = iprop(owns (c : Thread nD τ) scM fullShare ((outsAt V c (n - 1) (by omega)).2) ∗ restBut c) := by
  cases n with
  | zero => exact absurd rfl hz
  | succ n => rfl

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by dsimp only [dat]
theorem PhiS_castSucc (c : Dev nD) (t : Fin cfg2.N) : (dat V c).Φ t.castSucc = PhiS V c t.val (Nat.le_of_lt t.isLt) := by
  dsimp only [dat]; simp only [Fin.coe_castSucc]
theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = (outsAt V c t.val t.isLt).1 := by dsimp only [dat]
theorem before0 (c : Dev nD) (t : Fin cfg2.N) (d) : (dat V c).before 0 t d = iblk V c 0 t := before0_of V (dat V c) (A_eq V c 0) (after0 V c) t d
theorem before1 (c : Dev nD) (t : Fin cfg2.N) (d) : (dat V c).before 1 t d = iblk V c 1 t := before1_of V (dat V c) (A_eq V c 1) (after1 V c) t d
theorem before2 (c : Dev nD) (t : Fin cfg2.N) (d) : (dat V c).before 2 t d = iblk V c 2 t := before2_of V (dat V c) (A_eq V c 2) (after2 V c) t d
theorem before3 (c : Dev nD) (t : Fin cfg2.N) (d) : (dat V c).before 3 t d = iblk V c 3 t := before3_of V (dat V c) (A_eq V c 3) (after3 V c) t d

theorem Phi_start (c : Dev nD) (t : Fin cfg2.N) :
    (dat V c).Φ t.castSucc ⊢ iprop((∃ d, owns (c : Thread nD τ) scM fullShare d) ∗ restBut c) := by
  rw [PhiS_castSucc V c t]
  by_cases hz : t.val = 0
  · rw [PhiS_zero V c _ _ hz, scopedRest_split]
  · rw [PhiS_pos V c _ _ hz]
    iintro ⟨HS, Hr⟩
    isplitl [HS]; · iexists _; iexact HS
    iexact Hr

theorem Phi_pos (c : Dev nD) (t : Fin cfg2.N) (hz : t.val ≠ 0) :
    (dat V c).Φ t.castSucc = iprop(owns (c : Thread nD τ) scM fullShare ((outsAt V c (t.val - 1) (Nat.lt_of_le_of_lt (Nat.sub_le _ _) t.isLt)).2) ∗ restBut c) := by
  rw [PhiS_castSucc V c t, PhiS_pos V c _ _ hz]

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t)

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  rw [show (dat V c).leavesExact 3 t = owns (c : Thread nD τ) (ms3 t) fullShare ((dat V c).after 3 t) from by
    unfold Dat.leavesExact; rw [live3 t], after3]
  by_cases h0 : t.val % 4 = 0
  · have h1 : ¬t.val % 4 = 3 := by omega
    have hc0 : cond0 (grid2.coords t) := (hcond0 t).mpr h0
    have hc1 : ¬cond1 (grid2.coords t) := fun h => h1 ((hcond1 t).mp h)
    rw [Dat.leavesExact_idle (dat V c) 4 t (idle4 t hc1) (noFlush4 t hc1)]
    rw [outsAt_A V c t h0 h1]
    unfold sA; (try dsimp only)
    iintro ⟨HΦ, Ho, ⟨%d0, H0⟩, ⟨%d1, H1⟩, ⟨%d2, H2⟩, ⟨%d3, H3⟩, ⟨%d4, H4⟩⟩
    ihave HΦ' := (Phi_start V c t) $$ HΦ
    icases HΦ' with ⟨HS, Hrest⟩
    iapply ((runA c (grid2.coords t) _ _ _ _ _ _ _ _ _ _ _ _ hc0 hc1 (iblk V c 0 t) (iblk V c 1 t) (iblk V c 2 t) (iblk V c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hrest]
    · isplitl [HS]
      · unfold owns; iexists _; isplitr
        swap; · iexact HS
        ipureintro; exact View.read_writes_of_cover _ _ _ _ _ (scoverA c _ _ _ _ _ _ _ _ _ _ _ _ _ _ _ _ _ _ _)
      iexact Hrest
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    have hc0 : ¬cond0 (grid2.coords t) := fun h => h0 ((hcond0 t).mp h)
    by_cases h1 : t.val % 4 = 3
    · have hc1 : cond1 (grid2.coords t) := (hcond1 t).mpr h1
      rw [show (dat V c).leavesExact 4 t = owns (c : Thread nD τ) (ms4 t) fullShare ((dat V c).after 4 t) from by
        unfold Dat.leavesExact; rw [live4 t hc1], after4]
      rw [outsAt_C V c t h0 h1]
      unfold out4C sC; (try dsimp only)
      rw [Phi_pos V c t hz]
      iintro ⟨⟨HS, Hrest⟩, Ho, ⟨%d0, H0⟩, ⟨%d1, H1⟩, ⟨%d2, H2⟩, ⟨%d3, H3⟩, ⟨%d4, H4⟩⟩
      iapply ((runC c (grid2.coords t) _ _ _ _ _ _ _ _ _ _ _ _ hc0 hc1 (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hrest]
      · isplitl [HS]
        · unfold owns; iexists _; isplitr
          swap; · iexact HS
          ipureintro; exact View.read_writes_of_cover _ _ _ _ _ (scoverC c _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover4C c _ _ _ _ _ _ _ _ _ _ _ _ _ _ _ _ _ _ _ _)
    · have hc1 : ¬cond1 (grid2.coords t) := fun h => h1 ((hcond1 t).mp h)
      rw [Dat.leavesExact_idle (dat V c) 4 t (idle4 t hc1) (noFlush4 t hc1)]
      rw [outsAt_B V c t h0 h1]
      unfold sB; (try dsimp only)
      rw [Phi_pos V c t hz]
      iintro ⟨⟨HS, Hrest⟩, Ho, ⟨%d0, H0⟩, ⟨%d1, H1⟩, ⟨%d2, H2⟩, ⟨%d3, H3⟩, ⟨%d4, H4⟩⟩
      iapply ((runB c (grid2.coords t) _ _ _ _ _ _ _ _ _ _ _ _ hc0 hc1 (iblk V c 0 t) (iblk V c 1 t) (iblk V c 2 t) (iblk V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest]
      · isplitl [HS]
        · unfold owns; iexists _; isplitr
          swap; · iexact HS
          ipureintro; exact View.read_writes_of_cover _ _ _ _ _ (scoverB c _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dat (F := F) V c) (defs₀ (F := F)) Variants.none () Set.univ := fun t => by
  rw [bigSep_W2, bigSep_W2]
  exact sound_body V c t

end Cert.Kernel.R2

end
-- ==== Proof.KR2Out.lean ====
import proofs.«135971_j70179765616691_2_alg».proof.Proof.Gen.Kernel.Launch
import proofs.«135971_j70179765616691_2_alg».proof.Proof.Gen.Kernel.Skeleton
import proofs.«135971_j70179765616691_2_alg».proof.Proof.Gen.Kernel.Points
import proofs.«135971_j70179765616691_2_alg».proof.Proof.KR2Body
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-
  Launch 2: after the last grid point the invariant gives the launch's scoped rest back, the accumulator's named
  contents forgotten; before the first point the scoped rest is the invariant.
-/
namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hout (c : Dev nD) : (dat V c).Φ (Fin.last cfg2.N) ⊢
    iprop(BI.emp ∗ BI.emp ∗ Pipeline.scopedRest (Ix := Unit) (Name := ℕ) (U := UR sig nD τ) (Lvl := ℕ) (Val := Elt F) spec2 c) := by
  rw [show (dat V c).Φ (Fin.last cfg2.N) = PhiS V c cfg2.N (Nat.le_refl _) from rfl,
    PhiS_pos V c _ _ (by rw [show cfg2.N = 16 from N_2]; decide), scopedRest_split]
  iintro ⟨HS, Hr⟩
  isplitr; · iempintro
  isplitr; · iempintro
  isplitl [HS]; · iexists _; iexact HS
  iexact Hr

theorem hin (c : Dev nD) (P : sProp 𝕄) :
    iprop(BI.emp ∗ P ∗ Pipeline.scopedRest (Ix := Unit) (Name := ℕ) (U := UR sig nD τ) (Lvl := ℕ) (Val := Elt F) spec2 c) ⊢ (dat V c).Φ 0 := by
  rw [show (dat V c).Φ 0 = Pipeline.scopedRest (Ix := Unit) (Name := ℕ) (U := UR sig nD τ) (Lvl := ℕ) (Val := Elt F) spec2 c from rfl]
  iintro ⟨-, -, Hr⟩; iexact Hr

end Cert.Kernel.R2

end
-- ==== Proof.KAsm.lean ====
import proofs.«135971_j70179765616691_2_alg».proof.Proof.Gen.Kernel.Regions
import proofs.«135971_j70179765616691_2_alg».proof.Proof.KR0Out
import proofs.«135971_j70179765616691_2_alg».proof.Proof.KR1Out
import proofs.«135971_j70179765616691_2_alg».proof.Proof.KR2Out
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-
  The whole program's run: two host stretches and three kernel launches, chained.

  The contents of every unscoped buffer are followed through @main as a fold: the launch memory, then the first host
  stretch (two transposes and the linear layer), then each launch replacing its output arrays by what its pipeline
  leaves, then the second host stretch (the division by the column sums and two reshapes), then the last launch. Each
  launch is entered with its arrays split out of the thread's buffers and left with them put back; between its grid
  points its accumulator is carried by the invariant of its proof data. The run's post names every unscoped buffer's
  final contents, so the frame claim (the arguments) and the value claim (the result array) are both read off it.
-/

set_option maxRecDepth 16384

noncomputable section

namespace Cert.Kernel.Asm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After launch 0: its arrays at what the pipeline leaves (inputs as entered, each output's write-backs folded),
    every other buffer as entered. -/
def W2 (c : Dev nD) : Valuation τ sig (Elt F) :=
  Pipeline.withArrays spec0 c (W1 m ρ c) fun w => (R0.dat (V1 m ρ) c).arrAt w cfg0.N
theorem W2_arr (c : Dev nD) (w : Fin cfg0.W) :
    W2 m ρ c (Proc.devRef .tc (Pipeline.arrRef spec0 w)) = (R0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (R0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After launch 1: its arrays at what the pipeline leaves (inputs as entered, each output's write-backs folded),
    every other buffer as entered. -/
def W3 (c : Dev nD) : Valuation τ sig (Elt F) :=
  Pipeline.withArrays spec1 c (W2 m ρ c) fun w => (R1.dat (V2 m ρ) c).arrAt w cfg1.N
theorem W3_arr (c : Dev nD) (w : Fin cfg1.W) :
    W3 m ρ c (Proc.devRef .tc (Pipeline.arrRef spec1 w)) = (R1.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (R1.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second host stretch. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- After launch 2: its arrays at what the pipeline leaves (inputs as entered, each output's write-backs folded),
    every other buffer as entered. -/
def W5 (c : Dev nD) : Valuation τ sig (Elt F) :=
  Pipeline.withArrays spec2 c (W4 m ρ c) fun w => (R2.dat (V4 m ρ) c).arrAt w cfg2.N
theorem W5_arr (c : Dev nD) (w : Fin cfg2.W) :
    W5 m ρ c (Proc.devRef .tc (Pipeline.arrRef spec2 w)) = (R2.dat (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (R2.dat (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## The proof data family and the thread state -/

abbrev adm : (p : Fin 3) → (pcfgs (F := F) p).Adm := fun p => (cfgs p).toPCfg_adm
/-- Every launch's proof data, each at its entry contents. -/
def pdats : (p : Fin 3) → (c : Dev nD) → Dat τ (Elt F) Unit ℕ (UR sig nD τ) ℕ (Pipeline.pin (pcfgs (F := F)) adm p) c
  | ⟨0, _⟩ => fun c => R0.dat (V1 m ρ) c
  | ⟨1, _⟩ => fun c => R1.dat (V2 m ρ) c
  | ⟨2, _⟩ => fun c => R2.dat (V4 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The launches as segments -/

-- `iapply` of a library lemma stated over `pin pcs a p` unifies with the pinned configuration only when unification may
-- unfold plain definitions in a metavariable's type
set_option backward.isDefEq.respectTransparency.types false in
/-- Launch 0 over the thread state: entered from every unscoped buffer at `W1`, left at `W2`. Its arrays are split
    out of the unscoped buffers and put back at the exit contents; its scoped rest enters the invariant and comes back
    (the accumulator's last contents forgotten); nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X _ := BI.emp
  Y _ := BI.emp
  Z c := iprop(Pipeline.unscopedRest (Ix := Unit) (Name := ℕ) (U := UR sig nD τ) (Lvl := ℕ) spec0 c (V1 m ρ c) ∗ ∃ r, prngReg c r)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := R0.hin (V1 m ρ) c _
  hout c := by
    rw [Pipeline.ownSems0_none]; exact R0.hout (V1 m ρ) c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Launch 1 over the thread state: entered from every unscoped buffer at `W2`, left at `W3`. Its arrays are split
    out of the unscoped buffers and put back at the exit contents; its scoped rest enters the invariant and comes back
    (the accumulator's last contents forgotten); nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X _ := BI.emp
  Y _ := BI.emp
  Z c := iprop(Pipeline.unscopedRest (Ix := Unit) (Name := ℕ) (U := UR sig nD τ) (Lvl := ℕ) spec1 c (V2 m ρ c) ∗ ∃ r, prngReg c r)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := R1.hin (V2 m ρ) c _
  hout c := by
    rw [Pipeline.ownSems0_none]; exact R1.hout (V2 m ρ) c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Launch 2 over the thread state: entered from every unscoped buffer at `W4`, left at `W5`. Its arrays are split
    out of the unscoped buffers and put back at the exit contents; its scoped rest enters the invariant and comes back
    (the accumulator's last contents forgotten); nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (R2.body_obligation (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X _ := BI.emp
  Y _ := BI.emp
  Z c := iprop(Pipeline.unscopedRest (Ix := Unit) (Name := ℕ) (U := UR sig nD τ) (Lvl := ℕ) spec2 c (V4 m ρ c) ∗ ∃ r, prngReg c r)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := R2.hin (V4 m ρ) c _
  hout c := by
    rw [Pipeline.ownSems0_none]; exact R2.hout (V4 m ρ) c
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every
    final memory holds each unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Cert.Kernel.Asm

end
-- ==== Proof.KAsmArgs.lean ====
import proofs.«135971_j70179765616691_2_alg».proof.Proof.KAsm

/-
  The arguments end as launched, and the result array ends at the last launch's output.

  No host operation writes an argument and no launch has one among its output windows (the row-sum pass reads x
  through an input window, whose array the pipeline leaves as entered), so the fold of buffer contents at an
  argument walks back to the launch memory. The frame claim follows from the run; the same run names the result.
-/

set_option maxRecDepth 16384

noncomputable section

namespace Cert.Kernel.Asm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

theorem W1_of (c : Dev nD) (r : Ref sig .tc) (h : r ∉ hostOps0_W) : W1 m ρ c r = W0 m ρ c r :=
  StableHlo.after_of_writes_sub hostOps0 _ hostOps0_writes h
theorem W4_of (c : Dev nD) (r : Ref sig .tc) (h : r ∉ hostOps2_W) : W4 m ρ c r = W3 m ρ c r :=
  StableHlo.after_of_writes_sub hostOps2 _ hostOps2_writes h

theorem W5_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of m ρ c main_arg0 (by decide)
    _ = W2 m ρ c (Proc.devRef .tc main_arg0) := W3_of_ne m ρ c main_arg0 (by decide)
    _ = W1 m ρ c (Proc.devRef .tc main_arg0) := (W2_arr m ρ c 0).trans (((R0.dat (V1 m ρ) c).arrAt_in 0 rfl _).trans (R0.A_eq (V1 m ρ) c 0))
    _ = W0 m ρ c (Proc.devRef .tc main_arg0) := W1_of m ρ c main_arg0 (by decide)
    _ = m ((c : Thread nD τ).loc main_arg0) := rfl
theorem W5_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W5_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

/-- The run with the result array named and the arguments unchanged. -/
theorem run_val : θ_run defs (onTc (τ := τ) (main (F := F))) ⟨m, fun _ => 0, ρ⟩ (fun r => ∀ c : Dev nD,
      r.2.mem ((c.tc : Thread nD τ).loc main_v9) = W5 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v9 (by decide)),
     (h c _ (mem_uc main_arg0 (by decide))).trans (W5_arg0 m ρ c),
     (h c _ (mem_uc main_arg1 (by decide))).trans (W5_arg1 m ρ c),
     (h c _ (mem_uc main_arg2 (by decide))).trans (W5_arg2 m ρ c)⟩) (run_all m ρ)

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_val m ρ)

end Cert.Kernel.Asm

end
-- ==== Proof.R0Runs.lean ====
import proofs.«135971_j70179765616691_2_alg».proof.Proof.Gen.KernelIdeal.Launch
import proofs.«135971_j70179765616691_2_alg».proof.Proof.Gen.KernelIdeal.Skeleton
import proofs.«135971_j70179765616691_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-
  The row-sum pass (the first of the three kernel launches), its body run on any staging buffers.

  A grid point is (i, j) with j the fast coordinate, point t = 4 i + j. The body's first conditional fires at j = 0
  (the accumulator of row sums is reset), its second at j = 3 (the accumulator is copied to the row-sum output).
  Three cases are met: j = 0, 0 < j < 3 and j = 3; each is run once, symbolically, on arbitrary whole buffers, and
  the run records what the stores leave in each buffer as a list of written rectangles.
-/
namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, decided over the grid -/

/-- The accumulator is reset at this point (j = 0). -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 4 = 0 :=
  (by decide +kernel : ∀ t : Fin grid0.N, cond0 (grid0.coords t) ↔ t.val % 4 = 0)
/-- The accumulator is copied out at this point (j = 3). -/
abbrev cond1 (i : grid0.Coords) : Prop := k0_cond2 i = 1#1
theorem hcond1 : ∀ t : Fin cfg0.N, cond1 (grid0.coords t) ↔ t.val % 4 = 3 :=
  (by decide +kernel : ∀ t : Fin grid0.N, cond1 (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live3 : ∀ t : Fin cfg0.N, cfg0.idle 3 (grid0.coords t) = false := by decide +kernel
/-- The row-sum output is idle, and not written back, except at j = 3. -/
theorem idle2 : ∀ t : Fin cfg0.N, ¬cond1 (grid0.coords t) → cfg0.idle 2 (grid0.coords t) = true := by decide +kernel
theorem noFlush2 : ∀ t : Fin cfg0.N, ¬cond1 (grid0.coords t) → (cfg0.win 2).flush t = false := by decide +kernel
theorem live2 : ∀ t : Fin cfg0.N, cond1 (grid0.coords t) → cfg0.idle 2 (grid0.coords t) = false := by decide +kernel

/-! ## The buffers the body is called with -/

abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x1024 .bf16 := win0_3.stage (cfg0.slots t 3)
abbrev hs3 (t : Fin cfg0.N) : (ms3 t).IsWhole := hstage0_3 ((cfg0.slots t 3).cast nbuf0_3)
/-- The accumulator of row sums: a scoped buffer of the kernel's own, carried from point to point. -/
abbrev scM : Memref sig .tc .vmem S1024x1 .f32 := Memref.whole cc0_scratch0
abbrev VS : View sig .tc .vmem S1024x1 .f32 := scM.view
/-- One staging buffer of each output, through which its contents are stated. -/
abbrev VO2 : View sig .tc .vmem S1024x1 .f32 := (Memref.whole cc0_stg2_0 : Memref sig .tc .vmem S1024x1 .f32).view
abbrev VO3 : View sig .tc .vmem S1024x1024 .bf16 := (Memref.whole cc0_stg3_0 : Memref sig .tc .vmem S1024x1024 .bf16).view

/-! ## The three runs -/

set_option maxHeartbeats 1000000 in
/-- j = 0: the accumulator, found at anything, is reset and then holds this block's row sums; the pairwise block is
    stored; the row-sum output is handed back untouched. -/
noncomputable def runA (c : Dev nD) (i : grid0.Coords) (arg2 : Memref sig .tc .vmem S1024x128 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1024x1024 .bf16) (harg5 : arg5.IsWhole) (arg6 : Memref sig .tc .vmem S1024x1 .f32) (harg6 : arg6.IsWhole)
    (hc0 : cond0 i) (hc1 : ¬cond1 i) (x0 : Vec F S1024x128 .f32) (x1 : Vec F S128x1024 .f32) :
    Σ' (L5 : List (View.Piece (Elt F) S1024x1024 .bf16)), { LS : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi4
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare xi4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS)) -∗ K ⟨⟩))
          ⊢ wp frame (wpE (defs₀ (F := F)) Variants.none c none) E (cc0__rowsum_kernel i arg2 harg2 arg3 harg3 arg4 harg4 arg5 harg5 arg6 harg6) K } := by
  refine ⟨?_, ?_, fun xi4 E K => ?run⟩
  case run =>
    simp only [cc0__rowsum_kernel_eq_skeleton]; unfold cc0__rowsum_kernel_skel
    simp only [k0_part1_eq_skeleton]; unfold k0_part1_skel
    unfold owns
    iintro ⟨⟨%f0, %hf0, H0⟩, ⟨%f1, %hf1, H1⟩, ⟨%f4, %hf4, H4⟩, ⟨%d5, %f5, -, H5⟩, ⟨%ds, %fs, -, HS⟩, Hk⟩
    obtain rfl := harg2.eq_unread hf0; obtain rfl := harg3.eq_unread hf1; obtain rfl := harg4.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    isplitl [H5]; · iexists _; iexact H5
    iexists _; iexact HS

set_option maxHeartbeats 1000000 in
/-- 0 < j < 3: the accumulator, found at what the point before left, gains this block's row sums; the pairwise block
    is stored; the row-sum output is handed back untouched. -/
noncomputable def runB (c : Dev nD) (i : grid0.Coords) (arg2 : Memref sig .tc .vmem S1024x128 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1024x1024 .bf16) (harg5 : arg5.IsWhole) (arg6 : Memref sig .tc .vmem S1024x1 .f32) (harg6 : arg6.IsWhole)
    (hc0 : ¬cond0 i) (hc1 : ¬cond1 i) (x0 : Vec F S1024x128 .f32) (x1 : Vec F S128x1024 .f32) (xs : Vec F S1024x1 .f32) :
    Σ' (L5 : List (View.Piece (Elt F) S1024x1024 .bf16)), { LS : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi4
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare xi4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS)) -∗ K ⟨⟩))
          ⊢ wp frame (wpE (defs₀ (F := F)) Variants.none c none) E (cc0__rowsum_kernel i arg2 harg2 arg3 harg3 arg4 harg4 arg5 harg5 arg6 harg6) K } := by
  refine ⟨?_, ?_, fun xi4 E K => ?run⟩
  case run =>
    simp only [cc0__rowsum_kernel_eq_skeleton]; unfold cc0__rowsum_kernel_skel
    simp only [k0_part1_eq_skeleton]; unfold k0_part1_skel
    unfold owns
    iintro ⟨⟨%f0, %hf0, H0⟩, ⟨%f1, %hf1, H1⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf4; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    isplitl [H5]; · iexists _; iexact H5
    iexists _; iexact HS

set_option maxHeartbeats 1000000 in
/-- j = 3: as before, and the finished accumulator is copied into the row-sum output. -/
noncomputable def runC (c : Dev nD) (i : grid0.Coords) (arg2 : Memref sig .tc .vmem S1024x128 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1024x1024 .bf16) (harg5 : arg5.IsWhole) (arg6 : Memref sig .tc .vmem S1024x1 .f32) (harg6 : arg6.IsWhole)
    (hc0 : ¬cond0 i) (hc1 : cond1 i) (x0 : Vec F S1024x128 .f32) (x1 : Vec F S128x1024 .f32) (xs : Vec F S1024x1 .f32) :
    Σ' (L4 : List (View.Piece (Elt F) S1024x1 .f32)) (L5 : List (View.Piece (Elt F) S1024x1024 .bf16)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (∃ d, owns (c : Thread nD τ) arg5 fullShare d) ∗ owns (c : Thread nD τ) arg6 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS)) -∗ K ⟨⟩))
          ⊢ wp frame (wpE (defs₀ (F := F)) Variants.none c none) E (cc0__rowsum_kernel i arg2 harg2 arg3 harg3 arg4 harg4 arg5 harg5 arg6 harg6) K } := by
  refine ⟨?_, ?_, ?_, fun E K => ?run⟩
  case run =>
    simp only [cc0__rowsum_kernel_eq_skeleton]; unfold cc0__rowsum_kernel_skel
    simp only [k0_part1_eq_skeleton]; unfold k0_part1_skel
    unfold owns
    iintro ⟨⟨%f0, %hf0, H0⟩, ⟨%f1, %hf1, H1⟩, ⟨%d4, %f4, -, H4⟩, ⟨%d5, %f5, -, H5⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    isplitl [H5]; · iexists _; iexact H5
    iexists _; iexact HS

end Cert.KernelIdeal.R0

end
-- ==== Proof.R0Dat.lean ====
import proofs.«135971_j70179765616691_2_alg».proof.Proof.Gen.KernelIdeal.Launch
import proofs.«135971_j70179765616691_2_alg».proof.Proof.Gen.KernelIdeal.Skeleton
import proofs.«135971_j70179765616691_2_alg».proof.Proof.Gen.KernelIdeal.Points
import proofs.«135971_j70179765616691_2_alg».proof.Proof.R0Runs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-
  The row-sum pass: what its buffers hold after every grid point, and the obligation its body meets there.

  After point t = 4 i + j the accumulator holds the sums, over the column blocks 0 … j of row block i, of
  exp (exp (-dist)); the pairwise output's staging buffer holds block (i, j) of that matrix; the row-sum output's
  staging buffer is written only at j = 3, with the finished accumulator. These contents are named point by point
  (`outsAt`), the invariant between two points says the accumulator holds the previous point's component, and the
  body's three runs are matched to the three residues of t modulo 4.
-/
namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input blocks -/

/-- Window `w`'s block at point `t`, read off its array as the pass finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of x is in its staging buffer at every point, refetched or not. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- So is the column block of the transposed x. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What each case leaves, read back -/

/-- A placeholder for the row-sum output where no case stores into it. -/
def junk2 : Vec F S1024x1 .f32 := VO2.read (Elt F) VO2.junk

section Cases
variable (c : Dev nD) (i : grid0.Coords) (arg2 : Memref sig .tc .vmem S1024x128 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1024x1024 .bf16) (harg5 : arg5.IsWhole) (arg6 : Memref sig .tc .vmem S1024x1 .f32) (harg6 : arg6.IsWhole)
variable (x0 : Vec F S1024x128 .f32) (x1 : Vec F S128x1024 .f32) (xs : Vec F S1024x1 .f32)

theorem cover3A (hc0 : cond0 i) (hc1 : ¬cond1 i) (y : S1024x1024.Idx) : ∃ pc ∈ (runA c i arg2 harg2 arg3 harg3 arg4 harg4 arg5 harg5 arg6 harg6 hc0 hc1 x0 x1).1, y ∈ pc.1.set :=
  View.cover_of_tiledL (runA c i arg2 harg2 arg3 harg3 arg4 harg4 arg5 harg5 arg6 harg6 hc0 hc1 x0 x1).1 S1024x1024.size (by sl_kernel_rfl) y
def out3A (hc0 : cond0 i) (hc1 : ¬cond1 i) : Vec F S1024x1024 .bf16 :=
  VO3.read (Elt F) (VO3.writes (Elt F) VO3.junk (runA c i arg2 harg2 arg3 harg3 arg4 harg4 arg5 harg5 arg6 harg6 hc0 hc1 x0 x1).1)
theorem scoverA (hc0 : cond0 i) (hc1 : ¬cond1 i) (y : S1024x1.Idx) : ∃ pc ∈ (runA c i arg2 harg2 arg3 harg3 arg4 harg4 arg5 harg5 arg6 harg6 hc0 hc1 x0 x1).2.1, y ∈ pc.1.set :=
  View.cover_of_tiledL (runA c i arg2 harg2 arg3 harg3 arg4 harg4 arg5 harg5 arg6 harg6 hc0 hc1 x0 x1).2.1 S1024x1.size (by sl_kernel_rfl) y
def sA (hc0 : cond0 i) (hc1 : ¬cond1 i) : Vec F S1024x1 .f32 :=
  VS.read (Elt F) (VS.writes (Elt F) VS.junk (runA c i arg2 harg2 arg3 harg3 arg4 harg4 arg5 harg5 arg6 harg6 hc0 hc1 x0 x1).2.1)

theorem cover3B (hc0 : ¬cond0 i) (hc1 : ¬cond1 i) (y : S1024x1024.Idx) : ∃ pc ∈ (runB c i arg2 harg2 arg3 harg3 arg4 harg4 arg5 harg5 arg6 harg6 hc0 hc1 x0 x1 xs).1, y ∈ pc.1.set :=
  View.cover_of_tiledL (runB c i arg2 harg2 arg3 harg3 arg4 harg4 arg5 harg5 arg6 harg6 hc0 hc1 x0 x1 xs).1 S1024x1024.size (by sl_kernel_rfl) y
def out3B (hc0 : ¬cond0 i) (hc1 : ¬cond1 i) : Vec F S1024x1024 .bf16 :=
  VO3.read (Elt F) (VO3.writes (Elt F) VO3.junk (runB c i arg2 harg2 arg3 harg3 arg4 harg4 arg5 harg5 arg6 harg6 hc0 hc1 x0 x1 xs).1)
theorem scoverB (hc0 : ¬cond0 i) (hc1 : ¬cond1 i) (y : S1024x1.Idx) : ∃ pc ∈ (runB c i arg2 harg2 arg3 harg3 arg4 harg4 arg5 harg5 arg6 harg6 hc0 hc1 x0 x1 xs).2.1, y ∈ pc.1.set :=
  View.cover_of_tiledL (runB c i arg2 harg2 arg3 harg3 arg4 harg4 arg5 harg5 arg6 harg6 hc0 hc1 x0 x1 xs).2.1 S1024x1.size (by sl_kernel_rfl) y
def sB (hc0 : ¬cond0 i) (hc1 : ¬cond1 i) : Vec F S1024x1 .f32 :=
  VS.read (Elt F) (VS.writes (Elt F) VS.junk (runB c i arg2 harg2 arg3 harg3 arg4 harg4 arg5 harg5 arg6 harg6 hc0 hc1 x0 x1 xs).2.1)

theorem cover2C (hc0 : ¬cond0 i) (hc1 : cond1 i) (y : S1024x1.Idx) : ∃ pc ∈ (runC c i arg2 harg2 arg3 harg3 arg4 harg4 arg5 harg5 arg6 harg6 hc0 hc1 x0 x1 xs).1, y ∈ pc.1.set :=
  View.cover_of_tiledL (runC c i arg2 harg2 arg3 harg3 arg4 harg4 arg5 harg5 arg6 harg6 hc0 hc1 x0 x1 xs).1 S1024x1.size (by sl_kernel_rfl) y
def out2C (hc0 : ¬cond0 i) (hc1 : cond1 i) : Vec F S1024x1 .f32 :=
  VO2.read (Elt F) (VO2.writes (Elt F) VO2.junk (runC c i arg2 harg2 arg3 harg3 arg4 harg4 arg5 harg5 arg6 harg6 hc0 hc1 x0 x1 xs).1)
theorem cover3C (hc0 : ¬cond0 i) (hc1 : cond1 i) (y : S1024x1024.Idx) : ∃ pc ∈ (runC c i arg2 harg2 arg3 harg3 arg4 harg4 arg5 harg5 arg6 harg6 hc0 hc1 x0 x1 xs).2.1, y ∈ pc.1.set :=
  View.cover_of_tiledL (runC c i arg2 harg2 arg3 harg3 arg4 harg4 arg5 harg5 arg6 harg6 hc0 hc1 x0 x1 xs).2.1 S1024x1024.size (by sl_kernel_rfl) y
def out3C (hc0 : ¬cond0 i) (hc1 : cond1 i) : Vec F S1024x1024 .bf16 :=
  VO3.read (Elt F) (VO3.writes (Elt F) VO3.junk (runC c i arg2 harg2 arg3 harg3 arg4 harg4 arg5 harg5 arg6 harg6 hc0 hc1 x0 x1 xs).2.1)
theorem scoverC (hc0 : ¬cond0 i) (hc1 : cond1 i) (y : S1024x1.Idx) : ∃ pc ∈ (runC c i arg2 harg2 arg3 harg3 arg4 harg4 arg5 harg5 arg6 harg6 hc0 hc1 x0 x1 xs).2.2.1, y ∈ pc.1.set :=
  View.cover_of_tiledL (runC c i arg2 harg2 arg3 harg3 arg4 harg4 arg5 harg5 arg6 harg6 hc0 hc1 x0 x1 xs).2.2.1 S1024x1.size (by sl_kernel_rfl) y
def sC (hc0 : ¬cond0 i) (hc1 : cond1 i) : Vec F S1024x1 .f32 :=
  VS.read (Elt F) (VS.writes (Elt F) VS.junk (runC c i arg2 harg2 arg3 harg3 arg4 harg4 arg5 harg5 arg6 harg6 hc0 hc1 x0 x1 xs).2.2.1)

end Cases

/-! ## What the buffers hold after each point -/

/-- After the body at position `n`: the row-sum output's staging buffer, the pairwise output's, the accumulator. -/
def outsAt (c : Dev nD) : (n : ℕ) → n < cfg0.N → Vec F S1024x1 .f32 × Vec F S1024x1024 .bf16 × Vec F S1024x1 .f32
  | 0, hn => (junk2,
      out3A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) (iblk V c 0 ⟨0, hn⟩) (iblk V c 1 ⟨0, hn⟩) ((hcond0 ⟨0, hn⟩).mpr (Nat.zero_mod _)) (fun h => (fun h => by (try dsimp only at h); omega) ((hcond1 ⟨0, hn⟩).mp h)),
      sA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) (iblk V c 0 ⟨0, hn⟩) (iblk V c 1 ⟨0, hn⟩) ((hcond0 ⟨0, hn⟩).mpr (Nat.zero_mod _)) (fun h => (fun h => by (try dsimp only at h); omega) ((hcond1 ⟨0, hn⟩).mp h)))
  | n + 1, hn =>
    if h0 : (n + 1) % 4 = 0 then
      if h1 : (n + 1) % 4 = 3 then False.elim (by omega)
      else (junk2,
        out3A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (iblk V c 0 ⟨n + 1, hn⟩) (iblk V c 1 ⟨n + 1, hn⟩) ((hcond0 ⟨n + 1, hn⟩).mpr h0) (fun h => h1 ((hcond1 ⟨n + 1, hn⟩).mp h)),
        sA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (iblk V c 0 ⟨n + 1, hn⟩) (iblk V c 1 ⟨n + 1, hn⟩) ((hcond0 ⟨n + 1, hn⟩).mpr h0) (fun h => h1 ((hcond1 ⟨n + 1, hn⟩).mp h)))
    else
      if h1 : (n + 1) % 4 = 3 then
        (out2C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (iblk V c 0 ⟨n + 1, hn⟩) (iblk V c 1 ⟨n + 1, hn⟩) (outsAt c n (Nat.lt_of_succ_lt hn)).2.2 (fun h => h0 ((hcond0 ⟨n + 1, hn⟩).mp h)) ((hcond1 ⟨n + 1, hn⟩).mpr h1),
         out3C c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (iblk V c 0 ⟨n + 1, hn⟩) (iblk V c 1 ⟨n + 1, hn⟩) (outsAt c n (Nat.lt_of_succ_lt hn)).2.2 (fun h => h0 ((hcond0 ⟨n + 1, hn⟩).mp h)) ((hcond1 ⟨n + 1, hn⟩).mpr h1),
         sC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (iblk V c 0 ⟨n + 1, hn⟩) (iblk V c 1 ⟨n + 1, hn⟩) (outsAt c n (Nat.lt_of_succ_lt hn)).2.2 (fun h => h0 ((hcond0 ⟨n + 1, hn⟩).mp h)) ((hcond1 ⟨n + 1, hn⟩).mpr h1))
      else
        (junk2,
         out3B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (iblk V c 0 ⟨n + 1, hn⟩) (iblk V c 1 ⟨n + 1, hn⟩) (outsAt c n (Nat.lt_of_succ_lt hn)).2.2 (fun h => h0 ((hcond0 ⟨n + 1, hn⟩).mp h)) (fun h => h1 ((hcond1 ⟨n + 1, hn⟩).mp h)),
         sB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (iblk V c 0 ⟨n + 1, hn⟩) (iblk V c 1 ⟨n + 1, hn⟩) (outsAt c n (Nat.lt_of_succ_lt hn)).2.2 (fun h => h0 ((hcond0 ⟨n + 1, hn⟩).mp h)) (fun h => h1 ((hcond1 ⟨n + 1, hn⟩).mp h)))

/-- At a point with j = 0. -/
theorem outsAt_A (c : Dev nD) (t : Fin cfg0.N) (h0 : t.val % 4 = 0) (h1 : ¬t.val % 4 = 3) :
    outsAt V c t.val t.isLt = (junk2,
      out3A c (grid0.coords t) (ms0 t) (hs0 t) (ms1 t) (hs1 t) (ms2 t) (hs2 t) (ms3 t) (hs3 t) scM (Memref.isWhole_whole _) (iblk V c 0 t) (iblk V c 1 t) ((hcond0 t).mpr h0) (fun h => h1 ((hcond1 t).mp h)),
      sA c (grid0.coords t) (ms0 t) (hs0 t) (ms1 t) (hs1 t) (ms2 t) (hs2 t) (ms3 t) (hs3 t) scM (Memref.isWhole_whole _) (iblk V c 0 t) (iblk V c 1 t) ((hcond0 t).mpr h0) (fun h => h1 ((hcond1 t).mp h))) := by
  obtain ⟨n, hn⟩ := t
  cases n with
  | zero => exact rfl
  | succ n => exact (dif_pos h0).trans ((dif_neg h1).trans rfl)

/-- At a point with 0 < j < 3. -/
theorem outsAt_B (c : Dev nD) (t : Fin cfg0.N) (h0 : ¬t.val % 4 = 0) (h1 : ¬t.val % 4 = 3) :
    outsAt V c t.val t.isLt = (junk2,
      out3B c (grid0.coords t) (ms0 t) (hs0 t) (ms1 t) (hs1 t) (ms2 t) (hs2 t) (ms3 t) (hs3 t) scM (Memref.isWhole_whole _) (iblk V c 0 t) (iblk V c 1 t) (outsAt V c (t.val - 1) (Nat.lt_of_le_of_lt (Nat.sub_le _ _) t.isLt)).2.2 (fun h => h0 ((hcond0 t).mp h)) (fun h => h1 ((hcond1 t).mp h)),
      sB c (grid0.coords t) (ms0 t) (hs0 t) (ms1 t) (hs1 t) (ms2 t) (hs2 t) (ms3 t) (hs3 t) scM (Memref.isWhole_whole _) (iblk V c 0 t) (iblk V c 1 t) (outsAt V c (t.val - 1) (Nat.lt_of_le_of_lt (Nat.sub_le _ _) t.isLt)).2.2 (fun h => h0 ((hcond0 t).mp h)) (fun h => h1 ((hcond1 t).mp h))) := by
  obtain ⟨n, hn⟩ := t
  cases n with
  | zero => exact (by exfalso; (try dsimp only at h0); exact absurd (Nat.zero_mod _) h0)
  | succ n => exact (dif_neg h0).trans ((dif_neg h1).trans rfl)

/-- At a point with j = 3. -/
theorem outsAt_C (c : Dev nD) (t : Fin cfg0.N) (h0 : ¬t.val % 4 = 0) (h1 : t.val % 4 = 3) :
    outsAt V c t.val t.isLt = (
      out2C c (grid0.coords t) (ms0 t) (hs0 t) (ms1 t) (hs1 t) (ms2 t) (hs2 t) (ms3 t) (hs3 t) scM (Memref.isWhole_whole _) (iblk V c 0 t) (iblk V c 1 t) (outsAt V c (t.val - 1) (Nat.lt_of_le_of_lt (Nat.sub_le _ _) t.isLt)).2.2 (fun h => h0 ((hcond0 t).mp h)) ((hcond1 t).mpr h1),
      out3C c (grid0.coords t) (ms0 t) (hs0 t) (ms1 t) (hs1 t) (ms2 t) (hs2 t) (ms3 t) (hs3 t) scM (Memref.isWhole_whole _) (iblk V c 0 t) (iblk V c 1 t) (outsAt V c (t.val - 1) (Nat.lt_of_le_of_lt (Nat.sub_le _ _) t.isLt)).2.2 (fun h => h0 ((hcond0 t).mp h)) ((hcond1 t).mpr h1),
      sC c (grid0.coords t) (ms0 t) (hs0 t) (ms1 t) (hs1 t) (ms2 t) (hs2 t) (ms3 t) (hs3 t) scM (Memref.isWhole_whole _) (iblk V c 0 t) (iblk V c 1 t) (outsAt V c (t.val - 1) (Nat.lt_of_le_of_lt (Nat.sub_le _ _) t.isLt)).2.2 (fun h => h0 ((hcond0 t).mp h)) ((hcond1 t).mpr h1)) := by
  obtain ⟨n, hn⟩ := t
  cases n with
  | zero => exact (by exfalso; (try dsimp only at h0); exact absurd (Nat.zero_mod _) h0)
  | succ n => exact (dif_neg h0).trans ((dif_pos h1).trans rfl)

end Cert.KernelIdeal.R0

end
-- ==== Proof.R0Body.lean ====
import proofs.«135971_j70179765616691_2_alg».proof.Proof.Gen.KernelIdeal.Launch
import proofs.«135971_j70179765616691_2_alg».proof.Proof.Gen.KernelIdeal.Skeleton
import proofs.«135971_j70179765616691_2_alg».proof.Proof.Gen.KernelIdeal.Points
import proofs.«135971_j70179765616691_2_alg».proof.Proof.R0Dat
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-
  The row-sum pass: the invariant between grid points, the proof data, and the body obligation.

  Before the first point the kernel's scoped buffers are at anything. After point n the accumulator holds
  `outsAt`'s third component at n, and every other scoped buffer (the other launches' staging buffers and scratch)
  rides along unopened. At a point the body is in the case its residue modulo 4 selects; its run is applied to the
  input blocks, the accumulator as the invariant hands it over, and the outputs' buffers.
-/
namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant -/

/-- Every scoped buffer that is neither a staging buffer of this launch nor its accumulator, at anything. -/
abbrev restBut (c : Dev nD) : sProp 𝕄 :=
  Pipeline.scopedRestBut (Ix := Unit) (Name := ℕ) (U := UR sig nD τ) (Lvl := ℕ) (Val := Elt F) spec0 c [cc0_scratch0]

/-- The launch's scoped rest is the accumulator at anything beside the others. -/
theorem scopedRest_split (c : Dev nD) :
    (Pipeline.scopedRest (Ix := Unit) (Name := ℕ) (U := UR sig nD τ) (Lvl := ℕ) (Val := Elt F) spec0 c : sProp 𝕄)
      = iprop((∃ d, owns (c : Thread nD τ) scM fullShare d) ∗ restBut c) := by
  rw [Pipeline.scopedRest_split_of_list spec0 c [cc0_scratch0] (by decide) (by decide)]
  simp only [Idealize.SL.BI.bigSepL_singleton, scM, owns_whole]
  rfl

/-- Before position `n`. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM fullShare ((outsAt V c n hn).2.2) ∗ restBut c)

theorem PhiS_zero (c : Dev nD) (n : ℕ) (h : n ≤ cfg0.N) (hz : n = 0) :
    PhiS V c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS V c (n + 1) hn = iprop(owns (c : Thread nD τ) scM fullShare ((outsAt V c n hn).2.2) ∗ restBut c) := rfl
theorem PhiS_pos (c : Dev nD) (n : ℕ) (h : n ≤ cfg0.N) (hz : n ≠ 0) :
    PhiS V c n h = iprop(owns (c : Thread nD τ) scM fullShare ((outsAt V c (n - 1) (by omega)).2.2) ∗ restBut c) := by
  cases n with
  | zero => exact absurd rfl hz
  | succ n => rfl

/-! ## The proof data -/

/-- The arrays as the pass finds them; after the body each input's buffer at its block, the outputs' at `outsAt`;
    the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
    | ⟨3, _⟩ => (outsAt V c t.val t.isLt).2.1
  Φ t := PhiS V c t.val (Nat.le_of_lt_succ t.isLt)
  q _ := fullShare
  owed _ := 0

theorem A_eq (c : Dev nD) (w : Fin cfg0.W) : (dat V c).A w = V c (Pipeline.arrRef spec0 w) := by dsimp only [dat]
theorem PhiS_castSucc (c : Dev nD) (t : Fin cfg0.N) : (dat V c).Φ t.castSucc = PhiS V c t.val (Nat.le_of_lt t.isLt) := by
  dsimp only [dat]; simp only [Fin.coe_castSucc]
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = (outsAt V c t.val t.isLt).1 := by dsimp only [dat]
theorem after3 (c : Dev nD) (t : Fin cfg0.N) : (dat V c).after 3 t = (outsAt V c t.val t.isLt).2.1 := by dsimp only [dat]
theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d

/-- At any point's start the accumulator is owned at something, the other scoped buffers beside it. -/
theorem Phi_start (c : Dev nD) (t : Fin cfg0.N) :
    (dat V c).Φ t.castSucc ⊢ iprop((∃ d, owns (c : Thread nD τ) scM fullShare d) ∗ restBut c) := by
  rw [PhiS_castSucc V c t]
  by_cases hz : t.val = 0
  · rw [PhiS_zero V c _ _ hz, scopedRest_split]
  · rw [PhiS_pos V c _ _ hz]
    iintro ⟨HS, Hr⟩
    isplitl [HS]; · iexists _; iexact HS
    iexact Hr

/-- At a later point's start it holds what the point before left. -/
theorem Phi_pos (c : Dev nD) (t : Fin cfg0.N) (hz : t.val ≠ 0) :
    (dat V c).Φ t.castSucc = iprop(owns (c : Thread nD τ) scM fullShare ((outsAt V c (t.val - 1) (Nat.lt_of_le_of_lt (Nat.sub_le _ _) t.isLt)).2.2) ∗ restBut c) := by
  rw [PhiS_castSucc V c t, PhiS_pos V c _ _ hz]

/-! ## The body obligation -/

def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 3 t = owns (c : Thread nD τ) (ms3 t) fullShare ((dat V c).after 3 t) from by
    unfold Dat.leavesExact; rw [live3 t], after3]
  by_cases h0 : t.val % 4 = 0
  · have h1 : ¬t.val % 4 = 3 := by omega
    have hc0 : cond0 (grid0.coords t) := (hcond0 t).mpr h0
    have hc1 : ¬cond1 (grid0.coords t) := fun h => h1 ((hcond1 t).mp h)
    rw [Dat.leavesExact_idle (dat V c) 2 t (idle2 t hc1) (noFlush2 t hc1)]
    rw [outsAt_A V c t h0 h1]
    unfold out3A sA; (try dsimp only)
    iintro ⟨HΦ, Ho, ⟨%d0, H0⟩, ⟨%d1, H1⟩, ⟨%d2, H2⟩, ⟨%d3, H3⟩⟩
    ihave HΦ' := (Phi_start V c t) $$ HΦ
    icases HΦ' with ⟨HS, Hrest⟩
    iapply ((runA c (grid0.coords t) _ _ _ _ _ _ _ _ _ _ hc0 hc1 (iblk V c 0 t) (iblk V c 1 t)).2.2 _ Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, ⟨%es, HS⟩⟩
    isplitl [HS Hrest]
    · isplitl [HS]
      · unfold owns; iexists _; isplitr
        swap; · iexact HS
        ipureintro; exact View.read_writes_of_cover _ _ _ _ _ (scoverA c _ _ _ _ _ _ _ _ _ _ _ _ _ _ _)
      iexact Hrest
    isplitl [Ho]; · iexact Ho
    isplitl [H0]; · iexact H0
    isplitl [H1]; · iexact H1
    isplitl [H2]; · iexists _; iexact H2
    unfold owns; iexists _; isplitr
    swap; · iexact H3
    ipureintro; exact View.read_writes_of_cover _ _ _ _ _ (cover3A c _ _ _ _ _ _ _ _ _ _ _ _ _ _ _)
  · have hz : t.val ≠ 0 := fun h => h0 (by rw [h])
    have hc0 : ¬cond0 (grid0.coords t) := fun h => h0 ((hcond0 t).mp h)
    by_cases h1 : t.val % 4 = 3
    · have hc1 : cond1 (grid0.coords t) := (hcond1 t).mpr h1
      rw [show (dat V c).leavesExact 2 t = owns (c : Thread nD τ) (ms2 t) fullShare ((dat V c).after 2 t) from by
        unfold Dat.leavesExact; rw [live2 t hc1], after2]
      rw [outsAt_C V c t h0 h1]
      unfold out2C out3C sC; (try dsimp only)
      rw [Phi_pos V c t hz]
      iintro ⟨⟨HS, Hrest⟩, Ho, ⟨%d0, H0⟩, ⟨%d1, H1⟩, ⟨%d2, H2⟩, ⟨%d3, H3⟩⟩
      iapply ((runC c (grid0.coords t) _ _ _ _ _ _ _ _ _ _ hc0 hc1 (iblk V c 0 t) (iblk V c 1 t) _).2.2.2 Set.univ _)
      isplitl [H0]; · iexact H0
      isplitl [H1]; · iexact H1
      isplitl [H2]; · iexists _; iexact H2
      isplitl [H3]; · iexists _; iexact H3
      isplitl [HS]; · iexact HS
      iintro ⟨H0, H1, ⟨%e2, H2⟩, ⟨%e3, H3⟩, ⟨%es, HS⟩⟩
      isplitl [HS Hrest]
      · isplitl [HS]
        · unfold owns; iexists _; isplitr
          swap; · iexact HS
          ipureintro; exact View.read_writes_of_cover _ _ _ _ _ (scoverC c _ _ _ _ _ _ _ _ _ _ _ _ _ _ _ _)
        iexact Hrest
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2C c _ _ _ _ _ _ _ _ _ _ _ _ _ _ _ _)
      unfold owns; iexists _; isplitr
      swap; · iexact H3
      ipureintro; exact View.read_writes_of_cover _ _ _ _ _ (cover3C c _ _ _ _ _ _ _ _ _ _ _ _ _ _ _ _)
    · have hc1 : ¬cond1 (grid0.coords t) := fun h => h1 ((hcond1 t).mp h)
      rw [Dat.leavesExact_idle (dat V c) 2 t (idle2 t hc1) (noFlush2 t hc1)]
      rw [outsAt_B V c t h0 h1]
      unfold out3B sB; (try dsimp only)
      rw [Phi_pos V c t hz]
      iintro ⟨⟨HS, Hrest⟩, Ho, ⟨%d0, H0⟩, ⟨%d1, H1⟩, ⟨%d2, H2⟩, ⟨%d3, H3⟩⟩
      iapply ((runB c (grid0.coords t) _ _ _ _ _ _ _ _ _ _ hc0 hc1 (iblk V c 0 t) (iblk V c 1 t) _).2.2 _ Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest]
      · isplitl [HS]
        · unfold owns; iexists _; isplitr
          swap; · iexact HS
          ipureintro; exact View.read_writes_of_cover _ _ _ _ _ (scoverB c _ _ _ _ _ _ _ _ _ _ _ _ _ _ _ _)
        iexact Hrest
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover3B c _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.R0

end
-- ==== Proof.R0Out.lean ====
import proofs.«135971_j70179765616691_2_alg».proof.Proof.Gen.KernelIdeal.Launch
import proofs.«135971_j70179765616691_2_alg».proof.Proof.Gen.KernelIdeal.Skeleton
import proofs.«135971_j70179765616691_2_alg».proof.Proof.Gen.KernelIdeal.Points
import proofs.«135971_j70179765616691_2_alg».proof.Proof.R0Body
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-
  Launch 0: after the last grid point the invariant gives the launch's scoped rest back, the accumulator's named
  contents forgotten; before the first point the scoped rest is the invariant.
-/
namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hout (c : Dev nD) : (dat V c).Φ (Fin.last cfg0.N) ⊢
    iprop(BI.emp ∗ BI.emp ∗ Pipeline.scopedRest (Ix := Unit) (Name := ℕ) (U := UR sig nD τ) (Lvl := ℕ) (Val := Elt F) spec0 c) := by
  rw [show (dat V c).Φ (Fin.last cfg0.N) = PhiS V c cfg0.N (Nat.le_refl _) from rfl,
    PhiS_pos V c _ _ (by rw [show cfg0.N = 16 from N_0]; decide), scopedRest_split]
  iintro ⟨HS, Hr⟩
  isplitr; · iempintro
  isplitr; · iempintro
  isplitl [HS]; · iexists _; iexact HS
  iexact Hr

theorem hin (c : Dev nD) (P : sProp 𝕄) :
    iprop(BI.emp ∗ P ∗ Pipeline.scopedRest (Ix := Unit) (Name := ℕ) (U := UR sig nD τ) (Lvl := ℕ) (Val := Elt F) spec0 c) ⊢ (dat V c).Φ 0 := by
  rw [show (dat V c).Φ 0 = Pipeline.scopedRest (Ix := Unit) (Name := ℕ) (U := UR sig nD τ) (Lvl := ℕ) (Val := Elt F) spec0 c from rfl]
  iintro ⟨-, -, Hr⟩; iexact Hr

end Cert.KernelIdeal.R0

end
-- ==== Proof.R1Runs.lean ====
import proofs.«135971_j70179765616691_2_alg».proof.Proof.Gen.KernelIdeal.Launch
import proofs.«135971_j70179765616691_2_alg».proof.Proof.Gen.KernelIdeal.Skeleton
import proofs.«135971_j70179765616691_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-
  The column-sum pass (the second kernel launch), its body run on any staging buffers.

  A grid point is (k, i) with i the fast coordinate, point t = 4 k + i: column block k of the attention matrix is
  swept down its four row blocks. Two accumulators are carried: the column sums of A (a row of 1024) and the product
  of the transposed block with the linear layer's rows (1024 by 128). Both are reset at i = 0 and copied to the two
  outputs at i = 3.
-/
namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditionals, decided over the grid -/

abbrev cond0 (i : grid1.Coords) : Prop := (Scalar.cmpi .ne (Scalar.extui (Scalar.cmpi .eq (BitVec.ofNat 32 (i 1).val) 0#32)) 0#32) = 1#1
theorem hcond0 : ∀ t : Fin cfg1.N, cond0 (grid1.coords t) ↔ t.val % 4 = 0 :=
  (by decide +kernel : ∀ t : Fin grid1.N, cond0 (grid1.coords t) ↔ t.val % 4 = 0)
abbrev cond1 (i : grid1.Coords) : Prop := k1_cond2 i = 1#1
theorem hcond1 : ∀ t : Fin cfg1.N, cond1 (grid1.coords t) ↔ t.val % 4 = 3 :=
  (by decide +kernel : ∀ t : Fin grid1.N, cond1 (grid1.coords t) ↔ t.val % 4 = 3)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem idle3 : ∀ t : Fin cfg1.N, ¬cond1 (grid1.coords t) → cfg1.idle 3 (grid1.coords t) = true := by decide +kernel
theorem noFlush3 : ∀ t : Fin cfg1.N, ¬cond1 (grid1.coords t) → (cfg1.win 3).flush t = false := by decide +kernel
theorem live3 : ∀ t : Fin cfg1.N, cond1 (grid1.coords t) → cfg1.idle 3 (grid1.coords t) = false := by decide +kernel
theorem idle4 : ∀ t : Fin cfg1.N, ¬cond1 (grid1.coords t) → cfg1.idle 4 (grid1.coords t) = true := by decide +kernel
theorem noFlush4 : ∀ t : Fin cfg1.N, ¬cond1 (grid1.coords t) → (cfg1.win 4).flush t = false := by decide +kernel
theorem live4 : ∀ t : Fin cfg1.N, cond1 (grid1.coords t) → cfg1.idle 4 (grid1.coords t) = false := by decide +kernel

/-! ## The buffers the body is called with -/

abbrev ms0 (t : Fin cfg1.N) : Memref sig .tc .vmem S1024x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1024x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1024x1 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1024 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x128 .f32 := win1_4.stage (cfg1.slots t 4)
abbrev hs4 (t : Fin cfg1.N) : (ms4 t).IsWhole := hstage1_4 ((cfg1.slots t 4).cast nbuf1_4)
/-- The two accumulators: the column sums and the transposed product. -/
abbrev scM0 : Memref sig .tc .vmem S1x1024 .f32 := Memref.whole cc1_scratch0
abbrev scM1 : Memref sig .tc .vmem S1024x128 .f32 := Memref.whole cc1_scratch1
abbrev VS0 : View sig .tc .vmem S1x1024 .f32 := scM0.view
abbrev VS1 : View sig .tc .vmem S1024x128 .f32 := scM1.view
abbrev VO3 : View sig .tc .vmem S1x1024 .f32 := (Memref.whole cc1_stg3_0 : Memref sig .tc .vmem S1x1024 .f32).view
abbrev VO4 : View sig .tc .vmem S1024x128 .f32 := (Memref.whole cc1_stg4_0 : Memref sig .tc .vmem S1024x128 .f32).view

/-! ## The three runs -/

set_option maxHeartbeats 1000000 in
/-- i = 0: both accumulators, found at anything, are reset and then hold this block's contributions; the outputs
    are handed back untouched. -/
noncomputable def runA (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1x1024 .f32) (harg7 : arg7.IsWhole) (arg8 : Memref sig .tc .vmem S1024x128 .f32) (harg8 : arg8.IsWhole)
    (hc0 : cond0 i) (hc1 : ¬cond1 i) (x0 : Vec F S1024x1024 .bf16) (x1 : Vec F S1024x128 .f32) (x2 : Vec F S1024x1 .f32) :
    Σ' (LS0 : List (View.Piece (Elt F) S1x1024 .f32)), { LS1 : List (View.Piece (Elt F) S1024x128 .f32) //
      ∀ (xi5 : Vec F S1x1024 .f32) (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi5 ∗ owns (c : Thread nD τ) arg6 fullShare xi6 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi5 ∗ owns (c : Thread nD τ) arg6 fullShare xi6
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__alsum_u_kernel i arg2 harg2 arg3 harg3 arg4 harg4 arg5 harg5 arg6 harg6 arg7 harg7 arg8 harg8) K } := by
  refine ⟨?_, ?_, fun xi5 xi6 E K => ?run⟩
  case run =>
    simp only [cc1__alsum_u_kernel_eq_skeleton]; unfold cc1__alsum_u_kernel_skel
    unfold owns
    iintro ⟨⟨%f0, %hf0, H0⟩, ⟨%f1, %hf1, H1⟩, ⟨%f2, %hf2, H2⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf5; obtain rfl := harg6.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; isplitr; · ipureintro; exact harg5.read_unread _
      iexact H5
    isplitl [H6]
    · iexists _; isplitr; · ipureintro; exact harg6.read_unread _
      iexact H6
    isplitl [HS0]; · iexists _; iexact HS0
    iexists _; iexact HS1

set_option maxHeartbeats 1000000 in
/-- 0 < i < 3: both accumulators, found at what the point before left, gain this block's contributions. -/
noncomputable def runB (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1x1024 .f32) (harg7 : arg7.IsWhole) (arg8 : Memref sig .tc .vmem S1024x128 .f32) (harg8 : arg8.IsWhole)
    (hc0 : ¬cond0 i) (hc1 : ¬cond1 i) (x0 : Vec F S1024x1024 .bf16) (x1 : Vec F S1024x128 .f32) (x2 : Vec F S1024x1 .f32)
    (xs0 : Vec F S1x1024 .f32) (xs1 : Vec F S1024x128 .f32) :
    Σ' (LS0 : List (View.Piece (Elt F) S1x1024 .f32)), { LS1 : List (View.Piece (Elt F) S1024x128 .f32) //
      ∀ (xi5 : Vec F S1x1024 .f32) (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi5 ∗ owns (c : Thread nD τ) arg6 fullShare xi6 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi5 ∗ owns (c : Thread nD τ) arg6 fullShare xi6
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__alsum_u_kernel i arg2 harg2 arg3 harg3 arg4 harg4 arg5 harg5 arg6 harg6 arg7 harg7 arg8 harg8) K } := by
  refine ⟨?_, ?_, fun xi5 xi6 E K => ?run⟩
  case run =>
    simp only [cc1__alsum_u_kernel_eq_skeleton]; unfold cc1__alsum_u_kernel_skel
    unfold owns
    iintro ⟨⟨%f0, %hf0, H0⟩, ⟨%f1, %hf1, H1⟩, ⟨%f2, %hf2, H2⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf5; obtain rfl := harg6.eq_unread hf6
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; isplitr; · ipureintro; exact harg5.read_unread _
      iexact H5
    isplitl [H6]
    · iexists _; isplitr; · ipureintro; exact harg6.read_unread _
      iexact H6
    isplitl [HS0]; · iexists _; iexact HS0
    iexists _; iexact HS1

set_option maxHeartbeats 1000000 in
/-- i = 3: as before, and both finished accumulators are copied into the outputs. -/
noncomputable def runC (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1x1024 .f32) (harg7 : arg7.IsWhole) (arg8 : Memref sig .tc .vmem S1024x128 .f32) (harg8 : arg8.IsWhole)
    (hc0 : ¬cond0 i) (hc1 : cond1 i) (x0 : Vec F S1024x1024 .bf16) (x1 : Vec F S1024x128 .f32) (x2 : Vec F S1024x1 .f32)
    (xs0 : Vec F S1x1024 .f32) (xs1 : Vec F S1024x128 .f32) :
    Σ' (L5 : List (View.Piece (Elt F) S1x1024 .f32)) (L6 : List (View.Piece (Elt F) S1024x128 .f32)) (LS0 : List (View.Piece (Elt F) S1x1024 .f32)), { LS1 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc1__alsum_u_kernel i arg2 harg2 arg3 harg3 arg4 harg4 arg5 harg5 arg6 harg6 arg7 harg7 arg8 harg8) K } := by
  refine ⟨?_, ?_, ?_, ?_, fun E K => ?run⟩
  case run =>
    simp only [cc1__alsum_u_kernel_eq_skeleton]; unfold cc1__alsum_u_kernel_skel
    unfold owns
    iintro ⟨⟨%f0, %hf0, H0⟩, ⟨%f1, %hf1, H1⟩, ⟨%f2, %hf2, H2⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    isplitl [H6]; · iexists _; iexact H6
    isplitl [HS0]; · iexists _; iexact HS0
    iexists _; iexact HS1

end Cert.KernelIdeal.R1

end
-- ==== Proof.R1Dat.lean ====
import proofs.«135971_j70179765616691_2_alg».proof.Proof.Gen.KernelIdeal.Launch
import proofs.«135971_j70179765616691_2_alg».proof.Proof.Gen.KernelIdeal.Skeleton
import proofs.«135971_j70179765616691_2_alg».proof.Proof.Gen.KernelIdeal.Points
import proofs.«135971_j70179765616691_2_alg».proof.Proof.R1Runs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-
  The column-sum pass: what its buffers hold after every grid point.

  After point t = 4 k + i the first accumulator holds the sums, over row blocks 0 … i, of column block k of the
  attention matrix; the second holds the same partial sum of the transposed block times the rows of the linear
  layer. The two outputs' staging buffers are written only at i = 3, with the finished accumulators.
-/
namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the pass finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

def junk3 : Vec F S1x1024 .f32 := VO3.read (Elt F) VO3.junk
def junk4 : Vec F S1024x128 .f32 := VO4.read (Elt F) VO4.junk

section Cases
variable (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1x1024 .f32) (harg7 : arg7.IsWhole) (arg8 : Memref sig .tc .vmem S1024x128 .f32) (harg8 : arg8.IsWhole)
variable (x0 : Vec F S1024x1024 .bf16) (x1 : Vec F S1024x128 .f32) (x2 : Vec F S1024x1 .f32) (xs0 : Vec F S1x1024 .f32) (xs1 : Vec F S1024x128 .f32)

theorem scover0A (hc0 : cond0 i) (hc1 : ¬cond1 i) (y : S1x1024.Idx) : ∃ pc ∈ (runA c i arg2 harg2 arg3 harg3 arg4 harg4 arg5 harg5 arg6 harg6 arg7 harg7 arg8 harg8 hc0 hc1 x0 x1 x2).1, y ∈ pc.1.set :=
  View.cover_of_tiledL (runA c i arg2 harg2 arg3 harg3 arg4 harg4 arg5 harg5 arg6 harg6 arg7 harg7 arg8 harg8 hc0 hc1 x0 x1 x2).1 S1x1024.size (by sl_kernel_rfl) y
def s0A (hc0 : cond0 i) (hc1 : ¬cond1 i) : Vec F S1x1024 .f32 :=
  VS0.read (Elt F) (VS0.writes (Elt F) VS0.junk (runA c i arg2 harg2 arg3 harg3 arg4 harg4 arg5 harg5 arg6 harg6 arg7 harg7 arg8 harg8 hc0 hc1 x0 x1 x2).1)
theorem scover1A (hc0 : cond0 i) (hc1 : ¬cond1 i) (y : S1024x128.Idx) : ∃ pc ∈ (runA c i arg2 harg2 arg3 harg3 arg4 harg4 arg5 harg5 arg6 harg6 arg7 harg7 arg8 harg8 hc0 hc1 x0 x1 x2).2.1, y ∈ pc.1.set :=
  View.cover_of_tiledL (runA c i arg2 harg2 arg3 harg3 arg4 harg4 arg5 harg5 arg6 harg6 arg7 harg7 arg8 harg8 hc0 hc1 x0 x1 x2).2.1 S1024x128.size (by sl_kernel_rfl) y
def s1A (hc0 : cond0 i) (hc1 : ¬cond1 i) : Vec F S1024x128 .f32 :=
  VS1.read (Elt F) (VS1.writes (Elt F) VS1.junk (runA c i arg2 harg2 arg3 harg3 arg4 harg4 arg5 harg5 arg6 harg6 arg7 harg7 arg8 harg8 hc0 hc1 x0 x1 x2).2.1)
theorem scover0B (hc0 : ¬cond0 i) (hc1 : ¬cond1 i) (y : S1x1024.Idx) : ∃ pc ∈ (runB c i arg2 harg2 arg3 harg3 arg4 harg4 arg5 harg5 arg6 harg6 arg7 harg7 arg8 harg8 hc0 hc1 x0 x1 x2 xs0 xs1).1, y ∈ pc.1.set :=
  View.cover_of_tiledL (runB c i arg2 harg2 arg3 harg3 arg4 harg4 arg5 harg5 arg6 harg6 arg7 harg7 arg8 harg8 hc0 hc1 x0 x1 x2 xs0 xs1).1 S1x1024.size (by sl_kernel_rfl) y
def s0B (hc0 : ¬cond0 i) (hc1 : ¬cond1 i) : Vec F S1x1024 .f32 :=
  VS0.read (Elt F) (VS0.writes (Elt F) VS0.junk (runB c i arg2 harg2 arg3 harg3 arg4 harg4 arg5 harg5 arg6 harg6 arg7 harg7 arg8 harg8 hc0 hc1 x0 x1 x2 xs0 xs1).1)
theorem scover1B (hc0 : ¬cond0 i) (hc1 : ¬cond1 i) (y : S1024x128.Idx) : ∃ pc ∈ (runB c i arg2 harg2 arg3 harg3 arg4 harg4 arg5 harg5 arg6 harg6 arg7 harg7 arg8 harg8 hc0 hc1 x0 x1 x2 xs0 xs1).2.1, y ∈ pc.1.set :=
  View.cover_of_tiledL (runB c i arg2 harg2 arg3 harg3 arg4 harg4 arg5 harg5 arg6 harg6 arg7 harg7 arg8 harg8 hc0 hc1 x0 x1 x2 xs0 xs1).2.1 S1024x128.size (by sl_kernel_rfl) y
def s1B (hc0 : ¬cond0 i) (hc1 : ¬cond1 i) : Vec F S1024x128 .f32 :=
  VS1.read (Elt F) (VS1.writes (Elt F) VS1.junk (runB c i arg2 harg2 arg3 harg3 arg4 harg4 arg5 harg5 arg6 harg6 arg7 harg7 arg8 harg8 hc0 hc1 x0 x1 x2 xs0 xs1).2.1)
theorem cover3C (hc0 : ¬cond0 i) (hc1 : cond1 i) (y : S1x1024.Idx) : ∃ pc ∈ (runC c i arg2 harg2 arg3 harg3 arg4 harg4 arg5 harg5 arg6 harg6 arg7 harg7 arg8 harg8 hc0 hc1 x0 x1 x2 xs0 xs1).1, y ∈ pc.1.set :=
  View.cover_of_tiledL (runC c i arg2 harg2 arg3 harg3 arg4 harg4 arg5 harg5 arg6 harg6 arg7 harg7 arg8 harg8 hc0 hc1 x0 x1 x2 xs0 xs1).1 S1x1024.size (by sl_kernel_rfl) y
def out3C (hc0 : ¬cond0 i) (hc1 : cond1 i) : Vec F S1x1024 .f32 :=
  VO3.read (Elt F) (VO3.writes (Elt F) VO3.junk (runC c i arg2 harg2 arg3 harg3 arg4 harg4 arg5 harg5 arg6 harg6 arg7 harg7 arg8 harg8 hc0 hc1 x0 x1 x2 xs0 xs1).1)
theorem cover4C (hc0 : ¬cond0 i) (hc1 : cond1 i) (y : S1024x128.Idx) : ∃ pc ∈ (runC c i arg2 harg2 arg3 harg3 arg4 harg4 arg5 harg5 arg6 harg6 arg7 harg7 arg8 harg8 hc0 hc1 x0 x1 x2 xs0 xs1).2.1, y ∈ pc.1.set :=
  View.cover_of_tiledL (runC c i arg2 harg2 arg3 harg3 arg4 harg4 arg5 harg5 arg6 harg6 arg7 harg7 arg8 harg8 hc0 hc1 x0 x1 x2 xs0 xs1).2.1 S1024x128.size (by sl_kernel_rfl) y
def out4C (hc0 : ¬cond0 i) (hc1 : cond1 i) : Vec F S1024x128 .f32 :=
  VO4.read (Elt F) (VO4.writes (Elt F) VO4.junk (runC c i arg2 harg2 arg3 harg3 arg4 harg4 arg5 harg5 arg6 harg6 arg7 harg7 arg8 harg8 hc0 hc1 x0 x1 x2 xs0 xs1).2.1)
theorem scover0C (hc0 : ¬cond0 i) (hc1 : cond1 i) (y : S1x1024.Idx) : ∃ pc ∈ (runC c i arg2 harg2 arg3 harg3 arg4 harg4 arg5 harg5 arg6 harg6 arg7 harg7 arg8 harg8 hc0 hc1 x0 x1 x2 xs0 xs1).2.2.1, y ∈ pc.1.set :=
  View.cover_of_tiledL (runC c i arg2 harg2 arg3 harg3 arg4 harg4 arg5 harg5 arg6 harg6 arg7 harg7 arg8 harg8 hc0 hc1 x0 x1 x2 xs0 xs1).2.2.1 S1x1024.size (by sl_kernel_rfl) y
def s0C (hc0 : ¬cond0 i) (hc1 : cond1 i) : Vec F S1x1024 .f32 :=
  VS0.read (Elt F) (VS0.writes (Elt F) VS0.junk (runC c i arg2 harg2 arg3 harg3 arg4 harg4 arg5 harg5 arg6 harg6 arg7 harg7 arg8 harg8 hc0 hc1 x0 x1 x2 xs0 xs1).2.2.1)
theorem scover1C (hc0 : ¬cond0 i) (hc1 : cond1 i) (y : S1024x128.Idx) : ∃ pc ∈ (runC c i arg2 harg2 arg3 harg3 arg4 harg4 arg5 harg5 arg6 harg6 arg7 harg7 arg8 harg8 hc0 hc1 x0 x1 x2 xs0 xs1).2.2.2.1, y ∈ pc.1.set :=
  View.cover_of_tiledL (runC c i arg2 harg2 arg3 harg3 arg4 harg4 arg5 harg5 arg6 harg6 arg7 harg7 arg8 harg8 hc0 hc1 x0 x1 x2 xs0 xs1).2.2.2.1 S1024x128.size (by sl_kernel_rfl) y
def s1C (hc0 : ¬cond0 i) (hc1 : cond1 i) : Vec F S1024x128 .f32 :=
  VS1.read (Elt F) (VS1.writes (Elt F) VS1.junk (runC c i arg2 harg2 arg3 harg3 arg4 harg4 arg5 harg5 arg6 harg6 arg7 harg7 arg8 harg8 hc0 hc1 x0 x1 x2 xs0 xs1).2.2.2.1)

end Cases

/-- After the body at position `n`: the two outputs' staging buffers, then the two accumulators. -/
def outsAt (c : Dev nD) : (n : ℕ) → n < cfg1.N → Vec F S1x1024 .f32 × Vec F S1024x128 .f32 × Vec F S1x1024 .f32 × Vec F S1024x128 .f32
  | 0, hn => (junk3, junk4,
      s0A c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM0 (Memref.isWhole_whole _) scM1 (Memref.isWhole_whole _) (iblk V c 0 ⟨0, hn⟩) (iblk V c 1 ⟨0, hn⟩) (iblk V c 2 ⟨0, hn⟩) ((hcond0 ⟨0, hn⟩).mpr (Nat.zero_mod _)) (fun h => (fun h => by (try dsimp only at h); omega) ((hcond1 ⟨0, hn⟩).mp h)),
      s1A c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM0 (Memref.isWhole_whole _) scM1 (Memref.isWhole_whole _) (iblk V c 0 ⟨0, hn⟩) (iblk V c 1 ⟨0, hn⟩) (iblk V c 2 ⟨0, hn⟩) ((hcond0 ⟨0, hn⟩).mpr (Nat.zero_mod _)) (fun h => (fun h => by (try dsimp only at h); omega) ((hcond1 ⟨0, hn⟩).mp h)))
  | n + 1, hn =>
    if h0 : (n + 1) % 4 = 0 then
      if h1 : (n + 1) % 4 = 3 then False.elim (by omega)
      else (junk3, junk4,
        s0A c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) (iblk V c 0 ⟨n + 1, hn⟩) (iblk V c 1 ⟨n + 1, hn⟩) (iblk V c 2 ⟨n + 1, hn⟩) ((hcond0 ⟨n + 1, hn⟩).mpr h0) (fun h => h1 ((hcond1 ⟨n + 1, hn⟩).mp h)),
        s1A c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) (iblk V c 0 ⟨n + 1, hn⟩) (iblk V c 1 ⟨n + 1, hn⟩) (iblk V c 2 ⟨n + 1, hn⟩) ((hcond0 ⟨n + 1, hn⟩).mpr h0) (fun h => h1 ((hcond1 ⟨n + 1, hn⟩).mp h)))
    else
      if h1 : (n + 1) % 4 = 3 then
        (out3C c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) (iblk V c 0 ⟨n + 1, hn⟩) (iblk V c 1 ⟨n + 1, hn⟩) (iblk V c 2 ⟨n + 1, hn⟩) (outsAt c n (Nat.lt_of_succ_lt hn)).2.2.1 (outsAt c n (Nat.lt_of_succ_lt hn)).2.2.2 (fun h => h0 ((hcond0 ⟨n + 1, hn⟩).mp h)) ((hcond1 ⟨n + 1, hn⟩).mpr h1),
         out4C c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) (iblk V c 0 ⟨n + 1, hn⟩) (iblk V c 1 ⟨n + 1, hn⟩) (iblk V c 2 ⟨n + 1, hn⟩) (outsAt c n (Nat.lt_of_succ_lt hn)).2.2.1 (outsAt c n (Nat.lt_of_succ_lt hn)).2.2.2 (fun h => h0 ((hcond0 ⟨n + 1, hn⟩).mp h)) ((hcond1 ⟨n + 1, hn⟩).mpr h1),
         s0C c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) (iblk V c 0 ⟨n + 1, hn⟩) (iblk V c 1 ⟨n + 1, hn⟩) (iblk V c 2 ⟨n + 1, hn⟩) (outsAt c n (Nat.lt_of_succ_lt hn)).2.2.1 (outsAt c n (Nat.lt_of_succ_lt hn)).2.2.2 (fun h => h0 ((hcond0 ⟨n + 1, hn⟩).mp h)) ((hcond1 ⟨n + 1, hn⟩).mpr h1),
         s1C c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) (iblk V c 0 ⟨n + 1, hn⟩) (iblk V c 1 ⟨n + 1, hn⟩) (iblk V c 2 ⟨n + 1, hn⟩) (outsAt c n (Nat.lt_of_succ_lt hn)).2.2.1 (outsAt c n (Nat.lt_of_succ_lt hn)).2.2.2 (fun h => h0 ((hcond0 ⟨n + 1, hn⟩).mp h)) ((hcond1 ⟨n + 1, hn⟩).mpr h1))
      else
        (junk3, junk4,
         s0B c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) (iblk V c 0 ⟨n + 1, hn⟩) (iblk V c 1 ⟨n + 1, hn⟩) (iblk V c 2 ⟨n + 1, hn⟩) (outsAt c n (Nat.lt_of_succ_lt hn)).2.2.1 (outsAt c n (Nat.lt_of_succ_lt hn)).2.2.2 (fun h => h0 ((hcond0 ⟨n + 1, hn⟩).mp h)) (fun h => h1 ((hcond1 ⟨n + 1, hn⟩).mp h)),
         s1B c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM0 (Memref.isWhole_whole _) scM1 (Memref.isWhole_whole _) (iblk V c 0 ⟨n + 1, hn⟩) (iblk V c 1 ⟨n + 1, hn⟩) (iblk V c 2 ⟨n + 1, hn⟩) (outsAt c n (Nat.lt_of_succ_lt hn)).2.2.1 (outsAt c n (Nat.lt_of_succ_lt hn)).2.2.2 (fun h => h0 ((hcond0 ⟨n + 1, hn⟩).mp h)) (fun h => h1 ((hcond1 ⟨n + 1, hn⟩).mp h)))

theorem outsAt_A (c : Dev nD) (t : Fin cfg1.N) (h0 : t.val % 4 = 0) (h1 : ¬t.val % 4 = 3) :
    outsAt V c t.val t.isLt = (junk3, junk4,
      s0A c (grid1.coords t) (ms0 t) (hs0 t) (ms1 t) (hs1 t) (ms2 t) (hs2 t) (ms3 t) (hs3 t) (ms4 t) (hs4 t) scM0 (Memref.isWhole_whole _) scM1 (Memref.isWhole_whole _) (iblk V c 0 t) (iblk V c 1 t) (iblk V c 2 t) ((hcond0 t).mpr h0) (fun h => h1 ((hcond1 t).mp h)),
      s1A c (grid1.coords t) (ms0 t) (hs0 t) (ms1 t) (hs1 t) (ms2 t) (hs2 t) (ms3 t) (hs3 t) (ms4 t) (hs4 t) scM0 (Memref.isWhole_whole _) scM1 (Memref.isWhole_whole _) (iblk V c 0 t) (iblk V c 1 t) (iblk V c 2 t) ((hcond0 t).mpr h0) (fun h => h1 ((hcond1 t).mp h))) := by
  obtain ⟨n, hn⟩ := t
  cases n with
  | zero => exact rfl
  | succ n => exact (dif_pos h0).trans ((dif_neg h1).trans rfl)

theorem outsAt_B (c : Dev nD) (t : Fin cfg1.N) (h0 : ¬t.val % 4 = 0) (h1 : ¬t.val % 4 = 3) :
    outsAt V c t.val t.isLt = (junk3, junk4,
      s0B c (grid1.coords t) (ms0 t) (hs0 t) (ms1 t) (hs1 t) (ms2 t) (hs2 t) (ms3 t) (hs3 t) (ms4 t) (hs4 t) scM0 (Memref.isWhole_whole _) scM1 (Memref.isWhole_whole _) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2 (fun h => h0 ((hcond0 t).mp h)) (fun h => h1 ((hcond1 t).mp h)),
      s1B c (grid1.coords t) (ms0 t) (hs0 t) (ms1 t) (hs1 t) (ms2 t) (hs2 t) (ms3 t) (hs3 t) (ms4 t) (hs4 t) scM0 (Memref.isWhole_whole _) scM1 (Memref.isWhole_whole _) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2 (fun h => h0 ((hcond0 t).mp h)) (fun h => h1 ((hcond1 t).mp h))) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg1.N) (h0 : ¬t.val % 4 = 0) (h1 : t.val % 4 = 3) :
    outsAt V c t.val t.isLt = (
      out3C c (grid1.coords t) (ms0 t) (hs0 t) (ms1 t) (hs1 t) (ms2 t) (hs2 t) (ms3 t) (hs3 t) (ms4 t) (hs4 t) scM0 (Memref.isWhole_whole _) scM1 (Memref.isWhole_whole _) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2 (fun h => h0 ((hcond0 t).mp h)) ((hcond1 t).mpr h1),
      out4C c (grid1.coords t) (ms0 t) (hs0 t) (ms1 t) (hs1 t) (ms2 t) (hs2 t) (ms3 t) (hs3 t) (ms4 t) (hs4 t) scM0 (Memref.isWhole_whole _) scM1 (Memref.isWhole_whole _) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2 (fun h => h0 ((hcond0 t).mp h)) ((hcond1 t).mpr h1),
      s0C c (grid1.coords t) (ms0 t) (hs0 t) (ms1 t) (hs1 t) (ms2 t) (hs2 t) (ms3 t) (hs3 t) (ms4 t) (hs4 t) scM0 (Memref.isWhole_whole _) scM1 (Memref.isWhole_whole _) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2 (fun h => h0 ((hcond0 t).mp h)) ((hcond1 t).mpr h1),
      s1C c (grid1.coords t) (ms0 t) (hs0 t) (ms1 t) (hs1 t) (ms2 t) (hs2 t) (ms3 t) (hs3 t) (ms4 t) (hs4 t) scM0 (Memref.isWhole_whole _) scM1 (Memref.isWhole_whole _) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2 (fun h => h0 ((hcond0 t).mp h)) ((hcond1 t).mpr h1)) := by
  obtain ⟨n, hn⟩ := t
  cases n with
  | zero => exact (by exfalso; (try dsimp only at h0); exact absurd (Nat.zero_mod _) h0)
  | succ n => exact (dif_neg h0).trans ((dif_pos h1).trans rfl)

end Cert.KernelIdeal.R1

end
-- ==== Proof.R1Body.lean ====
import proofs.«135971_j70179765616691_2_alg».proof.Proof.Gen.KernelIdeal.Launch
import proofs.«135971_j70179765616691_2_alg».proof.Proof.Gen.KernelIdeal.Skeleton
import proofs.«135971_j70179765616691_2_alg».proof.Proof.Gen.KernelIdeal.Points
import proofs.«135971_j70179765616691_2_alg».proof.Proof.R1Dat
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-
  The column-sum pass: the invariant between grid points, the proof data, and the body obligation.

  After point n both accumulators hold `outsAt`'s last two components at n; every other scoped buffer rides along
  unopened. The body's three runs are matched to the three residues of the point modulo 4.
-/
namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev restBut (c : Dev nD) : sProp 𝕄 :=
  Pipeline.scopedRestBut (Ix := Unit) (Name := ℕ) (U := UR sig nD τ) (Lvl := ℕ) (Val := Elt F) spec1 c [cc1_scratch0, cc1_scratch1]

theorem scopedRest_split (c : Dev nD) :
    (Pipeline.scopedRest (Ix := Unit) (Name := ℕ) (U := UR sig nD τ) (Lvl := ℕ) (Val := Elt F) spec1 c : sProp 𝕄)
      = iprop(((∃ d, owns (c : Thread nD τ) scM0 fullShare d) ∗ (∃ d, owns (c : Thread nD τ) scM1 fullShare d)) ∗ restBut c) := by
  rw [Pipeline.scopedRest_split_of_list spec1 c [cc1_scratch0, cc1_scratch1] (by decide) (by decide)]
  simp only [Idealize.SL.BI.bigSepL_cons_cons, Idealize.SL.BI.bigSepL_singleton, scM0, scM1, owns_whole]
  rfl

def PhiS (c : Dev nD) : (n : ℕ) → n ≤ cfg1.N → sProp 𝕄
  | 0, _ => Pipeline.scopedRest (Ix := Unit) (Name := ℕ) (U := UR sig nD τ) (Lvl := ℕ) (Val := Elt F) spec1 c
  | n + 1, hn => iprop((owns (c : Thread nD τ) scM0 fullShare ((outsAt V c n hn).2.2.1) ∗ owns (c : Thread nD τ) scM1 fullShare ((outsAt V c n hn).2.2.2)) ∗ restBut c)

theorem PhiS_zero (c : Dev nD) (n : ℕ) (h : n ≤ cfg1.N) (hz : n = 0) :
    PhiS V c n h = Pipeline.scopedRest (Ix := Unit) (Name := ℕ) (U := UR sig nD τ) (Lvl := ℕ) (Val := Elt F) spec1 c := by
  subst hz; rfl
theorem PhiS_succ (c : Dev nD) (n : ℕ) (hn : n < cfg1.N) :
    PhiS V c (n + 1) hn = iprop((owns (c : Thread nD τ) scM0 fullShare ((outsAt V c n hn).2.2.1) ∗ owns (c : Thread nD τ) scM1 fullShare ((outsAt V c n hn).2.2.2)) ∗ restBut c) := rfl
theorem PhiS_pos (c : Dev nD) (n : ℕ) (h : n ≤ cfg1.N) (hz : n ≠ 0) :
    PhiS V c n h = iprop((owns (c : Thread nD τ) scM0 fullShare ((outsAt V c (n - 1) (by omega)).2.2.1) ∗ owns (c : Thread nD τ) scM1 fullShare ((outsAt V c (n - 1) (by omega)).2.2.2)) ∗ restBut c) := by
  cases n with
  | zero => exact absurd rfl hz
  | succ n => rfl

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
    | ⟨4, _⟩ => (outsAt V c t.val t.isLt).2.1
  Φ t := PhiS V c t.val (Nat.le_of_lt_succ t.isLt)
  q _ := fullShare
  owed _ := 0

theorem A_eq (c : Dev nD) (w : Fin cfg1.W) : (dat V c).A w = V c (Pipeline.arrRef spec1 w) := by dsimp only [dat]
theorem PhiS_castSucc (c : Dev nD) (t : Fin cfg1.N) : (dat V c).Φ t.castSucc = PhiS V c t.val (Nat.le_of_lt t.isLt) := by
  dsimp only [dat]; simp only [Fin.coe_castSucc]
theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = (outsAt V c t.val t.isLt).1 := by dsimp only [dat]
theorem after4 (c : Dev nD) (t : Fin cfg1.N) : (dat V c).after 4 t = (outsAt V c t.val t.isLt).2.1 := by dsimp only [dat]
theorem before0 (c : Dev nD) (t : Fin cfg1.N) (d) : (dat V c).before 0 t d = iblk V c 0 t := before0_of V (dat V c) (A_eq V c 0) (after0 V c) t d
theorem before1 (c : Dev nD) (t : Fin cfg1.N) (d) : (dat V c).before 1 t d = iblk V c 1 t := before1_of V (dat V c) (A_eq V c 1) (after1 V c) t d
theorem before2 (c : Dev nD) (t : Fin cfg1.N) (d) : (dat V c).before 2 t d = iblk V c 2 t := before2_of V (dat V c) (A_eq V c 2) (after2 V c) t d

theorem Phi_start (c : Dev nD) (t : Fin cfg1.N) :
    (dat V c).Φ t.castSucc ⊢ iprop(((∃ d, owns (c : Thread nD τ) scM0 fullShare d) ∗ (∃ d, owns (c : Thread nD τ) scM1 fullShare d)) ∗ restBut c) := by
  rw [PhiS_castSucc V c t]
  by_cases hz : t.val = 0
  · rw [PhiS_zero V c _ _ hz, scopedRest_split]
  · rw [PhiS_pos V c _ _ hz]
    iintro ⟨⟨HS0, HS1⟩, Hr⟩
    isplitl [HS0 HS1]
    · isplitl [HS0]; · iexists _; iexact HS0
      iexists _; iexact HS1
    iexact Hr

theorem Phi_pos (c : Dev nD) (t : Fin cfg1.N) (hz : t.val ≠ 0) :
    (dat V c).Φ t.castSucc = iprop((owns (c : Thread nD τ) scM0 fullShare ((outsAt V c (t.val - 1) (Nat.lt_of_le_of_lt (Nat.sub_le _ _) t.isLt)).2.2.1) ∗ owns (c : Thread nD τ) scM1 fullShare ((outsAt V c (t.val - 1) (Nat.lt_of_le_of_lt (Nat.sub_le _ _) t.isLt)).2.2.2)) ∗ restBut c) := by
  rw [PhiS_castSucc V c t, PhiS_pos V c _ _ hz]

def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  by_cases h0 : t.val % 4 = 0
  · have h1 : ¬t.val % 4 = 3 := by omega
    have hc0 : cond0 (grid1.coords t) := (hcond0 t).mpr h0
    have hc1 : ¬cond1 (grid1.coords t) := fun h => h1 ((hcond1 t).mp h)
    rw [Dat.leavesExact_idle (dat V c) 3 t (idle3 t hc1) (noFlush3 t hc1), Dat.leavesExact_idle (dat V c) 4 t (idle4 t hc1) (noFlush4 t hc1)]
    rw [outsAt_A V c t h0 h1]
    unfold s0A s1A; (try dsimp only)
    iintro ⟨HΦ, Ho, ⟨%d0, H0⟩, ⟨%d1, H1⟩, ⟨%d2, H2⟩, ⟨%d3, H3⟩, ⟨%d4, H4⟩⟩
    ihave HΦ' := (Phi_start V c t) $$ HΦ
    icases HΦ' with ⟨⟨HS0, HS1⟩, Hrest⟩
    iapply ((runA c (grid1.coords t) _ _ _ _ _ _ _ _ _ _ _ _ _ _ hc0 hc1 (iblk V c 0 t) (iblk V c 1 t) (iblk V c 2 t)).2.2 _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HS0 HS1 Hrest]
    · isplitl [HS0 HS1]
      · isplitl [HS0]
        · unfold owns; iexists _; isplitr
          swap; · iexact HS0
          ipureintro; exact View.read_writes_of_cover _ _ _ _ _ (scover0A c _ _ _ _ _ _ _ _ _ _ _ _ _ _ _ _ _ _ _ _)
        unfold owns; iexists _; isplitr
        swap; · iexact HS1
        ipureintro; exact View.read_writes_of_cover _ _ _ _ _ (scover1A c _ _ _ _ _ _ _ _ _ _ _ _ _ _ _ _ _ _ _ _)
      iexact Hrest
    isplitl [Ho]; · iexact Ho
    isplitl [H0]; · iexact H0
    isplitl [H1]; · iexact H1
    isplitl [H2]; · iexact H2
    isplitl [H3]; · iexists _; iexact H3
    iexists _; iexact H4
  · have hz : t.val ≠ 0 := fun h => h0 (by rw [h])
    have hc0 : ¬cond0 (grid1.coords t) := fun h => h0 ((hcond0 t).mp h)
    by_cases h1 : t.val % 4 = 3
    · have hc1 : cond1 (grid1.coords t) := (hcond1 t).mpr h1
      rw [show (dat V c).leavesExact 3 t = owns (c : Thread nD τ) (ms3 t) fullShare ((dat V c).after 3 t) from by
        unfold Dat.leavesExact; rw [live3 t hc1], after3]
      rw [show (dat V c).leavesExact 4 t = owns (c : Thread nD τ) (ms4 t) fullShare ((dat V c).after 4 t) from by
        unfold Dat.leavesExact; rw [live4 t hc1], after4]
      rw [outsAt_C V c t h0 h1]
      unfold out3C out4C s0C s1C; (try dsimp only)
      rw [Phi_pos V c t hz]
      iintro ⟨⟨⟨HS0, HS1⟩, Hrest⟩, Ho, ⟨%d0, H0⟩, ⟨%d1, H1⟩, ⟨%d2, H2⟩, ⟨%d3, H3⟩, ⟨%d4, H4⟩⟩
      iapply ((runC c (grid1.coords t) _ _ _ _ _ _ _ _ _ _ _ _ _ _ hc0 hc1 (iblk V c 0 t) (iblk V c 1 t) (iblk V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest]
      · isplitl [HS0 HS1]
        · isplitl [HS0]
          · unfold owns; iexists _; isplitr
            swap; · iexact HS0
            ipureintro; exact View.read_writes_of_cover _ _ _ _ _ (scover0C c _ _ _ _ _ _ _ _ _ _ _ _ _ _ _ _ _ _ _ _ _ _)
          unfold owns; iexists _; isplitr
          swap; · iexact HS1
          ipureintro; exact View.read_writes_of_cover _ _ _ _ _ (scover1C c _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover3C c _ _ _ _ _ _ _ _ _ _ _ _ _ _ _ _ _ _ _ _ _ _)
      unfold owns; iexists _; isplitr
      swap; · iexact H4
      ipureintro; exact View.read_writes_of_cover _ _ _ _ _ (cover4C c _ _ _ _ _ _ _ _ _ _ _ _ _ _ _ _ _ _ _ _ _ _)
    · have hc1 : ¬cond1 (grid1.coords t) := fun h => h1 ((hcond1 t).mp h)
      rw [Dat.leavesExact_idle (dat V c) 3 t (idle3 t hc1) (noFlush3 t hc1), Dat.leavesExact_idle (dat V c) 4 t (idle4 t hc1) (noFlush4 t hc1)]
      rw [outsAt_B V c t h0 h1]
      unfold s0B s1B; (try dsimp only)
      rw [Phi_pos V c t hz]
      iintro ⟨⟨⟨HS0, HS1⟩, Hrest⟩, Ho, ⟨%d0, H0⟩, ⟨%d1, H1⟩, ⟨%d2, H2⟩, ⟨%d3, H3⟩, ⟨%d4, H4⟩⟩
      iapply ((runB c (grid1.coords t) _ _ _ _ _ _ _ _ _ _ _ _ _ _ hc0 hc1 (iblk V c 0 t) (iblk V c 1 t) (iblk V c 2 t) _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hrest]
      · isplitl [HS0 HS1]
        · isplitl [HS0]
          · unfold owns; iexists _; isplitr
            swap; · iexact HS0
            ipureintro; exact View.read_writes_of_cover _ _ _ _ _ (scover0B c _ _ _ _ _ _ _ _ _ _ _ _ _ _ _ _ _ _ _ _ _ _)
          unfold owns; iexists _; isplitr
          swap; · iexact HS1
          ipureintro; exact View.read_writes_of_cover _ _ _ _ _ (scover1B c _ _ _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexists _; iexact H3
      iexists _; iexact H4

theorem body_obligation (c : Dev nD) : BodyObligation (dat (F := F) V c) (defs₀ (F := F)) Variants.none () Set.univ := fun t => by
  rw [bigSep_W1, bigSep_W1]
  exact sound_body V c t

end Cert.KernelIdeal.R1

end
-- ==== Proof.R1Out.lean ====
import proofs.«135971_j70179765616691_2_alg».proof.Proof.Gen.KernelIdeal.Launch
import proofs.«135971_j70179765616691_2_alg».proof.Proof.Gen.KernelIdeal.Skeleton
import proofs.«135971_j70179765616691_2_alg».proof.Proof.Gen.KernelIdeal.Points
import proofs.«135971_j70179765616691_2_alg».proof.Proof.R1Body
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-
  Launch 1: after the last grid point the invariant gives the launch's scoped rest back, the accumulator's named
  contents forgotten; before the first point the scoped rest is the invariant.
-/
namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hout (c : Dev nD) : (dat V c).Φ (Fin.last cfg1.N) ⊢
    iprop(BI.emp ∗ BI.emp ∗ Pipeline.scopedRest (Ix := Unit) (Name := ℕ) (U := UR sig nD τ) (Lvl := ℕ) (Val := Elt F) spec1 c) := by
  rw [show (dat V c).Φ (Fin.last cfg1.N) = PhiS V c cfg1.N (Nat.le_refl _) from rfl,
    PhiS_pos V c _ _ (by rw [show cfg1.N = 16 from N_1]; decide), scopedRest_split]
  iintro ⟨⟨HS0, HS1⟩, Hr⟩
  isplitr; · iempintro
  isplitr; · iempintro
  isplitl [HS0 HS1]
  · isplitl [HS0]; · iexists _; iexact HS0
    iexists _; iexact HS1
  iexact Hr

theorem hin (c : Dev nD) (P : sProp 𝕄) :
    iprop(BI.emp ∗ P ∗ Pipeline.scopedRest (Ix := Unit) (Name := ℕ) (U := UR sig nD τ) (Lvl := ℕ) (Val := Elt F) spec1 c) ⊢ (dat V c).Φ 0 := by
  rw [show (dat V c).Φ 0 = Pipeline.scopedRest (Ix := Unit) (Name := ℕ) (U := UR sig nD τ) (Lvl := ℕ) (Val := Elt F) spec1 c from rfl]
  iintro ⟨-, -, Hr⟩; iexact Hr

end Cert.KernelIdeal.R1

end
-- ==== Proof.R2Runs.lean ====
import proofs.«135971_j70179765616691_2_alg».proof.Proof.Gen.KernelIdeal.Launch
import proofs.«135971_j70179765616691_2_alg».proof.Proof.Gen.KernelIdeal.Skeleton
import proofs.«135971_j70179765616691_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-
  The output pass (the third kernel launch), its body run on any staging buffers.

  A grid point is (i, k) with k the fast coordinate, point t = 4 i + k: row block i of the attention matrix is
  swept along its four column blocks, accumulating its product with the normalised aggregate; at k = 3 the bias is
  added and the leaky rectifier applied, into the output block.
-/
namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0 (i : grid2.Coords) : Prop := (Scalar.cmpi .ne (Scalar.extui (Scalar.cmpi .eq (BitVec.ofNat 32 (i 1).val) 0#32)) 0#32) = 1#1
theorem hcond0 : ∀ t : Fin cfg2.N, cond0 (grid2.coords t) ↔ t.val % 4 = 0 :=
  (by decide +kernel : ∀ t : Fin grid2.N, cond0 (grid2.coords t) ↔ t.val % 4 = 0)
abbrev cond1 (i : grid2.Coords) : Prop := k2_cond2 i = 1#1
theorem hcond1 : ∀ t : Fin cfg2.N, cond1 (grid2.coords t) ↔ t.val % 4 = 3 :=
  (by decide +kernel : ∀ t : Fin grid2.N, cond1 (grid2.coords t) ↔ t.val % 4 = 3)

theorem live0 : ∀ t : Fin cfg2.N, cfg2.idle 0 (grid2.coords t) = false := by decide +kernel
theorem live1 : ∀ t : Fin cfg2.N, cfg2.idle 1 (grid2.coords t) = false := by decide +kernel
theorem live2 : ∀ t : Fin cfg2.N, cfg2.idle 2 (grid2.coords t) = false := by decide +kernel
theorem live3 : ∀ t : Fin cfg2.N, cfg2.idle 3 (grid2.coords t) = false := by decide +kernel
theorem idle4 : ∀ t : Fin cfg2.N, ¬cond1 (grid2.coords t) → cfg2.idle 4 (grid2.coords t) = true := by decide +kernel
theorem noFlush4 : ∀ t : Fin cfg2.N, ¬cond1 (grid2.coords t) → (cfg2.win 4).flush t = false := by decide +kernel
theorem live4 : ∀ t : Fin cfg2.N, cond1 (grid2.coords t) → cfg2.idle 4 (grid2.coords t) = false := by decide +kernel

abbrev ms0 (t : Fin cfg2.N) : Memref sig .tc .vmem S1024x1024 .bf16 := win2_0.stage (cfg2.slots t 0)
abbrev hs0 (t : Fin cfg2.N) : (ms0 t).IsWhole := hstage2_0 ((cfg2.slots t 0).cast nbuf2_0)
abbrev ms1 (t : Fin cfg2.N) : Memref sig .tc .vmem S1024x1 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S1024x128 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1x128 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1024x128 .f32 := win2_4.stage (cfg2.slots t 4)
abbrev hs4 (t : Fin cfg2.N) : (ms4 t).IsWhole := hstage2_4 ((cfg2.slots t 4).cast nbuf2_4)
/-- The accumulator of the row block's product. -/
abbrev scM : Memref sig .tc .vmem S1024x128 .f32 := Memref.whole cc2_scratch0
abbrev VS : View sig .tc .vmem S1024x128 .f32 := scM.view
abbrev VO4 : View sig .tc .vmem S1024x128 .f32 := (Memref.whole cc2_stg4_0 : Memref sig .tc .vmem S1024x128 .f32).view

set_option maxHeartbeats 1000000 in
/-- k = 0: the accumulator, found at anything, is reset and then holds this block's product; the output is handed
    back untouched. -/
noncomputable def runA (c : Dev nD) (i : grid2.Coords) (arg2 : Memref sig .tc .vmem S1024x1024 .bf16) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole)
    (hc0 : cond0 i) (hc1 : ¬cond1 i) (x0 : Vec F S1024x1024 .bf16) (x1 : Vec F S1024x1 .f32) (x2 : Vec F S1024x128 .f32) (x3 : Vec F S1x128 .f32) :
    { LS : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6
                ∗ (∃ f, arg7.view.loc (c : Thread nD τ) ↦[arg7.view.set]{fullShare} arg7.view.writes (Elt F) f LS)) -∗ K ⟨⟩))
          ⊢ wp frame (wpE (defs₀ (F := F)) Variants.none c none) E (cc2__final_kernel i arg2 harg2 arg3 harg3 arg4 harg4 arg5 harg5 arg6 harg6 arg7 harg7) K } := by
  refine ⟨?_, fun xi6 E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%f3, %hf3, H3⟩, ⟨%f6, %hf6, H6⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; · ipureintro; exact harg6.read_unread _
      iexact H6
    iexists _; iexact HS

set_option maxHeartbeats 1000000 in
/-- 0 < k < 3: the accumulator, found at what the point before left, gains this block's product. -/
noncomputable def runB (c : Dev nD) (i : grid2.Coords) (arg2 : Memref sig .tc .vmem S1024x1024 .bf16) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole)
    (hc0 : ¬cond0 i) (hc1 : ¬cond1 i) (x0 : Vec F S1024x1024 .bf16) (x1 : Vec F S1024x1 .f32) (x2 : Vec F S1024x128 .f32) (x3 : Vec F S1x128 .f32)
    (xs : Vec F S1024x128 .f32) :
    { LS : List (View.Piece (Elt F) S1024x128 .f32) //
      ∀ (xi6 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi6
                ∗ (∃ f, arg7.view.loc (c : Thread nD τ) ↦[arg7.view.set]{fullShare} arg7.view.writes (Elt F) f LS)) -∗ K ⟨⟩))
          ⊢ wp frame (wpE (defs₀ (F := F)) Variants.none c none) E (cc2__final_kernel i arg2 harg2 arg3 harg3 arg4 harg4 arg5 harg5 arg6 harg6 arg7 harg7) K } := by
  refine ⟨?_, fun xi6 E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%f3, %hf3, H3⟩, ⟨%f6, %hf6, H6⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf6
    obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]
    · iexists _; isplitr; · ipureintro; exact harg6.read_unread _
      iexact H6
    iexists _; iexact HS

set_option maxHeartbeats 1000000 in
/-- k = 3: as before, then bias and rectifier into the output block. -/
noncomputable def runC (c : Dev nD) (i : grid2.Coords) (arg2 : Memref sig .tc .vmem S1024x1024 .bf16) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole)
    (hc0 : ¬cond0 i) (hc1 : cond1 i) (x0 : Vec F S1024x1024 .bf16) (x1 : Vec F S1024x1 .f32) (x2 : Vec F S1024x128 .f32) (x3 : Vec F S1x128 .f32)
    (xs : Vec F S1024x128 .f32) :
    Σ' (L6 : List (View.Piece (Elt F) S1024x128 .f32)), { LS : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f LS)) -∗ K ⟨⟩))
          ⊢ wp frame (wpE (defs₀ (F := F)) Variants.none c none) E (cc2__final_kernel i arg2 harg2 arg3 harg3 arg4 harg4 arg5 harg5 arg6 harg6 arg7 harg7) K } := by
  refine ⟨?_, ?_, fun E K => ?run⟩
  case run =>
    simp only [cc2__final_kernel_eq_skeleton]; unfold cc2__final_kernel_skel
    unfold owns
    iintro ⟨⟨%f0, %hf0, H0⟩, ⟨%f1, %hf1, H1⟩, ⟨%f2, %hf2, H2⟩, ⟨%f3, %hf3, H3⟩, ⟨%d6, %f6, -, H6⟩, ⟨%fs, %hfs, HS⟩, Hk⟩
    obtain rfl := harg2.eq_unread hf0; obtain rfl := harg3.eq_unread hf1; obtain rfl := harg4.eq_unread hf2; obtain rfl := harg5.eq_unread hf3
    obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    iexists _; iexact HS

end Cert.KernelIdeal.R2

end
-- ==== Proof.R2Dat.lean ====
import proofs.«135971_j70179765616691_2_alg».proof.Proof.Gen.KernelIdeal.Launch
import proofs.«135971_j70179765616691_2_alg».proof.Proof.Gen.KernelIdeal.Skeleton
import proofs.«135971_j70179765616691_2_alg».proof.Proof.Gen.KernelIdeal.Points
import proofs.«135971_j70179765616691_2_alg».proof.Proof.R2Runs
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-
  The output pass: what its buffers hold after every grid point.

  After point t = 4 i + k the accumulator holds the sum, over column blocks 0 … k, of row block i of the attention
  matrix times the rows of the normalised aggregate; the output's staging buffer is written only at k = 3, with the
  rectified sum of the finished accumulator and the bias.
-/
namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

def junk4 : Vec F S1024x128 .f32 := VO4.read (Elt F) VO4.junk

section Cases
variable (c : Dev nD) (i : grid2.Coords) (arg2 : Memref sig .tc .vmem S1024x1024 .bf16) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1x128 .f32) (harg5 : arg5.IsWhole) (arg6 : Memref sig .tc .vmem S1024x128 .f32) (harg6 : arg6.IsWhole) (arg7 : Memref sig .tc .vmem S1024x128 .f32) (harg7 : arg7.IsWhole)
variable (x0 : Vec F S1024x1024 .bf16) (x1 : Vec F S1024x1 .f32) (x2 : Vec F S1024x128 .f32) (x3 : Vec F S1x128 .f32) (xs : Vec F S1024x128 .f32)

theorem scoverA (hc0 : cond0 i) (hc1 : ¬cond1 i) (y : S1024x128.Idx) : ∃ pc ∈ (runA c i arg2 harg2 arg3 harg3 arg4 harg4 arg5 harg5 arg6 harg6 arg7 harg7 hc0 hc1 x0 x1 x2 x3).1, y ∈ pc.1.set :=
  View.cover_of_tiledL (runA c i arg2 harg2 arg3 harg3 arg4 harg4 arg5 harg5 arg6 harg6 arg7 harg7 hc0 hc1 x0 x1 x2 x3).1 S1024x128.size (by sl_kernel_rfl) y
def sA (hc0 : cond0 i) (hc1 : ¬cond1 i) : Vec F S1024x128 .f32 :=
  VS.read (Elt F) (VS.writes (Elt F) VS.junk (runA c i arg2 harg2 arg3 harg3 arg4 harg4 arg5 harg5 arg6 harg6 arg7 harg7 hc0 hc1 x0 x1 x2 x3).1)
theorem scoverB (hc0 : ¬cond0 i) (hc1 : ¬cond1 i) (y : S1024x128.Idx) : ∃ pc ∈ (runB c i arg2 harg2 arg3 harg3 arg4 harg4 arg5 harg5 arg6 harg6 arg7 harg7 hc0 hc1 x0 x1 x2 x3 xs).1, y ∈ pc.1.set :=
  View.cover_of_tiledL (runB c i arg2 harg2 arg3 harg3 arg4 harg4 arg5 harg5 arg6 harg6 arg7 harg7 hc0 hc1 x0 x1 x2 x3 xs).1 S1024x128.size (by sl_kernel_rfl) y
def sB (hc0 : ¬cond0 i) (hc1 : ¬cond1 i) : Vec F S1024x128 .f32 :=
  VS.read (Elt F) (VS.writes (Elt F) VS.junk (runB c i arg2 harg2 arg3 harg3 arg4 harg4 arg5 harg5 arg6 harg6 arg7 harg7 hc0 hc1 x0 x1 x2 x3 xs).1)
theorem cover4C (hc0 : ¬cond0 i) (hc1 : cond1 i) (y : S1024x128.Idx) : ∃ pc ∈ (runC c i arg2 harg2 arg3 harg3 arg4 harg4 arg5 harg5 arg6 harg6 arg7 harg7 hc0 hc1 x0 x1 x2 x3 xs).1, y ∈ pc.1.set :=
  View.cover_of_tiledL (runC c i arg2 harg2 arg3 harg3 arg4 harg4 arg5 harg5 arg6 harg6 arg7 harg7 hc0 hc1 x0 x1 x2 x3 xs).1 S1024x128.size (by sl_kernel_rfl) y
def out4C (hc0 : ¬cond0 i) (hc1 : cond1 i) : Vec F S1024x128 .f32 :=
  VO4.read (Elt F) (VO4.writes (Elt F) VO4.junk (runC c i arg2 harg2 arg3 harg3 arg4 harg4 arg5 harg5 arg6 harg6 arg7 harg7 hc0 hc1 x0 x1 x2 x3 xs).1)
theorem scoverC (hc0 : ¬cond0 i) (hc1 : cond1 i) (y : S1024x128.Idx) : ∃ pc ∈ (runC c i arg2 harg2 arg3 harg3 arg4 harg4 arg5 harg5 arg6 harg6 arg7 harg7 hc0 hc1 x0 x1 x2 x3 xs).2.1, y ∈ pc.1.set :=
  View.cover_of_tiledL (runC c i arg2 harg2 arg3 harg3 arg4 harg4 arg5 harg5 arg6 harg6 arg7 harg7 hc0 hc1 x0 x1 x2 x3 xs).2.1 S1024x128.size (by sl_kernel_rfl) y
def sC (hc0 : ¬cond0 i) (hc1 : cond1 i) : Vec F S1024x128 .f32 :=
  VS.read (Elt F) (VS.writes (Elt F) VS.junk (runC c i arg2 harg2 arg3 harg3 arg4 harg4 arg5 harg5 arg6 harg6 arg7 harg7 hc0 hc1 x0 x1 x2 x3 xs).2.1)

end Cases

/-- After the body at position `n`: the output's staging buffer, then the accumulator. -/
def outsAt (c : Dev nD) : (n : ℕ) → n < cfg2.N → Vec F S1024x128 .f32 × Vec F S1024x128 .f32
  | 0, hn => (junk4,
      sA c (grid2.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) (iblk V c 0 ⟨0, hn⟩) (iblk V c 1 ⟨0, hn⟩) (iblk V c 2 ⟨0, hn⟩) (iblk V c 3 ⟨0, hn⟩) ((hcond0 ⟨0, hn⟩).mpr (Nat.zero_mod _)) (fun h => (fun h => by (try dsimp only at h); omega) ((hcond1 ⟨0, hn⟩).mp h)))
  | n + 1, hn =>
    if h0 : (n + 1) % 4 = 0 then
      if h1 : (n + 1) % 4 = 3 then False.elim (by omega)
      else (junk4,
        sA c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (iblk V c 0 ⟨n + 1, hn⟩) (iblk V c 1 ⟨n + 1, hn⟩) (iblk V c 2 ⟨n + 1, hn⟩) (iblk V c 3 ⟨n + 1, hn⟩) ((hcond0 ⟨n + 1, hn⟩).mpr h0) (fun h => h1 ((hcond1 ⟨n + 1, hn⟩).mp h)))
    else
      if h1 : (n + 1) % 4 = 3 then
        (out4C c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (iblk V c 0 ⟨n + 1, hn⟩) (iblk V c 1 ⟨n + 1, hn⟩) (iblk V c 2 ⟨n + 1, hn⟩) (iblk V c 3 ⟨n + 1, hn⟩) (outsAt c n (Nat.lt_of_succ_lt hn)).2 (fun h => h0 ((hcond0 ⟨n + 1, hn⟩).mp h)) ((hcond1 ⟨n + 1, hn⟩).mpr h1),
         sC c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (iblk V c 0 ⟨n + 1, hn⟩) (iblk V c 1 ⟨n + 1, hn⟩) (iblk V c 2 ⟨n + 1, hn⟩) (iblk V c 3 ⟨n + 1, hn⟩) (outsAt c n (Nat.lt_of_succ_lt hn)).2 (fun h => h0 ((hcond0 ⟨n + 1, hn⟩).mp h)) ((hcond1 ⟨n + 1, hn⟩).mpr h1))
      else
        (junk4,
         sB c (grid2.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (iblk V c 0 ⟨n + 1, hn⟩) (iblk V c 1 ⟨n + 1, hn⟩) (iblk V c 2 ⟨n + 1, hn⟩) (iblk V c 3 ⟨n + 1, hn⟩) (outsAt c n (Nat.lt_of_succ_lt hn)).2 (fun h => h0 ((hcond0 ⟨n + 1, hn⟩).mp h)) (fun h => h1 ((hcond1 ⟨n + 1, hn⟩).mp h)))

theorem outsAt_A (c : Dev nD) (t : Fin cfg2.N) (h0 : t.val % 4 = 0) (h1 : ¬t.val % 4 = 3) :
    outsAt V c t.val t.isLt = (junk4,
      sA c (grid2.coords t) (ms0 t) (hs0 t) (ms1 t) (hs1 t) (ms2 t) (hs2 t) (ms3 t) (hs3 t) (ms4 t) (hs4 t) scM (Memref.isWhole_whole _) (iblk V c 0 t) (iblk V c 1 t) (iblk V c 2 t) (iblk V c 3 t) ((hcond0 t).mpr h0) (fun h => h1 ((hcond1 t).mp h))) := by
  obtain ⟨n, hn⟩ := t
  cases n with
  | zero => exact rfl
  | succ n => exact (dif_pos h0).trans ((dif_neg h1).trans rfl)

theorem outsAt_B (c : Dev nD) (t : Fin cfg2.N) (h0 : ¬t.val % 4 = 0) (h1 : ¬t.val % 4 = 3) :
    outsAt V c t.val t.isLt = (junk4,
      sB c (grid2.coords t) (ms0 t) (hs0 t) (ms1 t) (hs1 t) (ms2 t) (hs2 t) (ms3 t) (hs3 t) (ms4 t) (hs4 t) scM (Memref.isWhole_whole _) (iblk V c 0 t) (iblk V c 1 t) (iblk V c 2 t) (iblk V c 3 t) (outsAt V c (t.val - 1) (Nat.lt_of_le_of_lt (Nat.sub_le _ _) t.isLt)).2 (fun h => h0 ((hcond0 t).mp h)) (fun h => h1 ((hcond1 t).mp h))) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg2.N) (h0 : ¬t.val % 4 = 0) (h1 : t.val % 4 = 3) :
    outsAt V c t.val t.isLt = (
      out4C c (grid2.coords t) (ms0 t) (hs0 t) (ms1 t) (hs1 t) (ms2 t) (hs2 t) (ms3 t) (hs3 t) (ms4 t) (hs4 t) scM (Memref.isWhole_whole _) (iblk V c 0 t) (iblk V c 1 t) (iblk V c 2 t) (iblk V c 3 t) (outsAt V c (t.val - 1) (Nat.lt_of_le_of_lt (Nat.sub_le _ _) t.isLt)).2 (fun h => h0 ((hcond0 t).mp h)) ((hcond1 t).mpr h1),
      sC c (grid2.coords t) (ms0 t) (hs0 t) (ms1 t) (hs1 t) (ms2 t) (hs2 t) (ms3 t) (hs3 t) (ms4 t) (hs4 t) scM (Memref.isWhole_whole _) (iblk V c 0 t) (iblk V c 1 t) (iblk V c 2 t) (iblk V c 3 t) (outsAt V c (t.val - 1) (Nat.lt_of_le_of_lt (Nat.sub_le _ _) t.isLt)).2 (fun h => h0 ((hcond0 t).mp h)) ((hcond1 t).mpr h1)) := by
  obtain ⟨n, hn⟩ := t
  cases n with
  | zero => exact (by exfalso; (try dsimp only at h0); exact absurd (Nat.zero_mod _) h0)
  | succ n => exact (dif_neg h0).trans ((dif_pos h1).trans rfl)

end Cert.KernelIdeal.R2

end
-- ==== Proof.R2Body.lean ====
import proofs.«135971_j70179765616691_2_alg».proof.Proof.Gen.KernelIdeal.Launch
import proofs.«135971_j70179765616691_2_alg».proof.Proof.Gen.KernelIdeal.Skeleton
import proofs.«135971_j70179765616691_2_alg».proof.Proof.Gen.KernelIdeal.Points
import proofs.«135971_j70179765616691_2_alg».proof.Proof.R2Dat
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-
  The output pass: the invariant between grid points, the proof data, and the body obligation.
-/
namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev restBut (c : Dev nD) : sProp 𝕄 :=
  Pipeline.scopedRestBut (Ix := Unit) (Name := ℕ) (U := UR sig nD τ) (Lvl := ℕ) (Val := Elt F) spec2 c [cc2_scratch0]

theorem scopedRest_split (c : Dev nD) :
    (Pipeline.scopedRest (Ix := Unit) (Name := ℕ) (U := UR sig nD τ) (Lvl := ℕ) (Val := Elt F) spec2 c : sProp 𝕄)
      = iprop((∃ d, owns (c : Thread nD τ) scM fullShare d) ∗ restBut c) := by
  rw [Pipeline.scopedRest_split_of_list spec2 c [cc2_scratch0] (by decide) (by decide)]
  simp only [Idealize.SL.BI.bigSepL_singleton, scM, owns_whole]
  rfl

def PhiS (c : Dev nD) : (n : ℕ) → n ≤ cfg2.N → sProp 𝕄
  | 0, _ => Pipeline.scopedRest (Ix := Unit) (Name := ℕ) (U := UR sig nD τ) (Lvl := ℕ) (Val := Elt F) spec2 c
  | n + 1, hn => iprop(owns (c : Thread nD τ) scM fullShare ((outsAt V c n hn).2) ∗ restBut c)

theorem PhiS_zero (c : Dev nD) (n : ℕ) (h : n ≤ cfg2.N) (hz : n = 0) :
    PhiS V c n h = Pipeline.scopedRest (Ix := Unit) (Name := ℕ) (U := UR sig nD τ) (Lvl := ℕ) (Val := Elt F) spec2 c := by
  subst hz; rfl
theorem PhiS_succ (c : Dev nD) (n : ℕ) (hn : n < cfg2.N) :
    PhiS V c (n + 1) hn = iprop(owns (c : Thread nD τ) scM fullShare ((outsAt V c n hn).2) ∗ restBut c) := rfl
theorem PhiS_pos (c : Dev nD) (n : ℕ) (h : n ≤ cfg2.N) (hz : n ≠ 0) :
    PhiS V c n h = iprop(owns (c : Thread nD τ) scM fullShare ((outsAt V c (n - 1) (by omega)).2) ∗ restBut c) := by
  cases n with
  | zero => exact absurd rfl hz
  | succ n => rfl

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by dsimp only [dat]
theorem PhiS_castSucc (c : Dev nD) (t : Fin cfg2.N) : (dat V c).Φ t.castSucc = PhiS V c t.val (Nat.le_of_lt t.isLt) := by
  dsimp only [dat]; simp only [Fin.coe_castSucc]
theorem after0 (c : Dev nD) (t : Fin cfg2.N) : (dat V c).after 0 t = iblk V c 0 t := by dsimp only [dat]
theorem after1 (c : Dev nD) (t : Fin cfg2.N) : (dat V c).after 1 t = iblk V c 1 t := by dsimp only [dat]
theorem after2 (c : Dev nD) (t : Fin cfg2.N) : (dat V c).after 2 t = iblk V c 2 t := by dsimp only [dat]
theorem after3 (c : Dev nD) (t : Fin cfg2.N) : (dat V c).after 3 t = iblk V c 3 t := by dsimp only [dat]
theorem after4 (c : Dev nD) (t : Fin cfg2.N) : (dat V c).after 4 t = (outsAt V c t.val t.isLt).1 := by dsimp only [dat]
theorem before0 (c : Dev nD) (t : Fin cfg2.N) (d) : (dat V c).before 0 t d = iblk V c 0 t := before0_of V (dat V c) (A_eq V c 0) (after0 V c) t d
theorem before1 (c : Dev nD) (t : Fin cfg2.N) (d) : (dat V c).before 1 t d = iblk V c 1 t := before1_of V (dat V c) (A_eq V c 1) (after1 V c) t d
theorem before2 (c : Dev nD) (t : Fin cfg2.N) (d) : (dat V c).before 2 t d = iblk V c 2 t := before2_of V (dat V c) (A_eq V c 2) (after2 V c) t d
theorem before3 (c : Dev nD) (t : Fin cfg2.N) (d) : (dat V c).before 3 t d = iblk V c 3 t := before3_of V (dat V c) (A_eq V c 3) (after3 V c) t d

theorem Phi_start (c : Dev nD) (t : Fin cfg2.N) :
    (dat V c).Φ t.castSucc ⊢ iprop((∃ d, owns (c : Thread nD τ) scM fullShare d) ∗ restBut c) := by
  rw [PhiS_castSucc V c t]
  by_cases hz : t.val = 0
  · rw [PhiS_zero V c _ _ hz, scopedRest_split]
  · rw [PhiS_pos V c _ _ hz]
    iintro ⟨HS, Hr⟩
    isplitl [HS]; · iexists _; iexact HS
    iexact Hr

theorem Phi_pos (c : Dev nD) (t : Fin cfg2.N) (hz : t.val ≠ 0) :
    (dat V c).Φ t.castSucc = iprop(owns (c : Thread nD τ) scM fullShare ((outsAt V c (t.val - 1) (Nat.lt_of_le_of_lt (Nat.sub_le _ _) t.isLt)).2) ∗ restBut c) := by
  rw [PhiS_castSucc V c t, PhiS_pos V c _ _ hz]

def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d)))

def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t ∗ (dat V c).leavesExact 4 t)

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  rw [show (dat V c).leavesExact 3 t = owns (c : Thread nD τ) (ms3 t) fullShare ((dat V c).after 3 t) from by
    unfold Dat.leavesExact; rw [live3 t], after3]
  by_cases h0 : t.val % 4 = 0
  · have h1 : ¬t.val % 4 = 3 := by omega
    have hc0 : cond0 (grid2.coords t) := (hcond0 t).mpr h0
    have hc1 : ¬cond1 (grid2.coords t) := fun h => h1 ((hcond1 t).mp h)
    rw [Dat.leavesExact_idle (dat V c) 4 t (idle4 t hc1) (noFlush4 t hc1)]
    rw [outsAt_A V c t h0 h1]
    unfold sA; (try dsimp only)
    iintro ⟨HΦ, Ho, ⟨%d0, H0⟩, ⟨%d1, H1⟩, ⟨%d2, H2⟩, ⟨%d3, H3⟩, ⟨%d4, H4⟩⟩
    ihave HΦ' := (Phi_start V c t) $$ HΦ
    icases HΦ' with ⟨HS, Hrest⟩
    iapply ((runA c (grid2.coords t) _ _ _ _ _ _ _ _ _ _ _ _ hc0 hc1 (iblk V c 0 t) (iblk V c 1 t) (iblk V c 2 t) (iblk V c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hrest]
    · isplitl [HS]
      · unfold owns; iexists _; isplitr
        swap; · iexact HS
        ipureintro; exact View.read_writes_of_cover _ _ _ _ _ (scoverA c _ _ _ _ _ _ _ _ _ _ _ _ _ _ _ _ _ _ _)
      iexact Hrest
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    have hc0 : ¬cond0 (grid2.coords t) := fun h => h0 ((hcond0 t).mp h)
    by_cases h1 : t.val % 4 = 3
    · have hc1 : cond1 (grid2.coords t) := (hcond1 t).mpr h1
      rw [show (dat V c).leavesExact 4 t = owns (c : Thread nD τ) (ms4 t) fullShare ((dat V c).after 4 t) from by
        unfold Dat.leavesExact; rw [live4 t hc1], after4]
      rw [outsAt_C V c t h0 h1]
      unfold out4C sC; (try dsimp only)
      rw [Phi_pos V c t hz]
      iintro ⟨⟨HS, Hrest⟩, Ho, ⟨%d0, H0⟩, ⟨%d1, H1⟩, ⟨%d2, H2⟩, ⟨%d3, H3⟩, ⟨%d4, H4⟩⟩
      iapply ((runC c (grid2.coords t) _ _ _ _ _ _ _ _ _ _ _ _ hc0 hc1 (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hrest]
      · isplitl [HS]
        · unfold owns; iexists _; isplitr
          swap; · iexact HS
          ipureintro; exact View.read_writes_of_cover _ _ _ _ _ (scoverC c _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover4C c _ _ _ _ _ _ _ _ _ _ _ _ _ _ _ _ _ _ _ _)
    · have hc1 : ¬cond1 (grid2.coords t) := fun h => h1 ((hcond1 t).mp h)
      rw [Dat.leavesExact_idle (dat V c) 4 t (idle4 t hc1) (noFlush4 t hc1)]
      rw [outsAt_B V c t h0 h1]
      unfold sB; (try dsimp only)
      rw [Phi_pos V c t hz]
      iintro ⟨⟨HS, Hrest⟩, Ho, ⟨%d0, H0⟩, ⟨%d1, H1⟩, ⟨%d2, H2⟩, ⟨%d3, H3⟩, ⟨%d4, H4⟩⟩
      iapply ((runB c (grid2.coords t) _ _ _ _ _ _ _ _ _ _ _ _ hc0 hc1 (iblk V c 0 t) (iblk V c 1 t) (iblk V c 2 t) (iblk V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hrest]
      · isplitl [HS]
        · unfold owns; iexists _; isplitr
          swap; · iexact HS
          ipureintro; exact View.read_writes_of_cover _ _ _ _ _ (scoverB c _ _ _ _ _ _ _ _ _ _ _ _ _ _ _ _ _ _ _ _)
        iexact Hrest
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dat (F := F) V c) (defs₀ (F := F)) Variants.none () Set.univ := fun t => by
  rw [bigSep_W2, bigSep_W2]
  exact sound_body V c t

end Cert.KernelIdeal.R2

end
-- ==== Proof.R2Out.lean ====
import proofs.«135971_j70179765616691_2_alg».proof.Proof.Gen.KernelIdeal.Launch
import proofs.«135971_j70179765616691_2_alg».proof.Proof.Gen.KernelIdeal.Skeleton
import proofs.«135971_j70179765616691_2_alg».proof.Proof.Gen.KernelIdeal.Points
import proofs.«135971_j70179765616691_2_alg».proof.Proof.R2Body
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

/-
  Launch 2: after the last grid point the invariant gives the launch's scoped rest back, the accumulator's named
  contents forgotten; before the first point the scoped rest is the invariant.
-/
namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hout (c : Dev nD) : (dat V c).Φ (Fin.last cfg2.N) ⊢
    iprop(BI.emp ∗ BI.emp ∗ Pipeline.scopedRest (Ix := Unit) (Name := ℕ) (U := UR sig nD τ) (Lvl := ℕ) (Val := Elt F) spec2 c) := by
  rw [show (dat V c).Φ (Fin.last cfg2.N) = PhiS V c cfg2.N (Nat.le_refl _) from rfl,
    PhiS_pos V c _ _ (by rw [show cfg2.N = 16 from N_2]; decide), scopedRest_split]
  iintro ⟨HS, Hr⟩
  isplitr; · iempintro
  isplitr; · iempintro
  isplitl [HS]; · iexists _; iexact HS
  iexact Hr

theorem hin (c : Dev nD) (P : sProp 𝕄) :
    iprop(BI.emp ∗ P ∗ Pipeline.scopedRest (Ix := Unit) (Name := ℕ) (U := UR sig nD τ) (Lvl := ℕ) (Val := Elt F) spec2 c) ⊢ (dat V c).Φ 0 := by
  rw [show (dat V c).Φ 0 = Pipeline.scopedRest (Ix := Unit) (Name := ℕ) (U := UR sig nD τ) (Lvl := ℕ) (Val := Elt F) spec2 c from rfl]
  iintro ⟨-, -, Hr⟩; iexact Hr

end Cert.KernelIdeal.R2

end
-- ==== Proof.Asm.lean ====
import proofs.«135971_j70179765616691_2_alg».proof.Proof.Gen.KernelIdeal.Regions
import proofs.«135971_j70179765616691_2_alg».proof.Proof.R0Out
import proofs.«135971_j70179765616691_2_alg».proof.Proof.R1Out
import proofs.«135971_j70179765616691_2_alg».proof.Proof.R2Out
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-
  The whole program's run: two host stretches and three kernel launches, chained.

  The contents of every unscoped buffer are followed through @main as a fold: the launch memory, then the first host
  stretch (two transposes and the linear layer), then each launch replacing its output arrays by what its pipeline
  leaves, then the second host stretch (the division by the column sums and two reshapes), then the last launch. Each
  launch is entered with its arrays split out of the thread's buffers and left with them put back; between its grid
  points its accumulator is carried by the invariant of its proof data. The run's post names every unscoped buffer's
  final contents, so the frame claim (the arguments) and the value claim (the result array) are both read off it.
-/

set_option maxRecDepth 16384

noncomputable section

namespace Cert.KernelIdeal.Asm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
/-- After the first host stretch. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After launch 0: its arrays at what the pipeline leaves (inputs as entered, each output's write-backs folded),
    every other buffer as entered. -/
def W2 (c : Dev nD) : Valuation τ sig (Elt F) :=
  Pipeline.withArrays spec0 c (W1 m ρ c) fun w => (R0.dat (V1 m ρ) c).arrAt w cfg0.N
theorem W2_arr (c : Dev nD) (w : Fin cfg0.W) :
    W2 m ρ c (Proc.devRef .tc (Pipeline.arrRef spec0 w)) = (R0.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (R0.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After launch 1: its arrays at what the pipeline leaves (inputs as entered, each output's write-backs folded),
    every other buffer as entered. -/
def W3 (c : Dev nD) : Valuation τ sig (Elt F) :=
  Pipeline.withArrays spec1 c (W2 m ρ c) fun w => (R1.dat (V2 m ρ) c).arrAt w cfg1.N
theorem W3_arr (c : Dev nD) (w : Fin cfg1.W) :
    W3 m ρ c (Proc.devRef .tc (Pipeline.arrRef spec1 w)) = (R1.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (R1.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second host stretch. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- After launch 2: its arrays at what the pipeline leaves (inputs as entered, each output's write-backs folded),
    every other buffer as entered. -/
def W5 (c : Dev nD) : Valuation τ sig (Elt F) :=
  Pipeline.withArrays spec2 c (W4 m ρ c) fun w => (R2.dat (V4 m ρ) c).arrAt w cfg2.N
theorem W5_arr (c : Dev nD) (w : Fin cfg2.W) :
    W5 m ρ c (Proc.devRef .tc (Pipeline.arrRef spec2 w)) = (R2.dat (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (R2.dat (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ## The proof data family and the thread state -/

abbrev adm : (p : Fin 3) → (pcfgs (F := F) p).Adm := fun p => (cfgs p).toPCfg_adm
/-- Every launch's proof data, each at its entry contents. -/
def pdats : (p : Fin 3) → (c : Dev nD) → Dat τ (Elt F) Unit ℕ (UR sig nD τ) ℕ (Pipeline.pin (pcfgs (F := F)) adm p) c
  | ⟨0, _⟩ => fun c => R0.dat (V1 m ρ) c
  | ⟨1, _⟩ => fun c => R1.dat (V2 m ρ) c
  | ⟨2, _⟩ => fun c => R2.dat (V4 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The launches as segments -/

-- `iapply` of a library lemma stated over `pin pcs a p` unifies with the pinned configuration only when unification may
-- unfold plain definitions in a metavariable's type
set_option backward.isDefEq.respectTransparency.types false in
/-- Launch 0 over the thread state: entered from every unscoped buffer at `W1`, left at `W2`. Its arrays are split
    out of the unscoped buffers and put back at the exit contents; its scoped rest enters the invariant and comes back
    (the accumulator's last contents forgotten); nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X _ := BI.emp
  Y _ := BI.emp
  Z c := iprop(Pipeline.unscopedRest (Ix := Unit) (Name := ℕ) (U := UR sig nD τ) (Lvl := ℕ) spec0 c (V1 m ρ c) ∗ ∃ r, prngReg c r)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := R0.hin (V1 m ρ) c _
  hout c := by
    rw [Pipeline.ownSems0_none]; exact R0.hout (V1 m ρ) c
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Launch 1 over the thread state: entered from every unscoped buffer at `W2`, left at `W3`. Its arrays are split
    out of the unscoped buffers and put back at the exit contents; its scoped rest enters the invariant and comes back
    (the accumulator's last contents forgotten); nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X _ := BI.emp
  Y _ := BI.emp
  Z c := iprop(Pipeline.unscopedRest (Ix := Unit) (Name := ℕ) (U := UR sig nD τ) (Lvl := ℕ) spec1 c (V2 m ρ c) ∗ ∃ r, prngReg c r)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := R1.hin (V2 m ρ) c _
  hout c := by
    rw [Pipeline.ownSems0_none]; exact R1.hout (V2 m ρ) c
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Launch 2 over the thread state: entered from every unscoped buffer at `W4`, left at `W5`. Its arrays are split
    out of the unscoped buffers and put back at the exit contents; its scoped rest enters the invariant and comes back
    (the accumulator's last contents forgotten); nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (R2.body_obligation (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X _ := BI.emp
  Y _ := BI.emp
  Z c := iprop(Pipeline.unscopedRest (Ix := Unit) (Name := ℕ) (U := UR sig nD τ) (Lvl := ℕ) spec2 c (V4 m ρ c) ∗ ∃ r, prngReg c r)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest]; · iexact Hrest
    iexact Hp
  hin c := R2.hin (V4 m ρ) c _
  hout c := by
    rw [Pipeline.ownSems0_none]; exact R2.hout (V4 m ρ) c
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, -, Hrest, Hp⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ) ]
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every
    final memory holds each unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Cert.KernelIdeal.Asm

end
-- ==== Proof.AsmArgs.lean ====
import proofs.«135971_j70179765616691_2_alg».proof.Proof.Asm

/-
  The arguments end as launched, and the result array ends at the last launch's output.

  No host operation writes an argument and no launch has one among its output windows (the row-sum pass reads x
  through an input window, whose array the pipeline leaves as entered), so the fold of buffer contents at an
  argument walks back to the launch memory. The frame claim follows from the run; the same run names the result.
-/

set_option maxRecDepth 16384

noncomputable section

namespace Cert.KernelIdeal.Asm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

theorem W1_of (c : Dev nD) (r : Ref sig .tc) (h : r ∉ hostOps0_W) : W1 m ρ c r = W0 m ρ c r :=
  StableHlo.after_of_writes_sub hostOps0 _ hostOps0_writes h
theorem W4_of (c : Dev nD) (r : Ref sig .tc) (h : r ∉ hostOps2_W) : W4 m ρ c r = W3 m ρ c r :=
  StableHlo.after_of_writes_sub hostOps2 _ hostOps2_writes h

theorem W5_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of m ρ c main_arg0 (by decide)
    _ = W2 m ρ c (Proc.devRef .tc main_arg0) := W3_of_ne m ρ c main_arg0 (by decide)
    _ = W1 m ρ c (Proc.devRef .tc main_arg0) := (W2_arr m ρ c 0).trans (((R0.dat (V1 m ρ) c).arrAt_in 0 rfl _).trans (R0.A_eq (V1 m ρ) c 0))
    _ = W0 m ρ c (Proc.devRef .tc main_arg0) := W1_of m ρ c main_arg0 (by decide)
    _ = m ((c : Thread nD τ).loc main_arg0) := rfl
theorem W5_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W5_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of m ρ c main_arg2 (by decide)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

/-- The run with the result array named and the arguments unchanged. -/
theorem run_val : θ_run defs (onTc (τ := τ) (main (F := F))) ⟨m, fun _ => 0, ρ⟩ (fun r => ∀ c : Dev nD,
      r.2.mem ((c.tc : Thread nD τ).loc main_v9) = W5 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c _ (mem_uc main_v9 (by decide)),
     (h c _ (mem_uc main_arg0 (by decide))).trans (W5_arg0 m ρ c),
     (h c _ (mem_uc main_arg1 (by decide))).trans (W5_arg1 m ρ c),
     (h c _ (mem_uc main_arg2 (by decide))).trans (W5_arg2 m ρ c)⟩) (run_all m ρ)

/-- The frame claim's post, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_val m ρ)

end Cert.KernelIdeal.Asm

end
-- ==== Proof.Spec.lean ====
/-
  The mathematics of the graph-aggregation layer, stated once over the extended reals, with no program in sight.

  For node features `x` (4096 rows of 128), a weight matrix `W` (128 by 128) and a bias `b`:
  * `dist x i k` is the clamped Euclidean distance of rows `i` and `k` by the Gram identity,
    sqrt (max (|x_i|^2 + |x_k|^2 - 2 <x_i, x_k>) θ);
  * the attention matrix is the row-softmax of `exp (-dist)`;
  * the layer's value is leaky_relu (Af · (x Wᵀ) + b) with Af[i,j] = Σ_k A[i,k] / (Σ_i' A[i',k]) · A[j,k].

  Two arrangements of this value are named. `hK` normalises each row by the reciprocal of its plain sum of
  `exp (exp (-dist))` (no maximum is subtracted), aggregates `u = Aᵀ (x Wᵀ)` first, divides by the column sums and
  multiplies by `A` last. `hR` subtracts the row maximum inside the softmax, forms Af and multiplies by x Wᵀ last.
  Over real entries the two agree: the maximum cancels in the softmax quotient, a · (1 / r) is a / r, and the two
  finite sums over j and k commute; all three steps need every entry to be a real number, which is why the law is
  stated for real-valued inputs (`law`, in the module that proves it).
-/
import Idealize.ShloMosaic.PureOps.Ideal
import Idealize.ShloMosaic.PureOps.Ideal.Laws
import Idealize.ShloMosaic.Lib.ValueIdx

noncomputable section

namespace Cert.Gnn

open Idealize.ShloMosaic

/-- The five float constants of the layer, as the extended reals their f32 words denote. -/
abbrev c0 : EReal := Ideal.ofBits .f32 0x00000000#32
abbrev c1 : EReal := Ideal.ofBits .f32 0x3F800000#32
abbrev c2 : EReal := Ideal.ofBits .f32 0x40000000#32
/-- The clamp under the square root (the f32 nearest to 1e-12). -/
abbrev cθ : EReal := Ideal.ofBits .f32 0x2B8CBCCC#32
/-- The negative slope (the f32 nearest to 0.2). -/
abbrev cs : EReal := Ideal.ofBits .f32 0x3E4CCCCD#32

/-- A feature matrix, a weight matrix and a bias as plain functions of their coordinates. -/
abbrev Mx : Type := Fin 4096 → Fin 128 → EReal
abbrev Mw : Type := Fin 128 → Fin 128 → EReal
abbrev Vb : Type := Fin 128 → EReal

variable (x : Mx) (W : Mw) (b : Vb)

/-- The squared norm of row `i`. -/
def sq (i : Fin 4096) : EReal := ∑ d : Fin 128, x i d * x i d
/-- The inner product of rows `i` and `k`. -/
def gram (i k : Fin 4096) : EReal := ∑ d : Fin 128, x i d * x k d
/-- The clamped distance of rows `i` and `k`. -/
def dist (i k : Fin 4096) : EReal := Ideal.sqrt (max (sq x i + sq x k - c2 * gram x i k) cθ)
/-- The linear layer without bias, x Wᵀ. -/
def lin (i : Fin 4096) (f : Fin 128) : EReal := ∑ d : Fin 128, x i d * W f d
/-- leaky_relu with slope `cs`. -/
def lrelu (p : EReal) : EReal := if c0 ≤ p then p else cs * p

/-! ### The arrangement that aggregates first -/

/-- The unnormalised softmax numerator, exp (exp (0 - dist)). -/
def aK (i k : Fin 4096) : EReal := Ideal.exp (Ideal.exp (c0 - dist x i k))
/-- Its row sums. -/
def rsK (i : Fin 4096) : EReal := ∑ k : Fin 4096, aK x i k
/-- The attention entry as numerator times the reciprocal of the row sum. -/
def AK (i k : Fin 4096) : EReal := aK x i k * Ideal.div c1 (rsK x i)
/-- Column sums of the attention matrix. -/
def alsumK (k : Fin 4096) : EReal := ∑ i : Fin 4096, AK x i k
/-- Aᵀ (x Wᵀ). -/
def uK (k : Fin 4096) (f : Fin 128) : EReal := ∑ i : Fin 4096, AK x i k * lin x W i f
/-- The same divided by the column sums. -/
def vK (k : Fin 4096) (f : Fin 128) : EReal := Ideal.div (uK x W k f) (alsumK x k)
/-- The layer's value, aggregating first. -/
def hK (i : Fin 4096) (f : Fin 128) : EReal := lrelu (∑ k : Fin 4096, AK x i k * vK x W k f + b f)

/-! ### The arrangement that forms the node-to-node matrix first -/

/-- exp (-dist). -/
def eR (i k : Fin 4096) : EReal := Ideal.exp (-(dist x i k))
/-- The row maximum of `eR`. -/
def mR (i : Fin 4096) : EReal := Finset.univ.sup (eR x i)
/-- The softmax numerator with the row maximum subtracted. -/
def pR (i k : Fin 4096) : EReal := Ideal.exp (eR x i k - mR x i)
/-- The attention entry as a quotient. -/
def AR (i k : Fin 4096) : EReal := Ideal.div (pR x i k) (∑ k' : Fin 4096, pR x i k')
/-- Column sums of the attention matrix. -/
def alsumR (k : Fin 4096) : EReal := ∑ i : Fin 4096, AR x i k
/-- The node-to-node matrix (A / Alsum) Aᵀ. -/
def AfR (i j : Fin 4096) : EReal := ∑ k : Fin 4096, Ideal.div (AR x i k) (alsumR x k) * AR x j k
/-- The layer's value, node-to-node matrix first. -/
def hR (i : Fin 4096) (f : Fin 128) : EReal := lrelu (∑ j : Fin 4096, AfR x i j * lin x W j f + b f)

/-- Every entry is a real number. -/
def RealMx (x : Mx) : Prop := ∀ i d, ∃ r : ℝ, x i d = (r : EReal)
def RealMw (W : Mw) : Prop := ∀ f d, ∃ r : ℝ, W f d = (r : EReal)
def RealVb (b : Vb) : Prop := ∀ f, ∃ r : ℝ, b f = (r : EReal)

/-! ### Arrays as matrices -/

/-- A [4096, 128] array, a [128, 128] array and a [128] array read at their coordinates. -/
def mx (X : (⟨2, ![4096, 128]⟩ : Shape).Idx → EReal) : Mx := fun i d => X (ValueIdx.ix2 i d)
def mw (X : (⟨2, ![128, 128]⟩ : Shape).Idx → EReal) : Mw := fun f d => X (ValueIdx.ix2 f d)
def vb (X : (⟨1, ![128]⟩ : Shape).Idx → EReal) : Vb := fun f => X (ValueIdx.ix1 f)

/-- The layer's value as a [4096, 128] array, in each arrangement. -/
def outK (X : (⟨2, ![4096, 128]⟩ : Shape).Idx → EReal) (Wa : (⟨2, ![128, 128]⟩ : Shape).Idx → EReal)
    (ba : (⟨1, ![128]⟩ : Shape).Idx → EReal) : (⟨2, ![4096, 128]⟩ : Shape).Idx → EReal :=
  fun j => hK (mx X) (mw Wa) (vb ba) (j 0) (j 1)
def outR (X : (⟨2, ![4096, 128]⟩ : Shape).Idx → EReal) (Wa : (⟨2, ![128, 128]⟩ : Shape).Idx → EReal)
    (ba : (⟨1, ![128]⟩ : Shape).Idx → EReal) : (⟨2, ![4096, 128]⟩ : Shape).Idx → EReal :=
  fun j => hR (mx X) (mw Wa) (vb ba) (j 0) (j 1)

end Cert.Gnn

end
-- ==== Proof.ValSpec.lean ====
/-
  What each of the three kernel launches leaves in its output arrays, as whole-array functions of its input arrays.

  * The row-sum pass reads x ([4096, 128]) and its transpose ([128, 4096]); it leaves the matrix
    a[i, k] = exp (exp (0 - dist (i, k))) and its row sums.
  * The column-sum pass reads that matrix, the row sums and the linear layer's rows s ([4096, 128]); with
    A[i, k] = a[i, k] · (1 / rowsum[i]) it leaves the column sums of A (as a row [1, 4096]) and Aᵀ s.
  * The output pass reads the matrix, the row sums, the normalised aggregate v ([4096, 128]) and the bias as a row
    [1, 128]; it leaves leaky_relu (A v + b).
-/
import proofs.«135971_j70179765616691_2_alg».proof.Proof.Spec

noncomputable section

namespace Cert.Gnn

open Idealize.ShloMosaic ValueIdx

abbrev A4096x128 : Type := (⟨2, ![4096, 128]⟩ : Shape).Idx → EReal
abbrev A128x4096 : Type := (⟨2, ![128, 4096]⟩ : Shape).Idx → EReal
abbrev A4096x4096 : Type := (⟨2, ![4096, 4096]⟩ : Shape).Idx → EReal
abbrev A4096x1 : Type := (⟨2, ![4096, 1]⟩ : Shape).Idx → EReal
abbrev A1x4096 : Type := (⟨2, ![1, 4096]⟩ : Shape).Idx → EReal
abbrev A1x128 : Type := (⟨2, ![1, 128]⟩ : Shape).Idx → EReal

/-- The unnormalised attention numerator from x and its transpose. -/
def a0 (X : A4096x128) (XT : A128x4096) (i k : Fin 4096) : EReal :=
  Ideal.exp (Ideal.exp (c0 - Ideal.sqrt (max ((∑ d : Fin 128, X (ix2 i d) * X (ix2 i d)) + (∑ d : Fin 128, XT (ix2 d k) * XT (ix2 d k))
    - c2 * (∑ d : Fin 128, X (ix2 i d) * XT (ix2 d k))) cθ)))
/-- The row-sum pass's two results. -/
def rsOut (X : A4096x128) (XT : A128x4096) : A4096x1 := fun j => ∑ k : Fin 4096, a0 X XT (j 0) k
def aOut (X : A4096x128) (XT : A128x4096) : A4096x4096 := fun j => a0 X XT (j 0) (j 1)

/-- An attention entry from the stored numerator and the stored row sums. -/
def Ablk (Aa : A4096x4096) (RS : A4096x1) (i k : Fin 4096) : EReal := Aa (ix2 i k) * Ideal.div c1 (RS (ix2 i (0 : Fin 1)))
/-- The column-sum pass's two results. -/
def alsumOut (Aa : A4096x4096) (RS : A4096x1) : A1x4096 := fun j => ∑ i : Fin 4096, Ablk Aa RS i (j 1)
def uOut (Aa : A4096x4096) (RS : A4096x1) (S : A4096x128) : A4096x128 := fun j => ∑ i : Fin 4096, Ablk Aa RS i (j 0) * S (ix2 i (j 1))

/-- The output pass's result. -/
def hOut (Aa : A4096x4096) (RS : A4096x1) (Vv : A4096x128) (B : A1x128) : A4096x128 :=
  fun j => lrelu (∑ k : Fin 4096, Ablk Aa RS (j 0) k * Vv (ix2 k (j 1)) + B (ix2 (0 : Fin 1) (j 1)))

end Cert.Gnn

end
-- ==== Proof.ValCompose.lean ====
/-
  The three launches composed: fed each other's results through the host stages between them, the last launch's
  output is the layer's value in the arrangement that aggregates first.

  The host stages are described index by index: the transposed x, the linear layer's rows, the aggregate divided by
  the column sums (the column sums read as a column), the bias read as a row.
-/
import proofs.«135971_j70179765616691_2_alg».proof.Proof.ValSpec

noncomputable section

namespace Cert.Gnn

open Idealize.ShloMosaic ValueIdx

variable (X : A4096x128) (Wa : (⟨2, ![128, 128]⟩ : Shape).Idx → EReal) (Ba : (⟨1, ![128]⟩ : Shape).Idx → EReal)
variable (XT : A128x4096) (hXT : ∀ (d : Fin 128) (k : Fin 4096), XT (ix2 d k) = X (ix2 k d))
include hXT

theorem a0_eq (i k : Fin 4096) : a0 X XT i k = aK (mx X) i k := by
  unfold a0 aK dist sq gram mx
  simp only [hXT]

theorem rsOut_eq (i : Fin 4096) : rsOut X XT (ix2 i (0 : Fin 1)) = rsK (mx X) i := by
  unfold rsOut rsK
  exact Finset.sum_congr rfl fun k _ => a0_eq X XT hXT _ k

theorem Ablk_eq (i k : Fin 4096) : Ablk (aOut X XT) (rsOut X XT) i k = AK (mx X) i k := by
  unfold Ablk AK
  rw [rsOut_eq X XT hXT i]
  show a0 X XT i k * _ = _
  rw [a0_eq X XT hXT]

theorem alsumOut_eq (k : Fin 4096) : alsumOut (aOut X XT) (rsOut X XT) (ix2 (0 : Fin 1) k) = alsumK (mx X) k := by
  unfold alsumOut alsumK
  exact Finset.sum_congr rfl fun i _ => Ablk_eq X XT hXT i k

theorem uOut_eq (S : A4096x128) (hS : ∀ (i : Fin 4096) (f : Fin 128), S (ix2 i f) = lin (mx X) (mw Wa) i f) (k : Fin 4096) (f : Fin 128) :
    uOut (aOut X XT) (rsOut X XT) S (ix2 k f) = uK (mx X) (mw Wa) k f := by
  unfold uOut uK
  refine Finset.sum_congr rfl fun i _ => ?_
  rw [hS]
  exact congrArg (· * _) (Ablk_eq X XT hXT i k)

/-- The composition. -/
theorem compose (S : A4096x128) (hS : ∀ (i : Fin 4096) (f : Fin 128), S (ix2 i f) = lin (mx X) (mw Wa) i f)
    (Vv : A4096x128) (hV : ∀ (k : Fin 4096) (f : Fin 128), Vv (ix2 k f)
      = Ideal.div (uOut (aOut X XT) (rsOut X XT) S (ix2 k f)) (alsumOut (aOut X XT) (rsOut X XT) (ix2 (0 : Fin 1) k)))
    (Bv : A1x128) (hB : ∀ f : Fin 128, Bv (ix2 (0 : Fin 1) f) = Ba (ix1 f)) :
    hOut (aOut X XT) (rsOut X XT) Vv Bv = outK X Wa Ba := by
  funext j
  obtain ⟨i, f, rfl⟩ : ∃ (i : Fin 4096) (f : Fin 128), j = ix2 i f := ⟨j 0, j 1, eq_ix2 j⟩
  show lrelu (∑ k : Fin 4096, Ablk (aOut X XT) (rsOut X XT) i k * Vv (ix2 k f) + Bv (ix2 (0 : Fin 1) f))
    = lrelu (∑ k : Fin 4096, AK (mx X) i k * vK (mx X) (mw Wa) k f + vb Ba f)
  rw [hB]
  refine congrArg (fun s => lrelu (s + _)) (Finset.sum_congr rfl fun k _ => ?_)
  rw [Ablk_eq X XT hXT i k, hV, uOut_eq X Wa XT hXT S hS, alsumOut_eq X XT hXT]
  rfl

end Cert.Gnn

end
-- ==== Proof.RefReadLib.lean ====
/-
  Reading the host operations of the reference at an index, over the extended reals: a product of two matrices
  contracted on one axis is the sum over that axis of the entries' products; a sum-reduction of a matrix along an axis
  is the sum over that axis's coordinate; a max-reduction seeded with the bottom element is the supremum over it;
  a broadcast reads its operand at the coordinates it keeps.
-/
import proofs.«135971_j70179765616691_2_alg».proof.ReferenceIdeal
import Idealize.ShloMosaic.PureOps.Ideal
import Idealize.ShloMosaic.PureOps.Ideal.Laws
import Idealize.ShloMosaic.Lib.ValueIdx
import Idealize.ShloMosaic.Lib.ValueLayout

noncomputable section

namespace Cert.ReferenceIdeal.Hand

open Cert.ReferenceIdeal Idealize.ShloMosaic Idealize.ShloMosaic.ValueIdx

/-! ### A matrix product read at an entry -/

/-- `M×K` by `K×N`, contracted on the shared axis: entry `(p, q)` is `Σ_k L (p, k) · R (k, q)`. -/
theorem dotGeneral_plain_apply (M K N : ℕ) {φ₁ φ₂ : FTy}
    (L : FVec Ideal ⟨2, ![M, K]⟩ φ₁) (R : FVec Ideal ⟨2, ![K, N]⟩ φ₂) (p : Fin M) (q : Fin N) :
    Host.dotGeneral (F := Ideal) (DotDims.plain M K N) none L R (ix2 p q)
      = ∑ k : Fin K, L (ix2 p k) * R (ix2 k q) := by
  show FloatOps.dotGeneral (F := Ideal) (DotDims.plain M K N) none .single L R (ix2 p q) = _
  rw [Ideal.dotGeneral_apply]
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    match a with
    | ⟨0, _⟩ => exact Fin.ext rfl
    | ⟨1, _⟩ => exact Fin.ext rfl
  have hr : (DotDims.plain M K N).rhsIdx (ix2 p q) ((contrEquiv1 (DotDims.plain M K N) K rfl rfl).symm k) = ix2 k q := by
    funext a
    match a with
    | ⟨0, _⟩ => exact Fin.ext rfl
    | ⟨1, _⟩ => exact Fin.ext rfl
  rw [hl, hr]

variable {α : Type}

/-! ### Sums and maxima along an axis -/

/-- The sum of a [4096, 128] array along its rows, from zero: at row `i`, `Σ_k x (i, k)`. -/
theorem reduceAdd_rows_128 (x : FVec Ideal S4096x128 .f32) (h' : S4096x128.ReducesTo [1] S4096) (hu : 0 < S_.numel) (i : Fin 4096) :
    Host.reduceAdd (F := Ideal) x (constant S_ .f32 0x00000000#32) h' hu (ix1 i) = ∑ k : Fin 128, x (ix2 i k) := by
  have h : S4096x128.Reduces [1] S4096 := by decide
  show Ideal.hostReduceAdd h' x (Ideal.ofBits .f32 0x00000000#32) (ix1 i) = _
  rw [Ideal.hostReduceAdd_single h' h, Ideal.ofBits_zero_f32, zero_add]
  refine Finset.sum_congr rfl fun k _ => congrArg x ?_
  funext a
  match a with
  | ⟨0, _⟩ => exact Fin.ext rfl
  | ⟨1, _⟩ => exact Fin.ext rfl

/-- The sum of a [4096, 4096] array along its rows, from zero: at row `i`, `Σ_k x (i, k)`. -/
theorem reduceAdd_rows_4096 (x : FVec Ideal S4096x4096 .f32) (h' : S4096x4096.ReducesTo [1] S4096) (hu : 0 < S_.numel) (i : Fin 4096) :
    Host.reduceAdd (F := Ideal) x (constant S_ .f32 0x00000000#32) h' hu (ix1 i) = ∑ k : Fin 4096, x (ix2 i k) := by
  have h : S4096x4096.Reduces [1] S4096 := by decide
  show Ideal.hostReduceAdd h' x (Ideal.ofBits .f32 0x00000000#32) (ix1 i) = _
  rw [Ideal.hostReduceAdd_single h' h, Ideal.ofBits_zero_f32, zero_add]
  refine Finset.sum_congr rfl fun k _ => congrArg x ?_
  funext a
  match a with
  | ⟨0, _⟩ => exact Fin.ext rfl
  | ⟨1, _⟩ => exact Fin.ext rfl

/-- The sum of a [4096, 4096] array along its columns, from zero: at column `i`, `Σ_k x (k, i)`. -/
theorem reduceAdd_cols_4096 (x : FVec Ideal S4096x4096 .f32) (h' : S4096x4096.ReducesTo [0] S4096) (hu : 0 < S_.numel) (i : Fin 4096) :
    Host.reduceAdd (F := Ideal) x (constant S_ .f32 0x00000000#32) h' hu (ix1 i) = ∑ k : Fin 4096, x (ix2 k i) := by
  have h : S4096x4096.Reduces [0] S4096 := by decide
  show Ideal.hostReduceAdd h' x (Ideal.ofBits .f32 0x00000000#32) (ix1 i) = _
  rw [Ideal.hostReduceAdd_single h' h, Ideal.ofBits_zero_f32, zero_add]
  refine Finset.sum_congr rfl fun k _ => congrArg x ?_
  funext a
  match a with
  | ⟨0, _⟩ => exact Fin.ext rfl
  | ⟨1, _⟩ => exact Fin.ext rfl

/-- The fold of `max` from the bottom element is the supremum. -/
theorem fold_max_bot_eq_sup {ι : Type} (s : Finset ι) (f : ι → EReal) : s.fold max ⊥ f = s.sup f :=
  le_antisymm ((Finset.fold_max_le _).2 ⟨bot_le, fun _ hx => Finset.le_sup hx⟩)
    (Finset.sup_le fun x hx => (Finset.le_fold_max _).2 (Or.inr ⟨x, hx, le_rfl⟩))

/-- The f32 word of negative infinity denotes the bottom element. -/
theorem ofBits_neg_inf : Ideal.ofBits .f32 0xFF800000#32 = ⊥ := by simp [Ideal.ofBits, Ideal.ieee]

/-- The maximum of a [4096, 4096] array along its rows, from negative infinity: at row `i`, the supremum of the row. -/
theorem reduceMax_rows_4096 (x : FVec Ideal S4096x4096 .f32) (h' : S4096x4096.ReducesTo [1] S4096) (hu : 0 < S_.numel) (i : Fin 4096) :
    Host.reduce (FloatOps.maximumf (F := Ideal) (φ := .f32)) x (constant (F := Ideal) S_ .f32 0xFF800000#32) h' hu (ix1 i)
      = Finset.univ.sup fun k : Fin 4096 => x (ix2 i k) := by
  have h : S4096x4096.Reduces [1] S4096 := by decide
  show Host.reduce (max : EReal → EReal → EReal) x (constant (F := Ideal) S_ .f32 0xFF800000#32) h' hu (ix1 i) = _
  rw [Host.reduce_eq_fold_single (max : EReal → EReal → EReal) x _ h' h hu]
  have e0 : (constant (F := Ideal) S_ .f32 0xFF800000#32) (Shape.Idx.first hu) = (⊥ : EReal) := ofBits_neg_inf
  rw [e0]
  refine (fold_max_bot_eq_sup _ _).trans (congrArg Finset.univ.sup (funext fun k => congrArg x (funext fun a => ?_)))
  match a with
  | ⟨0, _⟩ => exact Fin.ext rfl
  | ⟨1, _⟩ => exact Fin.ext rfl

/-! ### Broadcasts -/

/-- A scalar constant broadcast to any shape is the constant's value everywhere. -/
theorem bcast_const_apply {t : Shape} (h : S_.BroadcastsInDim t ![]) (b : BitVec 32) (j : t.Idx) :
    broadcastInDim t ![] h (constant (F := Ideal) S_ .f32 b) j = Ideal.ofBits .f32 b := rfl

/-- A vector laid down the rows, then repeated across the columns: entry `(i, k)` is the vector at `i`. -/
theorem bcast_col_4096 (v : S4096.Idx → α) (h1 : S4096.BroadcastsInDim S4096x1 ![0])
    (h2 : S4096x1.BroadcastsInDim S4096x4096 ![0, 1]) (i k : Fin 4096) :
    broadcastInDim S4096x4096 ![0, 1] h2 (broadcastInDim S4096x1 ![0] h1 v) (ix2 i k) = v (ix1 i) := by
  rw [broadcastInDim_apply _ h2 _ (ix2 i k) (ix2 i (0 : Fin 1)) (fun a => match a with | ⟨0, _⟩ => rfl | ⟨1, _⟩ => rfl),
    broadcastInDim_apply _ h1 v (ix2 i (0 : Fin 1)) (ix1 i) (fun a => match a with | ⟨0, _⟩ => rfl)]

/-- A vector laid along the columns, then repeated down the rows: entry `(i, k)` is the vector at `k`. -/
theorem bcast_row_4096 (v : S4096.Idx → α) (h1 : S4096.BroadcastsInDim S1x4096 ![1])
    (h2 : S1x4096.BroadcastsInDim S4096x4096 ![0, 1]) (i k : Fin 4096) :
    broadcastInDim S4096x4096 ![0, 1] h2 (broadcastInDim S1x4096 ![1] h1 v) (ix2 i k) = v (ix1 k) := by
  rw [broadcastInDim_apply _ h2 _ (ix2 i k) (ix2 (0 : Fin 1) k) (fun a => match a with | ⟨0, _⟩ => rfl | ⟨1, _⟩ => rfl),
    broadcastInDim_apply _ h1 v (ix2 (0 : Fin 1) k) (ix1 k) (fun a => match a with | ⟨0, _⟩ => rfl)]

/-- The bias laid along the columns, then repeated down the rows: entry `(i, f)` is the bias at `f`. -/
theorem bcast_row_128 (v : S128.Idx → α) (h1 : S128.BroadcastsInDim S1x128 ![1])
    (h2 : S1x128.BroadcastsInDim S4096x128 ![0, 1]) (i : Fin 4096) (f : Fin 128) :
    broadcastInDim S4096x128 ![0, 1] h2 (broadcastInDim S1x128 ![1] h1 v) (ix2 i f) = v (ix1 f) := by
  rw [broadcastInDim_apply _ h2 _ (ix2 i f) (ix2 (0 : Fin 1) f) (fun a => match a with | ⟨0, _⟩ => rfl | ⟨1, _⟩ => rfl),
    broadcastInDim_apply _ h1 v (ix2 (0 : Fin 1) f) (ix1 f) (fun a => match a with | ⟨0, _⟩ => rfl)]

end Cert.ReferenceIdeal.Hand

end
-- ==== Proof.KVal.lean ====
import proofs.«135971_j70179765616691_2_alg».proof.Proof.AsmArgs
import proofs.«135971_j70179765616691_2_alg».proof.Proof.ValCompose
import proofs.«135971_j70179765616691_2_alg».proof.Proof.RefReadLib
import Idealize.ShloMosaic.Lib.StableHlo.Run
import Idealize.ShloMosaic.Lib.ValueLayout
import Idealize.ShloMosaic.Lib.Pipeline.Value

set_option maxRecDepth 16384

noncomputable section

/-
  The idealized kernel's result array, followed through @main.

  The first host stretch leaves the transposed x and the linear layer's rows; the row-sum pass leaves the attention
  numerator and its row sums; the column-sum pass leaves the column sums and the transposed product; the second host
  stretch divides the product by the column sums (read as a column and spread along the rows) and reads the bias as
  a row; the output pass leaves the rectified sum. Composed, that is the layer's value, aggregating first.
-/
namespace Cert.KernelIdeal.Val

open Cert.KernelIdeal Cert.KernelIdeal.Gen Cert.KernelIdeal.Asm
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg)

open Cert.Gnn

/-- The three argument arrays on core `c`, at their vector types. -/
abbrev Xa (c : Dev nD) : FVec Ideal S4096x128 .f32 := m ((c : Thread nD τ).loc main_arg0)
abbrev Wa (c : Dev nD) : FVec Ideal S128x128 .f32 := m ((c : Thread nD τ).loc main_arg1)
abbrev Ba (c : Dev nD) : FVec Ideal S128 .f32 := m ((c : Thread nD τ).loc main_arg2)

section
variable (h0_2 : ∀ (V : (c : Dev nD) → (b : Ref sig .tc) → Buf (Elt Ideal) ((c : Thread nD τ).loc b)) (c : Dev nD),
    (R0.dat (F := Ideal) V c).arrAt 2 cfg0.N = rsOut (V c main_arg0) (V c main_v0))
variable (h0_3 : ∀ (V : (c : Dev nD) → (b : Ref sig .tc) → Buf (Elt Ideal) ((c : Thread nD τ).loc b)) (c : Dev nD),
    (R0.dat (F := Ideal) V c).arrAt 3 cfg0.N = aOut (V c main_arg0) (V c main_v0))
variable (h1_3 : ∀ (V : (c : Dev nD) → (b : Ref sig .tc) → Buf (Elt Ideal) ((c : Thread nD τ).loc b)) (c : Dev nD),
    (R1.dat (F := Ideal) V c).arrAt 3 cfg1.N = alsumOut (V c main_v3_1) (V c main_v3_0))
variable (h1_4 : ∀ (V : (c : Dev nD) → (b : Ref sig .tc) → Buf (Elt Ideal) ((c : Thread nD τ).loc b)) (c : Dev nD),
    (R1.dat (F := Ideal) V c).arrAt 4 cfg1.N = uOut (V c main_v3_1) (V c main_v3_0) (V c main_v2))
variable (h2_4 : ∀ (V : (c : Dev nD) → (b : Ref sig .tc) → Buf (Elt Ideal) ((c : Thread nD τ).loc b)) (c : Dev nD),
    (R2.dat (F := Ideal) V c).arrAt 4 cfg2.N = hOut (V c main_v3_1) (V c main_v3_0) (V c main_v7) (V c main_v8))

/-! ### The first host stretch -/

theorem W1_arg0 (c : Dev nD) : W1 m ρ c (Proc.devRef .tc main_arg0) = Xa m c :=
  (W1_of m ρ c main_arg0 (by decide)).trans rfl
theorem W1_v0 (c : Dev nD) : W1 m ρ c (Proc.devRef .tc main_v0)
    = transpose S128x4096 [1, 0] (Xa m c) transposes_S4096x128_S128x4096_1_0 := by
  show StableHlo.after hostOps0 (W0 m ρ c) (Proc.devRef .tc main_v0) = _
  after_results
  try rfl
theorem W1_v2 (c : Dev nD) : (W1 m ρ c (Proc.devRef .tc main_v2) : FVec Ideal S4096x128 .f32)
    = Host.dotGeneral (F := Ideal) dot_S4096x128_S128x128_S4096x128_1_0_0_1_n_n none (Xa m c)
        (transpose S128x128 [1, 0] (Wa m c) transposes_S128x128_S128x128_1_0) := by
  show StableHlo.after hostOps0 (W0 m ρ c) (Proc.devRef .tc main_v2) = _
  after_results
  try rfl

/-! ### The row-sum pass -/

include h0_2 in
theorem W2_v3_0 (c : Dev nD) : W2 m ρ c (Proc.devRef .tc main_v3_0)
    = rsOut (Xa m c) (transpose S128x4096 [1, 0] (Xa m c) transposes_S4096x128_S128x4096_1_0) :=
  (W2_arr m ρ c 2).trans ((h0_2 (V1 m ρ) c).trans (by rw [show V1 m ρ c main_arg0 = _ from W1_arg0 m ρ c, show V1 m ρ c main_v0 = _ from W1_v0 m ρ c]))
include h0_3 in
theorem W2_v3_1 (c : Dev nD) : W2 m ρ c (Proc.devRef .tc main_v3_1)
    = aOut (Xa m c) (transpose S128x4096 [1, 0] (Xa m c) transposes_S4096x128_S128x4096_1_0) :=
  (W2_arr m ρ c 3).trans ((h0_3 (V1 m ρ) c).trans (by rw [show V1 m ρ c main_arg0 = _ from W1_arg0 m ρ c, show V1 m ρ c main_v0 = _ from W1_v0 m ρ c]))
theorem W2_v2 (c : Dev nD) : W2 m ρ c (Proc.devRef .tc main_v2) = W1 m ρ c (Proc.devRef .tc main_v2) := W2_of_ne m ρ c main_v2 (by decide)
theorem W2_arg2 (c : Dev nD) : W2 m ρ c (Proc.devRef .tc main_arg2) = Ba m c :=
  (W2_of_ne m ρ c main_arg2 (by decide)).trans ((W1_of m ρ c main_arg2 (by decide)).trans rfl)

/-! ### The column-sum pass -/

include h1_3 in
theorem W3_v4_0 (c : Dev nD) : W3 m ρ c (Proc.devRef .tc main_v4_0)
    = alsumOut (W2 m ρ c (Proc.devRef .tc main_v3_1)) (W2 m ρ c (Proc.devRef .tc main_v3_0)) :=
  (W3_arr m ρ c 3).trans (h1_3 (V2 m ρ) c)
include h1_4 in
theorem W3_v4_1 (c : Dev nD) : W3 m ρ c (Proc.devRef .tc main_v4_1)
    = uOut (W2 m ρ c (Proc.devRef .tc main_v3_1)) (W2 m ρ c (Proc.devRef .tc main_v3_0)) (W2 m ρ c (Proc.devRef .tc main_v2)) :=
  (W3_arr m ρ c 4).trans (h1_4 (V2 m ρ) c)
theorem W3_v3_1 (c : Dev nD) : W3 m ρ c (Proc.devRef .tc main_v3_1) = W2 m ρ c (Proc.devRef .tc main_v3_1) :=
  (W3_arr m ρ c 0).trans (((R1.dat (V2 m ρ) c).arrAt_in 0 rfl _).trans (R1.A_eq (V2 m ρ) c 0))
theorem W3_v3_0 (c : Dev nD) : W3 m ρ c (Proc.devRef .tc main_v3_0) = W2 m ρ c (Proc.devRef .tc main_v3_0) :=
  (W3_arr m ρ c 2).trans (((R1.dat (V2 m ρ) c).arrAt_in 2 rfl _).trans (R1.A_eq (V2 m ρ) c 2))
theorem W3_arg2 (c : Dev nD) : W3 m ρ c (Proc.devRef .tc main_arg2) = Ba m c :=
  (W3_of_ne m ρ c main_arg2 (by decide)).trans (W2_arg2 m ρ c)

/-! ### The second host stretch -/

theorem W4_v3_1 (c : Dev nD) : W4 m ρ c (Proc.devRef .tc main_v3_1) = W3 m ρ c (Proc.devRef .tc main_v3_1) := W4_of m ρ c main_v3_1 (by decide)
theorem W4_v3_0 (c : Dev nD) : W4 m ρ c (Proc.devRef .tc main_v3_0) = W3 m ρ c (Proc.devRef .tc main_v3_0) := W4_of m ρ c main_v3_0 (by decide)
theorem W4_v7 (c : Dev nD) : (W4 m ρ c (Proc.devRef .tc main_v7) : FVec Ideal S4096x128 .f32)
    = Host.divf (F := Ideal) (φ := .f32) (W3 m ρ c (Proc.devRef .tc main_v4_1) : FVec Ideal S4096x128 .f32)
        (broadcastInDim S4096x128 ![0, 1] bcast_S4096x1_S4096x128_0_1
          (shapeCast S4096x1 (W3 m ρ c (Proc.devRef .tc main_v4_0) : FVec Ideal S1x4096 .f32) shapeCasts_S1x4096_S4096x1)) := by
  show StableHlo.after hostOps2 (W3 m ρ c) (Proc.devRef .tc main_v7) = _
  after_results
  try rfl
theorem W4_v8 (c : Dev nD) : (W4 m ρ c (Proc.devRef .tc main_v8) : FVec Ideal S1x128 .f32)
    = shapeCast S1x128 (W3 m ρ c (Proc.devRef .tc main_arg2) : FVec Ideal S128 .f32) shapeCasts_S128_S1x128 := by
  show StableHlo.after hostOps2 (W3 m ρ c) (Proc.devRef .tc main_v8) = _
  after_results
  try rfl

/-! ### The output pass, and the composition -/

include h0_2 h0_3 h1_3 h1_4 h2_4 in
/-- The result array ends at the layer's value, aggregating first. -/
theorem value_of (c : Dev nD) : W5 m ρ c (Proc.devRef .tc main_v9)
    = outK (Xa m c) (Wa m c) (Ba m c) := by
  refine (W5_arr m ρ c 4).trans ((h2_4 (V4 m ρ) c).trans ?_)
  rw [show V4 m ρ c main_v3_1 = _ from (W4_v3_1 m ρ c).trans ((W3_v3_1 m ρ c).trans (W2_v3_1 m ρ h0_3 c)),
    show V4 m ρ c main_v3_0 = _ from (W4_v3_0 m ρ c).trans ((W3_v3_0 m ρ c).trans (W2_v3_0 m ρ h0_2 c)),
    show V4 m ρ c main_v7 = _ from W4_v7 m ρ c, show V4 m ρ c main_v8 = _ from W4_v8 m ρ c]
  refine compose _ _ _ _ (fun d k => transpose_ix2_apply _ _ d k)
    (Host.dotGeneral (F := Ideal) dot_S4096x128_S128x128_S4096x128_1_0_0_1_n_n none (Xa m c)
        (transpose S128x128 [1, 0] (Wa m c) transposes_S128x128_S128x128_1_0)) (fun i f => ?hS) _ (fun k f => ?hV) _ (fun f => ?hB)
  case hS =>
    show Host.dotGeneral (F := Ideal) (DotDims.plain 4096 128 128) none (Xa m c)
      (transpose S128x128 [1, 0] (Wa m c) transposes_S128x128_S128x128_1_0 : FVec Ideal S128x128 .f32) (ix2 i f) = _
    rw [Cert.ReferenceIdeal.Hand.dotGeneral_plain_apply]
    exact Finset.sum_congr rfl fun d _ => by rw [transpose_ix2_apply]; rfl
  case hV =>
    show Ideal.div (W3 m ρ c (Proc.devRef .tc main_v4_1) (ix2 k f)) _ = _
    rw [W3_v4_1 m ρ h1_4 c, W3_v4_0 m ρ h1_3 c, W2_v3_1 m ρ h0_3 c, W2_v3_0 m ρ h0_2 c, W2_v2 m ρ c, W1_v2 m ρ c]
    congr 1
    rw [broadcastInDim_apply _ _ _ _ (ix2 k (0 : Fin 1)) (fun a => by
      match a with
      | ⟨0, _⟩ => rfl
      | ⟨1, _⟩ => rfl)]
    exact shapeCast_apply _ _ _ (ix2 (0 : Fin 1) k) (by
      rw [Shape.rowMajor_val_two, Shape.rowMajor_val_two]
      show 0 * 4096 + k.val = k.val * 1 + 0
      omega)
  case hB =>
    rw [W3_arg2 m ρ c]
    exact shapeCast_a_1a_apply _ _ _ f

end

end Cert.KernelIdeal.Val

end
-- ==== Proof.R0Val1.lean ====
/-
  The row-sum pass: what each case of the body leaves in a buffer is the stored payload of the loaded blocks.

  At the first column block the running column is reset to zero and then gains this block's row sums; at the
  others it gains them on top of what it held; the pairwise block is stored as formed; at the last column block
  the finished running column is also copied into the row-sum output.
-/
import proofs.«135971_j70179765616691_2_alg».proof.Proof.R0Dat
import Idealize.ShloMosaic.Lib.Pipeline.Value
import Idealize.ShloMosaic.Lib.Tactic
import Idealize.ShloMosaic.Lib.ValueIdx

set_option maxRecDepth 16384

noncomputable section

namespace Cert.KernelIdeal.R0V

open Cert.KernelIdeal Cert.KernelIdeal.Gen Cert.KernelIdeal.R0
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]

theorem hz : (![0, 0] : Fin 2 → Nat) = fun _ => 0 := funext fun a => by fin_cases a <;> rfl

/-! ### The first column block -/

/-- The running column after the reset and the first block: zero plus the block's row sums. -/
theorem sA_eq (c : Dev nD) (i : grid0.Coords) (arg2 : Memref sig .tc .vmem S1024x128 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1024x1024 .bf16) (harg5 : arg5.IsWhole) (arg6 : Memref sig .tc .vmem S1024x1 .f32) (harg6 : arg6.IsWhole) (hc0 : cond0 i) (hc1 : ¬cond1 i) (x0 : Vec F S1024x128 .f32) (x1 : Vec F S128x1024 .f32) :
    sA c i arg2 harg2 arg3 harg3 arg4 harg4 arg5 harg5 arg6 harg6 x0 x1 hc0 hc1 = k0_pay3 x0 x1 k0_pay1 := by
  unfold sA
  rw [View.read_writes_eq_canon _ _ _ (scoverA c i arg2 harg2 arg3 harg3 arg4 harg4 arg5 harg5 arg6 harg6 x0 x1 hc0 hc1)]
  unfold runA
  dsimp only
  sl_unfold_words
  rw [View.canon_cons_unit_zero (S := S1024x1) hz, View.readCov_unit_zero (S := S1024x1) _ hz]
  simp only [View.readAt_eq_ld, harg2.read_unread, harg3.read_unread, View.ld_unit_zero (S := S1024x128) hz, View.ld_unit_zero (S := S128x1024) hz, View.ld_unit_zero (S := S1024x1) hz]

/-- The pairwise block stored at the first column block. -/
theorem out3A_eq (c : Dev nD) (i : grid0.Coords) (arg2 : Memref sig .tc .vmem S1024x128 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1024x1024 .bf16) (harg5 : arg5.IsWhole) (arg6 : Memref sig .tc .vmem S1024x1 .f32) (harg6 : arg6.IsWhole) (hc0 : cond0 i) (hc1 : ¬cond1 i) (x0 : Vec F S1024x128 .f32) (x1 : Vec F S128x1024 .f32) :
    out3A c i arg2 harg2 arg3 harg3 arg4 harg4 arg5 harg5 arg6 harg6 x0 x1 hc0 hc1 = k0_pay4 x0 x1 := by
  unfold out3A
  rw [View.read_writes_eq_canon _ _ _ (cover3A c i arg2 harg2 arg3 harg3 arg4 harg4 arg5 harg5 arg6 harg6 x0 x1 hc0 hc1)]
  unfold runA
  dsimp only
  try sl_unfold_words
  rw [View.canon_unit_zero hz]
  simp only [View.readAt_eq_ld, harg2.read_unread, harg3.read_unread, View.ld_unit_zero (S := S1024x128) hz, View.ld_unit_zero (S := S128x1024) hz, View.ld_unit_zero (S := S1024x1) hz]

/-! ### A column block in between -/

/-- The running column gains the block's row sums. -/
theorem sB_eq (c : Dev nD) (i : grid0.Coords) (arg2 : Memref sig .tc .vmem S1024x128 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1024x1024 .bf16) (harg5 : arg5.IsWhole) (arg6 : Memref sig .tc .vmem S1024x1 .f32) (harg6 : arg6.IsWhole) (hc0 : ¬cond0 i) (hc1 : ¬cond1 i) (x0 : Vec F S1024x128 .f32) (x1 : Vec F S128x1024 .f32) (xs : Vec F S1024x1 .f32) :
    sB c i arg2 harg2 arg3 harg3 arg4 harg4 arg5 harg5 arg6 harg6 x0 x1 xs hc0 hc1 = k0_pay3 x0 x1 xs := by
  unfold sB
  rw [View.read_writes_eq_canon _ _ _ (scoverB c i arg2 harg2 arg3 harg3 arg4 harg4 arg5 harg5 arg6 harg6 x0 x1 xs hc0 hc1)]
  unfold runB
  dsimp only
  rw [View.canon_unit_zero hz]
  simp only [View.readAt_eq_ld, harg2.read_unread, harg3.read_unread, harg6.read_unread, View.ld_unit_zero (S := S1024x128) hz, View.ld_unit_zero (S := S128x1024) hz, View.ld_unit_zero (S := S1024x1) hz]

/-- The pairwise block stored there. -/
theorem out3B_eq (c : Dev nD) (i : grid0.Coords) (arg2 : Memref sig .tc .vmem S1024x128 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1024x1024 .bf16) (harg5 : arg5.IsWhole) (arg6 : Memref sig .tc .vmem S1024x1 .f32) (harg6 : arg6.IsWhole) (hc0 : ¬cond0 i) (hc1 : ¬cond1 i) (x0 : Vec F S1024x128 .f32) (x1 : Vec F S128x1024 .f32) (xs : Vec F S1024x1 .f32) :
    out3B c i arg2 harg2 arg3 harg3 arg4 harg4 arg5 harg5 arg6 harg6 x0 x1 xs hc0 hc1 = k0_pay4 x0 x1 := by
  unfold out3B
  rw [View.read_writes_eq_canon _ _ _ (cover3B c i arg2 harg2 arg3 harg3 arg4 harg4 arg5 harg5 arg6 harg6 x0 x1 xs hc0 hc1)]
  unfold runB
  dsimp only
  rw [View.canon_unit_zero hz]
  simp only [View.readAt_eq_ld, harg2.read_unread, harg3.read_unread, View.ld_unit_zero (S := S1024x128) hz, View.ld_unit_zero (S := S128x1024) hz, View.ld_unit_zero (S := S1024x1) hz]

/-! ### The last column block -/

/-- The running column gains the block's row sums. -/
theorem sC_eq (c : Dev nD) (i : grid0.Coords) (arg2 : Memref sig .tc .vmem S1024x128 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1024x1024 .bf16) (harg5 : arg5.IsWhole) (arg6 : Memref sig .tc .vmem S1024x1 .f32) (harg6 : arg6.IsWhole) (hc0 : ¬cond0 i) (hc1 : cond1 i) (x0 : Vec F S1024x128 .f32) (x1 : Vec F S128x1024 .f32) (xs : Vec F S1024x1 .f32) :
    sC c i arg2 harg2 arg3 harg3 arg4 harg4 arg5 harg5 arg6 harg6 x0 x1 xs hc0 hc1 = k0_pay3 x0 x1 xs := by
  unfold sC
  rw [View.read_writes_eq_canon _ _ _ (scoverC c i arg2 harg2 arg3 harg3 arg4 harg4 arg5 harg5 arg6 harg6 x0 x1 xs hc0 hc1)]
  unfold runC
  dsimp only
  try sl_unfold_words
  rw [View.canon_unit_zero hz]
  simp only [View.readAt_eq_ld, harg2.read_unread, harg3.read_unread, harg6.read_unread, View.ld_unit_zero (S := S1024x128) hz, View.ld_unit_zero (S := S128x1024) hz, View.ld_unit_zero (S := S1024x1) hz]

/-- The pairwise block stored there. -/
theorem out3C_eq (c : Dev nD) (i : grid0.Coords) (arg2 : Memref sig .tc .vmem S1024x128 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1024x1024 .bf16) (harg5 : arg5.IsWhole) (arg6 : Memref sig .tc .vmem S1024x1 .f32) (harg6 : arg6.IsWhole) (hc0 : ¬cond0 i) (hc1 : cond1 i) (x0 : Vec F S1024x128 .f32) (x1 : Vec F S128x1024 .f32) (xs : Vec F S1024x1 .f32) :
    out3C c i arg2 harg2 arg3 harg3 arg4 harg4 arg5 harg5 arg6 harg6 x0 x1 xs hc0 hc1 = k0_pay4 x0 x1 := by
  unfold out3C
  rw [View.read_writes_eq_canon _ _ _ (cover3C c i arg2 harg2 arg3 harg3 arg4 harg4 arg5 harg5 arg6 harg6 x0 x1 xs hc0 hc1)]
  unfold runC
  dsimp only
  try sl_unfold_words
  rw [View.canon_unit_zero hz]
  simp only [View.readAt_eq_ld, harg2.read_unread, harg3.read_unread, View.ld_unit_zero (S := S1024x128) hz, View.ld_unit_zero (S := S128x1024) hz, View.ld_unit_zero (S := S1024x1) hz]

/-- The row-sum output receives the finished running column. -/
theorem out2C_eq (c : Dev nD) (i : grid0.Coords) (arg2 : Memref sig .tc .vmem S1024x128 .f32) (harg2 : arg2.IsWhole) (arg3 : Memref sig .tc .vmem S128x1024 .f32) (harg3 : arg3.IsWhole) (arg4 : Memref sig .tc .vmem S1024x1 .f32) (harg4 : arg4.IsWhole) (arg5 : Memref sig .tc .vmem S1024x1024 .bf16) (harg5 : arg5.IsWhole) (arg6 : Memref sig .tc .vmem S1024x1 .f32) (harg6 : arg6.IsWhole) (hc0 : ¬cond0 i) (hc1 : cond1 i) (x0 : Vec F S1024x128 .f32) (x1 : Vec F S128x1024 .f32) (xs : Vec F S1024x1 .f32) :
    out2C c i arg2 harg2 arg3 harg3 arg4 harg4 arg5 harg5 arg6 harg6 x0 x1 xs hc0 hc1 = k0_pay3 x0 x1 xs := by
  unfold out2C
  rw [View.read_writes_eq_canon _ _ _ (cover2C c i arg2 harg2 arg3 harg3 arg4 harg4 arg5 harg5 arg6 harg6 x0 x1 xs hc0 hc1)]
  unfold runC
  dsimp only
  sl_unfold_words
  rw [View.canon_unit_zero hz, View.readCov_unit_zero (S := S1024x1) _ hz]
  simp only [View.readAt_eq_ld, harg2.read_unread, harg3.read_unread, harg6.read_unread, View.ld_unit_zero (S := S1024x128) hz, View.ld_unit_zero (S := S128x1024) hz, View.ld_unit_zero (S := S1024x1) hz]

end Cert.KernelIdeal.R0V

end
-- ==== Proof.PayLib.lean ====
/-
  Vector operations read at an index given by coordinates, at the extended reals: the keep-dims layout operations between a
  vector of length a and the columns [a, 1] and rows [1, a] of a matrix, a sum over the rows or over the columns of a
  matrix, the exponential and the square root, and the two matrix products that occur (contracting the second axis of the
  left operand, or the first axis of both) into a zero accumulator.
-/
import Idealize.ShloMosaic.Lib.ValueIdx
import Idealize.ShloMosaic.Lib.ValueLayout
import Idealize.ShloMosaic.Lib.Pipeline.Value
import Idealize.ShloMosaic.PureOps.Ideal.Laws

namespace Cert.KernelIdeal.Pay

open Idealize.ShloMosaic Idealize.ShloMosaic.ValueIdx

/-! ### Layout -/

section Layout

variable {α : Type}

/-- A vector of length `a` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ### Pointwise functions -/

section Pointwise

variable {s : Shape} {φ : FTy}

theorem exp_apply (a : FVec Ideal s φ) (i : s.Idx) : exp a i = Ideal.exp (a i) := rfl
theorem sqrt_apply (a : FVec Ideal s φ) (i : s.Idx) : sqrt a i = Ideal.sqrt (a i) := rfl

end Pointwise

/-! ### Sums along one axis of a matrix -/

section Sums

variable {a b : ℕ} {φ : FTy}

/-- The sum over the second axis, at row `i`. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction (F := Ideal) .add [1] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  refine Finset.sum_congr rfl fun k _ => congrArg src ?_
  funext c; apply Fin.ext
  match c with
  | ⟨0, _⟩ => rfl
  | ⟨1, _⟩ => rfl

/-- The sum over the first axis, at column `j`. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction (F := Ideal) .add [0] ⟨1, ![b]⟩ src acc h hφ hacc (ix1 j) = ∑ k : Fin a, src (ix2 k j) := by
  refine (Ideal.multiReduction_add_single src acc h hφ hacc (ix1 j)).trans ?_
  show ∑ k : Fin a, src (h.lift (ix1 j) k) = _
  refine Finset.sum_congr rfl fun k _ => congrArg src ?_
  funext c; apply Fin.ext
  match c with
  | ⟨0, _⟩ => rfl
  | ⟨1, _⟩ => rfl

end Sums

/-! ### Matrix products into a zero accumulator -/

section Products

variable {m k n : ℕ} {φ₁ φ₂ : FTy}

/-- `[m, k]` by `[k, n]`: at `(a, b)`, the sum over `c` of `A (a, c) · B (c, b)`. -/
theorem matmul_plain_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims _ _ _) prec A B (constant ⟨2, ![m, n]⟩ .f32 0x00000000#32)
        (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- `[k, m]` by `[k, n]`, contracting the first axis of both: at `(a, b)`, the sum over `c` of `A (c, a) · B (c, b)`. -/
theorem matmul_tlhs_apply (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (a : Fin m) (b : Fin n) :
    FloatOps.matmul (⟨[0], [0], [1], [1], [], [], w⟩ : DotDims _ _ _) prec A B (constant ⟨2, ![m, n]⟩ .f32 0x00000000#32)
        (ix2 a b)
      = ∑ c : Fin k, A (ix2 c a) * B (ix2 c b) := by
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val
    (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Products

end Cert.KernelIdeal.Pay
-- ==== Proof.Pay0.lean ====
/-
  The row-sum pass read at an index, at the extended reals.

  For a block `v3` of 1024 rows of 128 features and a block `v4` of 128 features by 1024 columns, the pass forms at
  (p, q) the number exp (exp (0 - sqrt (max (|v3_p|² + |v4_q|² - 2 ⟨v3_p, v4_q⟩) θ))): the squared norms are sums over
  the feature axis kept as a column and as a row and broadcast over the square, the inner product is a matrix product into
  a zero accumulator. It adds the sums of these numbers over q to a running column, and stores the numbers themselves
  unchanged (narrowing the format does nothing to an extended real).
-/
import proofs.«135971_j70179765616691_2_alg».proof.Proof.Gen.KernelIdeal.Skeleton
import proofs.«135971_j70179765616691_2_alg».proof.Proof.Spec
import proofs.«135971_j70179765616691_2_alg».proof.Proof.PayLib

namespace Cert.KernelIdeal.Pay

open Idealize.ShloMosaic Idealize.ShloMosaic.ValueIdx
open Cert.KernelIdeal Cert.KernelIdeal.Gen
open Cert.Gnn (c0 c1 c2 cθ cs lrelu)

/-- The zero column the running sums start from. -/
theorem k0_pay1_apply (j : S1024x1.Idx) : k0_pay1 (F := Ideal) j = 0 := by
  unfold k0_pay1
  simp only [shapeCast_self, broadcast_apply]
  exact Ideal.ofBits_zero_f32

section Body

variable (v3 : Vec Ideal S1024x128 .f32) (v4 : Vec Ideal S128x1024 .f32)

/-- The squared norm of row `p` of the left block, kept as a column and broadcast over the square. -/
theorem k0_rowsq (p q : Fin 1024) :
    broadcastTo S1024x1024
        (shapeCast S1024x1
          (multiReduction (F := Ideal) .add [1] S1024 (mulf v3 v3) 0x00000000#32 reduces_S1024x128_S1024 (.inl rfl) rfl)
          shapeCasts_S1024_S1024x1)
        broadcasts_S1024x1_S1024x1024 (ix2 p q)
      = ∑ d : Fin 128, v3 (ix2 p d) * v3 (ix2 p d) :=
  (broadcastTo_a1_ab_apply _ _ p q).trans ((shapeCast_a_a1_apply _ _ p 0).trans (rowSum_apply _ _ _ _ _ p))

/-- The squared norm of column `q` of the right block, kept as a row and broadcast over the square. -/
theorem k0_colsq (p q : Fin 1024) :
    broadcastTo S1024x1024
        (shapeCast S1x1024
          (multiReduction (F := Ideal) .add [0] S1024 (mulf v4 v4) 0x00000000#32 reduces_S128x1024_S1024 (.inl rfl) rfl)
          shapeCasts_S1024_S1x1024)
        broadcasts_S1x1024_S1024x1024 (ix2 p q)
      = ∑ d : Fin 128, v4 (ix2 d q) * v4 (ix2 d q) :=
  (broadcastTo_1b_ab_apply _ _ p q).trans ((shapeCast_a_1a_apply _ _ 0 q).trans (colSum_apply _ _ _ _ _ q))

/-- The inner product of row `p` of the left block and column `q` of the right block. -/
theorem k0_gram (p q : Fin 1024) :
    matmul (F := Ideal) (φ₁ := .f32) (φ₂ := .f32) dot_S1024x128_S128x1024_S1024x1024_1_0_0_1_n_n (some .fp32) v3 v4
        (constant S1024x1024 .f32 0x00000000#32) (ix2 p q)
      = ∑ d : Fin 128, v3 (ix2 p d) * v4 (ix2 d q) :=
  matmul_plain_apply _ _ v3 v4 p q

/-- The number the pass forms at (p, q). -/
theorem k0_pay2_apply (p q : Fin 1024) :
    k0_pay2 (F := Ideal) v3 v4 (ix2 p q)
      = Ideal.exp (Ideal.exp (c0 - Ideal.sqrt (max
          ((∑ d : Fin 128, v3 (ix2 p d) * v3 (ix2 p d)) + (∑ d : Fin 128, v4 (ix2 d q) * v4 (ix2 d q))
            - c2 * (∑ d : Fin 128, v3 (ix2 p d) * v4 (ix2 d q))) cθ))) := by
  have h1 := k0_rowsq v3 p q
  have h2 := k0_colsq v4 p q
  have h3 := k0_gram v3 v4 p q
  unfold k0_pay2
  simp only [shapeCast_self]
  show Ideal.exp (Ideal.exp (c0 - Ideal.sqrt (max (_ + _ - c2 * _) cθ))) = _
  rw [h1, h2, h3]

/-- The running column plus the sums over q. -/
theorem k0_pay3_apply (v26 : Vec Ideal S1024x1 .f32) (p : Fin 1024) :
    k0_pay3 (F := Ideal) v3 v4 v26 (ix2 p (0 : Fin 1))
      = v26 (ix2 p 0) + ∑ q : Fin 1024, k0_pay2 (F := Ideal) v3 v4 (ix2 p q) := by
  unfold k0_pay3
  simp only [shapeCast_self]
  show v26 (ix2 p 0) + _ = _
  exact congrArg (v26 (ix2 p 0) + ·) ((shapeCast_a_a1_apply _ _ p 0).trans (rowSum_apply _ _ _ _ _ p))

/-- The stored numbers are the numbers formed. -/
theorem k0_pay4_eq : k0_pay4 (F := Ideal) v3 v4 = k0_pay2 (F := Ideal) v3 v4 := rfl

end Body

end Cert.KernelIdeal.Pay
-- ==== Proof.LibSums.lean ====
/-
  General lemmas on finite sums, used to compare a sum accumulated tile by tile over zero-padded rows with the plain sum
  over the rows.

  * `coe_sum`: the inclusion of the reals in the extended reals commutes with finite sums.
  * `partialSum`: for a family indexed by `Fin (T * B)`, seen as `T` consecutive tiles of `B` entries, the sum of the
    entries of the first `t` tiles. It starts at `0`, grows by one tile's sum at each step, and ends at the full sum;
    so any accumulator obeying the same recurrence ends at the full sum (`acc_eq_sum`).
  * `sum_pad`: extending a family on `Fin n` by zeros to `Fin N` (`n ≤ N`) does not change its sum.
  Each statement is given for symbolic extents and again for the literal extents 62 * 16384 = 1015808 and
  1000000 ≤ 1015808.
-/
import Mathlib
import Idealize.ShloMosaic.PureOps.Ideal

noncomputable section

namespace Cert.LibSums

open BigOperators

/-! ### Real sums inside the extended reals -/

/-- The inclusion `ℝ → EReal` commutes with a finite sum. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The inclusion `ℝ → EReal` commutes with a sum over a whole finite type. -/
theorem coe_sum_univ {ι : Type*} [Fintype ι] (f : ι → ℝ) :
    ((∑ i, f i : ℝ) : EReal) = ∑ i, (f i : EReal) :=
  coe_sum Finset.univ f

/-! ### A sum accumulated tile by tile -/

section Tiles

variable {M : Type*} [AddCommMonoid M]

/-- Entry `i` of tile `t` lies inside `T` tiles of `B` entries. -/
theorem tile_idx_lt {T B t i : ℕ} (ht : t < T) (hi : i < B) : t * B + i < T * B := by
  have h1 : (t + 1) * B ≤ T * B := Nat.mul_le_mul_right B ht
  have h2 : (t + 1) * B = t * B + B := Nat.succ_mul t B
  omega

/-- The sum of the entries of the first `t` tiles of a family of `T` tiles of `B` entries: the entries whose position is
    below `t * B`. -/
def partialSum {T B : ℕ} (f : Fin (T * B) → M) (t : ℕ) : M :=
  ∑ p : Fin (T * B), if p.val < t * B then f p else 0

/-- No tile, no entry: the partial sum starts at zero. -/
theorem partialSum_zero {T B : ℕ} (f : Fin (T * B) → M) : partialSum f 0 = 0 := by
  unfold partialSum
  refine Finset.sum_eq_zero fun p _ => ?_
  rw [if_neg]
  omega

/-- All `T` tiles hold every entry: the last partial sum is the full sum. -/
theorem partialSum_top {T B : ℕ} (f : Fin (T * B) → M) : partialSum f T = ∑ p, f p := by
  unfold partialSum
  exact Finset.sum_congr rfl fun p _ => if_pos p.isLt

/-- One more tile adds that tile's sum: positions `t * B ≤ p < (t + 1) * B` are exactly `t * B + i` for `i < B`. -/
theorem partialSum_succ {T B : ℕ} (f : Fin (T * B) → M) {t : ℕ} (ht : t < T) :
    partialSum f (t + 1)
      = partialSum f t + ∑ i : Fin B, f ⟨t * B + i.val, tile_idx_lt ht i.isLt⟩ := by
  unfold partialSum
  have hB : (t + 1) * B = t * B + B := Nat.succ_mul t B
  have hsplit : ∀ p : Fin (T * B), (if p.val < (t + 1) * B then f p else 0)
      = (if p.val < t * B then f p else 0)
        + (if t * B ≤ p.val ∧ p.val < (t + 1) * B then f p else 0) := by
    intro p
    by_cases h1 : p.val < t * B
    · have h2 : p.val < (t + 1) * B := by omega
      have h3 : ¬ (t * B ≤ p.val ∧ p.val < (t + 1) * B) := by omega
      rw [if_pos h1, if_pos h2, if_neg h3, add_zero]
    · by_cases h2 : p.val < (t + 1) * B
      · have h3 : t * B ≤ p.val ∧ p.val < (t + 1) * B := ⟨by omega, h2⟩
        rw [if_neg h1, if_pos h2, if_pos h3, zero_add]
      · have h3 : ¬ (t * B ≤ p.val ∧ p.val < (t + 1) * B) := fun h => h2 h.2
        rw [if_neg h1, if_neg h2, if_neg h3, add_zero]
  rw [Finset.sum_congr rfl (fun p _ => hsplit p), Finset.sum_add_distrib]
  congr 1
  rw [← Finset.sum_filter]
  symm
  refine Finset.sum_bij (fun i _ => (⟨t * B + i.val, tile_idx_lt ht i.isLt⟩ : Fin (T * B))) ?_ ?_ ?_ ?_
  · intro i _
    have hi := i.isLt
    simp only [Finset.mem_filter, Finset.mem_univ, true_and]
    constructor <;> omega
  · intro i _ j _ h
    have hv : t * B + i.val = t * B + j.val := congrArg Fin.val h
    exact Fin.ext (by omega)
  · intro p hp
    simp only [Finset.mem_filter, Finset.mem_univ, true_and] at hp
    refine ⟨⟨p.val - t * B, by omega⟩, Finset.mem_univ _, ?_⟩
    apply Fin.ext
    show t * B + (p.val - t * B) = p.val
    omega
  · intro i _
    rfl

/-- An accumulator that starts at zero and gains one tile's sum at each of `T` steps is, after `t ≤ T` steps, the partial
    sum of the first `t` tiles. -/
theorem acc_eq_partialSum {T B : ℕ} (f : Fin (T * B) → M) (acc : ℕ → M) (h0 : acc 0 = 0)
    (hs : ∀ (t : ℕ) (ht : t < T), acc (t + 1) = acc t + ∑ i : Fin B, f ⟨t * B + i.val, tile_idx_lt ht i.isLt⟩) :
    ∀ t, t ≤ T → acc t = partialSum f t := by
  intro t
  induction t with
  | zero => intro _; rw [h0, partialSum_zero]
  | succ t ih =>
    intro ht
    have ht' : t < T := ht
    rw [hs t ht', partialSum_succ f ht', ih (Nat.le_of_lt ht')]

/-- … and after all `T` steps it is the full sum. -/
theorem acc_eq_sum {T B : ℕ} (f : Fin (T * B) → M) (acc : ℕ → M) (h0 : acc 0 = 0)
    (hs : ∀ (t : ℕ) (ht : t < T), acc (t + 1) = acc t + ∑ i : Fin B, f ⟨t * B + i.val, tile_idx_lt ht i.isLt⟩) :
    acc T = ∑ p, f p := by
  rw [acc_eq_partialSum f acc h0 hs T (Nat.le_refl T), partialSum_top]

/-! The same at 62 tiles of 16384 entries, 62 * 16384 = 1015808. -/

/-- Entry `i` of tile `t` lies below 1015808. -/
theorem tile_idx_lt' (t : Fin 62) (i : Fin 16384) : t.val * 16384 + i.val < 1015808 := by
  have ht := t.isLt
  have hi := i.isLt
  omega

/-- The sum of the first `t` tiles of 16384 entries of a family of 1015808 entries. -/
def partialSum62 (f : Fin 1015808 → M) (t : ℕ) : M :=
  ∑ p : Fin 1015808, if p.val < t * 16384 then f p else 0

theorem partialSum62_eq (f : Fin 1015808 → M) (t : ℕ) :
    partialSum62 f t = partialSum (T := 62) (B := 16384) f t := rfl

/-- It starts at zero. -/
theorem partialSum62_zero (f : Fin 1015808 → M) : partialSum62 f 0 = 0 :=
  partialSum_zero (T := 62) (B := 16384) f

/-- Tile `t` adds its 16384 entries. -/
theorem partialSum62_succ (f : Fin 1015808 → M) (t : Fin 62) :
    partialSum62 f (t.val + 1)
      = partialSum62 f t.val + ∑ i : Fin 16384, f ⟨t.val * 16384 + i.val, tile_idx_lt' t i⟩ :=
  partialSum_succ (T := 62) (B := 16384) f t.isLt

/-- After 62 tiles it is the full sum. -/
theorem partialSum62_top (f : Fin 1015808 → M) : partialSum62 f 62 = ∑ p, f p :=
  partialSum_top (T := 62) (B := 16384) f

/-- An accumulator over 62 grid points that starts at zero and gains tile `t`'s sum at point `t` ends at the full sum over
    the 1015808 entries. -/
theorem acc62_eq_sum (f : Fin 1015808 → M) (acc : ℕ → M) (h0 : acc 0 = 0)
    (hs : ∀ t : Fin 62, acc (t.val + 1)
      = acc t.val + ∑ i : Fin 16384, f ⟨t.val * 16384 + i.val, tile_idx_lt' t i⟩) :
    acc 62 = ∑ p, f p :=
  acc_eq_sum (T := 62) (B := 16384) f acc h0 (fun t ht => hs ⟨t, ht⟩)

end Tiles

/-! ### Zero padding -/

section Pad

variable {M : Type*} [AddCommMonoid M]

/-- A family on `Fin n` extended by zeros to `Fin N`, `n ≤ N`, has the same sum. -/
theorem sum_pad {n N : ℕ} (hnN : n ≤ N) (g : Fin n → M) :
    (∑ p : Fin N, (if h : p.val < n then g ⟨p.val, h⟩ else 0)) = ∑ r : Fin n, g r := by
  have h1 : (∑ p : Fin N, (if h : p.val < n then g ⟨p.val, h⟩ else 0))
      = ∑ k ∈ Finset.range N, (if h : k < n then g ⟨k, h⟩ else 0) :=
    Fin.sum_univ_eq_sum_range (fun k => if h : k < n then g ⟨k, h⟩ else 0) N
  have h2 : (∑ r : Fin n, g r) = ∑ k ∈ Finset.range n, (if h : k < n then g ⟨k, h⟩ else 0) := by
    rw [← Fin.sum_univ_eq_sum_range (fun k => if h : k < n then g ⟨k, h⟩ else 0) n]
    exact Finset.sum_congr rfl fun r _ => by rw [dif_pos r.isLt]
  rw [h1, h2]
  symm
  refine Finset.sum_subset (fun k hk => Finset.mem_range.2 (lt_of_lt_of_le (Finset.mem_range.1 hk) hnN)) fun k _ hk => ?_
  have hkn : ¬ k < n := fun hlt => hk (Finset.mem_range.2 hlt)
  exact dif_neg hkn

/-- The same for a family of a position alone, cut off at `n`. -/
theorem sum_pad_nat {n N : ℕ} (hnN : n ≤ N) (g : ℕ → M) :
    (∑ p : Fin N, (if p.val < n then g p.val else 0)) = ∑ r : Fin n, g r.val := by
  rw [← sum_pad hnN (fun r : Fin n => g r.val)]
  exact Finset.sum_congr rfl fun p _ => by
    by_cases h : p.val < n
    · rw [if_pos h, dif_pos h]
    · rw [if_neg h, dif_neg h]

/-- 1,000,000 rows padded by zeros to 1,015,808 have the same sum. -/
theorem sum_pad_rows (g : Fin 1000000 → M) :
    (∑ p : Fin 1015808, (if h : p.val < 1000000 then g ⟨p.val, h⟩ else 0)) = ∑ r : Fin 1000000, g r :=
  sum_pad (by norm_num) g

/-- The same for a table of rows and columns, at a fixed column. -/
theorem sum_pad_rows₂ {κ : Type*} (g : Fin 1000000 → κ → M) (c : κ) :
    (∑ p : Fin 1015808, (if h : p.val < 1000000 then g ⟨p.val, h⟩ c else 0)) = ∑ r : Fin 1000000, g r c :=
  sum_pad_rows (fun r => g r c)

end Pad

end Cert.LibSums

end
-- ==== Proof.R0Val2.lean ====
/-
  The row-sum pass over the extended reals: what its buffers hold after each grid point, as functions of the two
  input arrays.

  Point t = 4 i + j works on rows 1024 i … 1024 i + 1023 of x and columns 1024 j … 1024 j + 1023 of its transpose.
  The pairwise block it stores is the matrix a at those rows and columns; the running column after it is, at row p,
  the sum of a over the columns of the blocks 0 … j — the partial sum of the first j + 1 tiles of that row of a —
  and at j = 3 the whole row sum, which is what the row-sum output receives.
-/
import proofs.«135971_j70179765616691_2_alg».proof.Proof.R0Dat
import proofs.«135971_j70179765616691_2_alg».proof.Proof.R0Val1
import proofs.«135971_j70179765616691_2_alg».proof.Proof.Pay0
import proofs.«135971_j70179765616691_2_alg».proof.Proof.ValSpec
import proofs.«135971_j70179765616691_2_alg».proof.Proof.LibSums
import Idealize.ShloMosaic.Lib.Pipeline.Value
import Idealize.ShloMosaic.Lib.ValueIdx

set_option maxRecDepth 16384

noncomputable section

namespace Cert.KernelIdeal.R0V

open Cert.KernelIdeal Cert.KernelIdeal.Gen Cert.KernelIdeal.R0
open Idealize.ShloMosaic Idealize.ShloMosaic.TcCoe Idealize.ShloMosaic.Tactic Idealize.ShloMosaic.ValueIdx
open Idealize.SL.Sem
open Idealize.ShloMosaic.Pipeline (Dat Cfg Window)

open Cert.Gnn (a0 A4096x128 A128x4096)
open Cert.LibSums (partialSum partialSum_zero partialSum_succ partialSum_top)

variable (V : (c : Dev nD) → (b : Ref sig .tc) → Buf (Elt Ideal) ((c : Thread nD τ).loc b))

theorem hN : cfg0.N = 16 := N_0

/-- The array row of row `p` of the row block at point `t`. -/
def rowIx (t : Fin cfg0.N) (p : Fin 1024) : Fin 4096 :=
  ⟨1024 * (t.val / 4) + p.val, by have := t.isLt; have := hN; have := p.isLt; omega⟩
/-- The array column of column `q` of the column block at point `t`. -/
def colIx (t : Fin cfg0.N) (q : Fin 1024) : Fin (4 * 1024) :=
  ⟨t.val % 4 * 1024 + q.val, Cert.LibSums.tile_idx_lt (Nat.mod_lt _ (by decide)) q.isLt⟩

/-- The block indices of the two input windows, over the sixteen points. -/
theorem idx0 : ∀ t : Fin cfg0.N, win0_0.index t 0 = t.val / 4 ∧ win0_0.index t 1 = 0 :=
  (by decide +kernel : ∀ t : Fin grid0.N, win0_0.index t 0 = t.val / 4 ∧ win0_0.index t 1 = 0)
theorem idx1 : ∀ t : Fin cfg0.N, win0_1.index t 0 = 0 ∧ win0_1.index t 1 = t.val % 4 :=
  (by decide +kernel : ∀ t : Fin grid0.N, win0_1.index t 0 = 0 ∧ win0_1.index t 1 = t.val % 4)

/-- The two input arrays as the pass finds them. -/
abbrev X (c : Dev nD) : A4096x128 := V c main_arg0
abbrev XT (c : Dev nD) : A128x4096 := V c main_v0

/-- The row block of x at point `t` holds rows 1024 (t / 4) … of x. -/
theorem iblk0_apply (c : Dev nD) (t : Fin cfg0.N) (p : Fin 1024) (d : Fin 128) :
    (iblk V c 0 t : Vec Ideal S1024x128 .f32) (ix2 p d) = X V c (ix2 (rowIx t p) d) := by
  unfold iblk
  rw [View.read_apply]
  show (V c main_arg0 : S4096x128.Idx → Elt Ideal .f32) (((cfg0.win 0).blk t).view.emb (ix2 p d)) = _
  refine congrArg (V c main_arg0 : S4096x128.Idx → Elt Ideal .f32) (funext fun a => Fin.ext ?_)
  match a with
  | ⟨0, _⟩ =>
    show win0_0.index t 0 * 1024 + 1 * p.val = 1024 * (t.val / 4) + p.val
    rw [(idx0 t).1]; omega
  | ⟨1, _⟩ =>
    show win0_0.index t 1 * 128 + 1 * d.val = d.val
    rw [(idx0 t).2]; omega

/-- The column block of the transposed x at point `t` holds columns 1024 (t % 4) … of it. -/
theorem iblk1_apply (c : Dev nD) (t : Fin cfg0.N) (d : Fin 128) (q : Fin 1024) :
    (iblk V c 1 t : Vec Ideal S128x1024 .f32) (ix2 d q) = XT V c (ix2 d (colIx t q)) := by
  unfold iblk
  rw [View.read_apply]
  show (V c main_v0 : S128x4096.Idx → Elt Ideal .f32) (((cfg0.win 1).blk t).view.emb (ix2 d q)) = _
  refine congrArg (V c main_v0 : S128x4096.Idx → Elt Ideal .f32) (funext fun a => Fin.ext ?_)
  match a with
  | ⟨0, _⟩ =>
    show win0_1.index t 0 * 128 + 1 * d.val = d.val
    rw [(idx1 t).1]; omega
  | ⟨1, _⟩ =>
    show win0_1.index t 1 * 1024 + 1 * q.val = t.val % 4 * 1024 + q.val
    rw [(idx1 t).2]; omega

/-- The number the pass forms at (p, q) of point `t` is the matrix a at that row and column of the arrays. -/
theorem pay2_blk (c : Dev nD) (t : Fin cfg0.N) (p q : Fin 1024) :
    k0_pay2 (F := Ideal) (iblk V c 0 t) (iblk V c 1 t) (ix2 p q) = a0 (X V c) (XT V c) (rowIx t p) (colIx t q) := by
  rw [Pay.k0_pay2_apply (iblk V c 0 t) (iblk V c 1 t) p q]
  simp only [iblk0_apply V c t, iblk1_apply V c t]
  rfl

/-- Row `r` of the matrix a, as four tiles of 1024 entries. -/
def rowf (c : Dev nD) (r : Fin 4096) : Fin (4 * 1024) → EReal := fun k => a0 (X V c) (XT V c) r k

/-- One point's step: a running column that holds the first j tiles' sums holds the first j + 1 after the point. -/
theorem step (c : Dev nD) (t : Fin cfg0.N) (p : Fin 1024) (xs : Vec Ideal S1024x1 .f32)
    (hxs : xs (ix2 p (0 : Fin 1)) = partialSum (rowf V c (rowIx t p)) (t.val % 4)) :
    k0_pay3 (F := Ideal) (iblk V c 0 t) (iblk V c 1 t) xs (ix2 p (0 : Fin 1))
      = partialSum (rowf V c (rowIx t p)) (t.val % 4 + 1) := by
  rw [Pay.k0_pay3_apply (iblk V c 0 t) (iblk V c 1 t) xs p, hxs,
    partialSum_succ (rowf V c (rowIx t p)) (Nat.mod_lt t.val (by decide : 0 < 4))]
  refine congrArg (partialSum (rowf V c (rowIx t p)) (t.val % 4) + ·) (Finset.sum_congr rfl fun q _ => ?_)
  exact pay2_blk V c t p q

/-- The running column after every point: the partial sum of the first j + 1 tiles of its rows of a. -/
theorem acc_eq (c : Dev nD) : ∀ (n : ℕ) (t : Fin cfg0.N), t.val = n → ∀ p : Fin 1024,
    (outsAt V c t.val t.isLt).2.2 (ix2 p (0 : Fin 1)) = partialSum (rowf V c (rowIx t p)) (t.val % 4 + 1) := by
  intro n
  induction n with
  | zero =>
    intro t ht p
    have h0 : t.val % 4 = 0 := by omega
    have h1 : ¬t.val % 4 = 3 := by omega
    rw [outsAt_A V c t h0 h1]
    dsimp only
    rw [sA_eq c (grid0.coords t) (ms0 t) (hs0 t) (ms1 t) (hs1 t) (ms2 t) (hs2 t) (ms3 t) (hs3 t) scM (Memref.isWhole_whole _) ((hcond0 t).mpr h0) (fun h => h1 ((hcond1 t).mp h)) (iblk V c 0 t) (iblk V c 1 t)]
    exact step V c t p (k0_pay1 (F := Ideal)) (by rw [Pay.k0_pay1_apply, h0, partialSum_zero])
  | succ n ih =>
    intro t ht p
    by_cases h0 : t.val % 4 = 0
    · have h1 : ¬t.val % 4 = 3 := by omega
      rw [outsAt_A V c t h0 h1]
      dsimp only
      rw [sA_eq c (grid0.coords t) (ms0 t) (hs0 t) (ms1 t) (hs1 t) (ms2 t) (hs2 t) (ms3 t) (hs3 t) scM (Memref.isWhole_whole _) ((hcond0 t).mpr h0) (fun h => h1 ((hcond1 t).mp h)) (iblk V c 0 t) (iblk V c 1 t)]
      exact step V c t p (k0_pay1 (F := Ideal)) (by rw [Pay.k0_pay1_apply, h0, partialSum_zero])
    · have hprev := ih ⟨t.val - 1, Nat.lt_of_le_of_lt (Nat.sub_le _ _) t.isLt⟩ (by show t.val - 1 = n; omega) p
      have hrow : rowIx ⟨t.val - 1, Nat.lt_of_le_of_lt (Nat.sub_le _ _) t.isLt⟩ p = rowIx t p :=
        Fin.ext (by show 1024 * ((t.val - 1) / 4) + p.val = 1024 * (t.val / 4) + p.val; omega)
      have hj : (t.val - 1) % 4 + 1 = t.val % 4 := by omega
      rw [hrow] at hprev
      have hxs : (outsAt V c (t.val - 1) (Nat.lt_of_le_of_lt (Nat.sub_le _ _) t.isLt)).2.2 (ix2 p (0 : Fin 1))
          = partialSum (rowf V c (rowIx t p)) (t.val % 4) := hprev.trans (by show partialSum _ ((t.val - 1) % 4 + 1) = _; rw [hj])
      by_cases h1 : t.val % 4 = 3
      · rw [outsAt_C V c t h0 h1]
        dsimp only
        rw [sC_eq c (grid0.coords t) (ms0 t) (hs0 t) (ms1 t) (hs1 t) (ms2 t) (hs2 t) (ms3 t) (hs3 t) scM (Memref.isWhole_whole _) (fun h => h0 ((hcond0 t).mp h)) ((hcond1 t).mpr h1) (iblk V c 0 t) (iblk V c 1 t)
          (outsAt V c (t.val - 1) (Nat.lt_of_le_of_lt (Nat.sub_le _ _) t.isLt)).2.2]
        exact step V c t p _ hxs
      · rw [outsAt_B V c t h0 h1]
        dsimp only
        rw [sB_eq c (grid0.coords t) (ms0 t) (hs0 t) (ms1 t) (hs1 t) (ms2 t) (hs2 t) (ms3 t) (hs3 t) scM (Memref.isWhole_whole _) (fun h => h0 ((hcond0 t).mp h)) (fun h => h1 ((hcond1 t).mp h)) (iblk V c 0 t) (iblk V c 1 t)
          (outsAt V c (t.val - 1) (Nat.lt_of_le_of_lt (Nat.sub_le _ _) t.isLt)).2.2]
        exact step V c t p _ hxs

/-- At a point with j = 3 the row-sum output's buffer receives the whole row sums. -/
theorem after2_val (c : Dev nD) (t : Fin cfg0.N) (h1 : t.val % 4 = 3) (p : Fin 1024) :
    (outsAt V c t.val t.isLt).1 (ix2 p (0 : Fin 1)) = ∑ k : Fin (4 * 1024), a0 (X V c) (XT V c) (rowIx t p) k := by
  have h0 : ¬t.val % 4 = 0 := by omega
  have hacc := acc_eq V c t.val t rfl p
  rw [outsAt_C V c t h0 h1] at hacc ⊢
  dsimp only at hacc ⊢
  rw [sC_eq c (grid0.coords t) (ms0 t) (hs0 t) (ms1 t) (hs1 t) (ms2 t) (hs2 t) (ms3 t) (hs3 t) scM (Memref.isWhole_whole _) (fun h => h0 ((hcond0 t).mp h)) ((hcond1 t).mpr h1) (iblk V c 0 t) (iblk V c 1 t)
    (outsAt V c (t.val - 1) (Nat.lt_of_le_of_lt (Nat.sub_le _ _) t.isLt)).2.2] at hacc
  rw [out2C_eq c (grid0.coords t) (ms0 t) (hs0 t) (ms1 t) (hs1 t) (ms2 t) (hs2 t) (ms3 t) (hs3 t) scM (Memref.isWhole_whole _) (fun h => h0 ((hcond0 t).mp h)) ((hcond1 t).mpr h1) (iblk V c 0 t) (iblk V c 1 t)
    (outsAt V c (t.val - 1) (Nat.lt_of_le_of_lt (Nat.sub_le _ _) t.isLt)).2.2, hacc, h1]
  exact partialSum_top (rowf V c (rowIx t p))

/-- At every point the pairwise output's buffer receives the block of a. -/
theorem after3_val (c : Dev nD) (t : Fin cfg0.N) :
    (outsAt V c t.val t.isLt).2.1 = k0_pay4 (F := Ideal) (iblk V c 0 t) (iblk V c 1 t) := by
  by_cases h0 : t.val % 4 = 0
  · have h1 : ¬t.val % 4 = 3 := by omega
    rw [outsAt_A V c t h0 h1]
    dsimp only
    exact out3A_eq c (grid0.coords t) (ms0 t) (hs0 t) (ms1 t) (hs1 t) (ms2 t) (hs2 t) (ms3 t) (hs3 t) scM (Memref.isWhole_whole _) ((hcond0 t).mpr h0) (fun h => h1 ((hcond1 t).mp h)) (iblk V c 0 t) (iblk V c 1 t)
  · by_cases h1 : t.val % 4 = 3
    · rw [outsAt_C V c t h0 h1]
      dsimp only
      exact out3C_eq c (grid0.coords t) (ms0 t) (hs0 t) (ms1 t) (hs1 t) (ms2 t) (hs2 t) (ms3 t) (hs3 t) scM (Memref.isWhole_whole _) (fun h => h0 ((hcond0 t).mp h)) ((hcond1 t).mpr h1) (iblk V c 0 t) (iblk V c 1 t) _
    · rw [outsAt_B V c t h0 h1]
      dsimp only
      exact out3B_eq c (grid0.coords t) (ms0 t) (hs0 t) (ms1 t) (hs1 t) (ms2 t) (hs2 t) (ms3 t) (hs3 t) scM (Memref.isWhole_whole _) (fun h => h0 ((hcond0 t).mp h)) (fun h => h1 ((hcond1 t).mp h)) (iblk V c 0 t) (iblk V c 1 t) _

end Cert.KernelIdeal.R0V

end
-- ==== Proof.R0Val3.lean ====
/-
  The row-sum pass: where its two output windows sit at each of the sixteen grid points. Point t = 4 i + j holds block
  (i, 0) of the row-sum output, written back at j = 3 only, and block (i, j) of the pairwise output, written back at
  every point; every block is whole.
-/
import proofs.«135971_j70179765616691_2_alg».proof.Proof.R0Body
import proofs.«135971_j70179765616691_2_alg».proof.Proof.R0Val2
import Idealize.ShloMosaic.Lib.Pipeline.Value
import Idealize.ShloMosaic.Lib.ValueIdx

set_option maxRecDepth 16384

noncomputable section

namespace Cert.KernelIdeal.R0V

open Cert.KernelIdeal Cert.KernelIdeal.Gen Cert.KernelIdeal.R0
open Idealize.ShloMosaic Idealize.ShloMosaic.TcCoe Idealize.ShloMosaic.Tactic Idealize.ShloMosaic.ValueIdx
open Idealize.SL.Sem
open Idealize.ShloMosaic.Pipeline (Dat Cfg Window)

/-- The block indices, the block sizes and the write-back points of the two output windows, over the sixteen points. -/
theorem idx2 : ∀ t : Fin cfg0.N, win0_2.index t 0 = t.val / 4 ∧ win0_2.index t 1 = 0 :=
  (by decide +kernel : ∀ t : Fin grid0.N, win0_2.index t 0 = t.val / 4 ∧ win0_2.index t 1 = 0)
theorem idx3 : ∀ t : Fin cfg0.N, win0_3.index t 0 = t.val / 4 ∧ win0_3.index t 1 = t.val % 4 :=
  (by decide +kernel : ∀ t : Fin grid0.N, win0_3.index t 0 = t.val / 4 ∧ win0_3.index t 1 = t.val % 4)
theorem xsz2 : ∀ t : Fin cfg0.N, win0_2.xsize (grid0.coords t) 0 = 1024 ∧ win0_2.xsize (grid0.coords t) 1 = 1 :=
  (by decide +kernel : ∀ t : Fin grid0.N, win0_2.xsize (grid0.coords t) 0 = 1024 ∧ win0_2.xsize (grid0.coords t) 1 = 1)
theorem xsz3 : ∀ t : Fin cfg0.N, win0_3.xsize (grid0.coords t) 0 = 1024 ∧ win0_3.xsize (grid0.coords t) 1 = 1024 :=
  (by decide +kernel : ∀ t : Fin grid0.N, win0_3.xsize (grid0.coords t) 0 = 1024 ∧ win0_3.xsize (grid0.coords t) 1 = 1024)
theorem flush2 : ∀ t : Fin cfg0.N, (cfg0.win 2).flush t = true ↔ t.val % 4 = 3 :=
  (by decide +kernel : ∀ t : Fin grid0.N, (cfg0.win 2).flush t = true ↔ t.val % 4 = 3)
theorem flush3 : ∀ t : Fin cfg0.N, (cfg0.win 3).flush t = true :=
  (by decide +kernel : ∀ t : Fin grid0.N, (cfg0.win 3).flush t = true)

end Cert.KernelIdeal.R0V

end
-- ==== Proof.R0Val4.lean ====
/-
  The row-sum pass over the extended reals: its pairwise output array when the pipeline has finished. Every point writes
  its block of the matrix a back, and the sixteen blocks tile the [4096, 4096] array: it ends holding a.
-/
import proofs.«135971_j70179765616691_2_alg».proof.Proof.R0Val3

set_option maxRecDepth 16384

noncomputable section

namespace Cert.KernelIdeal.R0V

open Cert.KernelIdeal Cert.KernelIdeal.Gen Cert.KernelIdeal.R0
open Idealize.ShloMosaic Idealize.ShloMosaic.TcCoe Idealize.ShloMosaic.Tactic Idealize.ShloMosaic.ValueIdx
open Idealize.SL.Sem
open Idealize.ShloMosaic.Pipeline (Dat Cfg Window)

open Cert.Gnn (a0 rsOut aOut A4096x128 A128x4096)

variable (V : (c : Dev nD) → (b : Ref sig .tc) → Buf (Elt Ideal) ((c : Thread nD τ).loc b))

/-! ### The pairwise output -/

/-- What a point writes back into the pairwise output is its block of the matrix a. -/
theorem flushed3 (c : Dev nD) (t : Fin cfg0.N) (hf : (cfg0.win 3).flush t = true) :
    (R0.dat V c).flushed 3 t = ((cfg0.win 3).blk t).view.read (Elt Ideal) (aOut (X V c) (XT V c)) := by
  show (cfg0.win 3).cut (grid0.coords t) ((R0.dat V c).after 3 t) = _
  rw [after3 V c t, after3_val V c t]
  funext y
  obtain ⟨p, q, rfl⟩ : ∃ (p : Fin 1024) (q : Fin 1024), y = ix2 p q := ⟨y 0, y 1, eq_ix2 y⟩
  rw [View.read_apply]
  show k0_pay2 (F := Ideal) (iblk V c 0 t) (iblk V c 1 t) (ix2 p q)
    = (aOut (X V c) (XT V c) : S4096x4096.Idx → EReal) (((cfg0.win 3).blk t).view.emb (ix2 p q))
  rw [pay2_blk V c t p q]
  unfold aOut
  have e0 : (((cfg0.win 3).blk t).view.emb (ix2 p q) : S4096x4096.Idx) 0 = rowIx t p :=
    Fin.ext (by
      show win0_3.index t 0 * 1024 + 1 * p.val = 1024 * (t.val / 4) + p.val
      rw [(idx3 t).1]; omega)
  have e1 : (((cfg0.win 3).blk t).view.emb (ix2 p q) : S4096x4096.Idx) 1 = colIx t q :=
    Fin.ext (by
      show win0_3.index t 1 * 1024 + 1 * q.val = t.val % 4 * 1024 + q.val
      rw [(idx3 t).2]; omega)
  rw [e0, e1]

/-- The sixteen blocks tile the array. -/
theorem cover3 (i : S4096x4096.Idx) :
    ∃ t : Fin cfg0.N, (cfg0.win 3).flush t = true ∧ i ∈ ((cfg0.win 3).blk t).view.set := by
  have h0 : (i 0 : Nat) < 4096 := (i 0).isLt
  have h1 : (i 1 : Nat) < 4096 := (i 1).isLt
  have hN16 : cfg0.N = 16 := hN
  let t : Fin cfg0.N := ⟨4 * ((i 0 : Nat) / 1024) + (i 1 : Nat) / 1024, by omega⟩
  have ht : t.val = 4 * ((i 0 : Nat) / 1024) + (i 1 : Nat) / 1024 := rfl
  refine ⟨t, flush3 t, ?_⟩
  show i ∈ ((View.whole main_v3_1).slice (win0_3.rect t)).set
  rw [View.set_slice_whole, Rect.mem_set_unit]
  intro a
  match a with
  | ⟨0, _⟩ =>
    show win0_3.index t 0 * 1024 ≤ (i 0 : Nat) ∧ (i 0 : Nat) < win0_3.index t 0 * 1024 + win0_3.xsize (grid0.coords t) 0
    rw [(idx3 t).1, (xsz3 t).1, ht]; omega
  | ⟨1, _⟩ =>
    show win0_3.index t 1 * 1024 ≤ (i 1 : Nat) ∧ (i 1 : Nat) < win0_3.index t 1 * 1024 + win0_3.xsize (grid0.coords t) 1
    rw [(idx3 t).2, (xsz3 t).2, ht]; omega

/-- The pairwise output ends holding the matrix a. -/
theorem final3 (c : Dev nD) : (R0.dat (F := Ideal) V c).arrAt 3 cfg0.N = aOut (V c main_arg0) (V c main_v0) :=
  (R0.dat V c).arrAt_eq_of_cover 3 (aOut (X V c) (XT V c)) (flushed3 V c) cover3

end Cert.KernelIdeal.R0V

end
-- ==== Proof.R0Val5.lean ====
/-
  The row-sum pass over the extended reals: its row-sum output array when the pipeline has finished. It is written back
  at the points with j = 3 only, each with the finished sums of its 1024 rows of the matrix a, and those four blocks
  tile the [4096, 1] array: it ends holding the row sums of a.
-/
import proofs.«135971_j70179765616691_2_alg».proof.Proof.R0Val3

set_option maxRecDepth 16384

noncomputable section

namespace Cert.KernelIdeal.R0V

open Cert.KernelIdeal Cert.KernelIdeal.Gen Cert.KernelIdeal.R0
open Idealize.ShloMosaic Idealize.ShloMosaic.TcCoe Idealize.ShloMosaic.Tactic Idealize.ShloMosaic.ValueIdx
open Idealize.SL.Sem
open Idealize.ShloMosaic.Pipeline (Dat Cfg Window)

open Cert.Gnn (a0 rsOut aOut A4096x128 A128x4096)

variable (V : (c : Dev nD) → (b : Ref sig .tc) → Buf (Elt Ideal) ((c : Thread nD τ).loc b))

/-! ### The row-sum output -/

/-- What a point with j = 3 writes back into the row-sum output is the row sums of a over its rows. -/
theorem flushed2 (c : Dev nD) (t : Fin cfg0.N) (hf : (cfg0.win 2).flush t = true) :
    (R0.dat V c).flushed 2 t = ((cfg0.win 2).blk t).view.read (Elt Ideal) (rsOut (X V c) (XT V c)) := by
  have h1 : t.val % 4 = 3 := (flush2 t).mp hf
  show (cfg0.win 2).cut (grid0.coords t) ((R0.dat V c).after 2 t) = _
  rw [after2 V c t]
  funext y
  obtain ⟨p, u, rfl⟩ : ∃ (p : Fin 1024) (u : Fin 1), y = ix2 p u := ⟨y 0, y 1, eq_ix2 y⟩
  obtain rfl : u = 0 := Subsingleton.elim _ _
  rw [View.read_apply]
  show (outsAt V c t.val t.isLt).1 (ix2 p (0 : Fin 1))
    = (rsOut (X V c) (XT V c) : S4096x1.Idx → EReal) (((cfg0.win 2).blk t).view.emb (ix2 p (0 : Fin 1)))
  rw [after2_val V c t h1 p]
  unfold rsOut
  have e0 : (((cfg0.win 2).blk t).view.emb (ix2 p (0 : Fin 1)) : S4096x1.Idx) 0 = rowIx t p :=
    Fin.ext (by
      show win0_2.index t 0 * 1024 + 1 * p.val = 1024 * (t.val / 4) + p.val
      rw [(idx2 t).1]; omega)
  rw [e0]

/-- The four blocks written back tile the array. -/
theorem cover2 (i : S4096x1.Idx) :
    ∃ t : Fin cfg0.N, (cfg0.win 2).flush t = true ∧ i ∈ ((cfg0.win 2).blk t).view.set := by
  have h0 : (i 0 : Nat) < 4096 := (i 0).isLt
  have h1 : (i 1 : Nat) < 1 := (i 1).isLt
  have hN16 : cfg0.N = 16 := hN
  let t : Fin cfg0.N := ⟨4 * ((i 0 : Nat) / 1024) + 3, by omega⟩
  have ht : t.val = 4 * ((i 0 : Nat) / 1024) + 3 := rfl
  refine ⟨t, (flush2 t).mpr (by rw [ht]; omega), ?_⟩
  show i ∈ ((View.whole main_v3_0).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + win0_2.xsize (grid0.coords t) 0
    rw [(idx2 t).1, (xsz2 t).1, ht]; omega
  | ⟨1, _⟩ =>
    show win0_2.index t 1 * 1 ≤ (i 1 : Nat) ∧ (i 1 : Nat) < win0_2.index t 1 * 1 + win0_2.xsize (grid0.coords t) 1
    rw [(idx2 t).2, (xsz2 t).2]; omega

/-- The row-sum output ends holding the row sums of a. -/
theorem final2 (c : Dev nD) : (R0.dat (F := Ideal) V c).arrAt 2 cfg0.N = rsOut (V c main_arg0) (V c main_v0) :=
  (R0.dat V c).arrAt_eq_of_cover 2 (rsOut (X V c) (XT V c)) (flushed2 V c) cover2

end Cert.KernelIdeal.R0V

end
-- ==== Proof.R1Val4.lean ====
import proofs.«135971_j70179765616691_2_alg».proof.Proof.R1Body
import Idealize.ShloMosaic.Lib.Pipeline.Value
import Idealize.ShloMosaic.Lib.Pipeline.FrameBody
import Idealize.ShloMosaic.Lib.Tactic
import Idealize.ShloMosaic.Lib.ValueIdx

set_option maxRecDepth 16384

noncomputable section

/-
  The column-sum pass: where a block's entry sits in its array.

  At point t = 4 k + i (i the fast coordinate) the block index of the attention-numerator window is (i, k), of the
  linear-layer rows and of the row sums (i, 0), of the column-sum output (0, k) and of the product output (k, 0); a block
  entry sits, on each axis, at the block index times the block's extent plus its own coordinate. Each lemma reads any
  contents of the array through the window's block at t and names the array index by its two coordinates.
-/
namespace Cert.KernelIdeal.R1V

open Cert.KernelIdeal Cert.KernelIdeal.Gen Cert.KernelIdeal.R1
open Idealize.ShloMosaic Idealize.ShloMosaic.TcCoe Idealize.ShloMosaic.Tactic
open Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

/-! ### The five index maps over the sixteen points -/

theorem idx0 : ∀ t : Fin grid1.N, win1_0.index t 0 = t.val % 4 ∧ win1_0.index t 1 = t.val / 4 := by decide +kernel
theorem idx1 : ∀ t : Fin grid1.N, win1_1.index t 0 = t.val % 4 ∧ win1_1.index t 1 = 0 := by decide +kernel
theorem idx2 : ∀ t : Fin grid1.N, win1_2.index t 0 = t.val % 4 ∧ win1_2.index t 1 = 0 := by decide +kernel
theorem idx3 : ∀ t : Fin grid1.N, win1_3.index t 0 = 0 ∧ win1_3.index t 1 = t.val / 4 := by decide +kernel
theorem idx4 : ∀ t : Fin grid1.N, win1_4.index t 0 = t.val / 4 ∧ win1_4.index t 1 = 0 := by decide +kernel

/-! ### Any contents read through a block -/

/-- The numerator block at t holds rows 1024 i … and columns 1024 k … of its array. -/
theorem read_blk0 (t : Fin cfg1.N) (G : S4096x4096.Idx → Elt F .bf16) (p q : Fin 1024) (k : S4096x4096.Idx)
    (hk0 : (k 0).val = t.val % 4 * 1024 + p.val) (hk1 : (k 1).val = 1024 * (t.val / 4) + q.val) :
    ((cfg1.win 0).blk t).view.read (Elt F) G (ix2 p q) = G k := by
  rw [View.read_apply]
  show G _ = G _
  congr 1
  funext a
  apply Fin.ext
  match a with
  | ⟨0, _⟩ => show win1_0.index t 0 * 1024 + 1 * p.val = (k 0).val; rw [(idx0 t).1, hk0]; omega
  | ⟨1, _⟩ => show win1_0.index t 1 * 1024 + 1 * q.val = (k 1).val; rw [(idx0 t).2, hk1]; omega

/-- The linear-layer block at t holds rows 1024 i … of its array. -/
theorem read_blk1 (t : Fin cfg1.N) (G : S4096x128.Idx → Elt F .f32) (p : Fin 1024) (f : Fin 128) (k : S4096x128.Idx)
    (hk0 : (k 0).val = t.val % 4 * 1024 + p.val) (hk1 : (k 1).val = f.val) :
    ((cfg1.win 1).blk t).view.read (Elt F) G (ix2 p f) = G k := by
  rw [View.read_apply]
  show G _ = G _
  congr 1
  funext a
  apply Fin.ext
  match a with
  | ⟨0, _⟩ => show win1_1.index t 0 * 1024 + 1 * p.val = (k 0).val; rw [(idx1 t).1, hk0]; omega
  | ⟨1, _⟩ => show win1_1.index t 1 * 128 + 1 * f.val = (k 1).val; rw [(idx1 t).2, hk1]; omega

/-- The row-sum block at t holds rows 1024 i … of its array. -/
theorem read_blk2 (t : Fin cfg1.N) (G : S4096x1.Idx → Elt F .f32) (p : Fin 1024) (u : Fin 1) (k : S4096x1.Idx)
    (hk0 : (k 0).val = t.val % 4 * 1024 + p.val) :
    ((cfg1.win 2).blk t).view.read (Elt F) G (ix2 p u) = G k := by
  rw [View.read_apply]
  show G _ = G _
  congr 1
  funext a
  apply Fin.ext
  match a with
  | ⟨0, _⟩ => show win1_2.index t 0 * 1024 + 1 * p.val = (k 0).val; rw [(idx2 t).1, hk0]; omega
  | ⟨1, _⟩ => show win1_2.index t 1 * 1 + 1 * u.val = (k 1).val; rw [(idx2 t).2]; have h1 : (k 1).val < 1 := (k 1).isLt; have h2 := u.isLt; omega

/-- The column-sum output's block at t holds columns 1024 k … of its array. -/
theorem read_blk3 (t : Fin cfg1.N) (G : S1x4096.Idx → Elt F .f32) (u : Fin 1) (q : Fin 1024) (k : S1x4096.Idx)
    (hk1 : (k 1).val = 1024 * (t.val / 4) + q.val) :
    ((cfg1.win 3).blk t).view.read (Elt F) G (ix2 u q) = G k := by
  rw [View.read_apply]
  show G _ = G _
  congr 1
  funext a
  apply Fin.ext
  match a with
  | ⟨0, _⟩ => show win1_3.index t 0 * 1 + 1 * u.val = (k 0).val; rw [(idx3 t).1]; have h1 : (k 0).val < 1 := (k 0).isLt; have h2 := u.isLt; omega
  | ⟨1, _⟩ => show win1_3.index t 1 * 1024 + 1 * q.val = (k 1).val; rw [(idx3 t).2, hk1]; omega

/-- The product output's block at t holds rows 1024 k … of its array. -/
theorem read_blk4 (t : Fin cfg1.N) (G : S4096x128.Idx → Elt F .f32) (q : Fin 1024) (f : Fin 128) (k : S4096x128.Idx)
    (hk0 : (k 0).val = 1024 * (t.val / 4) + q.val) (hk1 : (k 1).val = f.val) :
    ((cfg1.win 4).blk t).view.read (Elt F) G (ix2 q f) = G k := by
  rw [View.read_apply]
  show G _ = G _
  congr 1
  funext a
  apply Fin.ext
  match a with
  | ⟨0, _⟩ => show win1_4.index t 0 * 1024 + 1 * q.val = (k 0).val; rw [(idx4 t).1, hk0]; omega
  | ⟨1, _⟩ => show win1_4.index t 1 * 128 + 1 * f.val = (k 1).val; rw [(idx4 t).2, hk1]; omega

/-! ### The three input blocks as entries of the arrays the pass finds -/

theorem iblk0_apply (c : Dev nD) (t : Fin cfg1.N) (p q : Fin 1024) (k : S4096x4096.Idx)
    (hk0 : (k 0).val = t.val % 4 * 1024 + p.val) (hk1 : (k 1).val = 1024 * (t.val / 4) + q.val) :
    (iblk V c 0 t : Vec F S1024x1024 .bf16) (ix2 p q) = (V c main_v3_1 : S4096x4096.Idx → Elt F .bf16) k :=
  read_blk0 t (V c main_v3_1) p q k hk0 hk1

theorem iblk1_apply (c : Dev nD) (t : Fin cfg1.N) (p : Fin 1024) (f : Fin 128) (k : S4096x128.Idx)
    (hk0 : (k 0).val = t.val % 4 * 1024 + p.val) (hk1 : (k 1).val = f.val) :
    (iblk V c 1 t : Vec F S1024x128 .f32) (ix2 p f) = (V c main_v2 : S4096x128.Idx → Elt F .f32) k :=
  read_blk1 t (V c main_v2) p f k hk0 hk1

theorem iblk2_apply (c : Dev nD) (t : Fin cfg1.N) (p : Fin 1024) (u : Fin 1) (k : S4096x1.Idx)
    (hk0 : (k 0).val = t.val % 4 * 1024 + p.val) :
    (iblk V c 2 t : Vec F S1024x1 .f32) (ix2 p u) = (V c main_v3_0 : S4096x1.Idx → Elt F .f32) k :=
  read_blk2 t (V c main_v3_0) p u k hk0

end Cert.KernelIdeal.R1V
end
-- ==== Proof.R1Val1.lean ====
import proofs.«135971_j70179765616691_2_alg».proof.Proof.R1Body
import Idealize.ShloMosaic.Lib.Pipeline.Value
import Idealize.ShloMosaic.Lib.Pipeline.FrameBody
import Idealize.ShloMosaic.Lib.Tactic

set_option maxRecDepth 16384

noncomputable section

/-
  The column-sum pass, a point strictly inside a column block's sweep (0 < i < 3): what the body leaves in the two
  accumulators, read back as the stored payloads.

  Each accumulator is stored once, through the whole-buffer rectangle, after loads of the whole staging buffers; so the
  read-back is the payload of the loaded vectors: the running row plus this block's column sums, and the running block
  plus this block's transposed product.
-/
namespace Cert.KernelIdeal.R1V

open Cert.KernelIdeal Cert.KernelIdeal.Gen Cert.KernelIdeal.R1
open Idealize.ShloMosaic Idealize.ShloMosaic.TcCoe Idealize.ShloMosaic.Tactic
open Idealize.SL.Sem
open Idealize.ShloMosaic.Pipeline (Dat Cfg Window)

variable {F : FTy → Type} [FloatOps F]

/-- The zero offsets of a whole-buffer rectangle, as the constant function. -/
theorem hz : (![0, 0] : Fin 2 → Nat) = fun _ => 0 := funext fun a => by fin_cases a <;> rfl

/-- The first accumulator gains this block's column sums. -/
theorem s0B_eq (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1x1024 .f32) (harg7 : arg7.IsWhole) (arg8 : Memref sig .tc .vmem S1024x128 .f32) (harg8 : arg8.IsWhole) (hc0 : ¬cond0 i) (hc1 : ¬cond1 i) (x0 : Vec F S1024x1024 .bf16) (x1 : Vec F S1024x128 .f32) (x2 : Vec F S1024x1 .f32) (xs0 : Vec F S1x1024 .f32) (xs1 : Vec F S1024x128 .f32) :
    s0B c i arg2 harg2 arg3 harg3 arg4 harg4 arg5 harg5 arg6 harg6 arg7 harg7 arg8 harg8 x0 x1 x2 xs0 xs1 hc0 hc1 = k1_pay4 x0 x2 xs0 := by
  unfold s0B
  rw [View.read_writes_eq_canon _ _ _ (scover0B c i arg2 harg2 arg3 harg3 arg4 harg4 arg5 harg5 arg6 harg6 arg7 harg7 arg8 harg8 x0 x1 x2 xs0 xs1 hc0 hc1)]
  unfold runB
  dsimp only
  rw [View.canon_unit_zero (S := S1x1024) hz]
  simp only [View.readAt_eq_ld, harg2.read_unread, harg4.read_unread, harg7.read_unread, View.ld_unit_zero (S := S1024x1024) hz, View.ld_unit_zero (S := S1024x1) hz, View.ld_unit_zero (S := S1x1024) hz]

/-- The second accumulator gains this block's transposed product. -/
theorem s1B_eq (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1x1024 .f32) (harg7 : arg7.IsWhole) (arg8 : Memref sig .tc .vmem S1024x128 .f32) (harg8 : arg8.IsWhole) (hc0 : ¬cond0 i) (hc1 : ¬cond1 i) (x0 : Vec F S1024x1024 .bf16) (x1 : Vec F S1024x128 .f32) (x2 : Vec F S1024x1 .f32) (xs0 : Vec F S1x1024 .f32) (xs1 : Vec F S1024x128 .f32) :
    s1B c i arg2 harg2 arg3 harg3 arg4 harg4 arg5 harg5 arg6 harg6 arg7 harg7 arg8 harg8 x0 x1 x2 xs0 xs1 hc0 hc1 = k1_pay5 x0 x2 x1 xs1 := by
  unfold s1B
  rw [View.read_writes_eq_canon _ _ _ (scover1B c i arg2 harg2 arg3 harg3 arg4 harg4 arg5 harg5 arg6 harg6 arg7 harg7 arg8 harg8 x0 x1 x2 xs0 xs1 hc0 hc1)]
  unfold runB
  dsimp only
  rw [View.canon_unit_zero (S := S1024x128) hz]
  simp only [View.readAt_eq_ld, harg2.read_unread, harg3.read_unread, harg4.read_unread, harg8.read_unread, View.ld_unit_zero (S := S1024x1024) hz, View.ld_unit_zero (S := S1024x1) hz, View.ld_unit_zero (S := S1024x128) hz]

end Cert.KernelIdeal.R1V
end
-- ==== Proof.R1Val2.lean ====
import proofs.«135971_j70179765616691_2_alg».proof.Proof.R1Val1
import Idealize.ShloMosaic.Lib.Pipeline.Value
import Idealize.ShloMosaic.Lib.Pipeline.FrameBody
import Idealize.ShloMosaic.Lib.Tactic

set_option maxRecDepth 16384

noncomputable section

/-
  The column-sum pass, the first point of a column block's sweep (i = 0): what the body leaves in the two accumulators.

  Each accumulator is stored twice through the whole-buffer rectangle: first the zero payload, then the payload formed
  from the loads, among them a load of the accumulator between the two stores, which reads the zero payload. The later
  store wins, so the read-back is the zero row (block) plus this block's column sums (transposed product).
-/
namespace Cert.KernelIdeal.R1V

open Cert.KernelIdeal Cert.KernelIdeal.Gen Cert.KernelIdeal.R1
open Idealize.ShloMosaic Idealize.ShloMosaic.TcCoe Idealize.ShloMosaic.Tactic
open Idealize.SL.Sem
open Idealize.ShloMosaic.Pipeline (Dat Cfg Window)

variable {F : FTy → Type} [FloatOps F]

/-- The first accumulator is reset and gains this block's column sums. -/
theorem s0A_eq (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1x1024 .f32) (harg7 : arg7.IsWhole) (arg8 : Memref sig .tc .vmem S1024x128 .f32) (harg8 : arg8.IsWhole) (hc0 : cond0 i) (hc1 : ¬cond1 i) (x0 : Vec F S1024x1024 .bf16) (x1 : Vec F S1024x128 .f32) (x2 : Vec F S1024x1 .f32) :
    s0A c i arg2 harg2 arg3 harg3 arg4 harg4 arg5 harg5 arg6 harg6 arg7 harg7 arg8 harg8 x0 x1 x2 hc0 hc1 = k1_pay4 x0 x2 k1_pay1 := by
  unfold s0A
  rw [View.read_writes_eq_canon _ _ _ (scover0A c i arg2 harg2 arg3 harg3 arg4 harg4 arg5 harg5 arg6 harg6 arg7 harg7 arg8 harg8 x0 x1 x2 hc0 hc1)]
  unfold runA
  dsimp only
  sl_unfold_run_names
  rw [View.canon_cons_unit_zero (S := S1x1024) hz, View.readCov_unit_zero (S := S1x1024) _ hz]
  simp only [View.readAt_eq_ld, harg2.read_unread, harg4.read_unread, View.ld_unit_zero (S := S1024x1024) hz, View.ld_unit_zero (S := S1024x1) hz]

/-- The second accumulator is reset and gains this block's transposed product. -/
theorem s1A_eq (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1x1024 .f32) (harg7 : arg7.IsWhole) (arg8 : Memref sig .tc .vmem S1024x128 .f32) (harg8 : arg8.IsWhole) (hc0 : cond0 i) (hc1 : ¬cond1 i) (x0 : Vec F S1024x1024 .bf16) (x1 : Vec F S1024x128 .f32) (x2 : Vec F S1024x1 .f32) :
    s1A c i arg2 harg2 arg3 harg3 arg4 harg4 arg5 harg5 arg6 harg6 arg7 harg7 arg8 harg8 x0 x1 x2 hc0 hc1 = k1_pay5 x0 x2 x1 k1_pay2 := by
  unfold s1A
  rw [View.read_writes_eq_canon _ _ _ (scover1A c i arg2 harg2 arg3 harg3 arg4 harg4 arg5 harg5 arg6 harg6 arg7 harg7 arg8 harg8 x0 x1 x2 hc0 hc1)]
  unfold runA
  dsimp only
  sl_unfold_run_names
  rw [View.canon_cons_unit_zero (S := S1024x128) hz, View.readCov_unit_zero (S := S1024x128) _ hz]
  simp only [View.readAt_eq_ld, harg2.read_unread, harg3.read_unread, harg4.read_unread, View.ld_unit_zero (S := S1024x1024) hz, View.ld_unit_zero (S := S1024x1) hz, View.ld_unit_zero (S := S1024x128) hz]

end Cert.KernelIdeal.R1V
end
-- ==== Proof.R1Val3.lean ====
import proofs.«135971_j70179765616691_2_alg».proof.Proof.R1Val1
import Idealize.ShloMosaic.Lib.Pipeline.Value
import Idealize.ShloMosaic.Lib.Pipeline.FrameBody
import Idealize.ShloMosaic.Lib.Tactic

set_option maxRecDepth 16384

noncomputable section

/-
  The column-sum pass, the last point of a column block's sweep (i = 3): what the body leaves in the two accumulators
  and in the two outputs' staging buffers.

  The accumulators gain this block's contributions as at the points before; then each is loaded whole and stored whole
  into its output's staging buffer, so each output holds the same payload as its accumulator.
-/
namespace Cert.KernelIdeal.R1V

open Cert.KernelIdeal Cert.KernelIdeal.Gen Cert.KernelIdeal.R1
open Idealize.ShloMosaic Idealize.ShloMosaic.TcCoe Idealize.ShloMosaic.Tactic
open Idealize.SL.Sem
open Idealize.ShloMosaic.Pipeline (Dat Cfg Window)

variable {F : FTy → Type} [FloatOps F]

/-- The first accumulator gains this block's column sums. -/
theorem s0C_eq (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1x1024 .f32) (harg7 : arg7.IsWhole) (arg8 : Memref sig .tc .vmem S1024x128 .f32) (harg8 : arg8.IsWhole) (hc0 : ¬cond0 i) (hc1 : cond1 i) (x0 : Vec F S1024x1024 .bf16) (x1 : Vec F S1024x128 .f32) (x2 : Vec F S1024x1 .f32) (xs0 : Vec F S1x1024 .f32) (xs1 : Vec F S1024x128 .f32) :
    s0C c i arg2 harg2 arg3 harg3 arg4 harg4 arg5 harg5 arg6 harg6 arg7 harg7 arg8 harg8 x0 x1 x2 xs0 xs1 hc0 hc1 = k1_pay4 x0 x2 xs0 := by
  unfold s0C
  rw [View.read_writes_eq_canon _ _ _ (scover0C c i arg2 harg2 arg3 harg3 arg4 harg4 arg5 harg5 arg6 harg6 arg7 harg7 arg8 harg8 x0 x1 x2 xs0 xs1 hc0 hc1)]
  unfold runC
  dsimp only
  sl_unfold_run_names
  rw [View.canon_unit_zero (S := S1x1024) hz]
  simp only [View.readAt_eq_ld, harg2.read_unread, harg4.read_unread, harg7.read_unread, View.ld_unit_zero (S := S1024x1024) hz, View.ld_unit_zero (S := S1024x1) hz, View.ld_unit_zero (S := S1x1024) hz]

/-- The second accumulator gains this block's transposed product. -/
theorem s1C_eq (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1x1024 .f32) (harg7 : arg7.IsWhole) (arg8 : Memref sig .tc .vmem S1024x128 .f32) (harg8 : arg8.IsWhole) (hc0 : ¬cond0 i) (hc1 : cond1 i) (x0 : Vec F S1024x1024 .bf16) (x1 : Vec F S1024x128 .f32) (x2 : Vec F S1024x1 .f32) (xs0 : Vec F S1x1024 .f32) (xs1 : Vec F S1024x128 .f32) :
    s1C c i arg2 harg2 arg3 harg3 arg4 harg4 arg5 harg5 arg6 harg6 arg7 harg7 arg8 harg8 x0 x1 x2 xs0 xs1 hc0 hc1 = k1_pay5 x0 x2 x1 xs1 := by
  unfold s1C
  rw [View.read_writes_eq_canon _ _ _ (scover1C c i arg2 harg2 arg3 harg3 arg4 harg4 arg5 harg5 arg6 harg6 arg7 harg7 arg8 harg8 x0 x1 x2 xs0 xs1 hc0 hc1)]
  unfold runC
  dsimp only
  sl_unfold_run_names
  rw [View.canon_unit_zero (S := S1024x128) hz]
  simp only [View.readAt_eq_ld, harg2.read_unread, harg3.read_unread, harg4.read_unread, harg8.read_unread, View.ld_unit_zero (S := S1024x1024) hz, View.ld_unit_zero (S := S1024x1) hz, View.ld_unit_zero (S := S1024x128) hz]

/-- The column-sum output's staging buffer receives the finished first accumulator. -/
theorem out3C_eq (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1x1024 .f32) (harg7 : arg7.IsWhole) (arg8 : Memref sig .tc .vmem S1024x128 .f32) (harg8 : arg8.IsWhole) (hc0 : ¬cond0 i) (hc1 : cond1 i) (x0 : Vec F S1024x1024 .bf16) (x1 : Vec F S1024x128 .f32) (x2 : Vec F S1024x1 .f32) (xs0 : Vec F S1x1024 .f32) (xs1 : Vec F S1024x128 .f32) :
    out3C c i arg2 harg2 arg3 harg3 arg4 harg4 arg5 harg5 arg6 harg6 arg7 harg7 arg8 harg8 x0 x1 x2 xs0 xs1 hc0 hc1 = k1_pay4 x0 x2 xs0 := by
  unfold out3C
  rw [View.read_writes_eq_canon _ _ _ (cover3C c i arg2 harg2 arg3 harg3 arg4 harg4 arg5 harg5 arg6 harg6 arg7 harg7 arg8 harg8 x0 x1 x2 xs0 xs1 hc0 hc1)]
  unfold runC
  dsimp only
  sl_unfold_run_names
  rw [View.canon_unit_zero (S := S1x1024) hz, View.readCov_unit_zero (S := S1x1024) _ hz]
  simp only [View.readAt_eq_ld, harg2.read_unread, harg4.read_unread, harg7.read_unread, View.ld_unit_zero (S := S1024x1024) hz, View.ld_unit_zero (S := S1024x1) hz, View.ld_unit_zero (S := S1x1024) hz]

/-- The product output's staging buffer receives the finished second accumulator. -/
theorem out4C_eq (c : Dev nD) (i : grid1.Coords) (arg2 : Memref sig .tc .vmem S1024x1024 .bf16) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x128 .f32) (harg6 : arg6.IsWhole) (arg7 : Memref sig .tc .vmem S1x1024 .f32) (harg7 : arg7.IsWhole) (arg8 : Memref sig .tc .vmem S1024x128 .f32) (harg8 : arg8.IsWhole) (hc0 : ¬cond0 i) (hc1 : cond1 i) (x0 : Vec F S1024x1024 .bf16) (x1 : Vec F S1024x128 .f32) (x2 : Vec F S1024x1 .f32) (xs0 : Vec F S1x1024 .f32) (xs1 : Vec F S1024x128 .f32) :
    out4C c i arg2 harg2 arg3 harg3 arg4 harg4 arg5 harg5 arg6 harg6 arg7 harg7 arg8 harg8 x0 x1 x2 xs0 xs1 hc0 hc1 = k1_pay5 x0 x2 x1 xs1 := by
  unfold out4C
  rw [View.read_writes_eq_canon _ _ _ (cover4C c i arg2 harg2 arg3 harg3 arg4 harg4 arg5 harg5 arg6 harg6 arg7 harg7 arg8 harg8 x0 x1 x2 xs0 xs1 hc0 hc1)]
  unfold runC
  dsimp only
  sl_unfold_run_names
  rw [View.canon_unit_zero (S := S1024x128) hz, View.readCov_unit_zero (S := S1024x128) _ hz]
  simp only [View.readAt_eq_ld, harg2.read_unread, harg3.read_unread, harg4.read_unread, harg8.read_unread, View.ld_unit_zero (S := S1024x1024) hz, View.ld_unit_zero (S := S1024x1) hz, View.ld_unit_zero (S := S1024x128) hz]

end Cert.KernelIdeal.R1V
end
-- ==== Proof.R1Val5.lean ====
import proofs.«135971_j70179765616691_2_alg».proof.Proof.R1Val2
import proofs.«135971_j70179765616691_2_alg».proof.Proof.R1Val3
import Idealize.ShloMosaic.Lib.Pipeline.Value
import Idealize.ShloMosaic.Lib.Pipeline.FrameBody
import Idealize.ShloMosaic.Lib.Tactic

set_option maxRecDepth 16384

noncomputable section

/-
  The column-sum pass: the two accumulators from point to point.

  At the first point of a column block's sweep (t = 4 k) each accumulator holds the zero payload plus this block's
  contribution; at every later point of the sweep it holds what the point before left plus this block's contribution;
  at the last point (t = 4 k + 3) each output's staging buffer holds the same as its accumulator.
-/
namespace Cert.KernelIdeal.R1V

open Cert.KernelIdeal Cert.KernelIdeal.Gen Cert.KernelIdeal.R1
open Idealize.ShloMosaic Idealize.ShloMosaic.TcCoe Idealize.ShloMosaic.Tactic
open Idealize.SL.Sem
open Idealize.ShloMosaic.Pipeline (Dat Cfg Window)

variable {F : FTy → Type} [FloatOps F]
variable (V : (c : Dev nD) → (b : Ref sig .tc) → Buf (Elt F) ((c : Thread nD τ).loc b))

/-- The column-sum accumulator after point n. -/
def acc0 (c : Dev nD) (n : ℕ) (hn : n < cfg1.N) : Vec F S1x1024 .f32 := (outsAt V c n hn).2.2.1
/-- The product accumulator after point n. -/
def acc1 (c : Dev nD) (n : ℕ) (hn : n < cfg1.N) : Vec F S1024x128 .f32 := (outsAt V c n hn).2.2.2

theorem acc0_first (c : Dev nD) (t : Fin cfg1.N) (h0 : t.val % 4 = 0) :
    acc0 V c t.val t.isLt = k1_pay4 (iblk V c 0 t) (iblk V c 2 t) k1_pay1 := by
  have h1 : ¬t.val % 4 = 3 := by omega
  unfold acc0
  rw [outsAt_A V c t h0 h1]
  dsimp only
  exact s0A_eq c (grid1.coords t) (ms0 t) (hs0 t) (ms1 t) (hs1 t) (ms2 t) (hs2 t) (ms3 t) (hs3 t) (ms4 t) (hs4 t) scM0 (Memref.isWhole_whole _) scM1 (Memref.isWhole_whole _) ((hcond0 t).mpr h0) (fun h => h1 ((hcond1 t).mp h)) (iblk V c 0 t) (iblk V c 1 t) (iblk V c 2 t)

theorem acc1_first (c : Dev nD) (t : Fin cfg1.N) (h0 : t.val % 4 = 0) :
    acc1 V c t.val t.isLt = k1_pay5 (iblk V c 0 t) (iblk V c 2 t) (iblk V c 1 t) k1_pay2 := by
  have h1 : ¬t.val % 4 = 3 := by omega
  unfold acc1
  rw [outsAt_A V c t h0 h1]
  dsimp only
  exact s1A_eq c (grid1.coords t) (ms0 t) (hs0 t) (ms1 t) (hs1 t) (ms2 t) (hs2 t) (ms3 t) (hs3 t) (ms4 t) (hs4 t) scM0 (Memref.isWhole_whole _) scM1 (Memref.isWhole_whole _) ((hcond0 t).mpr h0) (fun h => h1 ((hcond1 t).mp h)) (iblk V c 0 t) (iblk V c 1 t) (iblk V c 2 t)

theorem acc0_next (c : Dev nD) (t : Fin cfg1.N) (h0 : ¬t.val % 4 = 0) :
    acc0 V c t.val t.isLt
      = k1_pay4 (iblk V c 0 t) (iblk V c 2 t) (acc0 V c (t.val - 1) (Nat.lt_of_le_of_lt (Nat.sub_le _ _) t.isLt)) := by
  unfold acc0
  by_cases h1 : t.val % 4 = 3
  · rw [outsAt_C V c t h0 h1]
    dsimp only
    exact s0C_eq c (grid1.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) ((hcond1 t).mpr h1) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2
  · rw [outsAt_B V c t h0 h1]
    dsimp only
    exact s0B_eq c (grid1.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) (fun h => h1 ((hcond1 t).mp h)) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2

theorem acc1_next (c : Dev nD) (t : Fin cfg1.N) (h0 : ¬t.val % 4 = 0) :
    acc1 V c t.val t.isLt
      = k1_pay5 (iblk V c 0 t) (iblk V c 2 t) (iblk V c 1 t) (acc1 V c (t.val - 1) (Nat.lt_of_le_of_lt (Nat.sub_le _ _) t.isLt)) := by
  unfold acc1
  by_cases h1 : t.val % 4 = 3
  · rw [outsAt_C V c t h0 h1]
    dsimp only
    exact s1C_eq c (grid1.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) ((hcond1 t).mpr h1) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2
  · rw [outsAt_B V c t h0 h1]
    dsimp only
    exact s1B_eq c (grid1.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) (fun h => h1 ((hcond1 t).mp h)) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2

/-- At the last point of a sweep the column-sum output's staging buffer holds the finished accumulator. -/
theorem out3_last (c : Dev nD) (t : Fin cfg1.N) (h1 : t.val % 4 = 3) :
    (outsAt V c t.val t.isLt).1 = acc0 V c t.val t.isLt := by
  have h0 : ¬t.val % 4 = 0 := by omega
  unfold acc0
  rw [outsAt_C V c t h0 h1]
  dsimp only
  rw [out3C_eq c (grid1.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) ((hcond1 t).mpr h1) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2,
    s0C_eq c (grid1.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) ((hcond1 t).mpr h1) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2]

/-- At the last point of a sweep the product output's staging buffer holds the finished accumulator. -/
theorem out4_last (c : Dev nD) (t : Fin cfg1.N) (h1 : t.val % 4 = 3) :
    (outsAt V c t.val t.isLt).2.1 = acc1 V c t.val t.isLt := by
  have h0 : ¬t.val % 4 = 0 := by omega
  unfold acc1
  rw [outsAt_C V c t h0 h1]
  dsimp only
  rw [out4C_eq c (grid1.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) ((hcond1 t).mpr h1) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2,
    s1C_eq c (grid1.coords t) (ms0 t) (hs0 t) (ms1 t) (hs1 t) (ms2 t) (hs2 t) (ms3 t) (hs3 t) (ms4 t) (hs4 t) scM0 (Memref.isWhole_whole _) scM1 (Memref.isWhole_whole _) (fun h => h0 ((hcond0 t).mp h)) ((hcond1 t).mpr h1) (iblk V c 0 t) (iblk V c 1 t) (iblk V c 2 t) (outsAt V c (t.val - 1) (Nat.lt_of_le_of_lt (Nat.sub_le _ _) t.isLt)).2.2.1 (outsAt V c (t.val - 1) (Nat.lt_of_le_of_lt (Nat.sub_le _ _) t.isLt)).2.2.2]

/-! ### The same with the point given by its number -/

theorem acc0_first' (c : Dev nD) (n : ℕ) (hn : n < cfg1.N) (h0 : n % 4 = 0) :
    acc0 V c n hn = k1_pay4 (iblk V c 0 ⟨n, hn⟩) (iblk V c 2 ⟨n, hn⟩) k1_pay1 :=
  acc0_first V c ⟨n, hn⟩ h0

theorem acc1_first' (c : Dev nD) (n : ℕ) (hn : n < cfg1.N) (h0 : n % 4 = 0) :
    acc1 V c n hn = k1_pay5 (iblk V c 0 ⟨n, hn⟩) (iblk V c 2 ⟨n, hn⟩) (iblk V c 1 ⟨n, hn⟩) k1_pay2 :=
  acc1_first V c ⟨n, hn⟩ h0

theorem acc0_next' (c : Dev nD) (n : ℕ) (hn : n + 1 < cfg1.N) (h0 : ¬(n + 1) % 4 = 0) :
    acc0 V c (n + 1) hn
      = k1_pay4 (iblk V c 0 ⟨n + 1, hn⟩) (iblk V c 2 ⟨n + 1, hn⟩) (acc0 V c n (Nat.lt_of_succ_lt hn)) :=
  acc0_next V c ⟨n + 1, hn⟩ h0

theorem acc1_next' (c : Dev nD) (n : ℕ) (hn : n + 1 < cfg1.N) (h0 : ¬(n + 1) % 4 = 0) :
    acc1 V c (n + 1) hn
      = k1_pay5 (iblk V c 0 ⟨n + 1, hn⟩) (iblk V c 2 ⟨n + 1, hn⟩) (iblk V c 1 ⟨n + 1, hn⟩) (acc1 V c n (Nat.lt_of_succ_lt hn)) :=
  acc1_next V c ⟨n + 1, hn⟩ h0

end Cert.KernelIdeal.R1V
end
-- ==== Proof.Pay1.lean ====
/-
  The column-sum pass read at an index, at the extended reals.

  For a block `v3` of stored numerators (1024 rows by 1024 columns) and the column `v6` of their row sums, the pass forms
  at (r, q) the attention entry v3 (r, q) · (1 / v6 r) (widening the stored format does nothing to an extended real; the
  reciprocal column is broadcast over the square). It adds the sums of these entries over the rows r to a running row,
  and adds to a running block the product of the transposed entries with a block `v20` of the linear layer: at (q, f)
  the sum over r of entry (r, q) · v20 (r, f), a matrix product contracting the first axis of both operands into a zero
  accumulator.
-/
import proofs.«135971_j70179765616691_2_alg».proof.Proof.Gen.KernelIdeal.Skeleton
import proofs.«135971_j70179765616691_2_alg».proof.Proof.Spec
import proofs.«135971_j70179765616691_2_alg».proof.Proof.PayLib

namespace Cert.KernelIdeal.Pay

open Idealize.ShloMosaic Idealize.ShloMosaic.ValueIdx
open Cert.KernelIdeal Cert.KernelIdeal.Gen
open Cert.Gnn (c0 c1 c2 cθ cs lrelu)

/-- The zero row the running column sums start from. -/
theorem k1_pay1_apply (j : S1x1024.Idx) : k1_pay1 (F := Ideal) j = 0 := by
  unfold k1_pay1
  simp only [shapeCast_self, broadcast_apply]
  exact Ideal.ofBits_zero_f32

/-- The zero block the running products start from. -/
theorem k1_pay2_apply (j : S1024x128.Idx) : k1_pay2 (F := Ideal) j = 0 := by
  unfold k1_pay2
  simp only [shapeCast_self, broadcast_apply]
  exact Ideal.ofBits_zero_f32

section Body

variable (v3 : Vec Ideal S1024x1024 .bf16) (v6 : Vec Ideal S1024x1 .f32)

/-- The attention entry at (r, q): the numerator times the reciprocal of its row sum. -/
theorem k1_pay3_apply (r q : Fin 1024) :
    k1_pay3 (F := Ideal) v3 v6 (ix2 r q) = v3 (ix2 r q) * Ideal.div c1 (v6 (ix2 r (0 : Fin 1))) := by
  unfold k1_pay3
  simp only [shapeCast_self]
  show v3 (ix2 r q) * _ = _
  exact congrArg (v3 (ix2 r q) * ·) (broadcastTo_a1_ab_apply _ _ r q)

/-- The running row plus the sums over the rows. -/
theorem k1_pay4_apply (v12 : Vec Ideal S1x1024 .f32) (q : Fin 1024) :
    k1_pay4 (F := Ideal) v3 v6 v12 (ix2 (0 : Fin 1) q)
      = v12 (ix2 0 q) + ∑ r : Fin 1024, k1_pay3 (F := Ideal) v3 v6 (ix2 r q) := by
  unfold k1_pay4
  simp only [shapeCast_self]
  show v12 (ix2 0 q) + _ = _
  exact congrArg (v12 (ix2 0 q) + ·) ((shapeCast_a_1a_apply _ _ 0 q).trans (colSum_apply _ _ _ _ _ q))

/-- The running block plus the transposed entries times the linear-layer block. -/
theorem k1_pay5_apply (v20 v24 : Vec Ideal S1024x128 .f32) (q : Fin 1024) (f : Fin 128) :
    k1_pay5 (F := Ideal) v3 v6 v20 v24 (ix2 q f)
      = v24 (ix2 q f) + ∑ r : Fin 1024, k1_pay3 (F := Ideal) v3 v6 (ix2 r q) * v20 (ix2 r f) := by
  unfold k1_pay5
  simp only [shapeCast_self]
  show v24 (ix2 q f) + _ = _
  refine (congrArg (v24 (ix2 q f) + ·) (matmul_tlhs_apply _ none _ _ q f)).trans ?_
  simp only [truncf_apply]

end Body

end Cert.KernelIdeal.Pay
-- ==== Proof.R1Val6.lean ====
import proofs.«135971_j70179765616691_2_alg».proof.Proof.R1Val4
import proofs.«135971_j70179765616691_2_alg».proof.Proof.R1Val5
import proofs.«135971_j70179765616691_2_alg».proof.Proof.Pay1
import proofs.«135971_j70179765616691_2_alg».proof.Proof.ValSpec
import proofs.«135971_j70179765616691_2_alg».proof.Proof.LibSums
import Idealize.ShloMosaic.Lib.Pipeline.Value
import Idealize.ShloMosaic.Lib.Pipeline.FrameBody
import Idealize.ShloMosaic.Lib.Tactic

set_option maxRecDepth 16384

noncomputable section

/-
  The column-sum pass at the extended reals: the two accumulators are partial sums down a column of the attention matrix.

  Write A (i, k) for the attention entry numerator (i, k) times the reciprocal of row sum i. Column block k is swept down
  its four row blocks; after row block r the column-sum accumulator holds, at column q of the block, the sum of
  A (i, 1024 k + q) over the rows i below 1024 (r + 1), and the product accumulator holds at (q, f) the sum of
  A (i, 1024 k + q) times S (i, f) over the same rows. The families are indexed by the 4 times 1024 rows, seen as four
  tiles of 1024, so the running sums are the tile-by-tile partial sums, and after the fourth block the whole sums.
-/
namespace Cert.KernelIdeal.R1V

open Cert.KernelIdeal Cert.KernelIdeal.Gen Cert.KernelIdeal.R1
open Idealize.ShloMosaic Idealize.ShloMosaic.TcCoe Idealize.ShloMosaic.Tactic
open Idealize.ShloMosaic.ValueIdx
open Idealize.SL.Sem
open Idealize.ShloMosaic.Pipeline (Dat Cfg Window)

open Cert.Gnn (Ablk A4096x4096 A4096x1 A4096x128)
open Cert.LibSums (partialSum partialSum_zero partialSum_succ partialSum_top)
open Cert.KernelIdeal.Pay

variable (V : (c : Dev nD) → (b : Ref sig .tc) → Buf (Elt Ideal) ((c : Thread nD τ).loc b))

theorem rows_eq : 4 * 1024 = 4096 := by norm_num

/-- Column b of the attention matrix over the 4 times 1024 rows. -/
def colF (Aa : A4096x4096) (RS : A4096x1) (b : Fin 4096) : Fin (4 * 1024) → EReal :=
  fun a => Ablk Aa RS (Fin.cast rows_eq a) b

/-- Column b of the attention matrix times column f of the linear layer's rows, over the 4 times 1024 rows. -/
def prodF (Aa : A4096x4096) (RS : A4096x1) (S : A4096x128) (b : Fin 4096) (f : Fin 128) : Fin (4 * 1024) → EReal :=
  fun a => Ablk Aa RS (Fin.cast rows_eq a) b * S (ix2 (Fin.cast rows_eq a) f)

/-- The attention entry the pass forms at (p, q) of the blocks at point t is entry (a, b) of the matrix, a and b the
    array coordinates of the block entry. -/
theorem pay3_at (c : Dev nD) (t : Fin cfg1.N) (p q : Fin 1024) (a b : Fin 4096)
    (ha : a.val = t.val % 4 * 1024 + p.val) (hb : b.val = 1024 * (t.val / 4) + q.val) :
    k1_pay3 (F := Ideal) (iblk V c 0 t) (iblk V c 2 t) (ix2 p q) = Ablk (V c main_v3_1) (V c main_v3_0) a b := by
  rw [k1_pay3_apply, iblk0_apply V c t p q (ix2 a b) ha hb, iblk2_apply V c t p 0 (ix2 a (0 : Fin 1)) ha]
  rfl

/-- The column-sum accumulator after row block r of column block k. -/
theorem acc0_eq (c : Dev nD) (k : ℕ) (hk : k < 4) (q : Fin 1024) (b : Fin 4096) (hb : b.val = 1024 * k + q.val) :
    ∀ (r : ℕ) (hr : r < 4) (h : 4 * k + r < cfg1.N),
      acc0 V c (4 * k + r) h (ix2 (0 : Fin 1) q) = partialSum (colF (V c main_v3_1) (V c main_v3_0) b) (r + 1)
  | 0, hr, h => by
    rw [acc0_first' V c (4 * k + 0) h (by omega), k1_pay4_apply, k1_pay1_apply, partialSum_succ _ (by omega : 0 < 4),
      partialSum_zero]
    congr 1
    refine Finset.sum_congr rfl fun p _ => ?_
    unfold colF
    exact pay3_at V c ⟨4 * k + 0, h⟩ p q _ b (by show 0 * 1024 + p.val = (4 * k + 0) % 4 * 1024 + p.val; omega)
      (by show b.val = 1024 * ((4 * k + 0) / 4) + q.val; omega)
  | r + 1, hr, h => by
    have h' : 4 * k + r < cfg1.N := Nat.lt_of_succ_lt h
    rw [show acc0 V c (4 * k + (r + 1)) h = acc0 V c (4 * k + r + 1) h from rfl,
      acc0_next' V c (4 * k + r) h (by omega), k1_pay4_apply, acc0_eq c k hk q b hb r (by omega) h',
      partialSum_succ _ (by omega : r + 1 < 4)]
    congr 1
    refine Finset.sum_congr rfl fun p _ => ?_
    unfold colF
    exact pay3_at V c ⟨4 * k + r + 1, h⟩ p q _ b (by show (r + 1) * 1024 + p.val = (4 * k + r + 1) % 4 * 1024 + p.val; omega)
      (by show b.val = 1024 * ((4 * k + r + 1) / 4) + q.val; omega)

theorem acc0_congr (c : Dev nD) {n m : ℕ} (e : n = m) (hn : n < cfg1.N) (hm : m < cfg1.N) : acc0 V c n hn = acc0 V c m hm := by
  subst e; rfl

/-- After the last row block the column-sum accumulator holds the whole column sums. -/
theorem acc0_last (c : Dev nD) (t : Fin cfg1.N) (h3 : t.val % 4 = 3) (q : Fin 1024) (b : Fin 4096)
    (hb : b.val = 1024 * (t.val / 4) + q.val) :
    acc0 V c t.val t.isLt (ix2 (0 : Fin 1) q) = ∑ i : Fin 4096, Ablk (V c main_v3_1) (V c main_v3_0) i b := by
  have hN : cfg1.N = 16 := N_1
  have ht : t.val = 4 * (t.val / 4) + 3 := by omega
  have hlt := t.isLt
  have hm : 4 * (t.val / 4) + 3 < cfg1.N := by omega
  calc acc0 V c t.val t.isLt (ix2 (0 : Fin 1) q)
      = acc0 V c (4 * (t.val / 4) + 3) hm (ix2 (0 : Fin 1) q) := congrFun (acc0_congr V c ht t.isLt hm) _
    _ = partialSum (colF (V c main_v3_1) (V c main_v3_0) b) (3 + 1) := acc0_eq V c (t.val / 4) (by omega) q b hb 3 (by omega) hm
    _ = ∑ a, colF (V c main_v3_1) (V c main_v3_0) b a := partialSum_top _
    _ = ∑ i : Fin 4096, Ablk (V c main_v3_1) (V c main_v3_0) i b :=
        Fin.sum_congr' (fun i => Ablk (V c main_v3_1) (V c main_v3_0) i b) rows_eq

end Cert.KernelIdeal.R1V
end
-- ==== Proof.R1Val8.lean ====
import proofs.«135971_j70179765616691_2_alg».proof.Proof.R1Val6
import Idealize.ShloMosaic.Lib.Pipeline.Value
import Idealize.ShloMosaic.Lib.Pipeline.FrameBody
import Idealize.ShloMosaic.Lib.Tactic

set_option maxRecDepth 16384

noncomputable section

/-
  The column-sum pass at the extended reals: what its first output array holds at the end.

  The column-sum output (one row of 4096) is written back at the last point of each column block's sweep, t = 4 k + 3,
  through block (0, k): columns 1024 k … 1024 k + 1023. What is written is the finished accumulator, whose entry q is
  the sum of A (i, 1024 k + q) over all 4096 rows i: the block of the array of column sums. Column j lies in the
  block of point 4 (j / 1024) + 3, so the four write-backs cover the array.
-/
namespace Cert.KernelIdeal.R1V

open Cert.KernelIdeal Cert.KernelIdeal.Gen Cert.KernelIdeal.R1
open Idealize.ShloMosaic Idealize.ShloMosaic.TcCoe Idealize.ShloMosaic.Tactic
open Idealize.ShloMosaic.ValueIdx
open Idealize.SL.Sem
open Idealize.ShloMosaic.Pipeline (Dat Cfg Window)

open Cert.Gnn (Ablk alsumOut A4096x4096 A4096x1 A4096x128)

variable (V : (c : Dev nD) → (b : Ref sig .tc) → Buf (Elt Ideal) ((c : Thread nD τ).loc b))

/-- What a write-back of the column-sum output writes is its block of the array of column sums. -/
theorem flushed3_eq (c : Dev nD) (t : Fin cfg1.N) (hf : (cfg1.win 3).flush t = true) :
    (dat V c).flushed 3 t = ((cfg1.win 3).blk t).view.read (Elt Ideal) (alsumOut (V c main_v3_1) (V c main_v3_0)) := by
  have h3 : t.val % 4 = 3 := (flush1_3 t).mp hf
  have hN : cfg1.N = 16 := N_1
  have hlt := t.isLt
  show (cfg1.win 3).cut (grid1.coords t) ((dat V c).after 3 t) = _
  rw [after3, out3_last V c t h3]
  funext y
  obtain ⟨u, q, rfl⟩ : ∃ (u : Fin 1) (q : Fin 1024), y = ix2 u q := ⟨y 0, y 1, eq_ix2 y⟩
  obtain rfl : u = 0 := Subsingleton.elim _ _
  refine Eq.trans ?_ (read_blk3 (F := Ideal) t (alsumOut (V c main_v3_1) (V c main_v3_0)) 0 q
    (ix2 0 ⟨1024 * (t.val / 4) + q.val, by omega⟩) rfl).symm
  exact acc0_last V c t h3 q _ rfl

/-- Membership in the block of the column-sum output at point t, by coordinates. -/
theorem mem_blk3 (t : Fin cfg1.N) (i : S1x4096.Idx) :
    i ∈ ((cfg1.win 3).blk t).view.set ↔ ∀ a, win1_3.index t a * win1_3.size a ≤ (i a).val
      ∧ (i a).val < win1_3.index t a * win1_3.size a + win1_3.xsize (grid1.coords t) a := by
  show i ∈ ((View.whole main_v4_0).slice (win1_3.rect t)).set ↔ _
  rw [View.set_slice_whole, Rect.mem_set_unit]

/-- Every column lies in the block written back at the end of its column block's sweep. -/
theorem cover3 (i : S1x4096.Idx) : ∃ t : Fin cfg1.N, (cfg1.win 3).flush t = true ∧ i ∈ ((cfg1.win 3).blk t).view.set := by
  have hN : cfg1.N = 16 := N_1
  have h0 : (i 0).val < 1 := (i 0).isLt
  have h1 : (i 1).val < 4096 := (i 1).isLt
  refine ⟨⟨4 * ((i 1).val / 1024) + 3, by omega⟩, (flush1_3 _).mpr (by show (4 * ((i 1).val / 1024) + 3) % 4 = 3; omega), ?_⟩
  rw [mem_blk3]
  intro a
  match a with
  | ⟨0, _⟩ =>
    show win1_3.index _ 0 * 1 ≤ (i 0).val ∧ (i 0).val < win1_3.index _ 0 * 1 + 1
    rw [(idx3 _).1]; omega
  | ⟨1, _⟩ =>
    show win1_3.index _ 1 * 1024 ≤ (i 1).val ∧ (i 1).val < win1_3.index _ 1 * 1024 + 1024
    rw [(idx3 _).2]
    show (4 * ((i 1).val / 1024) + 3) / 4 * 1024 ≤ (i 1).val ∧ (i 1).val < (4 * ((i 1).val / 1024) + 3) / 4 * 1024 + 1024
    omega

/-- The column-sum output array ends holding the column sums of the attention matrix. -/
theorem final3 (c : Dev nD) :
    (dat (F := Ideal) V c).arrAt 3 cfg1.N = alsumOut (V c main_v3_1) (V c main_v3_0) :=
  (dat V c).arrAt_eq_of_cover 3 (alsumOut (V c main_v3_1) (V c main_v3_0)) (flushed3_eq V c) cover3

end Cert.KernelIdeal.R1V
end
-- ==== Proof.R1Val7.lean ====
import proofs.«135971_j70179765616691_2_alg».proof.Proof.R1Val6
import Idealize.ShloMosaic.Lib.Pipeline.Value
import Idealize.ShloMosaic.Lib.Pipeline.FrameBody
import Idealize.ShloMosaic.Lib.Tactic

set_option maxRecDepth 16384

noncomputable section

/-
  The column-sum pass at the extended reals: the product accumulator.

  After row block r of column block k the product accumulator holds, at (q, f), the sum over the rows i below
  1024 (r + 1) of A (i, 1024 k + q) times S (i, f), S the linear layer's rows; after the fourth block, the sum over
  all 4096 rows: entry (1024 k + q, f) of the transposed attention matrix times S.
-/
namespace Cert.KernelIdeal.R1V

open Cert.KernelIdeal Cert.KernelIdeal.Gen Cert.KernelIdeal.R1
open Idealize.ShloMosaic Idealize.ShloMosaic.TcCoe Idealize.ShloMosaic.Tactic
open Idealize.ShloMosaic.ValueIdx
open Idealize.SL.Sem
open Idealize.ShloMosaic.Pipeline (Dat Cfg Window)

open Cert.Gnn (Ablk A4096x4096 A4096x1 A4096x128)
open Cert.LibSums (partialSum partialSum_zero partialSum_succ partialSum_top)
open Cert.KernelIdeal.Pay

variable (V : (c : Dev nD) → (b : Ref sig .tc) → Buf (Elt Ideal) ((c : Thread nD τ).loc b))

/-- One term of the product at (p, q, f) of the blocks at point t. -/
theorem prod_at (c : Dev nD) (t : Fin cfg1.N) (p q : Fin 1024) (f : Fin 128) (a b : Fin 4096)
    (ha : a.val = t.val % 4 * 1024 + p.val) (hb : b.val = 1024 * (t.val / 4) + q.val) :
    k1_pay3 (F := Ideal) (iblk V c 0 t) (iblk V c 2 t) (ix2 p q) * (iblk V c 1 t : Vec Ideal S1024x128 .f32) (ix2 p f)
      = Ablk (V c main_v3_1) (V c main_v3_0) a b * (V c main_v2 : A4096x128) (ix2 a f) := by
  rw [pay3_at V c t p q a b ha hb, iblk1_apply V c t p f (ix2 a f) ha rfl]

/-- The product accumulator after row block r of column block k. -/
theorem acc1_eq (c : Dev nD) (k : ℕ) (hk : k < 4) (q : Fin 1024) (f : Fin 128) (b : Fin 4096) (hb : b.val = 1024 * k + q.val) :
    ∀ (r : ℕ) (hr : r < 4) (h : 4 * k + r < cfg1.N),
      acc1 V c (4 * k + r) h (ix2 q f) = partialSum (prodF (V c main_v3_1) (V c main_v3_0) (V c main_v2) b f) (r + 1)
  | 0, hr, h => by
    rw [acc1_first' V c (4 * k + 0) h (by omega), k1_pay5_apply, k1_pay2_apply, partialSum_succ _ (by omega : 0 < 4),
      partialSum_zero]
    congr 1
    refine Finset.sum_congr rfl fun p _ => ?_
    unfold prodF
    exact prod_at V c ⟨4 * k + 0, h⟩ p q f _ b (by show 0 * 1024 + p.val = (4 * k + 0) % 4 * 1024 + p.val; omega)
      (by show b.val = 1024 * ((4 * k + 0) / 4) + q.val; omega)
  | r + 1, hr, h => by
    have h' : 4 * k + r < cfg1.N := Nat.lt_of_succ_lt h
    rw [show acc1 V c (4 * k + (r + 1)) h = acc1 V c (4 * k + r + 1) h from rfl,
      acc1_next' V c (4 * k + r) h (by omega), k1_pay5_apply, acc1_eq c k hk q f b hb r (by omega) h',
      partialSum_succ _ (by omega : r + 1 < 4)]
    congr 1
    refine Finset.sum_congr rfl fun p _ => ?_
    unfold prodF
    exact prod_at V c ⟨4 * k + r + 1, h⟩ p q f _ b (by show (r + 1) * 1024 + p.val = (4 * k + r + 1) % 4 * 1024 + p.val; omega)
      (by show b.val = 1024 * ((4 * k + r + 1) / 4) + q.val; omega)

theorem acc1_congr (c : Dev nD) {n m : ℕ} (e : n = m) (hn : n < cfg1.N) (hm : m < cfg1.N) : acc1 V c n hn = acc1 V c m hm := by
  subst e; rfl

/-- After the last row block the product accumulator holds the whole sums. -/
theorem acc1_last (c : Dev nD) (t : Fin cfg1.N) (h3 : t.val % 4 = 3) (q : Fin 1024) (f : Fin 128) (b : Fin 4096)
    (hb : b.val = 1024 * (t.val / 4) + q.val) :
    acc1 V c t.val t.isLt (ix2 q f)
      = ∑ i : Fin 4096, Ablk (V c main_v3_1) (V c main_v3_0) i b * (V c main_v2 : A4096x128) (ix2 i f) := by
  have hN : cfg1.N = 16 := N_1
  have ht : t.val = 4 * (t.val / 4) + 3 := by omega
  have hlt := t.isLt
  have hm : 4 * (t.val / 4) + 3 < cfg1.N := by omega
  calc acc1 V c t.val t.isLt (ix2 q f)
      = acc1 V c (4 * (t.val / 4) + 3) hm (ix2 q f) := congrFun (acc1_congr V c ht t.isLt hm) _
    _ = partialSum (prodF (V c main_v3_1) (V c main_v3_0) (V c main_v2) b f) (3 + 1) :=
        acc1_eq V c (t.val / 4) (by omega) q f b hb 3 (by omega) hm
    _ = ∑ a, prodF (V c main_v3_1) (V c main_v3_0) (V c main_v2) b f a := partialSum_top _
    _ = ∑ i : Fin 4096, Ablk (V c main_v3_1) (V c main_v3_0) i b * (V c main_v2 : A4096x128) (ix2 i f) :=
        Fin.sum_congr' (fun i => Ablk (V c main_v3_1) (V c main_v3_0) i b * (V c main_v2 : A4096x128) (ix2 i f)) rows_eq

end Cert.KernelIdeal.R1V
end
-- ==== Proof.R1Val9.lean ====
import proofs.«135971_j70179765616691_2_alg».proof.Proof.R1Val7
import Idealize.ShloMosaic.Lib.Pipeline.Value
import Idealize.ShloMosaic.Lib.Pipeline.FrameBody
import Idealize.ShloMosaic.Lib.Tactic

set_option maxRecDepth 16384

noncomputable section

/-
  The column-sum pass at the extended reals: what its second output array holds at the end.

  The product output (4096 by 128) is written back at the last point of each column block's sweep, t = 4 k + 3, through
  block (k, 0): rows 1024 k … 1024 k + 1023. What is written is the finished accumulator, whose entry (q, f) is the sum
  over all 4096 rows i of A (i, 1024 k + q) times S (i, f): the block of the transposed attention matrix times S. Row j
  lies in the block of point 4 (j / 1024) + 3, so the four write-backs cover the array.
-/
namespace Cert.KernelIdeal.R1V

open Cert.KernelIdeal Cert.KernelIdeal.Gen Cert.KernelIdeal.R1
open Idealize.ShloMosaic Idealize.ShloMosaic.TcCoe Idealize.ShloMosaic.Tactic
open Idealize.ShloMosaic.ValueIdx
open Idealize.SL.Sem
open Idealize.ShloMosaic.Pipeline (Dat Cfg Window)

open Cert.Gnn (Ablk uOut A4096x4096 A4096x1 A4096x128)

variable (V : (c : Dev nD) → (b : Ref sig .tc) → Buf (Elt Ideal) ((c : Thread nD τ).loc b))

/-- What a write-back of the product output writes is its block of the transposed attention matrix times S. -/
theorem flushed4_eq (c : Dev nD) (t : Fin cfg1.N) (hf : (cfg1.win 4).flush t = true) :
    (dat V c).flushed 4 t
      = ((cfg1.win 4).blk t).view.read (Elt Ideal) (uOut (V c main_v3_1) (V c main_v3_0) (V c main_v2)) := by
  have h3 : t.val % 4 = 3 := (flush1_4 t).mp hf
  have hN : cfg1.N = 16 := N_1
  have hlt := t.isLt
  show (cfg1.win 4).cut (grid1.coords t) ((dat V c).after 4 t) = _
  rw [after4, out4_last V c t h3]
  funext y
  obtain ⟨q, f, rfl⟩ : ∃ (q : Fin 1024) (f : Fin 128), y = ix2 q f := ⟨y 0, y 1, eq_ix2 y⟩
  refine Eq.trans ?_ (read_blk4 (F := Ideal) t (uOut (V c main_v3_1) (V c main_v3_0) (V c main_v2)) q f
    (ix2 ⟨1024 * (t.val / 4) + q.val, by omega⟩ f) rfl rfl).symm
  exact acc1_last V c t h3 q f _ rfl

/-- Membership in the block of the product output at point t, by coordinates. -/
theorem mem_blk4 (t : Fin cfg1.N) (i : S4096x128.Idx) :
    i ∈ ((cfg1.win 4).blk t).view.set ↔ ∀ a, win1_4.index t a * win1_4.size a ≤ (i a).val
      ∧ (i a).val < win1_4.index t a * win1_4.size a + win1_4.xsize (grid1.coords t) a := by
  show i ∈ ((View.whole main_v4_1).slice (win1_4.rect t)).set ↔ _
  rw [View.set_slice_whole, Rect.mem_set_unit]

/-- Every row lies in the block written back at the end of its column block's sweep. -/
theorem cover4 (i : S4096x128.Idx) : ∃ t : Fin cfg1.N, (cfg1.win 4).flush t = true ∧ i ∈ ((cfg1.win 4).blk t).view.set := by
  have hN : cfg1.N = 16 := N_1
  have h0 : (i 0).val < 4096 := (i 0).isLt
  have h1 : (i 1).val < 128 := (i 1).isLt
  refine ⟨⟨4 * ((i 0).val / 1024) + 3, by omega⟩, (flush1_4 _).mpr (by show (4 * ((i 0).val / 1024) + 3) % 4 = 3; omega), ?_⟩
  rw [mem_blk4]
  intro a
  match a with
  | ⟨0, _⟩ =>
    show win1_4.index _ 0 * 1024 ≤ (i 0).val ∧ (i 0).val < win1_4.index _ 0 * 1024 + 1024
    rw [(idx4 _).1]
    show (4 * ((i 0).val / 1024) + 3) / 4 * 1024 ≤ (i 0).val ∧ (i 0).val < (4 * ((i 0).val / 1024) + 3) / 4 * 1024 + 1024
    omega
  | ⟨1, _⟩ =>
    show win1_4.index _ 1 * 128 ≤ (i 1).val ∧ (i 1).val < win1_4.index _ 1 * 128 + 128
    rw [(idx4 _).2]; omega

/-- The product output array ends holding the transposed attention matrix times the linear layer's rows. -/
theorem final4 (c : Dev nD) :
    (dat (F := Ideal) V c).arrAt 4 cfg1.N = uOut (V c main_v3_1) (V c main_v3_0) (V c main_v2) :=
  (dat V c).arrAt_eq_of_cover 4 (uOut (V c main_v3_1) (V c main_v3_0) (V c main_v2)) (flushed4_eq V c) cover4

end Cert.KernelIdeal.R1V
end
-- ==== Proof.R2Val1.lean ====
/-
  The output pass, launch 2: what one run of the body leaves in the accumulator and in the output block, as the stored
  payloads of the vectors it loaded.

  At the first column block the accumulator is reset to zero and then holds zero plus this block's product; at a later
  column block it holds what it held plus this block's product; at the last one the output block receives the bias and
  the rectifier applied to the finished accumulator. Every load and store goes through the whole buffer, so a load reads
  the contents and the last store leaves its payload.
-/
import proofs.«135971_j70179765616691_2_alg».proof.Proof.R2Body
import Idealize.ShloMosaic.Lib.Pipeline.Value
import Idealize.ShloMosaic.Lib.Pipeline.FrameBody
import Idealize.ShloMosaic.Lib.ValueIdx
import Idealize.ShloMosaic.Lib.Tactic

set_option maxRecDepth 16384

noncomputable section

namespace Cert.KernelIdeal.R2V

open Cert.KernelIdeal Cert.KernelIdeal.Gen Cert.KernelIdeal.R2
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]

theorem hz : (![0, 0] : Fin 2 → Nat) = fun _ => 0 := funext fun a => by fin_cases a <;> rfl

section Pieces

variable (c : Dev nD) (i : grid2.Coords) (arg2 : Memref sig .tc .vmem S1024x1024 .bf16) (harg2 : arg2.IsWhole) (arg3 : Memref sig .tc .vmem S1024x1 .f32) (harg3 : arg3.IsWhole) (arg4 : Memref sig .tc .vmem S1024x128 .f32) (harg4 : arg4.IsWhole) (arg5 : Memref sig .tc .vmem S1x128 .f32) (harg5 : arg5.IsWhole) (arg6 : Memref sig .tc .vmem S1024x128 .f32) (harg6 : arg6.IsWhole)
variable (x0 : Vec F S1024x1024 .bf16) (x1 : Vec F S1024x1 .f32) (x2 : Vec F S1024x128 .f32) (x3 : Vec F S1x128 .f32) (xs : Vec F S1024x128 .f32)

/-- First column block: zero plus this block's product. -/
theorem sA_eq (hc0 : cond0 i) (hc1 : ¬cond1 i) :
    sA c i arg2 harg2 arg3 harg3 arg4 harg4 arg5 harg5 arg6 harg6 scM (Memref.isWhole_whole _) x0 x1 x2 x3 hc0 hc1
      = k2_pay2 x0 x1 k2_pay1 x2 := by
  unfold sA
  rw [View.read_writes_eq_canon _ _ _ (scoverA c i arg2 harg2 arg3 harg3 arg4 harg4 arg5 harg5 arg6 harg6 scM (Memref.isWhole_whole _) x0 x1 x2 x3 hc0 hc1)]
  unfold runA
  dsimp only
  sl_unfold_words
  rw [View.canon_cons_unit_zero (S := S1024x128) hz, View.readCov_unit_zero (S := S1024x128) _ hz]
  simp only [View.readAt_eq_ld, harg2.read_unread, harg3.read_unread, harg4.read_unread,
    View.ld_unit_zero (S := S1024x1024) hz, View.ld_unit_zero (S := S1024x1) hz, View.ld_unit_zero (S := S1024x128) hz]

/-- A middle column block: what the accumulator held plus this block's product. -/
theorem sB_eq (hc0 : ¬cond0 i) (hc1 : ¬cond1 i) :
    sB c i arg2 harg2 arg3 harg3 arg4 harg4 arg5 harg5 arg6 harg6 scM (Memref.isWhole_whole _) x0 x1 x2 x3 xs hc0 hc1
      = k2_pay2 x0 x1 xs x2 := by
  unfold sB
  rw [View.read_writes_eq_canon _ _ _ (scoverB c i arg2 harg2 arg3 harg3 arg4 harg4 arg5 harg5 arg6 harg6 scM (Memref.isWhole_whole _) x0 x1 x2 x3 xs hc0 hc1)]
  unfold runB
  dsimp only
  rw [View.canon_unit_zero hz]
  simp only [View.readAt_eq_ld, harg2.read_unread, harg3.read_unread, harg4.read_unread, (Memref.isWhole_whole cc2_scratch0).read_unread,
    View.ld_unit_zero (S := S1024x1024) hz, View.ld_unit_zero (S := S1024x1) hz, View.ld_unit_zero (S := S1024x128) hz]

/-- The last column block, the accumulator: as in the middle. -/
theorem sC_eq (hc0 : ¬cond0 i) (hc1 : cond1 i) :
    sC c i arg2 harg2 arg3 harg3 arg4 harg4 arg5 harg5 arg6 harg6 scM (Memref.isWhole_whole _) x0 x1 x2 x3 xs hc0 hc1
      = k2_pay2 x0 x1 xs x2 := by
  unfold sC
  rw [View.read_writes_eq_canon _ _ _ (scoverC c i arg2 harg2 arg3 harg3 arg4 harg4 arg5 harg5 arg6 harg6 scM (Memref.isWhole_whole _) x0 x1 x2 x3 xs hc0 hc1)]
  unfold runC
  dsimp only
  sl_unfold_words
  rw [View.canon_unit_zero hz]
  simp only [View.readAt_eq_ld, harg2.read_unread, harg3.read_unread, harg4.read_unread, (Memref.isWhole_whole cc2_scratch0).read_unread,
    View.ld_unit_zero (S := S1024x1024) hz, View.ld_unit_zero (S := S1024x1) hz, View.ld_unit_zero (S := S1024x128) hz]

/-- The last column block, the output: bias and rectifier on the finished accumulator. -/
theorem out4C_eq (hc0 : ¬cond0 i) (hc1 : cond1 i) :
    out4C c i arg2 harg2 arg3 harg3 arg4 harg4 arg5 harg5 arg6 harg6 scM (Memref.isWhole_whole _) x0 x1 x2 x3 xs hc0 hc1
      = k2_pay3 (k2_pay2 x0 x1 xs x2) x3 := by
  unfold out4C
  rw [View.read_writes_eq_canon _ _ _ (cover4C c i arg2 harg2 arg3 harg3 arg4 harg4 arg5 harg5 arg6 harg6 scM (Memref.isWhole_whole _) x0 x1 x2 x3 xs hc0 hc1)]
  unfold runC
  dsimp only
  sl_unfold_words
  rw [View.canon_unit_zero hz]
  try rw [View.readCov_unit_zero (S := S1024x128) _ hz]
  simp only [View.readAt_eq_ld, harg2.read_unread, harg3.read_unread, harg4.read_unread, harg5.read_unread, (Memref.isWhole_whole cc2_scratch0).read_unread,
    View.ld_unit_zero (S := S1024x1024) hz, View.ld_unit_zero (S := S1024x1) hz, View.ld_unit_zero (S := S1024x128) hz,
    View.ld_unit_zero (S := S1x128) hz]

end Pieces

end Cert.KernelIdeal.R2V

end
-- ==== Proof.R2Val2.lean ====
/-
  The output pass, launch 2: what the accumulator and the output block hold after a grid point, as the stored payloads of
  that point's input blocks and of what the accumulator held after the point before.
-/
import proofs.«135971_j70179765616691_2_alg».proof.Proof.R2Val1
import Idealize.ShloMosaic.Lib.Pipeline.Value
import Idealize.ShloMosaic.Lib.Pipeline.FrameBody
import Idealize.ShloMosaic.Lib.ValueIdx
import Idealize.ShloMosaic.Lib.Tactic

set_option maxRecDepth 16384

noncomputable section

namespace Cert.KernelIdeal.R2V

open Cert.KernelIdeal Cert.KernelIdeal.Gen Cert.KernelIdeal.R2
open Idealize.ShloMosaic Idealize.ShloMosaic.TcCoe Idealize.ShloMosaic.Tactic Idealize.ShloMosaic.ValueIdx
open Idealize.SL.Sem
open Idealize.ShloMosaic.Pipeline (Dat Cfg Window)

/-! ### The accumulator and the output block after a point, as payloads of the point's input blocks -/

section Wrap

variable {F : FTy → Type} [FloatOps F]
variable (V : (c : Dev nD) → (b : Ref sig .tc) → Buf (Elt F) ((c : Thread nD τ).loc b)) (c : Dev nD)

theorem accA (t : Fin cfg2.N) (h0 : t.val % 4 = 0) (h1 : ¬t.val % 4 = 3) :
    (outsAt V c t.val t.isLt).2 = k2_pay2 (iblk V c 0 t) (iblk V c 1 t) k2_pay1 (iblk V c 2 t) := by
  rw [outsAt_A V c t h0 h1]
  dsimp only
  exact sA_eq c (grid2.coords t) (ms0 t) (hs0 t) (ms1 t) (hs1 t) (ms2 t) (hs2 t) (ms3 t) (hs3 t) (ms4 t) (hs4 t) (iblk V c 0 t) (iblk V c 1 t) (iblk V c 2 t) (iblk V c 3 t) ((hcond0 t).mpr h0) (fun h => h1 ((hcond1 t).mp h))

theorem accB (t : Fin cfg2.N) (h0 : ¬t.val % 4 = 0) (h1 : ¬t.val % 4 = 3) :
    (outsAt V c t.val t.isLt).2
      = k2_pay2 (iblk V c 0 t) (iblk V c 1 t) (outsAt V c (t.val - 1) (Nat.lt_of_le_of_lt (Nat.sub_le _ _) t.isLt)).2
          (iblk V c 2 t) := by
  rw [outsAt_B V c t h0 h1]
  dsimp only
  exact sB_eq c (grid2.coords t) (ms0 t) (hs0 t) (ms1 t) (hs1 t) (ms2 t) (hs2 t) (ms3 t) (hs3 t) (ms4 t) (hs4 t) (iblk V c 0 t) (iblk V c 1 t) (iblk V c 2 t) (iblk V c 3 t) (outsAt V c (t.val - 1) (Nat.lt_of_le_of_lt (Nat.sub_le _ _) t.isLt)).2
    (fun h => h0 ((hcond0 t).mp h)) (fun h => h1 ((hcond1 t).mp h))

theorem accC (t : Fin cfg2.N) (h0 : ¬t.val % 4 = 0) (h1 : t.val % 4 = 3) :
    (outsAt V c t.val t.isLt).2
      = k2_pay2 (iblk V c 0 t) (iblk V c 1 t) (outsAt V c (t.val - 1) (Nat.lt_of_le_of_lt (Nat.sub_le _ _) t.isLt)).2
          (iblk V c 2 t) := by
  rw [outsAt_C V c t h0 h1]
  dsimp only
  exact sC_eq c (grid2.coords t) (ms0 t) (hs0 t) (ms1 t) (hs1 t) (ms2 t) (hs2 t) (ms3 t) (hs3 t) (ms4 t) (hs4 t) (iblk V c 0 t) (iblk V c 1 t) (iblk V c 2 t) (iblk V c 3 t) (outsAt V c (t.val - 1) (Nat.lt_of_le_of_lt (Nat.sub_le _ _) t.isLt)).2
    (fun h => h0 ((hcond0 t).mp h)) ((hcond1 t).mpr h1)

theorem outC (t : Fin cfg2.N) (h0 : ¬t.val % 4 = 0) (h1 : t.val % 4 = 3) :
    (outsAt V c t.val t.isLt).1
      = k2_pay3 (k2_pay2 (iblk V c 0 t) (iblk V c 1 t) (outsAt V c (t.val - 1) (Nat.lt_of_le_of_lt (Nat.sub_le _ _) t.isLt)).2
          (iblk V c 2 t)) (iblk V c 3 t) := by
  rw [outsAt_C V c t h0 h1]
  dsimp only
  exact out4C_eq c (grid2.coords t) (ms0 t) (hs0 t) (ms1 t) (hs1 t) (ms2 t) (hs2 t) (ms3 t) (hs3 t) (ms4 t) (hs4 t) (iblk V c 0 t) (iblk V c 1 t) (iblk V c 2 t) (iblk V c 3 t) (outsAt V c (t.val - 1) (Nat.lt_of_le_of_lt (Nat.sub_le _ _) t.isLt)).2
    (fun h => h0 ((hcond0 t).mp h)) ((hcond1 t).mpr h1)

end Wrap

end Cert.KernelIdeal.R2V

end
-- ==== Proof.R2Val3.lean ====
/-
  The output pass, launch 2: each input block is a part of its input array. At point t = 4 i + k the numerator block is
  rows 1024 i … and columns 1024 k … of the matrix, the row-sum block rows 1024 i …, the aggregate block rows 1024 k …, and
  the bias block the whole bias row; the index maps are decided over the sixteen points.
-/
import proofs.«135971_j70179765616691_2_alg».proof.Proof.R2Body
import proofs.«135971_j70179765616691_2_alg».proof.Proof.ValSpec
import Idealize.ShloMosaic.Lib.Pipeline.Value
import Idealize.ShloMosaic.Lib.Pipeline.FrameBody
import Idealize.ShloMosaic.Lib.ValueIdx
import Idealize.ShloMosaic.Lib.Tactic

set_option maxRecDepth 16384

noncomputable section

namespace Cert.KernelIdeal.R2V

open Cert.KernelIdeal Cert.KernelIdeal.Gen Cert.KernelIdeal.R2
open Idealize.ShloMosaic Idealize.ShloMosaic.TcCoe Idealize.ShloMosaic.Tactic Idealize.ShloMosaic.ValueIdx
open Idealize.SL.Sem
open Idealize.ShloMosaic.Pipeline (Dat Cfg Window)

/-! ### The input blocks as parts of the input arrays -/

/-- Row `r` of block `b` as a row of the whole array (total in `b`: reduced modulo the extent). -/
def rowN (b : ℕ) (r : Fin 1024) : Fin 4096 := ⟨(1024 * b + r.val) % 4096, Nat.mod_lt _ (by norm_num)⟩

theorem tlt (t : Fin cfg2.N) : t.val < 16 := lt_of_lt_of_eq t.isLt N_2

theorem idx0 : ∀ t : Fin cfg2.N, win2_0.index t 0 = t.val / 4 ∧ win2_0.index t 1 = t.val % 4 :=
  (by decide +kernel : ∀ t : Fin grid2.N, win2_0.index t 0 = t.val / 4 ∧ win2_0.index t 1 = t.val % 4)
theorem idx1 : ∀ t : Fin cfg2.N, win2_1.index t 0 = t.val / 4 ∧ win2_1.index t 1 = 0 :=
  (by decide +kernel : ∀ t : Fin grid2.N, win2_1.index t 0 = t.val / 4 ∧ win2_1.index t 1 = 0)
theorem idx2 : ∀ t : Fin cfg2.N, win2_2.index t 0 = t.val % 4 ∧ win2_2.index t 1 = 0 :=
  (by decide +kernel : ∀ t : Fin grid2.N, win2_2.index t 0 = t.val % 4 ∧ win2_2.index t 1 = 0)
theorem idx3 : ∀ t : Fin cfg2.N, win2_3.index t 0 = 0 ∧ win2_3.index t 1 = 0 :=
  (by decide +kernel : ∀ t : Fin grid2.N, win2_3.index t 0 = 0 ∧ win2_3.index t 1 = 0)
theorem idx4 : ∀ t : Fin cfg2.N, win2_4.index t 0 = t.val / 4 ∧ win2_4.index t 1 = 0 :=
  (by decide +kernel : ∀ t : Fin grid2.N, win2_4.index t 0 = t.val / 4 ∧ win2_4.index t 1 = 0)

section Blocks

variable (V : (c : Dev nD) → (b : Ref sig .tc) → Buf (Elt Ideal) ((c : Thread nD τ).loc b)) (c : Dev nD)

theorem iblk0_apply (t : Fin cfg2.N) (r q : Fin 1024) :
    (iblk V c 0 t : Vec Ideal S1024x1024 .bf16) (ix2 r q)
      = (V c main_v3_1 : Cert.Gnn.A4096x4096) (ix2 (rowN (t.val / 4) r) (rowN (t.val % 4) q)) := by
  have hi := idx0 t
  have hN := tlt t
  have hr := r.isLt
  have hq := q.isLt
  unfold iblk
  rw [View.read_apply]
  show V c main_v3_1 _ = V c main_v3_1 _
  congr 1
  funext a
  apply Fin.ext
  match a with
  | ⟨0, _⟩ => show win2_0.index t 0 * 1024 + 1 * r.val = (1024 * (t.val / 4) + r.val) % 4096; rw [hi.1]; omega
  | ⟨1, _⟩ => show win2_0.index t 1 * 1024 + 1 * q.val = (1024 * (t.val % 4) + q.val) % 4096; rw [hi.2]; omega

theorem iblk1_apply (t : Fin cfg2.N) (r : Fin 1024) :
    (iblk V c 1 t : Vec Ideal S1024x1 .f32) (ix2 r (0 : Fin 1))
      = (V c main_v3_0 : Cert.Gnn.A4096x1) (ix2 (rowN (t.val / 4) r) (0 : Fin 1)) := by
  have hi := idx1 t
  have hN := tlt t
  have hr := r.isLt
  unfold iblk
  rw [View.read_apply]
  show V c main_v3_0 _ = V c main_v3_0 _
  congr 1
  funext a
  apply Fin.ext
  match a with
  | ⟨0, _⟩ => show win2_1.index t 0 * 1024 + 1 * r.val = (1024 * (t.val / 4) + r.val) % 4096; rw [hi.1]; omega
  | ⟨1, _⟩ => show win2_1.index t 1 * 1 + 1 * 0 = 0; rw [hi.2]

theorem iblk2_apply (t : Fin cfg2.N) (q : Fin 1024) (f : Fin 128) :
    (iblk V c 2 t : Vec Ideal S1024x128 .f32) (ix2 q f)
      = (V c main_v7 : Cert.Gnn.A4096x128) (ix2 (rowN (t.val % 4) q) f) := by
  have hi := idx2 t
  have hN := tlt t
  have hq := q.isLt
  unfold iblk
  rw [View.read_apply]
  show V c main_v7 _ = V c main_v7 _
  congr 1
  funext a
  apply Fin.ext
  match a with
  | ⟨0, _⟩ => show win2_2.index t 0 * 1024 + 1 * q.val = (1024 * (t.val % 4) + q.val) % 4096; rw [hi.1]; omega
  | ⟨1, _⟩ => show win2_2.index t 1 * 128 + 1 * f.val = f.val; rw [hi.2]; omega

theorem iblk3_apply (t : Fin cfg2.N) (f : Fin 128) :
    (iblk V c 3 t : Vec Ideal S1x128 .f32) (ix2 (0 : Fin 1) f)
      = (V c main_v8 : Cert.Gnn.A1x128) (ix2 (0 : Fin 1) f) := by
  have hi := idx3 t
  unfold iblk
  rw [View.read_apply]
  show V c main_v8 _ = V c main_v8 _
  congr 1
  funext a
  apply Fin.ext
  match a with
  | ⟨0, _⟩ => show win2_3.index t 0 * 1 + 1 * 0 = 0; rw [hi.1]
  | ⟨1, _⟩ => show win2_3.index t 1 * 128 + 1 * f.val = f.val; rw [hi.2]; omega

end Blocks

end Cert.KernelIdeal.R2V

end
-- ==== Proof.Pay2.lean ====
/-
  The output pass read at an index, at the extended reals.

  For a block `v3` of stored numerators, the column `v6` of their row sums and a block `v14` of normalised aggregates, the
  pass adds to a running block the product of the attention entries with `v14`: at (r, f) the sum over q of
  (v3 (r, q) · (1 / v6 r)) · v14 (q, f), a matrix product into a zero accumulator. Its last step adds the bias row,
  broadcast over the rows, and applies the leaky rectifier: a comparison with zero selects between the sum and the slope
  times the sum.
-/
import proofs.«135971_j70179765616691_2_alg».proof.Proof.Gen.KernelIdeal.Skeleton
import proofs.«135971_j70179765616691_2_alg».proof.Proof.Spec
import proofs.«135971_j70179765616691_2_alg».proof.Proof.PayLib

namespace Cert.KernelIdeal.Pay

open Idealize.ShloMosaic Idealize.ShloMosaic.ValueIdx
open Cert.KernelIdeal Cert.KernelIdeal.Gen
open Cert.Gnn (c0 c1 c2 cθ cs lrelu)

/-- The zero block the running products start from. -/
theorem k2_pay1_apply (j : S1024x128.Idx) : k2_pay1 (F := Ideal) j = 0 := by
  unfold k2_pay1
  simp only [shapeCast_self, broadcast_apply]
  exact Ideal.ofBits_zero_f32

/-- The running block plus the attention entries times the aggregates. -/
theorem k2_pay2_apply (v3 : Vec Ideal S1024x1024 .bf16) (v6 : Vec Ideal S1024x1 .f32) (v12 v14 : Vec Ideal S1024x128 .f32)
    (r : Fin 1024) (f : Fin 128) :
    k2_pay2 (F := Ideal) v3 v6 v12 v14 (ix2 r f)
      = v12 (ix2 r f) + ∑ q : Fin 1024, (v3 (ix2 r q) * Ideal.div c1 (v6 (ix2 r (0 : Fin 1)))) * v14 (ix2 q f) := by
  unfold k2_pay2
  simp only [shapeCast_self]
  show v12 (ix2 r f) + _ = _
  refine (congrArg (v12 (ix2 r f) + ·) (matmul_plain_apply _ none _ _ r f)).trans ?_
  refine congrArg (v12 (ix2 r f) + ·) (Finset.sum_congr rfl fun q _ => ?_)
  show v3 (ix2 r q) * _ * v14 (ix2 q f) = _
  exact congrArg (fun t => v3 (ix2 r q) * t * v14 (ix2 q f)) (broadcastTo_a1_ab_apply _ _ r q)

/-- A selection on "y ≤ x" is the `if`. -/
theorem select_oge (x y z w : EReal) : Scalar.select (Ideal.cmp .oge x y) z w = if y ≤ x then z else w := by
  unfold Scalar.select Ideal.cmp
  by_cases h : y ≤ x
  · simp [h]
  · simp [h]

/-- The bias added and the leaky rectifier applied. -/
theorem k2_pay3_apply (v25 : Vec Ideal S1024x128 .f32) (v26 : Vec Ideal S1x128 .f32) (r : Fin 1024) (f : Fin 128) :
    k2_pay3 (F := Ideal) v25 v26 (ix2 r f) = lrelu (v25 (ix2 r f) + v26 (ix2 (0 : Fin 1) f)) := by
  have hb : broadcastTo S1024x128 v26 broadcasts_S1x128_S1024x128 (ix2 r f) = v26 (ix2 (0 : Fin 1) f) :=
    broadcastTo_1b_ab_apply _ _ r f
  unfold k2_pay3
  simp only [shapeCast_self]
  show Scalar.select (Ideal.cmp .oge (v25 (ix2 r f) + _) c0) (v25 (ix2 r f) + _) (cs * (v25 (ix2 r f) + _)) = _
  rw [hb, select_oge]
  rfl

end Cert.KernelIdeal.Pay
-- ==== Proof.R2Val4.lean ====
/-
  The output pass, launch 2, at the extended reals: what the accumulator and the output block hold, entry by entry.

  With T i k (r, f) the product of row block i of the attention matrix (numerator times the reciprocal of its row sum) with
  column block k's rows of the normalised aggregate, one run of the body adds T i k to what the accumulator held, the first
  column block starting from zero. By induction on the point, after point t = 4 i + k the accumulator holds
  T i 0 + … + T i k; addition of extended reals is commutative and associative with 0 neutral, so no finiteness is needed.
  At k = 3 the output block receives the rectifier of that sum plus the bias; and the four block sums are the sum over all
  4096 columns, which is the target function.
-/
import proofs.«135971_j70179765616691_2_alg».proof.Proof.R2Val2
import proofs.«135971_j70179765616691_2_alg».proof.Proof.R2Val3
import proofs.«135971_j70179765616691_2_alg».proof.Proof.Pay2
import proofs.«135971_j70179765616691_2_alg».proof.Proof.ValSpec
import Idealize.ShloMosaic.Lib.Pipeline.Value
import Idealize.ShloMosaic.Lib.Pipeline.FrameBody
import Idealize.ShloMosaic.Lib.ValueIdx
import Idealize.ShloMosaic.Lib.Tactic

set_option maxRecDepth 16384

noncomputable section

namespace Cert.KernelIdeal.R2V

open Cert.KernelIdeal Cert.KernelIdeal.Gen Cert.KernelIdeal.R2
open Idealize.ShloMosaic Idealize.ShloMosaic.TcCoe Idealize.ShloMosaic.Tactic Idealize.ShloMosaic.ValueIdx
open Idealize.SL.Sem
open Idealize.ShloMosaic.Pipeline (Dat Cfg Window)

/-! ### The accumulator's contents, the output block, and the output array -/

section Value

variable (V : (c : Dev nD) → (b : Ref sig .tc) → Buf (Elt Ideal) ((c : Thread nD τ).loc b)) (c : Dev nD)

/-- The product of row block `i` of the attention matrix with column block `k`'s rows of the aggregate, at (r, f). -/
def T (i k : ℕ) (r : Fin 1024) (f : Fin 128) : EReal :=
  ∑ q : Fin 1024, Cert.Gnn.Ablk (V c main_v3_1) (V c main_v3_0) (rowN i r) (rowN k q)
    * (V c main_v7 : Cert.Gnn.A4096x128) (ix2 (rowN k q) f)

/-- One run of the body adds the current block's product to what the accumulator held. -/
theorem pay2_at (t : Fin cfg2.N) (xs : Vec Ideal S1024x128 .f32) (r : Fin 1024) (f : Fin 128) :
    k2_pay2 (F := Ideal) (iblk V c 0 t) (iblk V c 1 t) xs (iblk V c 2 t) (ix2 r f)
      = xs (ix2 r f) + T V c (t.val / 4) (t.val % 4) r f := by
  refine (Pay.k2_pay2_apply (iblk V c 0 t) (iblk V c 1 t) xs (iblk V c 2 t) r f).trans ?_
  refine congrArg (xs (ix2 r f) + ·) ?_
  unfold T Cert.Gnn.Ablk
  refine Finset.sum_congr rfl fun q _ => ?_
  rw [iblk0_apply V c t r q, iblk1_apply V c t r, iblk2_apply V c t q f]

/-- After point t = 4 i + k the accumulator holds the products of row block i with column blocks 0 … k. -/
theorem acc_eq : ∀ (n : ℕ) (t : Fin cfg2.N), t.val = n → ∀ (r : Fin 1024) (f : Fin 128),
    ((outsAt V c t.val t.isLt).2 : Vec Ideal S1024x128 .f32) (ix2 r f)
      = ∑ k ∈ Finset.range (t.val % 4 + 1), T V c (t.val / 4) k r f := by
  intro n
  induction n using Nat.strong_induction_on with
  | _ n ih =>
    intro t ht r f
    by_cases h0 : t.val % 4 = 0
    · have h1 : ¬t.val % 4 = 3 := by omega
      rw [accA V c t h0 h1, pay2_at V c t (k2_pay1 (F := Ideal)) r f, Pay.k2_pay1_apply, zero_add, h0]
      simp
    · have hlt : t.val - 1 < cfg2.N := Nat.lt_of_le_of_lt (Nat.sub_le _ _) t.isLt
      have hprev := ih (t.val - 1) (by omega) ⟨t.val - 1, hlt⟩ rfl r f
      have e1 : (t.val - 1) / 4 = t.val / 4 := by omega
      have e2 : (t.val - 1) % 4 + 1 = t.val % 4 := by omega
      dsimp only at hprev
      rw [e1, e2] at hprev
      have step : ((outsAt V c t.val t.isLt).2 : Vec Ideal S1024x128 .f32) (ix2 r f)
          = ((outsAt V c (t.val - 1) hlt).2 : Vec Ideal S1024x128 .f32) (ix2 r f) + T V c (t.val / 4) (t.val % 4) r f := by
        by_cases h1 : t.val % 4 = 3
        · rw [accC V c t h0 h1]; exact pay2_at V c t _ r f
        · rw [accB V c t h0 h1]; exact pay2_at V c t _ r f
      rw [step, hprev, Finset.sum_range_succ]

/-- At the last column block the output block holds the rectified sum of the four products and the bias. -/
theorem out_eq (t : Fin cfg2.N) (h1 : t.val % 4 = 3) (r : Fin 1024) (f : Fin 128) :
    ((outsAt V c t.val t.isLt).1 : Vec Ideal S1024x128 .f32) (ix2 r f)
      = Cert.Gnn.lrelu (∑ k ∈ Finset.range 4, T V c (t.val / 4) k r f + (V c main_v8 : Cert.Gnn.A1x128) (ix2 (0 : Fin 1) f)) := by
  have h0 : ¬t.val % 4 = 0 := by omega
  have ha := acc_eq V c t.val t rfl r f
  rw [accC V c t h0 h1] at ha
  rw [outC V c t h0 h1, Pay.k2_pay3_apply _ (iblk V c 3 t) r f, ha, iblk3_apply V c t f, h1]

/-- A sum over the 4096 rows, by blocks of 1024. -/
theorem sum_blocks (g : Fin 4096 → EReal) :
    ∑ k : Fin 4096, g k = ∑ kk ∈ Finset.range 4, ∑ q : Fin 1024, g (rowN kk q) := by
  rw [Finset.sum_range (fun kk => ∑ q : Fin 1024, g (rowN kk q)),
    ← Equiv.sum_comp (finProdFinEquiv (m := 4) (n := 1024)) g, Fintype.sum_prod_type]
  refine Finset.sum_congr rfl fun a _ => Finset.sum_congr rfl fun b _ => congrArg g ?_
  apply Fin.ext
  have := a.isLt
  have := b.isLt
  show b.val + 1024 * a.val = (1024 * a.val + b.val) % 4096
  omega

/-- The target function at row r of row block b. -/
theorem hOut_at (b : ℕ) (r : Fin 1024) (f : Fin 128) :
    Cert.Gnn.hOut (V c main_v3_1) (V c main_v3_0) (V c main_v7) (V c main_v8) (ix2 (rowN b r) f)
      = Cert.Gnn.lrelu (∑ k ∈ Finset.range 4, T V c b k r f + (V c main_v8 : Cert.Gnn.A1x128) (ix2 (0 : Fin 1) f)) := by
  unfold Cert.Gnn.hOut T
  exact congrArg (fun s => Cert.Gnn.lrelu (s + (V c main_v8 : Cert.Gnn.A1x128) (ix2 (0 : Fin 1) f)))
    (sum_blocks fun k => Cert.Gnn.Ablk (V c main_v3_1) (V c main_v3_0) (rowN b r) k * (V c main_v7 : Cert.Gnn.A4096x128) (ix2 k f))

end Value

end Cert.KernelIdeal.R2V

end
-- ==== Proof.R2Val5.lean ====
/-
  The output pass, launch 2: the output array after the run is the target function of the four input arrays.

  The output is written back only at the last column block of each row block; that write-back's block is rows
  1024 i … 1024 i + 1023 of the target function, and the four write-backs cover all 4096 rows.
-/
import proofs.«135971_j70179765616691_2_alg».proof.Proof.R2Val4
import Idealize.ShloMosaic.Lib.Pipeline.Value
import Idealize.ShloMosaic.Lib.Pipeline.FrameBody
import Idealize.ShloMosaic.Lib.ValueIdx
import Idealize.ShloMosaic.Lib.Tactic

set_option maxRecDepth 16384

noncomputable section

namespace Cert.KernelIdeal.R2V

open Cert.KernelIdeal Cert.KernelIdeal.Gen Cert.KernelIdeal.R2
open Idealize.ShloMosaic Idealize.ShloMosaic.TcCoe Idealize.ShloMosaic.Tactic Idealize.ShloMosaic.ValueIdx
open Idealize.SL.Sem
open Idealize.ShloMosaic.Pipeline (Dat Cfg Window)

/-! ### The write-backs and the array after the run -/

section Final

variable (V : (c : Dev nD) → (b : Ref sig .tc) → Buf (Elt Ideal) ((c : Thread nD τ).loc b)) (c : Dev nD)

theorem xsize4 : ∀ t : Fin cfg2.N, win2_4.xsize (grid2.coords t) 0 = 1024 ∧ win2_4.xsize (grid2.coords t) 1 = 128 :=
  (by decide +kernel : ∀ t : Fin grid2.N, win2_4.xsize (grid2.coords t) 0 = 1024 ∧ win2_4.xsize (grid2.coords t) 1 = 128)

/-- The write-back at the last column block of row block i writes rows 1024 i … of the target function. -/
theorem flushed_eq (t : Fin cfg2.N) (hf : (cfg2.win 4).flush t = true) :
    (dat V c).flushed 4 t
      = ((cfg2.win 4).blk t).view.read (Elt Ideal)
          (Cert.Gnn.hOut (V c main_v3_1) (V c main_v3_0) (V c main_v7) (V c main_v8)) := by
  have h1 : t.val % 4 = 3 := (flush2_4 t).mp hf
  have hi := idx4 t
  have hN := tlt t
  show (cfg2.win 4).cut (grid2.coords t) ((dat V c).after 4 t) = _
  rw [after4 V c t]
  funext y
  obtain ⟨r, f, rfl⟩ : ∃ (r : Fin 1024) (f : Fin 128), y = ix2 r f := ⟨y 0, y 1, eq_ix2 y⟩
  rw [View.read_apply]
  refine (out_eq V c t h1 r f).trans ((hOut_at V c (t.val / 4) r f).symm.trans ?_)
  refine congrArg (Cert.Gnn.hOut (V c main_v3_1) (V c main_v3_0) (V c main_v7) (V c main_v8)) ?_
  have hr := r.isLt
  funext a
  apply Fin.ext
  match a with
  | ⟨0, _⟩ => show (1024 * (t.val / 4) + r.val) % 4096 = win2_4.index t 0 * 1024 + 1 * r.val; rw [hi.1]; omega
  | ⟨1, _⟩ => show f.val = win2_4.index t 1 * 128 + 1 * f.val; rw [hi.2]; omega

/-- Every row of the output lies in the block written back at the last column block of its row block. -/
theorem cover4 (i : ((cfg2.win 4).arr.view.loc (c.tc : Thread nD τ)).2.ty.Idx) :
    ∃ t : Fin cfg2.N, (cfg2.win 4).flush t = true ∧ i ∈ ((cfg2.win 4).blk t).view.set := by
  have h0 : (i 0 : ℕ) < 4096 := (i 0).isLt
  have h1 : (i 1 : ℕ) < 128 := (i 1).isLt
  have hlt : 4 * ((i 0 : ℕ) / 1024) + 3 < cfg2.N := lt_of_lt_of_eq (by omega : 4 * ((i 0 : ℕ) / 1024) + 3 < 16) N_2.symm
  refine ⟨⟨4 * ((i 0 : ℕ) / 1024) + 3, hlt⟩, (flush2_4 _).mpr (by dsimp only; omega), ?_⟩
  have hi := idx4 ⟨4 * ((i 0 : ℕ) / 1024) + 3, hlt⟩
  have hx := xsize4 ⟨4 * ((i 0 : ℕ) / 1024) + 3, hlt⟩
  dsimp only at hi
  show i ∈ ((View.whole main_v9).slice (win2_4.rect ⟨4 * ((i 0 : ℕ) / 1024) + 3, hlt⟩)).set
  rw [View.set_slice_whole, Rect.mem_set_unit]
  intro a
  match a with
  | ⟨0, _⟩ =>
    show win2_4.index ⟨4 * ((i 0 : ℕ) / 1024) + 3, hlt⟩ 0 * 1024 ≤ (i 0 : ℕ)
      ∧ (i 0 : ℕ) < win2_4.index ⟨4 * ((i 0 : ℕ) / 1024) + 3, hlt⟩ 0 * 1024 + win2_4.xsize (grid2.coords ⟨4 * ((i 0 : ℕ) / 1024) + 3, hlt⟩) 0
    rw [hi.1, hx.1]; omega
  | ⟨1, _⟩ =>
    show win2_4.index ⟨4 * ((i 0 : ℕ) / 1024) + 3, hlt⟩ 1 * 128 ≤ (i 1 : ℕ)
      ∧ (i 1 : ℕ) < win2_4.index ⟨4 * ((i 0 : ℕ) / 1024) + 3, hlt⟩ 1 * 128 + win2_4.xsize (grid2.coords ⟨4 * ((i 0 : ℕ) / 1024) + 3, hlt⟩) 1
    rw [hi.2, hx.2]; omega

/-- The output array after the run is the target function of the four input arrays. -/
theorem final4 : (R2.dat (F := Ideal) V c).arrAt 4 cfg2.N
    = Cert.Gnn.hOut (V c main_v3_1) (V c main_v3_0) (V c main_v7) (V c main_v8) :=
  (dat V c).arrAt_eq_of_cover 4 _ (fun t hf => flushed_eq V c t hf) (cover4 c)

end Final

end Cert.KernelIdeal.R2V

end
-- ==== Proof.KValue.lean ====
/-
  The idealized kernel's result array ends at the layer's value in the arrangement that aggregates first: the chain
  through @main, fed with what each of the three launches leaves in its output arrays.
-/
import proofs.«135971_j70179765616691_2_alg».proof.Proof.KVal
import proofs.«135971_j70179765616691_2_alg».proof.Proof.R0Val4
import proofs.«135971_j70179765616691_2_alg».proof.Proof.R0Val5
import proofs.«135971_j70179765616691_2_alg».proof.Proof.R1Val8
import proofs.«135971_j70179765616691_2_alg».proof.Proof.R1Val9
import proofs.«135971_j70179765616691_2_alg».proof.Proof.R2Val5

noncomputable section

namespace Cert.KernelIdeal.Val

open Cert.KernelIdeal Cert.KernelIdeal.Gen Cert.KernelIdeal.Asm
open Idealize.ShloMosaic Idealize.ShloMosaic.TcCoe Idealize.SL.Sem

theorem value (m : (ℓ : Loc nD τ sig) → Buf (Elt Ideal) ℓ) (ρ : Dev nD → PrngReg) (c : Dev nD) :
    W5 m ρ c (Proc.devRef .tc main_v9)
      = Cert.Gnn.outK (m ((c : Thread nD τ).loc main_arg0)) (m ((c : Thread nD τ).loc main_arg1)) (m ((c : Thread nD τ).loc main_arg2)) :=
  value_of m ρ Cert.KernelIdeal.R0V.final2 Cert.KernelIdeal.R0V.final3 Cert.KernelIdeal.R1V.final3 Cert.KernelIdeal.R1V.final4 Cert.KernelIdeal.R2V.final4 c

end Cert.KernelIdeal.Val

end
-- ==== Proof.RefOps.lean ====
/-
  The reference program's @main as a list of host operations: its own forty-eight, then the seven of the
  outlined leaky_relu (a zero constant, its broadcast, the comparison p ≥ 0, the slope converted and broadcast,
  the product slope · p, and the select of the callee it calls in turn), listed inline at the call site over that
  call's buffers. Unfolding the two callees and reassociating the sequencing makes @main that straight line.
-/
import proofs.«135971_j70179765616691_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's own 48 operations, in order. -/
abbrev opsHost : List (HloOp τ sig (Elt F)) :=
  [
    binary main_arg0 main_arg0 main_v0 (mulf : (⟨S4096x128, .f32⟩ : BufTy).Contents (Elt F) → (⟨S4096x128, .f32⟩ : BufTy).Contents (Elt F) → (⟨S4096x128, .f32⟩ : BufTy).Contents (Elt F)),
    nullary main_cst (constant S_ .f32 0x00000000#32),
    binary main_v0 main_cst main_v1 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    unary main_v1 main_v2 (broadcastInDim S4096x1 ![0] bcast_S4096_S4096x1_0 : (⟨S4096, .f32⟩ : BufTy).Contents (Elt F) → (⟨S4096x1, .f32⟩ : BufTy).Contents (Elt F)),
    unary main_v1 main_v3 (broadcastInDim S1x4096 ![1] bcast_S4096_S1x4096_1 : (⟨S4096, .f32⟩ : BufTy).Contents (Elt F) → (⟨S1x4096, .f32⟩ : BufTy).Contents (Elt F)),
    unary main_v2 main_v4 (broadcastInDim S4096x4096 ![0, 1] bcast_S4096x1_S4096x4096_0_1 : (⟨S4096x1, .f32⟩ : BufTy).Contents (Elt F) → (⟨S4096x4096, .f32⟩ : BufTy).Contents (Elt F)),
    unary main_v3 main_v5 (broadcastInDim S4096x4096 ![0, 1] bcast_S1x4096_S4096x4096_0_1 : (⟨S1x4096, .f32⟩ : BufTy).Contents (Elt F) → (⟨S4096x4096, .f32⟩ : BufTy).Contents (Elt F)),
    binary main_v4 main_v5 main_v6 (addf : (⟨S4096x4096, .f32⟩ : BufTy).Contents (Elt F) → (⟨S4096x4096, .f32⟩ : BufTy).Contents (Elt F) → (⟨S4096x4096, .f32⟩ : BufTy).Contents (Elt F)),
    unary main_arg0 main_v7 ((transpose S128x4096 [1, 0] · transposes_S4096x128_S128x4096_1_0) : (⟨S4096x128, .f32⟩ : BufTy).Contents (Elt F) → (⟨S128x4096, .f32⟩ : BufTy).Contents (Elt F)),
    binary main_arg0 main_v7 main_v8 ((fun l r => Host.dotGeneral dot_S4096x128_S128x4096_S4096x4096_1_0_0_1_n_n none l r) : (⟨S4096x128, .f32⟩ : BufTy).Contents (Elt F) → (⟨S128x4096, .f32⟩ : BufTy).Contents (Elt F) → (⟨S4096x4096, .f32⟩ : BufTy).Contents (Elt F)),
    nullary main_cst_0 (constant S_ .f32 0x40000000#32),
    unary main_cst_0 main_v9 (broadcastInDim S4096x4096 ![] bcast_S_S4096x4096 : (⟨S_, .f32⟩ : BufTy).Contents (Elt F) → (⟨S4096x4096, .f32⟩ : BufTy).Contents (Elt F)),
    binary main_v9 main_v8 main_v10 (mulf : (⟨S4096x4096, .f32⟩ : BufTy).Contents (Elt F) → (⟨S4096x4096, .f32⟩ : BufTy).Contents (Elt F) → (⟨S4096x4096, .f32⟩ : BufTy).Contents (Elt F)),
    binary main_v6 main_v10 main_v11 (subf : (⟨S4096x4096, .f32⟩ : BufTy).Contents (Elt F) → (⟨S4096x4096, .f32⟩ : BufTy).Contents (Elt F) → (⟨S4096x4096, .f32⟩ : BufTy).Contents (Elt F)),
    nullary main_cst_1 (constant S_ .f32 0x2B8CBCCC#32),
    unary main_cst_1 main_v12 (broadcastInDim S4096x4096 ![] bcast_S_S4096x4096 : (⟨S_, .f32⟩ : BufTy).Contents (Elt F) → (⟨S4096x4096, .f32⟩ : BufTy).Contents (Elt F)),
    binary main_v11 main_v12 main_v13 (maximumf : (⟨S4096x4096, .f32⟩ : BufTy).Contents (Elt F) → (⟨S4096x4096, .f32⟩ : BufTy).Contents (Elt F) → (⟨S4096x4096, .f32⟩ : BufTy).Contents (Elt F)),
    unary main_v13 main_v14 (Host.sqrt : (⟨S4096x4096, .f32⟩ : BufTy).Contents (Elt F) → (⟨S4096x4096, .f32⟩ : BufTy).Contents (Elt F)),
    unary main_v14 main_v15 (Host.negf : (⟨S4096x4096, .f32⟩ : BufTy).Contents (Elt F) → (⟨S4096x4096, .f32⟩ : BufTy).Contents (Elt F)),
    unary main_v15 main_v16 (Host.exp : (⟨S4096x4096, .f32⟩ : BufTy).Contents (Elt F) → (⟨S4096x4096, .f32⟩ : BufTy).Contents (Elt F)),
    nullary main_cst_2 (constant S_ .f32 0xFF800000#32),
    binary main_v16 main_cst_2 main_v17 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_3 (constant S_ .f32 0xFF800000#32),
    unary main_cst_3 main_v18 (broadcastInDim S4096 ![] bcast_S_S4096 : (⟨S_, .f32⟩ : BufTy).Contents (Elt F) → (⟨S4096, .f32⟩ : BufTy).Contents (Elt F)),
    binary main_v18 main_v17 main_v19 (maximumf : (⟨S4096, .f32⟩ : BufTy).Contents (Elt F) → (⟨S4096, .f32⟩ : BufTy).Contents (Elt F) → (⟨S4096, .f32⟩ : BufTy).Contents (Elt F)),
    unary main_v19 main_v20 (broadcastInDim S4096x1 ![0] bcast_S4096_S4096x1_0 : (⟨S4096, .f32⟩ : BufTy).Contents (Elt F) → (⟨S4096x1, .f32⟩ : BufTy).Contents (Elt F)),
    unary main_v20 main_v21 (broadcastInDim S4096x4096 ![0, 1] bcast_S4096x1_S4096x4096_0_1 : (⟨S4096x1, .f32⟩ : BufTy).Contents (Elt F) → (⟨S4096x4096, .f32⟩ : BufTy).Contents (Elt F)),
    binary main_v16 main_v21 main_v22 (subf : (⟨S4096x4096, .f32⟩ : BufTy).Contents (Elt F) → (⟨S4096x4096, .f32⟩ : BufTy).Contents (Elt F) → (⟨S4096x4096, .f32⟩ : BufTy).Contents (Elt F)),
    unary main_v22 main_v23 (Host.exp : (⟨S4096x4096, .f32⟩ : BufTy).Contents (Elt F) → (⟨S4096x4096, .f32⟩ : BufTy).Contents (Elt F)),
    nullary main_cst_4 (constant S_ .f32 0x00000000#32),
    binary main_v23 main_cst_4 main_v24 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v24 main_v25 (broadcastInDim S4096x1 ![0] bcast_S4096_S4096x1_0 : (⟨S4096, .f32⟩ : BufTy).Contents (Elt F) → (⟨S4096x1, .f32⟩ : BufTy).Contents (Elt F)),
    unary main_v25 main_v26 (broadcastInDim S4096x4096 ![0, 1] bcast_S4096x1_S4096x4096_0_1 : (⟨S4096x1, .f32⟩ : BufTy).Contents (Elt F) → (⟨S4096x4096, .f32⟩ : BufTy).Contents (Elt F)),
    binary main_v23 main_v26 main_v27 (Host.divf : (⟨S4096x4096, .f32⟩ : BufTy).Contents (Elt F) → (⟨S4096x4096, .f32⟩ : BufTy).Contents (Elt F) → (⟨S4096x4096, .f32⟩ : BufTy).Contents (Elt F)),
    nullary main_cst_5 (constant S_ .f32 0x00000000#32),
    binary main_v27 main_cst_5 main_v28 ((fun x v => Host.reduceAdd x v reducesTo_S4096x4096_S4096_d0 h_S_) : (⟨S4096x4096, .f32⟩ : BufTy).Contents (Elt F) → (⟨S_, .f32⟩ : BufTy).Contents (Elt F) → (⟨S4096, .f32⟩ : BufTy).Contents (Elt F)),
    unary main_v28 main_v29 (broadcastInDim S1x4096 ![1] bcast_S4096_S1x4096_1 : (⟨S4096, .f32⟩ : BufTy).Contents (Elt F) → (⟨S1x4096, .f32⟩ : BufTy).Contents (Elt F)),
    unary main_v29 main_v30 (broadcastInDim S4096x4096 ![0, 1] bcast_S1x4096_S4096x4096_0_1 : (⟨S1x4096, .f32⟩ : BufTy).Contents (Elt F) → (⟨S4096x4096, .f32⟩ : BufTy).Contents (Elt F)),
    binary main_v27 main_v30 main_v31 (Host.divf : (⟨S4096x4096, .f32⟩ : BufTy).Contents (Elt F) → (⟨S4096x4096, .f32⟩ : BufTy).Contents (Elt F) → (⟨S4096x4096, .f32⟩ : BufTy).Contents (Elt F)),
    unary main_v27 main_v32 ((transpose S4096x4096 [1, 0] · transposes_S4096x4096_S4096x4096_1_0) : (⟨S4096x4096, .f32⟩ : BufTy).Contents (Elt F) → (⟨S4096x4096, .f32⟩ : BufTy).Contents (Elt F)),
    binary main_v31 main_v32 main_v33 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    unary main_arg1 main_v34 ((transpose S128x128 [1, 0] · transposes_S128x128_S128x128_1_0) : (⟨S128x128, .f32⟩ : BufTy).Contents (Elt F) → (⟨S128x128, .f32⟩ : BufTy).Contents (Elt F)),
    binary main_arg0 main_v34 main_v35 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    binary main_v33 main_v35 main_v36 ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)),
    unary main_arg2 main_v37 (broadcastInDim S1x128 ![1] bcast_S128_S1x128_1 : (⟨S128, .f32⟩ : BufTy).Contents (Elt F) → (⟨S1x128, .f32⟩ : BufTy).Contents (Elt F)),
    unary main_v37 main_v38 (broadcastInDim S4096x128 ![0, 1] bcast_S1x128_S4096x128_0_1 : (⟨S1x128, .f32⟩ : BufTy).Contents (Elt F) → (⟨S4096x128, .f32⟩ : BufTy).Contents (Elt F)),
    binary main_v36 main_v38 main_v39 (addf : (⟨S4096x128, .f32⟩ : BufTy).Contents (Elt F) → (⟨S4096x128, .f32⟩ : BufTy).Contents (Elt F) → (⟨S4096x128, .f32⟩ : BufTy).Contents (Elt F)),
    nullary main_cst_6 (constant S_ .f32 0x3E4CCCCD#32) ]

/-- The 7 operations of the call of leaky_relu (the last is the select of the function it calls), over the call's buffers. -/
abbrev opsCall : List (HloOp τ sig (Elt F)) :=
  [
    StableHlo.TRef.nullary main_call0.cst (constant S_ .f32 0x00000000#32),
    StableHlo.TRef.unary main_call0.cst main_call0.v0 (broadcastInDim S4096x128 ![] bcast_S_S4096x128),
    StableHlo.TRef.binary (.of main_v39 : StableHlo.TRef sig ⟨S4096x128, .f32⟩) main_call0.v0 main_call0.v1 (cmpf .oge),
    StableHlo.TRef.unary (.of main_cst_6 : StableHlo.TRef sig ⟨S_, .f32⟩) main_call0.v2 id,
    StableHlo.TRef.unary main_call0.v2 main_call0.v3 (broadcastInDim S4096x128 ![] bcast_S_S4096x128),
    StableHlo.TRef.binary main_call0.v3 (.of main_v39 : StableHlo.TRef sig ⟨S4096x128, .f32⟩) main_call0.v4 mulf,
    StableHlo.TRef.ternary main_call0.v1 (.of main_v39 : StableHlo.TRef sig ⟨S4096x128, .f32⟩) main_call0.v4 main_call0.call0.v0 select ]

/-- @main's 55 operations, in order, the calls unfolded. -/
abbrev ops : List (HloOp τ sig (Elt F)) :=
  [
    binary main_arg0 main_arg0 main_v0 (mulf : (⟨S4096x128, .f32⟩ : BufTy).Contents (Elt F) → (⟨S4096x128, .f32⟩ : BufTy).Contents (Elt F) → (⟨S4096x128, .f32⟩ : BufTy).Contents (Elt F)),
    nullary main_cst (constant S_ .f32 0x00000000#32),
    binary main_v0 main_cst main_v1 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    unary main_v1 main_v2 (broadcastInDim S4096x1 ![0] bcast_S4096_S4096x1_0 : (⟨S4096, .f32⟩ : BufTy).Contents (Elt F) → (⟨S4096x1, .f32⟩ : BufTy).Contents (Elt F)),
    unary main_v1 main_v3 (broadcastInDim S1x4096 ![1] bcast_S4096_S1x4096_1 : (⟨S4096, .f32⟩ : BufTy).Contents (Elt F) → (⟨S1x4096, .f32⟩ : BufTy).Contents (Elt F)),
    unary main_v2 main_v4 (broadcastInDim S4096x4096 ![0, 1] bcast_S4096x1_S4096x4096_0_1 : (⟨S4096x1, .f32⟩ : BufTy).Contents (Elt F) → (⟨S4096x4096, .f32⟩ : BufTy).Contents (Elt F)),
    unary main_v3 main_v5 (broadcastInDim S4096x4096 ![0, 1] bcast_S1x4096_S4096x4096_0_1 : (⟨S1x4096, .f32⟩ : BufTy).Contents (Elt F) → (⟨S4096x4096, .f32⟩ : BufTy).Contents (Elt F)),
    binary main_v4 main_v5 main_v6 (addf : (⟨S4096x4096, .f32⟩ : BufTy).Contents (Elt F) → (⟨S4096x4096, .f32⟩ : BufTy).Contents (Elt F) → (⟨S4096x4096, .f32⟩ : BufTy).Contents (Elt F)),
    unary main_arg0 main_v7 ((transpose S128x4096 [1, 0] · transposes_S4096x128_S128x4096_1_0) : (⟨S4096x128, .f32⟩ : BufTy).Contents (Elt F) → (⟨S128x4096, .f32⟩ : BufTy).Contents (Elt F)),
    binary main_arg0 main_v7 main_v8 ((fun l r => Host.dotGeneral dot_S4096x128_S128x4096_S4096x4096_1_0_0_1_n_n none l r) : (⟨S4096x128, .f32⟩ : BufTy).Contents (Elt F) → (⟨S128x4096, .f32⟩ : BufTy).Contents (Elt F) → (⟨S4096x4096, .f32⟩ : BufTy).Contents (Elt F)),
    nullary main_cst_0 (constant S_ .f32 0x40000000#32),
    unary main_cst_0 main_v9 (broadcastInDim S4096x4096 ![] bcast_S_S4096x4096 : (⟨S_, .f32⟩ : BufTy).Contents (Elt F) → (⟨S4096x4096, .f32⟩ : BufTy).Contents (Elt F)),
    binary main_v9 main_v8 main_v10 (mulf : (⟨S4096x4096, .f32⟩ : BufTy).Contents (Elt F) → (⟨S4096x4096, .f32⟩ : BufTy).Contents (Elt F) → (⟨S4096x4096, .f32⟩ : BufTy).Contents (Elt F)),
    binary main_v6 main_v10 main_v11 (subf : (⟨S4096x4096, .f32⟩ : BufTy).Contents (Elt F) → (⟨S4096x4096, .f32⟩ : BufTy).Contents (Elt F) → (⟨S4096x4096, .f32⟩ : BufTy).Contents (Elt F)),
    nullary main_cst_1 (constant S_ .f32 0x2B8CBCCC#32),
    unary main_cst_1 main_v12 (broadcastInDim S4096x4096 ![] bcast_S_S4096x4096 : (⟨S_, .f32⟩ : BufTy).Contents (Elt F) → (⟨S4096x4096, .f32⟩ : BufTy).Contents (Elt F)),
    binary main_v11 main_v12 main_v13 (maximumf : (⟨S4096x4096, .f32⟩ : BufTy).Contents (Elt F) → (⟨S4096x4096, .f32⟩ : BufTy).Contents (Elt F) → (⟨S4096x4096, .f32⟩ : BufTy).Contents (Elt F)),
    unary main_v13 main_v14 (Host.sqrt : (⟨S4096x4096, .f32⟩ : BufTy).Contents (Elt F) → (⟨S4096x4096, .f32⟩ : BufTy).Contents (Elt F)),
    unary main_v14 main_v15 (Host.negf : (⟨S4096x4096, .f32⟩ : BufTy).Contents (Elt F) → (⟨S4096x4096, .f32⟩ : BufTy).Contents (Elt F)),
    unary main_v15 main_v16 (Host.exp : (⟨S4096x4096, .f32⟩ : BufTy).Contents (Elt F) → (⟨S4096x4096, .f32⟩ : BufTy).Contents (Elt F)),
    nullary main_cst_2 (constant S_ .f32 0xFF800000#32),
    binary main_v16 main_cst_2 main_v17 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_3 (constant S_ .f32 0xFF800000#32),
    unary main_cst_3 main_v18 (broadcastInDim S4096 ![] bcast_S_S4096 : (⟨S_, .f32⟩ : BufTy).Contents (Elt F) → (⟨S4096, .f32⟩ : BufTy).Contents (Elt F)),
    binary main_v18 main_v17 main_v19 (maximumf : (⟨S4096, .f32⟩ : BufTy).Contents (Elt F) → (⟨S4096, .f32⟩ : BufTy).Contents (Elt F) → (⟨S4096, .f32⟩ : BufTy).Contents (Elt F)),
    unary main_v19 main_v20 (broadcastInDim S4096x1 ![0] bcast_S4096_S4096x1_0 : (⟨S4096, .f32⟩ : BufTy).Contents (Elt F) → (⟨S4096x1, .f32⟩ : BufTy).Contents (Elt F)),
    unary main_v20 main_v21 (broadcastInDim S4096x4096 ![0, 1] bcast_S4096x1_S4096x4096_0_1 : (⟨S4096x1, .f32⟩ : BufTy).Contents (Elt F) → (⟨S4096x4096, .f32⟩ : BufTy).Contents (Elt F)),
    binary main_v16 main_v21 main_v22 (subf : (⟨S4096x4096, .f32⟩ : BufTy).Contents (Elt F) → (⟨S4096x4096, .f32⟩ : BufTy).Contents (Elt F) → (⟨S4096x4096, .f32⟩ : BufTy).Contents (Elt F)),
    unary main_v22 main_v23 (Host.exp : (⟨S4096x4096, .f32⟩ : BufTy).Contents (Elt F) → (⟨S4096x4096, .f32⟩ : BufTy).Contents (Elt F)),
    nullary main_cst_4 (constant S_ .f32 0x00000000#32),
    binary main_v23 main_cst_4 main_v24 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v24 main_v25 (broadcastInDim S4096x1 ![0] bcast_S4096_S4096x1_0 : (⟨S4096, .f32⟩ : BufTy).Contents (Elt F) → (⟨S4096x1, .f32⟩ : BufTy).Contents (Elt F)),
    unary main_v25 main_v26 (broadcastInDim S4096x4096 ![0, 1] bcast_S4096x1_S4096x4096_0_1 : (⟨S4096x1, .f32⟩ : BufTy).Contents (Elt F) → (⟨S4096x4096, .f32⟩ : BufTy).Contents (Elt F)),
    binary main_v23 main_v26 main_v27 (Host.divf : (⟨S4096x4096, .f32⟩ : BufTy).Contents (Elt F) → (⟨S4096x4096, .f32⟩ : BufTy).Contents (Elt F) → (⟨S4096x4096, .f32⟩ : BufTy).Contents (Elt F)),
    nullary main_cst_5 (constant S_ .f32 0x00000000#32),
    binary main_v27 main_cst_5 main_v28 ((fun x v => Host.reduceAdd x v reducesTo_S4096x4096_S4096_d0 h_S_) : (⟨S4096x4096, .f32⟩ : BufTy).Contents (Elt F) → (⟨S_, .f32⟩ : BufTy).Contents (Elt F) → (⟨S4096, .f32⟩ : BufTy).Contents (Elt F)),
    unary main_v28 main_v29 (broadcastInDim S1x4096 ![1] bcast_S4096_S1x4096_1 : (⟨S4096, .f32⟩ : BufTy).Contents (Elt F) → (⟨S1x4096, .f32⟩ : BufTy).Contents (Elt F)),
    unary main_v29 main_v30 (broadcastInDim S4096x4096 ![0, 1] bcast_S1x4096_S4096x4096_0_1 : (⟨S1x4096, .f32⟩ : BufTy).Contents (Elt F) → (⟨S4096x4096, .f32⟩ : BufTy).Contents (Elt F)),
    binary main_v27 main_v30 main_v31 (Host.divf : (⟨S4096x4096, .f32⟩ : BufTy).Contents (Elt F) → (⟨S4096x4096, .f32⟩ : BufTy).Contents (Elt F) → (⟨S4096x4096, .f32⟩ : BufTy).Contents (Elt F)),
    unary main_v27 main_v32 ((transpose S4096x4096 [1, 0] · transposes_S4096x4096_S4096x4096_1_0) : (⟨S4096x4096, .f32⟩ : BufTy).Contents (Elt F) → (⟨S4096x4096, .f32⟩ : BufTy).Contents (Elt F)),
    binary main_v31 main_v32 main_v33 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    unary main_arg1 main_v34 ((transpose S128x128 [1, 0] · transposes_S128x128_S128x128_1_0) : (⟨S128x128, .f32⟩ : BufTy).Contents (Elt F) → (⟨S128x128, .f32⟩ : BufTy).Contents (Elt F)),
    binary main_arg0 main_v34 main_v35 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    binary main_v33 main_v35 main_v36 ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)),
    unary main_arg2 main_v37 (broadcastInDim S1x128 ![1] bcast_S128_S1x128_1 : (⟨S128, .f32⟩ : BufTy).Contents (Elt F) → (⟨S1x128, .f32⟩ : BufTy).Contents (Elt F)),
    unary main_v37 main_v38 (broadcastInDim S4096x128 ![0, 1] bcast_S1x128_S4096x128_0_1 : (⟨S1x128, .f32⟩ : BufTy).Contents (Elt F) → (⟨S4096x128, .f32⟩ : BufTy).Contents (Elt F)),
    binary main_v36 main_v38 main_v39 (addf : (⟨S4096x128, .f32⟩ : BufTy).Contents (Elt F) → (⟨S4096x128, .f32⟩ : BufTy).Contents (Elt F) → (⟨S4096x128, .f32⟩ : BufTy).Contents (Elt F)),
    nullary main_cst_6 (constant S_ .f32 0x3E4CCCCD#32),
    StableHlo.TRef.nullary main_call0.cst (constant S_ .f32 0x00000000#32),
    StableHlo.TRef.unary main_call0.cst main_call0.v0 (broadcastInDim S4096x128 ![] bcast_S_S4096x128),
    StableHlo.TRef.binary (.of main_v39 : StableHlo.TRef sig ⟨S4096x128, .f32⟩) main_call0.v0 main_call0.v1 (cmpf .oge),
    StableHlo.TRef.unary (.of main_cst_6 : StableHlo.TRef sig ⟨S_, .f32⟩) main_call0.v2 id,
    StableHlo.TRef.unary main_call0.v2 main_call0.v3 (broadcastInDim S4096x128 ![] bcast_S_S4096x128),
    StableHlo.TRef.binary main_call0.v3 (.of main_v39 : StableHlo.TRef sig ⟨S4096x128, .f32⟩) main_call0.v4 mulf,
    StableHlo.TRef.ternary main_call0.v1 (.of main_v39 : StableHlo.TRef sig ⟨S4096x128, .f32⟩) main_call0.v4 main_call0.call0.v0 select ]

theorem ops_eq : (ops : List (HloOp τ sig (Elt F))) = opsHost ++ opsCall := rfl

-- fifty-five binds re-associated: the rewrite under the chain recurses once per statement
set_option maxRecDepth 4096 in
/-- @main is that straight line: the callees' definitions unfolded at their calls, both sides are one chain of
    steps once sequencing is reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    binary_bufs_sub .., nullary_bufs_sub .., binary_bufs_sub .., unary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., unary_bufs_sub ..,
    unary_bufs_sub .., unary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., binary_bufs_sub .., nullary_bufs_sub .., binary_bufs_sub ..,
    unary_bufs_sub .., unary_bufs_sub .., binary_bufs_sub .., unary_bufs_sub .., binary_bufs_sub .., unary_bufs_sub ..,
    binary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..⟩

end Cert.ReferenceIdeal.Hand

end
-- ==== Proof.RefStages.lean ====
/-
  The contents of each buffer of the reference program after its run, as a term of the three arguments'
  contents `X` (features), `W` (weights), `B` (bias): one named stage per operation, each the operation's
  function applied to the stages of its operands.
-/
import proofs.«135971_j70179765616691_2_alg».proof.Proof.Gen.ReferenceIdeal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

def val_v0 (X : (⟨S4096x128, .f32⟩ : BufTy).Contents (Elt F)) (W : (⟨S128x128, .f32⟩ : BufTy).Contents (Elt F)) (B : (⟨S128, .f32⟩ : BufTy).Contents (Elt F)) :
    (⟨S4096x128, .f32⟩ : BufTy).Contents (Elt F) :=
  (mulf : (⟨S4096x128, .f32⟩ : BufTy).Contents (Elt F) → (⟨S4096x128, .f32⟩ : BufTy).Contents (Elt F) → (⟨S4096x128, .f32⟩ : BufTy).Contents (Elt F)) X X
def val_cst (X : (⟨S4096x128, .f32⟩ : BufTy).Contents (Elt F)) (W : (⟨S128x128, .f32⟩ : BufTy).Contents (Elt F)) (B : (⟨S128, .f32⟩ : BufTy).Contents (Elt F)) :
    (⟨S_, .f32⟩ : BufTy).Contents (Elt F) :=
  constant S_ .f32 0x00000000#32
def val_v1 (X : (⟨S4096x128, .f32⟩ : BufTy).Contents (Elt F)) (W : (⟨S128x128, .f32⟩ : BufTy).Contents (Elt F)) (B : (⟨S128, .f32⟩ : BufTy).Contents (Elt F)) :
    (⟨S4096, .f32⟩ : BufTy).Contents (Elt F) :=
  Host.reduceAdd (val_v0 X W B) (val_cst X W B) reducesTo_S4096x128_S4096_d1 h_S_
def val_v2 (X : (⟨S4096x128, .f32⟩ : BufTy).Contents (Elt F)) (W : (⟨S128x128, .f32⟩ : BufTy).Contents (Elt F)) (B : (⟨S128, .f32⟩ : BufTy).Contents (Elt F)) :
    (⟨S4096x1, .f32⟩ : BufTy).Contents (Elt F) :=
  (broadcastInDim S4096x1 ![0] bcast_S4096_S4096x1_0 : (⟨S4096, .f32⟩ : BufTy).Contents (Elt F) → (⟨S4096x1, .f32⟩ : BufTy).Contents (Elt F)) (val_v1 X W B)
def val_v3 (X : (⟨S4096x128, .f32⟩ : BufTy).Contents (Elt F)) (W : (⟨S128x128, .f32⟩ : BufTy).Contents (Elt F)) (B : (⟨S128, .f32⟩ : BufTy).Contents (Elt F)) :
    (⟨S1x4096, .f32⟩ : BufTy).Contents (Elt F) :=
  (broadcastInDim S1x4096 ![1] bcast_S4096_S1x4096_1 : (⟨S4096, .f32⟩ : BufTy).Contents (Elt F) → (⟨S1x4096, .f32⟩ : BufTy).Contents (Elt F)) (val_v1 X W B)
def val_v4 (X : (⟨S4096x128, .f32⟩ : BufTy).Contents (Elt F)) (W : (⟨S128x128, .f32⟩ : BufTy).Contents (Elt F)) (B : (⟨S128, .f32⟩ : BufTy).Contents (Elt F)) :
    (⟨S4096x4096, .f32⟩ : BufTy).Contents (Elt F) :=
  (broadcastInDim S4096x4096 ![0, 1] bcast_S4096x1_S4096x4096_0_1 : (⟨S4096x1, .f32⟩ : BufTy).Contents (Elt F) → (⟨S4096x4096, .f32⟩ : BufTy).Contents (Elt F)) (val_v2 X W B)
def val_v5 (X : (⟨S4096x128, .f32⟩ : BufTy).Contents (Elt F)) (W : (⟨S128x128, .f32⟩ : BufTy).Contents (Elt F)) (B : (⟨S128, .f32⟩ : BufTy).Contents (Elt F)) :
    (⟨S4096x4096, .f32⟩ : BufTy).Contents (Elt F) :=
  (broadcastInDim S4096x4096 ![0, 1] bcast_S1x4096_S4096x4096_0_1 : (⟨S1x4096, .f32⟩ : BufTy).Contents (Elt F) → (⟨S4096x4096, .f32⟩ : BufTy).Contents (Elt F)) (val_v3 X W B)
def val_v6 (X : (⟨S4096x128, .f32⟩ : BufTy).Contents (Elt F)) (W : (⟨S128x128, .f32⟩ : BufTy).Contents (Elt F)) (B : (⟨S128, .f32⟩ : BufTy).Contents (Elt F)) :
    (⟨S4096x4096, .f32⟩ : BufTy).Contents (Elt F) :=
  (addf : (⟨S4096x4096, .f32⟩ : BufTy).Contents (Elt F) → (⟨S4096x4096, .f32⟩ : BufTy).Contents (Elt F) → (⟨S4096x4096, .f32⟩ : BufTy).Contents (Elt F)) (val_v4 X W B) (val_v5 X W B)
def val_v7 (X : (⟨S4096x128, .f32⟩ : BufTy).Contents (Elt F)) (W : (⟨S128x128, .f32⟩ : BufTy).Contents (Elt F)) (B : (⟨S128, .f32⟩ : BufTy).Contents (Elt F)) :
    (⟨S128x4096, .f32⟩ : BufTy).Contents (Elt F) :=
  transpose S128x4096 [1, 0] X transposes_S4096x128_S128x4096_1_0
def val_v8 (X : (⟨S4096x128, .f32⟩ : BufTy).Contents (Elt F)) (W : (⟨S128x128, .f32⟩ : BufTy).Contents (Elt F)) (B : (⟨S128, .f32⟩ : BufTy).Contents (Elt F)) :
    (⟨S4096x4096, .f32⟩ : BufTy).Contents (Elt F) :=
  Host.dotGeneral dot_S4096x128_S128x4096_S4096x4096_1_0_0_1_n_n none X (val_v7 X W B)
def val_cst_0 (X : (⟨S4096x128, .f32⟩ : BufTy).Contents (Elt F)) (W : (⟨S128x128, .f32⟩ : BufTy).Contents (Elt F)) (B : (⟨S128, .f32⟩ : BufTy).Contents (Elt F)) :
    (⟨S_, .f32⟩ : BufTy).Contents (Elt F) :=
  constant S_ .f32 0x40000000#32
def val_v9 (X : (⟨S4096x128, .f32⟩ : BufTy).Contents (Elt F)) (W : (⟨S128x128, .f32⟩ : BufTy).Contents (Elt F)) (B : (⟨S128, .f32⟩ : BufTy).Contents (Elt F)) :
    (⟨S4096x4096, .f32⟩ : BufTy).Contents (Elt F) :=
  (broadcastInDim S4096x4096 ![] bcast_S_S4096x4096 : (⟨S_, .f32⟩ : BufTy).Contents (Elt F) → (⟨S4096x4096, .f32⟩ : BufTy).Contents (Elt F)) (val_cst_0 X W B)
def val_v10 (X : (⟨S4096x128, .f32⟩ : BufTy).Contents (Elt F)) (W : (⟨S128x128, .f32⟩ : BufTy).Contents (Elt F)) (B : (⟨S128, .f32⟩ : BufTy).Contents (Elt F)) :
    (⟨S4096x4096, .f32⟩ : BufTy).Contents (Elt F) :=
  (mulf : (⟨S4096x4096, .f32⟩ : BufTy).Contents (Elt F) → (⟨S4096x4096, .f32⟩ : BufTy).Contents (Elt F) → (⟨S4096x4096, .f32⟩ : BufTy).Contents (Elt F)) (val_v9 X W B) (val_v8 X W B)
def val_v11 (X : (⟨S4096x128, .f32⟩ : BufTy).Contents (Elt F)) (W : (⟨S128x128, .f32⟩ : BufTy).Contents (Elt F)) (B : (⟨S128, .f32⟩ : BufTy).Contents (Elt F)) :
    (⟨S4096x4096, .f32⟩ : BufTy).Contents (Elt F) :=
  (subf : (⟨S4096x4096, .f32⟩ : BufTy).Contents (Elt F) → (⟨S4096x4096, .f32⟩ : BufTy).Contents (Elt F) → (⟨S4096x4096, .f32⟩ : BufTy).Contents (Elt F)) (val_v6 X W B) (val_v10 X W B)
def val_cst_1 (X : (⟨S4096x128, .f32⟩ : BufTy).Contents (Elt F)) (W : (⟨S128x128, .f32⟩ : BufTy).Contents (Elt F)) (B : (⟨S128, .f32⟩ : BufTy).Contents (Elt F)) :
    (⟨S_, .f32⟩ : BufTy).Contents (Elt F) :=
  constant S_ .f32 0x2B8CBCCC#32
def val_v12 (X : (⟨S4096x128, .f32⟩ : BufTy).Contents (Elt F)) (W : (⟨S128x128, .f32⟩ : BufTy).Contents (Elt F)) (B : (⟨S128, .f32⟩ : BufTy).Contents (Elt F)) :
    (⟨S4096x4096, .f32⟩ : BufTy).Contents (Elt F) :=
  (broadcastInDim S4096x4096 ![] bcast_S_S4096x4096 : (⟨S_, .f32⟩ : BufTy).Contents (Elt F) → (⟨S4096x4096, .f32⟩ : BufTy).Contents (Elt F)) (val_cst_1 X W B)
def val_v13 (X : (⟨S4096x128, .f32⟩ : BufTy).Contents (Elt F)) (W : (⟨S128x128, .f32⟩ : BufTy).Contents (Elt F)) (B : (⟨S128, .f32⟩ : BufTy).Contents (Elt F)) :
    (⟨S4096x4096, .f32⟩ : BufTy).Contents (Elt F) :=
  (maximumf : (⟨S4096x4096, .f32⟩ : BufTy).Contents (Elt F) → (⟨S4096x4096, .f32⟩ : BufTy).Contents (Elt F) → (⟨S4096x4096, .f32⟩ : BufTy).Contents (Elt F)) (val_v11 X W B) (val_v12 X W B)
def val_v14 (X : (⟨S4096x128, .f32⟩ : BufTy).Contents (Elt F)) (W : (⟨S128x128, .f32⟩ : BufTy).Contents (Elt F)) (B : (⟨S128, .f32⟩ : BufTy).Contents (Elt F)) :
    (⟨S4096x4096, .f32⟩ : BufTy).Contents (Elt F) :=
  (Host.sqrt : (⟨S4096x4096, .f32⟩ : BufTy).Contents (Elt F) → (⟨S4096x4096, .f32⟩ : BufTy).Contents (Elt F)) (val_v13 X W B)
def val_v15 (X : (⟨S4096x128, .f32⟩ : BufTy).Contents (Elt F)) (W : (⟨S128x128, .f32⟩ : BufTy).Contents (Elt F)) (B : (⟨S128, .f32⟩ : BufTy).Contents (Elt F)) :
    (⟨S4096x4096, .f32⟩ : BufTy).Contents (Elt F) :=
  (Host.negf : (⟨S4096x4096, .f32⟩ : BufTy).Contents (Elt F) → (⟨S4096x4096, .f32⟩ : BufTy).Contents (Elt F)) (val_v14 X W B)
def val_v16 (X : (⟨S4096x128, .f32⟩ : BufTy).Contents (Elt F)) (W : (⟨S128x128, .f32⟩ : BufTy).Contents (Elt F)) (B : (⟨S128, .f32⟩ : BufTy).Contents (Elt F)) :
    (⟨S4096x4096, .f32⟩ : BufTy).Contents (Elt F) :=
  (Host.exp : (⟨S4096x4096, .f32⟩ : BufTy).Contents (Elt F) → (⟨S4096x4096, .f32⟩ : BufTy).Contents (Elt F)) (val_v15 X W B)
def val_cst_2 (X : (⟨S4096x128, .f32⟩ : BufTy).Contents (Elt F)) (W : (⟨S128x128, .f32⟩ : BufTy).Contents (Elt F)) (B : (⟨S128, .f32⟩ : BufTy).Contents (Elt F)) :
    (⟨S_, .f32⟩ : BufTy).Contents (Elt F) :=
  constant S_ .f32 0xFF800000#32
def val_v17 (X : (⟨S4096x128, .f32⟩ : BufTy).Contents (Elt F)) (W : (⟨S128x128, .f32⟩ : BufTy).Contents (Elt F)) (B : (⟨S128, .f32⟩ : BufTy).Contents (Elt F)) :
    (⟨S4096, .f32⟩ : BufTy).Contents (Elt F) :=
  Host.reduce FloatOps.maximumf (val_v16 X W B) (val_cst_2 X W B) reducesTo_S4096x4096_S4096_d1 h_S_
def val_cst_3 (X : (⟨S4096x128, .f32⟩ : BufTy).Contents (Elt F)) (W : (⟨S128x128, .f32⟩ : BufTy).Contents (Elt F)) (B : (⟨S128, .f32⟩ : BufTy).Contents (Elt F)) :
    (⟨S_, .f32⟩ : BufTy).Contents (Elt F) :=
  constant S_ .f32 0xFF800000#32
def val_v18 (X : (⟨S4096x128, .f32⟩ : BufTy).Contents (Elt F)) (W : (⟨S128x128, .f32⟩ : BufTy).Contents (Elt F)) (B : (⟨S128, .f32⟩ : BufTy).Contents (Elt F)) :
    (⟨S4096, .f32⟩ : BufTy).Contents (Elt F) :=
  (broadcastInDim S4096 ![] bcast_S_S4096 : (⟨S_, .f32⟩ : BufTy).Contents (Elt F) → (⟨S4096, .f32⟩ : BufTy).Contents (Elt F)) (val_cst_3 X W B)
def val_v19 (X : (⟨S4096x128, .f32⟩ : BufTy).Contents (Elt F)) (W : (⟨S128x128, .f32⟩ : BufTy).Contents (Elt F)) (B : (⟨S128, .f32⟩ : BufTy).Contents (Elt F)) :
    (⟨S4096, .f32⟩ : BufTy).Contents (Elt F) :=
  (maximumf : (⟨S4096, .f32⟩ : BufTy).Contents (Elt F) → (⟨S4096, .f32⟩ : BufTy).Contents (Elt F) → (⟨S4096, .f32⟩ : BufTy).Contents (Elt F)) (val_v18 X W B) (val_v17 X W B)
def val_v20 (X : (⟨S4096x128, .f32⟩ : BufTy).Contents (Elt F)) (W : (⟨S128x128, .f32⟩ : BufTy).Contents (Elt F)) (B : (⟨S128, .f32⟩ : BufTy).Contents (Elt F)) :
    (⟨S4096x1, .f32⟩ : BufTy).Contents (Elt F) :=
  (broadcastInDim S4096x1 ![0] bcast_S4096_S4096x1_0 : (⟨S4096, .f32⟩ : BufTy).Contents (Elt F) → (⟨S4096x1, .f32⟩ : BufTy).Contents (Elt F)) (val_v19 X W B)
def val_v21 (X : (⟨S4096x128, .f32⟩ : BufTy).Contents (Elt F)) (W : (⟨S128x128, .f32⟩ : BufTy).Contents (Elt F)) (B : (⟨S128, .f32⟩ : BufTy).Contents (Elt F)) :
    (⟨S4096x4096, .f32⟩ : BufTy).Contents (Elt F) :=
  (broadcastInDim S4096x4096 ![0, 1] bcast_S4096x1_S4096x4096_0_1 : (⟨S4096x1, .f32⟩ : BufTy).Contents (Elt F) → (⟨S4096x4096, .f32⟩ : BufTy).Contents (Elt F)) (val_v20 X W B)
def val_v22 (X : (⟨S4096x128, .f32⟩ : BufTy).Contents (Elt F)) (W : (⟨S128x128, .f32⟩ : BufTy).Contents (Elt F)) (B : (⟨S128, .f32⟩ : BufTy).Contents (Elt F)) :
    (⟨S4096x4096, .f32⟩ : BufTy).Contents (Elt F) :=
  (subf : (⟨S4096x4096, .f32⟩ : BufTy).Contents (Elt F) → (⟨S4096x4096, .f32⟩ : BufTy).Contents (Elt F) → (⟨S4096x4096, .f32⟩ : BufTy).Contents (Elt F)) (val_v16 X W B) (val_v21 X W B)
def val_v23 (X : (⟨S4096x128, .f32⟩ : BufTy).Contents (Elt F)) (W : (⟨S128x128, .f32⟩ : BufTy).Contents (Elt F)) (B : (⟨S128, .f32⟩ : BufTy).Contents (Elt F)) :
    (⟨S4096x4096, .f32⟩ : BufTy).Contents (Elt F) :=
  (Host.exp : (⟨S4096x4096, .f32⟩ : BufTy).Contents (Elt F) → (⟨S4096x4096, .f32⟩ : BufTy).Contents (Elt F)) (val_v22 X W B)
def val_cst_4 (X : (⟨S4096x128, .f32⟩ : BufTy).Contents (Elt F)) (W : (⟨S128x128, .f32⟩ : BufTy).Contents (Elt F)) (B : (⟨S128, .f32⟩ : BufTy).Contents (Elt F)) :
    (⟨S_, .f32⟩ : BufTy).Contents (Elt F) :=
  constant S_ .f32 0x00000000#32
def val_v24 (X : (⟨S4096x128, .f32⟩ : BufTy).Contents (Elt F)) (W : (⟨S128x128, .f32⟩ : BufTy).Contents (Elt F)) (B : (⟨S128, .f32⟩ : BufTy).Contents (Elt F)) :
    (⟨S4096, .f32⟩ : BufTy).Contents (Elt F) :=
  Host.reduceAdd (val_v23 X W B) (val_cst_4 X W B) reducesTo_S4096x4096_S4096_d1 h_S_
def val_v25 (X : (⟨S4096x128, .f32⟩ : BufTy).Contents (Elt F)) (W : (⟨S128x128, .f32⟩ : BufTy).Contents (Elt F)) (B : (⟨S128, .f32⟩ : BufTy).Contents (Elt F)) :
    (⟨S4096x1, .f32⟩ : BufTy).Contents (Elt F) :=
  (broadcastInDim S4096x1 ![0] bcast_S4096_S4096x1_0 : (⟨S4096, .f32⟩ : BufTy).Contents (Elt F) → (⟨S4096x1, .f32⟩ : BufTy).Contents (Elt F)) (val_v24 X W B)
def val_v26 (X : (⟨S4096x128, .f32⟩ : BufTy).Contents (Elt F)) (W : (⟨S128x128, .f32⟩ : BufTy).Contents (Elt F)) (B : (⟨S128, .f32⟩ : BufTy).Contents (Elt F)) :
    (⟨S4096x4096, .f32⟩ : BufTy).Contents (Elt F) :=
  (broadcastInDim S4096x4096 ![0, 1] bcast_S4096x1_S4096x4096_0_1 : (⟨S4096x1, .f32⟩ : BufTy).Contents (Elt F) → (⟨S4096x4096, .f32⟩ : BufTy).Contents (Elt F)) (val_v25 X W B)
def val_v27 (X : (⟨S4096x128, .f32⟩ : BufTy).Contents (Elt F)) (W : (⟨S128x128, .f32⟩ : BufTy).Contents (Elt F)) (B : (⟨S128, .f32⟩ : BufTy).Contents (Elt F)) :
    (⟨S4096x4096, .f32⟩ : BufTy).Contents (Elt F) :=
  (Host.divf : (⟨S4096x4096, .f32⟩ : BufTy).Contents (Elt F) → (⟨S4096x4096, .f32⟩ : BufTy).Contents (Elt F) → (⟨S4096x4096, .f32⟩ : BufTy).Contents (Elt F)) (val_v23 X W B) (val_v26 X W B)
def val_cst_5 (X : (⟨S4096x128, .f32⟩ : BufTy).Contents (Elt F)) (W : (⟨S128x128, .f32⟩ : BufTy).Contents (Elt F)) (B : (⟨S128, .f32⟩ : BufTy).Contents (Elt F)) :
    (⟨S_, .f32⟩ : BufTy).Contents (Elt F) :=
  constant S_ .f32 0x00000000#32
def val_v28 (X : (⟨S4096x128, .f32⟩ : BufTy).Contents (Elt F)) (W : (⟨S128x128, .f32⟩ : BufTy).Contents (Elt F)) (B : (⟨S128, .f32⟩ : BufTy).Contents (Elt F)) :
    (⟨S4096, .f32⟩ : BufTy).Contents (Elt F) :=
  Host.reduceAdd (val_v27 X W B) (val_cst_5 X W B) reducesTo_S4096x4096_S4096_d0 h_S_
def val_v29 (X : (⟨S4096x128, .f32⟩ : BufTy).Contents (Elt F)) (W : (⟨S128x128, .f32⟩ : BufTy).Contents (Elt F)) (B : (⟨S128, .f32⟩ : BufTy).Contents (Elt F)) :
    (⟨S1x4096, .f32⟩ : BufTy).Contents (Elt F) :=
  (broadcastInDim S1x4096 ![1] bcast_S4096_S1x4096_1 : (⟨S4096, .f32⟩ : BufTy).Contents (Elt F) → (⟨S1x4096, .f32⟩ : BufTy).Contents (Elt F)) (val_v28 X W B)
def val_v30 (X : (⟨S4096x128, .f32⟩ : BufTy).Contents (Elt F)) (W : (⟨S128x128, .f32⟩ : BufTy).Contents (Elt F)) (B : (⟨S128, .f32⟩ : BufTy).Contents (Elt F)) :
    (⟨S4096x4096, .f32⟩ : BufTy).Contents (Elt F) :=
  (broadcastInDim S4096x4096 ![0, 1] bcast_S1x4096_S4096x4096_0_1 : (⟨S1x4096, .f32⟩ : BufTy).Contents (Elt F) → (⟨S4096x4096, .f32⟩ : BufTy).Contents (Elt F)) (val_v29 X W B)
def val_v31 (X : (⟨S4096x128, .f32⟩ : BufTy).Contents (Elt F)) (W : (⟨S128x128, .f32⟩ : BufTy).Contents (Elt F)) (B : (⟨S128, .f32⟩ : BufTy).Contents (Elt F)) :
    (⟨S4096x4096, .f32⟩ : BufTy).Contents (Elt F) :=
  (Host.divf : (⟨S4096x4096, .f32⟩ : BufTy).Contents (Elt F) → (⟨S4096x4096, .f32⟩ : BufTy).Contents (Elt F) → (⟨S4096x4096, .f32⟩ : BufTy).Contents (Elt F)) (val_v27 X W B) (val_v30 X W B)
def val_v32 (X : (⟨S4096x128, .f32⟩ : BufTy).Contents (Elt F)) (W : (⟨S128x128, .f32⟩ : BufTy).Contents (Elt F)) (B : (⟨S128, .f32⟩ : BufTy).Contents (Elt F)) :
    (⟨S4096x4096, .f32⟩ : BufTy).Contents (Elt F) :=
  transpose S4096x4096 [1, 0] (val_v27 X W B) transposes_S4096x4096_S4096x4096_1_0
def val_v33 (X : (⟨S4096x128, .f32⟩ : BufTy).Contents (Elt F)) (W : (⟨S128x128, .f32⟩ : BufTy).Contents (Elt F)) (B : (⟨S128, .f32⟩ : BufTy).Contents (Elt F)) :
    (⟨S4096x4096, .f32⟩ : BufTy).Contents (Elt F) :=
  Host.dotGeneral dot_S4096x4096_S4096x4096_S4096x4096_1_0_0_1_n_n none (val_v31 X W B) (val_v32 X W B)
def val_v34 (X : (⟨S4096x128, .f32⟩ : BufTy).Contents (Elt F)) (W : (⟨S128x128, .f32⟩ : BufTy).Contents (Elt F)) (B : (⟨S128, .f32⟩ : BufTy).Contents (Elt F)) :
    (⟨S128x128, .f32⟩ : BufTy).Contents (Elt F) :=
  transpose S128x128 [1, 0] W transposes_S128x128_S128x128_1_0
def val_v35 (X : (⟨S4096x128, .f32⟩ : BufTy).Contents (Elt F)) (W : (⟨S128x128, .f32⟩ : BufTy).Contents (Elt F)) (B : (⟨S128, .f32⟩ : BufTy).Contents (Elt F)) :
    (⟨S4096x128, .f32⟩ : BufTy).Contents (Elt F) :=
  Host.dotGeneral dot_S4096x128_S128x128_S4096x128_1_0_0_1_n_n none X (val_v34 X W B)
def val_v36 (X : (⟨S4096x128, .f32⟩ : BufTy).Contents (Elt F)) (W : (⟨S128x128, .f32⟩ : BufTy).Contents (Elt F)) (B : (⟨S128, .f32⟩ : BufTy).Contents (Elt F)) :
    (⟨S4096x128, .f32⟩ : BufTy).Contents (Elt F) :=
  Host.dotGeneral dot_S4096x4096_S4096x128_S4096x128_1_0_0_1_n_n none (val_v33 X W B) (val_v35 X W B)
def val_v37 (X : (⟨S4096x128, .f32⟩ : BufTy).Contents (Elt F)) (W : (⟨S128x128, .f32⟩ : BufTy).Contents (Elt F)) (B : (⟨S128, .f32⟩ : BufTy).Contents (Elt F)) :
    (⟨S1x128, .f32⟩ : BufTy).Contents (Elt F) :=
  (broadcastInDim S1x128 ![1] bcast_S128_S1x128_1 : (⟨S128, .f32⟩ : BufTy).Contents (Elt F) → (⟨S1x128, .f32⟩ : BufTy).Contents (Elt F)) B
def val_v38 (X : (⟨S4096x128, .f32⟩ : BufTy).Contents (Elt F)) (W : (⟨S128x128, .f32⟩ : BufTy).Contents (Elt F)) (B : (⟨S128, .f32⟩ : BufTy).Contents (Elt F)) :
    (⟨S4096x128, .f32⟩ : BufTy).Contents (Elt F) :=
  (broadcastInDim S4096x128 ![0, 1] bcast_S1x128_S4096x128_0_1 : (⟨S1x128, .f32⟩ : BufTy).Contents (Elt F) → (⟨S4096x128, .f32⟩ : BufTy).Contents (Elt F)) (val_v37 X W B)
def val_v39 (X : (⟨S4096x128, .f32⟩ : BufTy).Contents (Elt F)) (W : (⟨S128x128, .f32⟩ : BufTy).Contents (Elt F)) (B : (⟨S128, .f32⟩ : BufTy).Contents (Elt F)) :
    (⟨S4096x128, .f32⟩ : BufTy).Contents (Elt F) :=
  (addf : (⟨S4096x128, .f32⟩ : BufTy).Contents (Elt F) → (⟨S4096x128, .f32⟩ : BufTy).Contents (Elt F) → (⟨S4096x128, .f32⟩ : BufTy).Contents (Elt F)) (val_v36 X W B) (val_v38 X W B)
def val_cst_6 (X : (⟨S4096x128, .f32⟩ : BufTy).Contents (Elt F)) (W : (⟨S128x128, .f32⟩ : BufTy).Contents (Elt F)) (B : (⟨S128, .f32⟩ : BufTy).Contents (Elt F)) :
    (⟨S_, .f32⟩ : BufTy).Contents (Elt F) :=
  constant S_ .f32 0x3E4CCCCD#32

/-- leaky_relu of an array `P` with slope `c`, as the callee computes it: where `P ≥ 0` the entry, elsewhere `c` times it. -/
def lreluArr (P : (⟨S4096x128, .f32⟩ : BufTy).Contents (Elt F)) (c : (⟨S_, .f32⟩ : BufTy).Contents (Elt F)) :
    (⟨S4096x128, .f32⟩ : BufTy).Contents (Elt F) :=
  select (cmpf .oge P (broadcastInDim S4096x128 ![] bcast_S_S4096x128 (constant S_ .f32 0x00000000#32)))
    P (mulf (broadcastInDim S4096x128 ![] bcast_S_S4096x128 (id c)) P)
/-- The contents of `main_v40`, the program's result. -/
def val_v40 (X : (⟨S4096x128, .f32⟩ : BufTy).Contents (Elt F)) (W : (⟨S128x128, .f32⟩ : BufTy).Contents (Elt F)) (B : (⟨S128, .f32⟩ : BufTy).Contents (Elt F)) :
    (⟨S4096x128, .f32⟩ : BufTy).Contents (Elt F) :=
  lreluArr (val_v39 X W B) (val_cst_6 X W B)

end Cert.ReferenceIdeal.Hand

end
-- ==== Proof.RefAfter.lean ====
/-
  The fold of the reference program's operations over any launch contents, read at the result buffer and at the
  three arguments: the result is the last named stage of the arguments' contents, the arguments are untouched.
  The forty-eight operations of @main proper are read back in one pass; the seven of the outlined leaky_relu are
  read over an arbitrary valuation (their operands being two buffers of @main), and the two are composed.
-/
import proofs.«135971_j70179765616691_2_alg».proof.Proof.RefOps
import proofs.«135971_j70179765616691_2_alg».proof.Proof.RefStages

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation is the fold over the second line from the fold over the first. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- The outlined call over any contents: its result buffer holds leaky_relu of the contents of its two operands. -/
theorem call_v40 (V : Valuation τ sig (Elt F)) :
    after opsCall V (main_v40 : DevRef τ sig)
      = lreluArr (V (main_v39 : DevRef τ sig)) (V (main_cst_6 : DevRef τ sig)) := by
  after_results_simp
  rfl

set_option maxRecDepth 8192 in
set_option maxHeartbeats 1000000 in
/-- @main's own operations: the buffer the call reads holds the stage of that name. -/
theorem host_v39 (V : Valuation τ sig (Elt F)) :
    after opsHost V (main_v39 : DevRef τ sig)
      = val_v39 (V (main_arg0 : DevRef τ sig)) (V (main_arg1 : DevRef τ sig)) (V (main_arg2 : DevRef τ sig)) := by
  after_results_simp
  simp only [val_v39, val_v38, val_v37, val_v36, val_v35, val_v34, val_v33, val_v32, val_v31, val_v30, val_v29, val_v28, val_cst_5, val_v27, val_v26, val_v25, val_v24, val_cst_4, val_v23, val_v22, val_v21, val_v20, val_v19, val_v18, val_cst_3, val_v17, val_cst_2, val_v16, val_v15, val_v14, val_v13, val_v12, val_cst_1, val_v11, val_v10, val_v9, val_cst_0, val_v8, val_v7, val_v6, val_v5, val_v4, val_v3, val_v2, val_v1, val_cst, val_v0]

set_option maxRecDepth 8192 in
/-- @main's own operations: the slope constant. -/
theorem host_cst_6 (V : Valuation τ sig (Elt F)) :
    after opsHost V (main_cst_6 : DevRef τ sig)
      = val_cst_6 (V (main_arg0 : DevRef τ sig)) (V (main_arg1 : DevRef τ sig)) (V (main_arg2 : DevRef τ sig)) := by
  after_results_simp
  simp only [val_cst_6]

/-- The whole line: the result buffer holds the last stage. -/
theorem after_v40 (V : Valuation τ sig (Elt F)) :
    after ops V (main_v40 : DevRef τ sig)
      = val_v40 (V (main_arg0 : DevRef τ sig)) (V (main_arg1 : DevRef τ sig)) (V (main_arg2 : DevRef τ sig)) := by
  rw [ops_eq, after_append', call_v40, host_v39, host_cst_6]
  rfl

set_option maxRecDepth 8192 in
theorem after_arg0 (V : Valuation τ sig (Elt F)) :
    after ops V (main_arg0 : DevRef τ sig) = V (main_arg0 : DevRef τ sig) := by
  after_results_simp

set_option maxRecDepth 8192 in
theorem after_arg1 (V : Valuation τ sig (Elt F)) :
    after ops V (main_arg1 : DevRef τ sig) = V (main_arg1 : DevRef τ sig) := by
  after_results_simp

set_option maxRecDepth 8192 in
theorem after_arg2 (V : Valuation τ sig (Elt F)) :
    after ops V (main_arg2 : DevRef τ sig) = V (main_arg2 : DevRef τ sig) := by
  after_results_simp

end Cert.ReferenceIdeal.Hand

end
-- ==== Proof.RefRun.lean ====
/-
  The run of the reference program: on every device, from any memory with zero counters, every weakly fair
  execution of @main terminates with the result buffer at the last named stage of the three arguments' launch
  contents, and the arguments unchanged.
-/
import proofs.«135971_j70179765616691_2_alg».proof.Proof.RefAfter

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40)
          = val_v40 (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v40).trans (after_v40 _),
      (h c main_arg0).trans (after_arg0 _),
      (h c main_arg1).trans (after_arg1 _),
      (h c main_arg2).trans (after_arg2 _)⟩)
    (run_seq scopedRefs_eq scopedSems_eq defs main (fun _ => ops) main_eq (fun _ => ops_sub) m ρ)

end Cert.ReferenceIdeal.Hand

end
-- ==== Proof.RefRead1.lean ====
/-
  The first stages of the reference read at an index, over the extended reals: the squared row norms, the Gram
  matrix, the clamped distance and its negative exponential.
-/
import proofs.«135971_j70179765616691_2_alg».proof.Proof.RefStages
import proofs.«135971_j70179765616691_2_alg».proof.Proof.RefReadLib
import proofs.«135971_j70179765616691_2_alg».proof.Proof.Spec

noncomputable section

namespace Cert.ReferenceIdeal.Hand

open Cert.ReferenceIdeal Cert.ReferenceIdeal.Gen Cert.Gnn Idealize.ShloMosaic Idealize.ShloMosaic.ValueIdx

variable (X : FVec Ideal S4096x128 .f32) (W : FVec Ideal S128x128 .f32) (B : FVec Ideal S128 .f32)

/-- The row sums of the squared entries are the squared norms. -/
theorem rd_v1 (i : Fin 4096) : val_v1 (F := Ideal) X W B (ix1 i) = sq (mx X) i := by
  rw [val_v1, val_cst, reduceAdd_rows_128]
  rfl

/-- The two broadcasts of the squared norms, added: |x_i|² + |x_k|². -/
theorem rd_v6 (i k : Fin 4096) : val_v6 (F := Ideal) X W B (ix2 i k) = sq (mx X) i + sq (mx X) k := by
  rw [val_v6, val_v4, val_v5, val_v2, val_v3, ValueIdx.addf_apply, bcast_col_4096, bcast_row_4096, rd_v1, rd_v1]

/-- The transposed features. -/
theorem rd_v7 (d : Fin 128) (k : Fin 4096) : val_v7 (F := Ideal) X W B (ix2 d k) = X (ix2 k d) := by
  rw [val_v7, transpose_ix2_apply]

/-- The Gram matrix. -/
theorem rd_v8 (i k : Fin 4096) : val_v8 (F := Ideal) X W B (ix2 i k) = gram (mx X) i k := by
  rw [val_v8]
  show Host.dotGeneral (F := Ideal) (DotDims.plain 4096 128 4096) none X (val_v7 (F := Ideal) X W B : FVec Ideal S128x4096 .f32) (ix2 i k) = _
  rw [dotGeneral_plain_apply]
  simp only [rd_v7]
  rfl

/-- exp (−dist). -/
theorem rd_v16 (i k : Fin 4096) : val_v16 (F := Ideal) X W B (ix2 i k) = eR (mx X) i k := by
  rw [val_v16, val_v15, val_v14, val_v13, val_v12, val_v11, val_v10, val_v9, val_cst_0, val_cst_1]
  show Ideal.exp (-(Ideal.sqrt (max (val_v6 (F := Ideal) X W B (ix2 i k) - c2 * val_v8 (F := Ideal) X W B (ix2 i k)) cθ))) = _
  rw [rd_v6, rd_v8]
  rfl

end Cert.ReferenceIdeal.Hand

end
-- ==== Proof.RefRead2.lean ====
/-
  The softmax stages read at an index: the row maximum, the shifted exponentials, their row sums and the
  attention entries.
-/
import proofs.«135971_j70179765616691_2_alg».proof.Proof.RefRead1

noncomputable section

namespace Cert.ReferenceIdeal.Hand

open Cert.ReferenceIdeal Cert.ReferenceIdeal.Gen Cert.Gnn Idealize.ShloMosaic Idealize.ShloMosaic.ValueIdx

variable (X : FVec Ideal S4096x128 .f32) (W : FVec Ideal S128x128 .f32) (B : FVec Ideal S128 .f32)

/-- The row maximum (a max-reduction from −∞, then a maximum with −∞ again). -/
theorem rd_v19 (i : Fin 4096) : val_v19 (F := Ideal) X W B (ix1 i) = mR (mx X) i := by
  rw [val_v19, val_v18, val_v17, val_cst_3, val_cst_2, ValueIdx.maximumf_apply, bcast_const_apply, reduceMax_rows_4096,
    ofBits_neg_inf, max_eq_right bot_le]
  simp only [rd_v16]
  rfl

/-- exp (e − row maximum). -/
theorem rd_v23 (i k : Fin 4096) : val_v23 (F := Ideal) X W B (ix2 i k) = pR (mx X) i k := by
  rw [val_v23, val_v22, val_v21, val_v20]
  show Ideal.exp (val_v16 (F := Ideal) X W B (ix2 i k)
    - broadcastInDim S4096x4096 ![0, 1] _ (broadcastInDim S4096x1 ![0] _ (val_v19 (F := Ideal) X W B)) (ix2 i k)) = _
  rw [bcast_col_4096, rd_v16, rd_v19]
  rfl

/-- The row sums of the shifted exponentials. -/
theorem rd_v24 (i : Fin 4096) : val_v24 (F := Ideal) X W B (ix1 i) = ∑ k' : Fin 4096, pR (mx X) i k' := by
  rw [val_v24, val_cst_4, reduceAdd_rows_4096]
  simp only [rd_v23]

/-- The attention entry. -/
theorem rd_v27 (i k : Fin 4096) : val_v27 (F := Ideal) X W B (ix2 i k) = AR (mx X) i k := by
  rw [val_v27, val_v26, val_v25]
  show Ideal.div (val_v23 (F := Ideal) X W B (ix2 i k))
    (broadcastInDim S4096x4096 ![0, 1] _ (broadcastInDim S4096x1 ![0] _ (val_v24 (F := Ideal) X W B)) (ix2 i k)) = _
  rw [bcast_col_4096, rd_v23, rd_v24]
  rfl

end Cert.ReferenceIdeal.Hand

end
-- ==== Proof.RefRead3.lean ====
/-
  The aggregation stages read at an index: the column sums of the attention matrix, the node-to-node matrix, the
  linear layer, their product with the bias added, and leaky_relu of it — the layer's value.
-/
import proofs.«135971_j70179765616691_2_alg».proof.Proof.RefRead2

noncomputable section

namespace Cert.ReferenceIdeal.Hand

open Cert.ReferenceIdeal Cert.ReferenceIdeal.Gen Cert.Gnn Idealize.ShloMosaic Idealize.ShloMosaic.ValueIdx

variable (X : FVec Ideal S4096x128 .f32) (W : FVec Ideal S128x128 .f32) (B : FVec Ideal S128 .f32)

/-- The column sums of the attention matrix. -/
theorem rd_v28 (k : Fin 4096) : val_v28 (F := Ideal) X W B (ix1 k) = alsumR (mx X) k := by
  rw [val_v28, val_cst_5, reduceAdd_cols_4096]
  simp only [rd_v27]
  rfl

/-- The attention entry over its column sum. -/
theorem rd_v31 (i k : Fin 4096) :
    val_v31 (F := Ideal) X W B (ix2 i k) = Ideal.div (AR (mx X) i k) (alsumR (mx X) k) := by
  rw [val_v31, val_v30, val_v29]
  show Ideal.div (val_v27 (F := Ideal) X W B (ix2 i k))
    (broadcastInDim S4096x4096 ![0, 1] _ (broadcastInDim S1x4096 ![1] _ (val_v28 (F := Ideal) X W B)) (ix2 i k)) = _
  rw [bcast_row_4096, rd_v27, rd_v28]

/-- The transposed attention matrix. -/
theorem rd_v32 (k j : Fin 4096) : val_v32 (F := Ideal) X W B (ix2 k j) = AR (mx X) j k := by
  rw [val_v32, transpose_ix2_apply, rd_v27]

/-- The node-to-node matrix. -/
theorem rd_v33 (i j : Fin 4096) : val_v33 (F := Ideal) X W B (ix2 i j) = AfR (mx X) i j := by
  rw [val_v33]
  show Host.dotGeneral (F := Ideal) (DotDims.plain 4096 4096 4096) none (val_v31 (F := Ideal) X W B : FVec Ideal S4096x4096 .f32) (val_v32 (F := Ideal) X W B : FVec Ideal S4096x4096 .f32) (ix2 i j) = _
  rw [dotGeneral_plain_apply]
  simp only [rd_v31, rd_v32]
  rfl

/-- The transposed weights. -/
theorem rd_v34 (d f : Fin 128) : val_v34 (F := Ideal) X W B (ix2 d f) = W (ix2 f d) := by
  rw [val_v34, transpose_ix2_apply]

/-- The linear layer without bias. -/
theorem rd_v35 (i : Fin 4096) (f : Fin 128) : val_v35 (F := Ideal) X W B (ix2 i f) = lin (mx X) (mw W) i f := by
  rw [val_v35]
  show Host.dotGeneral (F := Ideal) (DotDims.plain 4096 128 128) none X (val_v34 (F := Ideal) X W B : FVec Ideal S128x128 .f32) (ix2 i f) = _
  rw [dotGeneral_plain_apply]
  simp only [rd_v34]
  rfl

/-- The node-to-node matrix applied to the linear layer. -/
theorem rd_v36 (i : Fin 4096) (f : Fin 128) :
    val_v36 (F := Ideal) X W B (ix2 i f) = ∑ j : Fin 4096, AfR (mx X) i j * lin (mx X) (mw W) j f := by
  rw [val_v36]
  show Host.dotGeneral (F := Ideal) (DotDims.plain 4096 4096 128) none (val_v33 (F := Ideal) X W B : FVec Ideal S4096x4096 .f32) (val_v35 (F := Ideal) X W B : FVec Ideal S4096x128 .f32) (ix2 i f) = _
  rw [dotGeneral_plain_apply]
  simp only [rd_v33, rd_v35]

/-- … with the bias added. -/
theorem rd_v39 (i : Fin 4096) (f : Fin 128) :
    val_v39 (F := Ideal) X W B (ix2 i f) = ∑ j : Fin 4096, AfR (mx X) i j * lin (mx X) (mw W) j f + vb B f := by
  rw [val_v39, val_v38, val_v37, ValueIdx.addf_apply, bcast_row_128, rd_v36]
  rfl

/-- leaky_relu at an entry: the select on `p ≥ 0` between `p` and the slope times `p`. -/
theorem lreluArr_apply (P : FVec Ideal S4096x128 .f32) (j : S4096x128.Idx) :
    lreluArr (F := Ideal) P (constant (F := Ideal) S_ .f32 0x3E4CCCCD#32) j = lrelu (P j) := by
  show (if BitVec.ofBool (decide (c0 ≤ P j)) = 1#1 then P j else cs * P j) = if c0 ≤ P j then P j else cs * P j
  by_cases h : c0 ≤ P j
  · rw [if_pos h, decide_eq_true h]
    exact if_pos rfl
  · rw [if_neg h, decide_eq_false h]
    exact if_neg (by decide)

/-- The layer's value. -/
theorem rd_v40 (i : Fin 4096) (f : Fin 128) :
    val_v40 (F := Ideal) X W B (ix2 i f) = hR (mx X) (mw W) (vb B) i f := by
  rw [val_v40, val_cst_6, lreluArr_apply, rd_v39]
  rfl

/-- The program's result is the layer's value, node-to-node matrix first. -/
theorem result_eq : val_v40 (F := Ideal) X W B = outR X W B := by
  funext j
  obtain ⟨p, q, rfl⟩ : ∃ (p : Fin 4096) (q : Fin 128), j = ValueIdx.ix2 p q := ⟨j 0, j 1, ValueIdx.eq_ix2 j⟩
  rw [rd_v40]
  rfl

end Cert.ReferenceIdeal.Hand

end
-- ==== Proof.RefValue.lean ====
/-
  The reference program computes the layer's value in the arrangement that forms the node-to-node matrix first: its
  run, with the result buffer's contents read as that value of the three arguments' launch contents.
-/
import proofs.«135971_j70179765616691_2_alg».proof.Proof.RefRun
import proofs.«135971_j70179765616691_2_alg».proof.Proof.RefRead3

noncomputable section

namespace Cert.ReferenceIdeal.Hand

open Cert.ReferenceIdeal Cert.ReferenceIdeal.Gen Idealize.ShloMosaic Idealize.ShloMosaic.TcCoe Idealize.SL.Sem Idealize.ShloMosaic.StableHlo

/-- On every device, over the extended reals, from any memory with zero counters: every weakly fair execution of
    @main terminates with the result buffer at the layer's value of the arguments' launch contents, and the
    arguments unchanged. -/
theorem run_outR (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v40)
          = Cert.Gnn.outR (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq _ _ _), (h c).2⟩) (run m ρ)

end Cert.ReferenceIdeal.Hand

end
-- ==== Proof.LawConsts.lean ====
/-
  The five float constants of the layer as extended reals: the words for 0, 1 and 2 denote exactly those reals, the clamp
  under the square root denotes a nonnegative real, and the negative slope denotes a real.
-/
import proofs.«135971_j70179765616691_2_alg».proof.Proof.Spec

namespace Cert.Gnn

open Idealize.ShloMosaic

/-- The word of all zero bits denotes 0. -/
theorem c0_eq : c0 = 0 := Ideal.ofBits_zero_f32

/-- Exponent field 127, zero fraction: 2^23 · 2^(127 - 127 - 23) = 1. -/
theorem c1_eq : c1 = 1 := by
  simp [Ideal.ofBits, Ideal.ieee]
  rw [← EReal.coe_mul, ← EReal.coe_one]
  congr 1
  norm_num

/-- Exponent field 128, zero fraction: 2^23 · 2^(128 - 127 - 23) = 2. -/
theorem c2_eq : c2 = ((2 : ℝ) : EReal) := by
  simp [Ideal.ofBits, Ideal.ieee]
  rw [← EReal.coe_mul]
  congr 1
  norm_num

/-- The clamp is a normal positive number, hence a nonnegative real. -/
theorem cθ_real : ∃ r : ℝ, cθ = (r : EReal) ∧ 0 ≤ r := by
  simp [Ideal.ofBits, Ideal.ieee]
  refine ⟨9223372 * (2 ^ 63)⁻¹, ?_, by positivity⟩
  rw [EReal.coe_mul]

/-- The slope is a normal number, hence a real. -/
theorem cs_real : ∃ r : ℝ, cs = (r : EReal) := by
  simp [Ideal.ofBits, Ideal.ieee]
  refine ⟨13421773 * (2 ^ 26)⁻¹, ?_⟩
  rw [EReal.coe_mul]

end Cert.Gnn
-- ==== Proof.LawReal.lean ====
/-
  The layer over the reals, for arbitrary finite index types: the two arrangements of the attention-weighted aggregation
  agree.

  `D` is any real "distance" table, `m` any real row offset (the row maximum in the application, but nothing below uses
  that), `S` the table being aggregated. The attention entry of the first arrangement is
  exp (exp (-D i k)) · (1 / Σ_k' exp (exp (-D i k'))); that of the second is
  exp (exp (-D i k) - m i) · (1 / Σ_k' exp (exp (-D i k') - m i)). They are equal because exp (e - m) = exp e · exp (-m)
  and the positive factor exp (-m) cancels between numerator and denominator. With the common matrix `A` and its column
  sums `al`, Σ_k A i k · ((Σ_j A j k · S j f) / al k) = Σ_j (Σ_k (A i k / al k) · A j k) · S j f by distributing and
  exchanging the two finite sums.
-/
import Mathlib

noncomputable section

namespace Cert.Gnn.R

open BigOperators

variable {ι κ : Type*} [Fintype ι] [Fintype κ]
variable (D : ι → ι → ℝ) (m : ι → ℝ) (S : ι → κ → ℝ)

/-! ### The arrangement that aggregates first -/

def aK (i k : ι) : ℝ := Real.exp (Real.exp (-(D i k)))
def rsK (i : ι) : ℝ := ∑ k, aK D i k
def AK (i k : ι) : ℝ := aK D i k * (1 / rsK D i)
def alK (k : ι) : ℝ := ∑ i, AK D i k
def uK (k : ι) (f : κ) : ℝ := ∑ i, AK D i k * S i f
def vK (k : ι) (f : κ) : ℝ := uK D S k f * (1 / alK D k)
def preK (i : ι) (f : κ) : ℝ := ∑ k, AK D i k * vK D S k f

/-! ### The arrangement that forms the node-to-node matrix first -/

def eR (i k : ι) : ℝ := Real.exp (-(D i k))
def pR (i k : ι) : ℝ := Real.exp (eR D i k - m i)
def spR (i : ι) : ℝ := ∑ k, pR D m i k
def AR (i k : ι) : ℝ := pR D m i k * (1 / spR D m i)
def alR (k : ι) : ℝ := ∑ i, AR D m i k
def AfR (i j : ι) : ℝ := ∑ k, (AR D m i k * (1 / alR D m k)) * AR D m j k
def preR (i : ι) (f : κ) : ℝ := ∑ j, AfR D m i j * S j f

/-! ### Positivity: every denominator is a positive real -/

theorem aK_pos (i k : ι) : 0 < aK D i k := Real.exp_pos _

theorem rsK_pos [Nonempty ι] (i : ι) : 0 < rsK D i :=
  Finset.sum_pos (fun k _ => aK_pos D i k) Finset.univ_nonempty

theorem AK_pos [Nonempty ι] (i k : ι) : 0 < AK D i k :=
  mul_pos (aK_pos D i k) (one_div_pos.mpr (rsK_pos D i))

theorem alK_pos [Nonempty ι] (k : ι) : 0 < alK D k :=
  Finset.sum_pos (fun i _ => AK_pos D i k) Finset.univ_nonempty

theorem pR_pos (i k : ι) : 0 < pR D m i k := Real.exp_pos _

theorem spR_pos [Nonempty ι] (i : ι) : 0 < spR D m i :=
  Finset.sum_pos (fun k _ => pR_pos D m i k) Finset.univ_nonempty

theorem AR_pos [Nonempty ι] (i k : ι) : 0 < AR D m i k :=
  mul_pos (pR_pos D m i k) (one_div_pos.mpr (spR_pos D m i))

theorem alR_pos [Nonempty ι] (k : ι) : 0 < alR D m k :=
  Finset.sum_pos (fun i _ => AR_pos D m i k) Finset.univ_nonempty

/-! ### The softmax quotient does not see the offset -/

/-- exp (e - m) = exp e · exp (-m). -/
theorem pR_eq (i k : ι) : pR D m i k = aK D i k * Real.exp (-(m i)) := by
  unfold pR aK eR
  rw [sub_eq_add_neg, Real.exp_add]

theorem spR_eq (i : ι) : spR D m i = rsK D i * Real.exp (-(m i)) := by
  unfold spR rsK
  rw [Finset.sum_mul]
  exact Finset.sum_congr rfl fun k _ => pR_eq D m i k

/-- The two attention matrices are equal. -/
theorem AK_eq_AR (i k : ι) : AK D i k = AR D m i k := by
  unfold AK AR
  rw [pR_eq, spR_eq]
  have hc : Real.exp (-(m i)) ≠ 0 := (Real.exp_pos _).ne'
  rw [mul_one_div, mul_one_div, mul_div_mul_right _ _ hc]

theorem alK_eq_alR (k : ι) : alK D k = alR D m k := by
  unfold alK alR
  exact Finset.sum_congr rfl fun i _ => AK_eq_AR D m i k

/-! ### Exchanging the two sums -/

/-- The layer's value before the bias and the activation is the same in the two arrangements. -/
theorem preK_eq_preR (i : ι) (f : κ) : preK D S i f = preR D m S i f := by
  unfold preK preR vK uK AfR
  simp only [← AK_eq_AR D m, ← alK_eq_alR D m]
  simp only [Finset.mul_sum, Finset.sum_mul]
  rw [Finset.sum_comm]
  refine Finset.sum_congr rfl fun j _ => Finset.sum_congr rfl fun k _ => ?_
  ring

end Cert.Gnn.R

end
-- ==== Proof.LawCoe.lean ====
/-
  For real-valued inputs every quantity of the layer, in either arrangement, is the inclusion of the real number computed
  by the same formula over the reals.

  The steps: a finite sum of products of reals is a real; the clamp under the square root is a nonnegative real, so the
  maximum is nonnegative and the square root is the real square root; the exponential of a real is a real; every row sum
  and column sum is a positive real, so the division by it is the product with the real reciprocal; and the row maximum
  of finitely many reals is one of them.
-/
import proofs.«135971_j70179765616691_2_alg».proof.Proof.Spec
import proofs.«135971_j70179765616691_2_alg».proof.Proof.LibSums
import proofs.«135971_j70179765616691_2_alg».proof.Proof.LawConsts
import proofs.«135971_j70179765616691_2_alg».proof.Proof.LawReal

noncomputable section

namespace Cert.Gnn

open Idealize.ShloMosaic
open Cert.LibSums

/-- The inclusion of the reals commutes with the maximum of two reals. -/
theorem coe_max' (a b : ℝ) : ((max a b : ℝ) : EReal) = max (a : EReal) (b : EReal) :=
  EReal.coe_strictMono.monotone.map_max

/-! ### The real tables -/

section Tables

variable (xr : Fin 4096 → Fin 128 → ℝ) (Wr : Fin 128 → Fin 128 → ℝ) (θ : ℝ)

def sqr (i : Fin 4096) : ℝ := ∑ d : Fin 128, xr i d * xr i d
def gramr (i k : Fin 4096) : ℝ := ∑ d : Fin 128, xr i d * xr k d
def distr (i k : Fin 4096) : ℝ := Real.sqrt (max (sqr xr i + sqr xr k - 2 * gramr xr i k) θ)
def linr (i : Fin 4096) (f : Fin 128) : ℝ := ∑ d : Fin 128, xr i d * Wr f d

end Tables

/-! ### Each quantity is the inclusion of its real twin -/

section Coe

variable (x : Mx) (W : Mw) (xr : Fin 4096 → Fin 128 → ℝ) (Wr : Fin 128 → Fin 128 → ℝ) (θ : ℝ)
variable (hx : ∀ i d, x i d = (xr i d : EReal)) (hW : ∀ f d, W f d = (Wr f d : EReal))
variable (hθ : cθ = (θ : EReal)) (h0 : 0 ≤ θ)

include hx in
theorem sq_coe (i : Fin 4096) : sq x i = (sqr xr i : EReal) := by
  unfold sq sqr
  rw [coe_sum_univ]
  exact Finset.sum_congr rfl fun d _ => by rw [hx, EReal.coe_mul]

include hx in
theorem gram_coe (i k : Fin 4096) : gram x i k = (gramr xr i k : EReal) := by
  unfold gram gramr
  rw [coe_sum_univ]
  exact Finset.sum_congr rfl fun d _ => by rw [hx, hx, EReal.coe_mul]

include hx hW in
theorem lin_coe (i : Fin 4096) (f : Fin 128) : lin x W i f = (linr xr Wr i f : EReal) := by
  unfold lin linr
  rw [coe_sum_univ]
  exact Finset.sum_congr rfl fun d _ => by rw [hx, hW, EReal.coe_mul]

include hx hθ h0 in
theorem dist_coe (i k : Fin 4096) : dist x i k = (distr xr θ i k : EReal) := by
  unfold dist distr
  rw [sq_coe x xr hx, sq_coe x xr hx, gram_coe x xr hx, c2_eq, hθ, ← EReal.coe_mul, ← EReal.coe_add, ← EReal.coe_sub,
    ← coe_max', Ideal.sqrt_coe, if_neg (not_lt.mpr (le_max_of_le_right h0))]

end Coe

end Cert.Gnn

end
-- ==== Proof.LawCoeK.lean ====
/-
  The arrangement that aggregates first, for real-valued inputs: given that the distance table and the linear layer are
  inclusions of real tables `D` and `S`, each of its quantities is the inclusion of the corresponding real quantity.
  The row sums and the column sums are positive reals, so each division is the product with a real reciprocal.
-/
import proofs.«135971_j70179765616691_2_alg».proof.Proof.LawCoe

noncomputable section

namespace Cert.Gnn

open Idealize.ShloMosaic
open Cert.LibSums

section K

variable (x : Mx) (W : Mw) (D : Fin 4096 → Fin 4096 → ℝ) (S : Fin 4096 → Fin 128 → ℝ)
variable (hD : ∀ i k, dist x i k = (D i k : EReal)) (hS : ∀ i f, lin x W i f = (S i f : EReal))

include hD in
theorem aK_coe (i k : Fin 4096) : aK x i k = (R.aK D i k : EReal) := by
  unfold aK R.aK
  rw [hD, c0_eq, zero_sub, ← EReal.coe_neg, Ideal.exp_coe, Ideal.exp_coe]

include hD in
theorem rsK_coe (i : Fin 4096) : rsK x i = (R.rsK D i : EReal) := by
  unfold rsK R.rsK
  rw [coe_sum_univ]
  exact Finset.sum_congr rfl fun k _ => aK_coe x D hD i k

include hD in
theorem AK_coe (i k : Fin 4096) : AK x i k = (R.AK D i k : EReal) := by
  unfold AK R.AK
  rw [aK_coe x D hD, rsK_coe x D hD, c1_eq, Ideal.div_coe (R.rsK_pos D i).ne', one_mul, ← EReal.coe_mul]

include hD in
theorem alsumK_coe (k : Fin 4096) : alsumK x k = (R.alK D k : EReal) := by
  unfold alsumK R.alK
  rw [coe_sum_univ]
  exact Finset.sum_congr rfl fun i _ => AK_coe x D hD i k

include hD hS in
theorem uK_coe (k : Fin 4096) (f : Fin 128) : uK x W k f = (R.uK D S k f : EReal) := by
  unfold uK R.uK
  rw [coe_sum_univ]
  exact Finset.sum_congr rfl fun i _ => by rw [AK_coe x D hD, hS, EReal.coe_mul]

include hD hS in
theorem vK_coe (k : Fin 4096) (f : Fin 128) : vK x W k f = (R.vK D S k f : EReal) := by
  unfold vK R.vK
  rw [uK_coe x W D S hD hS, alsumK_coe x D hD, Ideal.div_coe (R.alK_pos D k).ne', ← EReal.coe_mul]

include hD hS in
/-- The value before the bias and the activation. -/
theorem preK_coe (i : Fin 4096) (f : Fin 128) :
    ∑ k : Fin 4096, AK x i k * vK x W k f = (R.preK D S i f : EReal) := by
  unfold R.preK
  rw [coe_sum_univ]
  exact Finset.sum_congr rfl fun k _ => by rw [AK_coe x D hD, vK_coe x W D S hD hS, EReal.coe_mul]

end K

end Cert.Gnn

end
-- ==== Proof.LawCoeR.lean ====
/-
  The arrangement that forms the node-to-node matrix first, for real-valued inputs: given that the distance table and the
  linear layer are inclusions of real tables `D` and `S`, the row maximum of exp (-D) is one of its (real) entries, and
  each further quantity is the inclusion of the corresponding real quantity. The softmax denominators and the column sums
  are positive reals, so each division is the product with a real reciprocal.
-/
import proofs.«135971_j70179765616691_2_alg».proof.Proof.LawCoe

noncomputable section

namespace Cert.Gnn

open Idealize.ShloMosaic
open Cert.LibSums

section Rr

variable (x : Mx) (W : Mw) (D : Fin 4096 → Fin 4096 → ℝ) (S : Fin 4096 → Fin 128 → ℝ)
variable (hD : ∀ i k, dist x i k = (D i k : EReal)) (hS : ∀ i f, lin x W i f = (S i f : EReal))

include hD in
theorem eR_coe (i k : Fin 4096) : eR x i k = (R.eR D i k : EReal) := by
  unfold eR R.eR
  rw [hD, ← EReal.coe_neg, Ideal.exp_coe]

include hD in
/-- The supremum of a nonempty finite family in a linear order is attained, here at a real entry. -/
theorem mR_real (i : Fin 4096) : ∃ m : ℝ, mR x i = (m : EReal) := by
  obtain ⟨k, _, hk⟩ := Finset.exists_mem_eq_sup Finset.univ Finset.univ_nonempty (eR x i)
  exact ⟨R.eR D i k, by unfold mR; rw [hk, eR_coe x D hD]⟩

variable (m : Fin 4096 → ℝ) (hm : ∀ i, mR x i = (m i : EReal))

include hD hm in
theorem pR_coe (i k : Fin 4096) : pR x i k = (R.pR D m i k : EReal) := by
  unfold pR R.pR
  rw [eR_coe x D hD, hm, ← EReal.coe_sub, Ideal.exp_coe]

include hD hm in
theorem spR_coe (i : Fin 4096) : ∑ k' : Fin 4096, pR x i k' = (R.spR D m i : EReal) := by
  unfold R.spR
  rw [coe_sum_univ]
  exact Finset.sum_congr rfl fun k _ => pR_coe x D hD m hm i k

include hD hm in
theorem AR_coe (i k : Fin 4096) : AR x i k = (R.AR D m i k : EReal) := by
  unfold AR R.AR
  rw [pR_coe x D hD m hm, spR_coe x D hD m hm, Ideal.div_coe (R.spR_pos D m i).ne', ← EReal.coe_mul]

include hD hm in
theorem alsumR_coe (k : Fin 4096) : alsumR x k = (R.alR D m k : EReal) := by
  unfold alsumR R.alR
  rw [coe_sum_univ]
  exact Finset.sum_congr rfl fun i _ => AR_coe x D hD m hm i k

include hD hm in
theorem AfR_coe (i j : Fin 4096) : AfR x i j = (R.AfR D m i j : EReal) := by
  unfold AfR R.AfR
  rw [coe_sum_univ]
  exact Finset.sum_congr rfl fun k _ => by
    rw [AR_coe x D hD m hm i k, AR_coe x D hD m hm j k, alsumR_coe x D hD m hm, Ideal.div_coe (R.alR_pos D m k).ne',
      ← EReal.coe_mul, ← EReal.coe_mul]

include hD hS hm in
/-- The value before the bias and the activation. -/
theorem preR_coe (i : Fin 4096) (f : Fin 128) :
    ∑ j : Fin 4096, AfR x i j * lin x W j f = (R.preR D m S i f : EReal) := by
  unfold R.preR
  rw [coe_sum_univ]
  exact Finset.sum_congr rfl fun j _ => by rw [AfR_coe x D hD m hm, hS, EReal.coe_mul]

end Rr

end Cert.Gnn

end
-- ==== Proof.Law.lean ====
/-
  The two arrangements of the graph-aggregation layer agree on real-valued inputs.

  Choose real tables for the inputs. Then the distance table and the linear layer are inclusions of real tables, every
  quantity of either arrangement is the inclusion of the same formula over the reals, and over the reals the two
  arrangements agree: the offset subtracted inside the softmax cancels in the quotient, and the two finite sums over
  nodes commute. Both sides then add the same bias and apply the same activation.
-/
import proofs.«135971_j70179765616691_2_alg».proof.Proof.LawCoeK
import proofs.«135971_j70179765616691_2_alg».proof.Proof.LawCoeR

namespace Cert.Gnn

theorem law (x : Mx) (W : Mw) (b : Vb) (hx : RealMx x) (hW : RealMw W) (hb : RealVb b) : hK x W b = hR x W b := by
  choose xr hxr using hx
  choose Wr hWr using hW
  obtain ⟨θ, hθ, h0⟩ := cθ_real
  have hD : ∀ i k, dist x i k = (distr xr θ i k : EReal) := dist_coe x xr θ hxr hθ h0
  have hS : ∀ i f, lin x W i f = (linr xr Wr i f : EReal) := lin_coe x W xr Wr hxr hWr
  choose m hm using mR_real x (distr xr θ) hD
  funext i f
  unfold hK hR
  rw [preK_coe x W _ _ hD hS, preR_coe x W _ _ hD hS m hm, R.preK_eq_preR (distr xr θ) m (linr xr Wr)]

end Cert.Gnn
-- ==== Proof.LibFiniteAll.lean ====
/-
  `jnp.all(|x| < inf)` read back at the extended reals: when the reduction by `and` of the comparisons of every entry's
  absolute value with the +infinity constant comes out true, every entry of the array is a real number (neither infinity:
  the absolute value of either infinity is +infinity, which is not below itself). Nothing here depends on a program.
-/
import Idealize.ShloMosaic.Lib.ReduceAll
import Idealize.ShloMosaic.Lib.ValueIdx
import Idealize.ShloMosaic.PureOps.Ideal.Laws

noncomputable section

namespace FiniteAll

open Idealize.ShloMosaic

/-- The f32 word with all exponent bits set and no fraction is +infinity. -/
theorem inf_f32 : Ideal.ofBits .f32 0x7F800000#32 = ⊤ := by simp [Ideal.ofBits, Ideal.ieee]

/-- An extended real whose absolute value is below +infinity is a real number. -/
theorem real_of_abs_lt_top (x : EReal) (h : max x (-x) < ⊤) : ∃ r : ℝ, x = (r : EReal) := by
  induction x using EReal.rec with
  | bot => simp at h
  | coe r => exact ⟨r, rfl⟩
  | top => simp at h

instance : Subsingleton (⟨0, ![]⟩ : Shape).Idx := ⟨fun a b => funext fun d => d.elim0⟩

/-- If the `and` over all entries of `|x| < +inf` is true, every entry of `x` is a real number. -/
theorem all_real {s : Shape} {axes : List (Fin s.rank)} (x : FVec Ideal s .f32)
    (hb : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi (cmpf .olt (Host.absf x) (broadcastInDim s ![] hb (constant (F := Ideal) ⟨0, ![]⟩ .f32 0x7F800000#32)))
          (constantI ⟨0, ![]⟩ 1 1#1) h hu j = 1#1) (i : s.Idx) : ∃ r : ℝ, x i = (r : EReal) := by
  have hi := Host.reduce_andi_all _ _ h hu j e i
  have hi' : Ideal.cmp .olt (max (x i) (-(x i))) (Ideal.ofBits .f32 0x7F800000#32) = 1#1 := hi
  rw [inf_f32] at hi'
  unfold Ideal.cmp at hi'
  refine real_of_abs_lt_top (x i) ?_
  by_contra hc
  simp [hc] at hi'

end FiniteAll

end
-- ==== Proof.Finite.lean ====
/-
  From the precondition to real entries.

  The precondition is the conjunction, over the three argument arrays, of "every entry's absolute value is below
  +infinity". An `and` of three one-bit results is 1 exactly when each is; each reduction by `and` being 1 makes every
  entry of its array a real number. These are the hypotheses of the algebraic law that joins the two arrangements.
-/
import proofs.«135971_j70179765616691_2_alg».proof.Pre_finite_inputs
import proofs.«135971_j70179765616691_2_alg».proof.Proof.Gen.Pre_finite_inputs
import proofs.«135971_j70179765616691_2_alg».proof.Proof.LibFiniteAll
import proofs.«135971_j70179765616691_2_alg».proof.Proof.Spec

noncomputable section

namespace Cert.Finite

open Idealize.ShloMosaic Cert.Pre_finite_inputs Cert.Pre_finite_inputs.Facts

theorem real_of_pre (X : FVec Ideal S4096x128 .f32) (W : FVec Ideal S128x128 .f32) (B : FVec Ideal S128 .f32)
    (h : fn (F := Ideal) X W B = fun _ => 1#1) :
    Cert.Gnn.RealMx (Cert.Gnn.mx X) ∧ Cert.Gnn.RealMw (Cert.Gnn.mw W) ∧ Cert.Gnn.RealVb (Cert.Gnn.vb B) := by
  have h0 := congrFun h ValueIdx.ix0
  dsimp only [fn, andi] at h0
  obtain ⟨h12, h3⟩ := IntOp.andi_eq_one.1 h0
  obtain ⟨h1, h2⟩ := IntOp.andi_eq_one.1 h12
  exact ⟨fun i d => FiniteAll.all_real X bcast_S_S4096x128 reducesTo_S4096x128_S_d0_1 h_S_ ValueIdx.ix0 h1 _,
    fun f d => FiniteAll.all_real W bcast_S_S128x128 reducesTo_S128x128_S_d0_1 h_S_ ValueIdx.ix0 h2 _,
    fun f => FiniteAll.all_real B bcast_S_S128 reducesTo_S128_S_d0 h_S_ ValueIdx.ix0 h3 _⟩

end Cert.Finite

end
-- ==== Proof.lean ====
/-
  The certificate of the graph-aggregation layer: a three-pass kernel against its direct jnp formulation.

  The kernel computes, in three launches over 4 by 4 grids of 1024-blocks, (1) the matrix a = exp (exp (-dist)) of
  clamped pairwise distances and its row sums, (2) with A = a · (1 / rowsum) the column sums of A and Aᵀ (x Wᵀ), and
  after a host division by the column sums (3) leaky_relu (A v + b). The reference forms the row-softmax of
  exp (-dist) with the row maximum subtracted, the node-to-node matrix (A / colsum) Aᵀ, and applies it to x Wᵀ.

  Frames. Each kernel program runs to its end with its arguments unchanged: its launches are chained as segments,
  each launch's accumulator carried from grid point to grid point by the invariant of its proof data. The reference
  is a straight host program whose run is read off operation by operation.
  Values. At the ideal instance the kernel's result is the layer's value in the arrangement that aggregates first,
  the reference's result the arrangement that forms the node-to-node matrix first; for real-valued inputs — which is
  what the precondition says — the two arrangements agree (the softmax maximum cancels, a · (1 / r) is a / r, and
  two finite sums commute).
  The ideal pass rewrote nothing, so the kernel's idealization is its own text read at the ideal instance.
-/
import proofs.«135971_j70179765616691_2_alg».proof.Defs
import proofs.«135971_j70179765616691_2_alg».proof.Proof.Gen.Kernel
import proofs.«135971_j70179765616691_2_alg».proof.Proof.Gen.KernelIdeal
import proofs.«135971_j70179765616691_2_alg».proof.Proof.Gen.ReferenceIdeal
import proofs.«135971_j70179765616691_2_alg».proof.Proof.Gen.Pre_finite_inputs
import proofs.«135971_j70179765616691_2_alg».proof.Proof.KAsmArgs
import proofs.«135971_j70179765616691_2_alg».proof.Proof.AsmArgs
import proofs.«135971_j70179765616691_2_alg».proof.Proof.KValue
import proofs.«135971_j70179765616691_2_alg».proof.Proof.RefValue
import proofs.«135971_j70179765616691_2_alg».proof.Proof.Law
import proofs.«135971_j70179765616691_2_alg».proof.Proof.Finite

noncomputable section

namespace Cert.Proof

open Idealize.ShloMosaic Idealize.ShloMosaic.TcCoe Idealize.SL.Sem

theorem frame_p : Cert.frame_Kernel := fun m ρ _ => Cert.Kernel.Asm.frame m ρ
theorem frame_pi : Cert.frame_KernelIdeal := fun m ρ _ => Cert.KernelIdeal.Asm.frame m ρ
theorem frame_ri : Cert.frame_ReferenceIdeal := fun m ρ _ =>
  (θ_run Cert.ReferenceIdeal.defs _ _).mono (fun _ h c => (h c).2) (Cert.ReferenceIdeal.Hand.run_outR m ρ)

/-- The ledger is empty. -/
theorem preserves : Cert.preserves_Kernel_KernelIdeal := trivial

/-- Both programs end at the layer's value: the kernel in the aggregate-first arrangement, the reference in the
    matrix-first one, equal on the real-valued inputs the precondition grants. -/
theorem algebraic : Cert.algebraic_KernelIdeal_ReferenceIdeal := by
  intro m ρ m' ρ' hpre hagree
  refine ⟨fun c => Cert.Gnn.outK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Val.value m ρ c), (h c).2⟩) (Cert.KernelIdeal.Asm.run_val m ρ)
  · refine (θ_run Cert.ReferenceIdeal.defs _ _).mono (fun r h c => ⟨(h c).1.trans ?_, (h c).2⟩)
      (Cert.ReferenceIdeal.Hand.run_outR m' ρ')
    rw [(hagree c).1, (hagree c).2.1, (hagree c).2.2]
    obtain ⟨hx, hW, hb⟩ := Cert.Finite.real_of_pre _ _ _ (hpre c)
    funext j
    exact (congrFun (congrFun (Cert.Gnn.law _ _ _ hx hW hb) (j 0)) (j 1)).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
